-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 512, 8, 64]⟩ (Layout.meshBlock [2, 2] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 512, 8, 64]⟩ (Layout.meshBlock [2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 512, 8, 64]⟩ (Layout.meshBlock [2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![2, 256, 8, 64]⟩ ⟨4, ![2, 512, 8, 64]⟩ (Layout.meshBlock [2, 2] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)
  reducesTo_S2x256x8x64_S_d0_1_2_3 : S2x256x8x64.ReducesTo [0, 1, 2, 3] S_
  h_S_ : 0 < S_.numel

variable [Facts]

def fn {F : FTy → Type} [FloatOps F] (main_arg0 : FVec F S2x256x8x64 .f32) (main_arg1 : FVec F S2x256x8x64 .f32) (main_arg2 : FVec F S2x256x8x64 .f32) : IVec S_ 1 :=
  let main_v0 : FVec F S2x256x8x64 .f32 := Host.absf main_arg0
  let main_cst : FVec F S_ .f32 := constant S_ .f32 0x7F800000#32
  let main_v1 : FVec F S2x256x8x64 .f32 := broadcastInDim S2x256x8x64 ![] bcast_S_S2x256x8x64 main_cst
  let main_v2 : IVec S2x256x8x64 1 := cmpf .olt main_v0 main_v1
  let main_c : IVec S_ 1 := constantI S_ 1 1#1
  let main_v3 : IVec S_ 1 := (fun x v => Host.reduce IntOp.andi x v reducesTo_S2x256x8x64_S_d0_1_2_3 h_S_) main_v2 main_c
  let main_v4 : FVec F S2x256x8x64 .f32 := Host.absf main_arg1
  let main_cst_0 : FVec F S_ .f32 := constant S_ .f32 0x7F800000#32
  let main_v5 : FVec F S2x256x8x64 .f32 := broadcastInDim S2x256x8x64 ![] bcast_S_S2x256x8x64 main_cst_0
  let main_v6 : IVec S2x256x8x64 1 := cmpf .olt main_v4 main_v5
  let main_c_1 : IVec S_ 1 := constantI S_ 1 1#1
  let main_v7 : IVec S_ 1 := (fun x v => Host.reduce IntOp.andi x v reducesTo_S2x256x8x64_S_d0_1_2_3 h_S_) main_v6 main_c_1
  let main_v8 : IVec S_ 1 := andi main_v3 main_v7
  let main_v9 : FVec F S2x256x8x64 .f32 := Host.absf main_arg2
  let main_cst_2 : FVec F S_ .f32 := constant S_ .f32 0x7F800000#32
  let main_v10 : FVec F S2x256x8x64 .f32 := broadcastInDim S2x256x8x64 ![] bcast_S_S2x256x8x64 main_cst_2
  let main_v11 : IVec S2x256x8x64 1 := cmpf .olt main_v9 main_v10
  let main_c_3 : IVec S_ 1 := constantI S_ 1 1#1
  let main_v12 : IVec S_ 1 := (fun x v => Host.reduce IntOp.andi x v reducesTo_S2x256x8x64_S_d0_1_2_3 h_S_) main_v11 main_c_3
  let main_v13 : IVec S_ 1 := andi main_v8 main_v12
  main_v13
-- ==== Pre_finite_inputs_ReferenceIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) (main_arg2 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  let main_v9 : FVec F S2x512x8x64 .f32 := Host.absf main_arg2
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Kernel.lean ====
abbrev S2x256x8x64 : Shape := ⟨4, ![2, 256, 8, 64]⟩
abbrev S2x512x512 : Shape := ⟨3, ![2, 512, 512]⟩
abbrev S10 : Shape := ⟨1, ![10]⟩
abbrev S6 : Shape := ⟨1, ![6]⟩
abbrev S_ : Shape := ⟨0, ![]⟩
abbrev S512x512 : Shape := ⟨2, ![512, 512]⟩
abbrev S1x512x512 : Shape := ⟨3, ![1, 512, 512]⟩
abbrev S1 : Shape := ⟨1, ![1]⟩
abbrev S1x64x512 : Shape := ⟨3, ![1, 64, 512]⟩
abbrev S64x512 : Shape := ⟨2, ![64, 512]⟩
abbrev S2x8x256x64 : Shape := ⟨4, ![2, 8, 256, 64]⟩
abbrev S16x256x64 : Shape := ⟨3, ![16, 256, 64]⟩
abbrev S16x256x256 : Shape := ⟨3, ![16, 256, 256]⟩
abbrev S16x256 : Shape := ⟨2, ![16, 256]⟩
abbrev S16x256x1 : Shape := ⟨3, ![16, 256, 1]⟩
abbrev S1x256x512 : Shape := ⟨3, ![1, 256, 512]⟩
abbrev S256x512 : Shape := ⟨2, ![256, 512]⟩
abbrev S256x8x64 : Shape := ⟨3, ![256, 8, 64]⟩
abbrev S8x256x64 : Shape := ⟨3, ![8, 256, 64]⟩
abbrev S8x256x256 : Shape := ⟨3, ![8, 256, 256]⟩
abbrev S8x256 : Shape := ⟨2, ![8, 256]⟩
abbrev S8x256x1 : Shape := ⟨3, ![8, 256, 1]⟩
abbrev S1x256x8x64 : Shape := ⟨4, ![1, 256, 8, 64]⟩

abbrev nBuf : Space → Nat
  | .hbm => 4
  | .vmem => 6
  | .smem => 0
  | _ => 0

abbrev bufTy : (tb : Table) → Fin (tcTables nBuf tb) → BufTy
  | .hbm, ⟨0, _⟩ => ⟨S2x256x8x64, .f32⟩
  | .hbm, ⟨1, _⟩ => ⟨S2x256x8x64, .f32⟩
  | .hbm, ⟨2, _⟩ => ⟨S2x256x8x64, .f32⟩
  | .hbm, ⟨3, _⟩ => ⟨S2x256x8x64, .bf16⟩
  | .local _ .vmem, ⟨0, _⟩ => ⟨S2x256x8x64, .f32⟩
  | .local _ .vmem, ⟨1, _⟩ => ⟨S2x256x8x64, .f32⟩
  | .local _ .vmem, ⟨2, _⟩ => ⟨S2x256x8x64, .f32⟩
  | .local _ .vmem, ⟨3, _⟩ => ⟨S2x256x8x64, .bf16⟩
  | .local _ .vmem, ⟨4, _⟩ => ⟨S2x512x512, .bf16⟩
  | .local _ .vmem, ⟨5, _⟩ => ⟨S2x512x512, .bf16⟩
  | _, _ => ⟨S2x256x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  { ofTc nBuf bufTy 1 36 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_30 : BitVec 32 := 0#32
  let c0_i32_31 : BitVec 32 := 0#32
  ![v5.toNat, 0, 0]
def k0_dev3 (d0 : Dev nD) : Nat :=
  let c0_i32_28 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_27 : BitVec 32 := 2#32
  let v32 : BitVec 32 := Scalar.muli v6 c2_i32_27
  let v33 : BitVec 32 := Scalar.addi c0_i32_28 v32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v34 : BitVec 32 := Scalar.muli v5 c1_i32_29
  let v35 : BitVec 32 := Scalar.addi v33 v34
  v35.toNat
def k0_off2 (d0 : Dev nD) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c64_i32 : BitVec 32 := 64#32
  let c0_i32_39 : BitVec 32 := 0#32
  ![v5.toNat, 64, 0]
def k0_dev4 (d0 : Dev nD) : Nat :=
  let c0_i32_37 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_36 : BitVec 32 := 2#32
  let v44 : BitVec 32 := Scalar.muli v6 c2_i32_36
  let v45 : BitVec 32 := Scalar.addi c0_i32_37 v44
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v46 : BitVec 32 := Scalar.muli v5 c1_i32_38
  let v47 : BitVec 32 := Scalar.addi v45 v46
  v47.toNat
def k0_off3 (d0 : Dev nD) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32 : BitVec 32 := 128#32
  let c0_i32_47 : BitVec 32 := 0#32
  ![v5.toNat, 128, 0]
def k0_dev5 (d0 : Dev nD) : Nat :=
  let c0_i32_45 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_44 : BitVec 32 := 2#32
  let v56 : BitVec 32 := Scalar.muli v6 c2_i32_44
  let v57 : BitVec 32 := Scalar.addi c0_i32_45 v56
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_46 : BitVec 32 := 1#32
  let v58 : BitVec 32 := Scalar.muli v5 c1_i32_46
  let v59 : BitVec 32 := Scalar.addi v57 v58
  v59.toNat
def k0_off4 (d0 : Dev nD) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c192_i32 : BitVec 32 := 192#32
  let c0_i32_54 : BitVec 32 := 0#32
  ![v5.toNat, 192, 0]
def k0_dev6 (d0 : Dev nD) : Nat :=
  let c0_i32_52 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_51 : BitVec 32 := 2#32
  let v68 : BitVec 32 := Scalar.muli v6 c2_i32_51
  let v69 : BitVec 32 := Scalar.addi c0_i32_52 v68
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_53 : BitVec 32 := 1#32
  let v70 : BitVec 32 := Scalar.muli v5 c1_i32_53
  let v71 : BitVec 32 := Scalar.addi v69 v70
  v71.toNat
def k0_off5 (d0 : Dev nD) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let c0_i32_61 : BitVec 32 := 0#32
  ![v5.toNat, 256, 0]
def k0_dev7 (d0 : Dev nD) : Nat :=
  let c0_i32_59 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_58 : BitVec 32 := 2#32
  let v80 : BitVec 32 := Scalar.muli v6 c2_i32_58
  let v81 : BitVec 32 := Scalar.addi c0_i32_59 v80
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_60 : BitVec 32 := 1#32
  let v82 : BitVec 32 := Scalar.muli v5 c1_i32_60
  let v83 : BitVec 32 := Scalar.addi v81 v82
  v83.toNat
def k0_off6 (d0 : Dev nD) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c320_i32 : BitVec 32 := 320#32
  let c0_i32_68 : BitVec 32 := 0#32
  ![v5.toNat, 320, 0]
def k0_dev8 (d0 : Dev nD) : Nat :=
  let c0_i32_66 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_65 : BitVec 32 := 2#32
  let v92 : BitVec 32 := Scalar.muli v6 c2_i32_65
  let v93 : BitVec 32 := Scalar.addi c0_i32_66 v92
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_67 : BitVec 32 := 1#32
  let v94 : BitVec 32 := Scalar.muli v5 c1_i32_67
  let v95 : BitVec 32 := Scalar.addi v93 v94
  v95.toNat
def k0_off7 (d0 : Dev nD) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c384_i32 : BitVec 32 := 384#32
  let c0_i32_75 : BitVec 32 := 0#32
  ![v5.toNat, 384, 0]
def k0_dev9 (d0 : Dev nD) : Nat :=
  let c0_i32_73 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_72 : BitVec 32 := 2#32
  let v104 : BitVec 32 := Scalar.muli v6 c2_i32_72
  let v105 : BitVec 32 := Scalar.addi c0_i32_73 v104
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_74 : BitVec 32 := 1#32
  let v106 : BitVec 32 := Scalar.muli v5 c1_i32_74
  let v107 : BitVec 32 := Scalar.addi v105 v106
  v107.toNat
def k0_off8 (d0 : Dev nD) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c448_i32 : BitVec 32 := 448#32
  let c0_i32_82 : BitVec 32 := 0#32
  ![v5.toNat, 448, 0]
def k0_dev10 (d0 : Dev nD) : Nat :=
  let c0_i32_80 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_79 : BitVec 32 := 2#32
  let v116 : BitVec 32 := Scalar.muli v6 c2_i32_79
  let v117 : BitVec 32 := Scalar.addi c0_i32_80 v116
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_81 : BitVec 32 := 1#32
  let v118 : BitVec 32 := Scalar.muli v5 c1_i32_81
  let v119 : BitVec 32 := Scalar.addi v117 v118
  v119.toNat
def k0_off9 (d0 : Dev nD) : Fin 3 → Nat :=
  let c1_i32_24 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v31 : BitVec 32 := Scalar.subi c1_i32_24 v5
  let c384_i32_89 : BitVec 32 := 384#32
  let c0_i32_90 : BitVec 32 := 0#32
  ![v31.toNat, 384, 0]
def k0_dev11 (d0 : Dev nD) : Nat :=
  let c0_i32_87 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_86 : BitVec 32 := 2#32
  let v128 : BitVec 32 := Scalar.muli v6 c2_i32_86
  let v129 : BitVec 32 := Scalar.addi c0_i32_87 v128
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_88 : BitVec 32 := 1#32
  let v130 : BitVec 32 := Scalar.muli v5 c1_i32_88
  let v131 : BitVec 32 := Scalar.addi v129 v130
  v131.toNat
def k0_off10 (d0 : Dev nD) : Fin 3 → Nat :=
  let c1_i32_24 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v31 : BitVec 32 := Scalar.subi c1_i32_24 v5
  let c448_i32_97 : BitVec 32 := 448#32
  let c0_i32_98 : BitVec 32 := 0#32
  ![v31.toNat, 448, 0]
def k0_dev12 (d0 : Dev nD) : Nat :=
  let c0_i32_95 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_94 : BitVec 32 := 2#32
  let v140 : BitVec 32 := Scalar.muli v6 c2_i32_94
  let v141 : BitVec 32 := Scalar.addi c0_i32_95 v140
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_96 : BitVec 32 := 1#32
  let v142 : BitVec 32 := Scalar.muli v5 c1_i32_96
  let v143 : BitVec 32 := Scalar.addi v141 v142
  v143.toNat
def k0_dev13 (d0 : Dev nD) : Nat :=
  let c0_i32_123 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_122 : BitVec 32 := 2#32
  let v179 : BitVec 32 := Scalar.muli v2 c2_i32_122
  let v180 : BitVec 32 := Scalar.addi c0_i32_123 v179
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_124 : BitVec 32 := 1#32
  let v181 : BitVec 32 := Scalar.muli v7 c1_i32_124
  let v182 : BitVec 32 := Scalar.addi v180 v181
  v182.toNat
def k0_dev14 (d0 : Dev nD) : Nat :=
  let c0_i32_141 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_140 : BitVec 32 := 2#32
  let v201 : BitVec 32 := Scalar.muli v2 c2_i32_140
  let v202 : BitVec 32 := Scalar.addi c0_i32_141 v201
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_142 : BitVec 32 := 1#32
  let v203 : BitVec 32 := Scalar.muli v7 c1_i32_142
  let v204 : BitVec 32 := Scalar.addi v202 v203
  v204.toNat
def k0_dev15 (d0 : Dev nD) : Nat :=
  let c0_i32_160 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_159 : BitVec 32 := 2#32
  let v224 : BitVec 32 := Scalar.muli v2 c2_i32_159
  let v225 : BitVec 32 := Scalar.addi c0_i32_160 v224
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_161 : BitVec 32 := 1#32
  let v226 : BitVec 32 := Scalar.muli v7 c1_i32_161
  let v227 : BitVec 32 := Scalar.addi v225 v226
  v227.toNat
def k0_dev16 (d0 : Dev nD) : Nat :=
  let c0_i32_178 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_177 : BitVec 32 := 2#32
  let v246 : BitVec 32 := Scalar.muli v2 c2_i32_177
  let v247 : BitVec 32 := Scalar.addi c0_i32_178 v246
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_179 : BitVec 32 := 1#32
  let v248 : BitVec 32 := Scalar.muli v7 c1_i32_179
  let v249 : BitVec 32 := Scalar.addi v247 v248
  v249.toNat
def k0_dev17 (d0 : Dev nD) : Nat :=
  let c0_i32_197 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_196 : BitVec 32 := 2#32
  let v271 : BitVec 32 := Scalar.muli v2 c2_i32_196
  let v272 : BitVec 32 := Scalar.addi c0_i32_197 v271
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_198 : BitVec 32 := 1#32
  let v273 : BitVec 32 := Scalar.muli v7 c1_i32_198
  let v274 : BitVec 32 := Scalar.addi v272 v273
  v274.toNat
def k0_dev18 (d0 : Dev nD) : Nat :=
  let c0_i32_215 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_214 : BitVec 32 := 2#32
  let v293 : BitVec 32 := Scalar.muli v2 c2_i32_214
  let v294 : BitVec 32 := Scalar.addi c0_i32_215 v293
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_216 : BitVec 32 := 1#32
  let v295 : BitVec 32 := Scalar.muli v7 c1_i32_216
  let v296 : BitVec 32 := Scalar.addi v294 v295
  v296.toNat
abbrev stage0_0 : Fin 1 → Memref sig .tc .vmem S2x256x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  inb_S2x256x8x64_S2x256x8x64_0_0_0_0 : ∀ a, (![0, 0, 0, 0] : Fin 4 → Nat) a + S2x256x8x64.size a ≤ S2x256x8x64.size a
  h_S2x256x8x64 : 0 < S2x256x8x64.numel
  shapeCasts_S2x256x8x64_S2x256x8x64 : S2x256x8x64.ShapeCasts S2x256x8x64
  shapeCasts_S2x256x8x64_S512x512 : S2x256x8x64.ShapeCasts S512x512
  bitsLt_bf16_f32 : FTy.bits .bf16 < FTy.bits .f32
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  shapeCasts_S512x512_S1x512x512 : S512x512.ShapeCasts S1x512x512
  packedbf16_S2x512x512_S1x512x512_0_0_0 : (Rect.unit (s := S2x512x512) ![0, 0, 0] S1x512x512.size inb_S2x512x512_S1x512x512_0_0_0).PackedRows (EltTy.packing .bf16)
  inb_S2x512x512_S1x512x512_1_0_0 : ∀ a, (![1, 0, 0] : Fin 3 → Nat) a + S1x512x512.size a ≤ S2x512x512.size a
  packedbf16_S2x512x512_S1x512x512_1_0_0 : (Rect.unit (s := S2x512x512) ![1, 0, 0] S1x512x512.size inb_S2x512x512_S1x512x512_1_0_0).PackedRows (EltTy.packing .bf16)
  hamt_2 : (2#32 : BitVec 32).msb = false
  inb_S10_S1_0 : ∀ a, (![0] : Fin 1 → Nat) a + S1.size a ≤ S10.size a
  squeezes_S1_S_ : S1.Squeezes S_
  squeezes_S1x64x512_S64x512 : S1x64x512.Squeezes S64x512
  inb_S10_S1_1 : ∀ a, (![1] : Fin 1 → Nat) a + S1.size a ≤ S10.size a
  inb_S10_S1_2 : ∀ a, (![2] : Fin 1 → Nat) a + S1.size a ≤ S10.size a
  inb_S10_S1_3 : ∀ a, (![3] : Fin 1 → Nat) a + S1.size a ≤ S10.size a
  inb_S10_S1_4 : ∀ a, (![4] : Fin 1 → Nat) a + S1.size a ≤ S10.size a
  inb_S10_S1_5 : ∀ a, (![5] : Fin 1 → Nat) a + S1.size a ≤ S10.size a
  inb_S10_S1_6 : ∀ a, (![6] : Fin 1 → Nat) a + S1.size a ≤ S10.size a
  inb_S10_S1_7 : ∀ a, (![7] : Fin 1 → Nat) a + S1.size a ≤ S10.size a
  inb_S10_S1_8 : ∀ a, (![8] : Fin 1 → Nat) a + S1.size a ≤ S10.size a
  inb_S10_S1_9 : ∀ a, (![9] : Fin 1 → Nat) a + S1.size a ≤ S10.size a
  transposes_S2x256x8x64_p0_2_1_3_S2x8x256x64 : S2x256x8x64.Transposes [0, 2, 1, 3] S2x8x256x64
  shapeCasts_S2x8x256x64_S16x256x64 : S2x8x256x64.ShapeCasts S16x256x64
  shapeCasts_S512x512_S2x256x8x64 : S512x512.ShapeCasts S2x256x8x64
  inb_S6_S1_0 : ∀ a, (![0] : Fin 1 → Nat) a + S1.size a ≤ S6.size a
  inb_S6_S1_1 : ∀ a, (![1] : Fin 1 → Nat) a + S1.size a ≤ S6.size a
  inb_S6_S1_2 : ∀ a, (![2] : Fin 1 → Nat) a + S1.size a ≤ S6.size a
  inb_S6_S1_3 : ∀ a, (![3] : Fin 1 → Nat) a + S1.size a ≤ S6.size a
  reduces_S16x256x256_S16x256 : S16x256x256.Reduces [2] S16x256
  shapeCasts_S16x256_S16x256x1 : S16x256.ShapeCasts S16x256x1
  inb_S6_S1_4 : ∀ a, (![4] : Fin 1 → Nat) a + S1.size a ≤ S6.size a
  inb_S6_S1_5 : ∀ a, (![5] : Fin 1 → Nat) a + S1.size a ≤ S6.size a
  inb_S2x512x512_S1x256x512_0_0_0 : ∀ a, (![0, 0, 0] : Fin 3 → Nat) a + S1x256x512.size a ≤ S2x512x512.size a
  h_S1x256x512 : 0 < S1x256x512.numel
  shapeCasts_S1x256x512_S256x512 : S1x256x512.ShapeCasts S256x512
  shapeCasts_S256x512_S256x8x64 : S256x512.ShapeCasts S256x8x64
  transposes_S256x8x64_p1_0_2_S8x256x64 : S256x8x64.Transposes [1, 0, 2] S8x256x64
  inb_S2x512x512_S1x256x512_1_0_0 : ∀ a, (![1, 0, 0] : Fin 3 → Nat) a + S1x256x512.size a ≤ S2x512x512.size a
  slices_S16x256x64_o0_0_0_S8x256x64 : S16x256x64.Slices ![0, 0, 0] S8x256x64
  reduces_S8x256x256_S8x256 : S8x256x256.Reduces [2] S8x256
  shapeCasts_S8x256_S8x256x1 : S8x256.ShapeCasts S8x256x1
  slices_S16x256x1_o0_0_0_S8x256x1 : S16x256x1.Slices ![0, 0, 0] S8x256x1
  broadcasts_S8x256x1_S8x256x64 : S8x256x1.Broadcasts S8x256x64
  transposes_S8x256x64_p1_0_2_S256x8x64 : S8x256x64.Transposes [1, 0, 2] S256x8x64
  inb_S2x256x8x64_S1x256x8x64_0_0_0_0 : ∀ a, (![0, 0, 0, 0] : Fin 4 → Nat) a + S1x256x8x64.size a ≤ S2x256x8x64.size a
  h_S1x256x8x64 : 0 < S1x256x8x64.numel
  shapeCasts_S1x256x8x64_S256x8x64 : S1x256x8x64.ShapeCasts S256x8x64
  shapeCasts_S256x8x64_S1x256x8x64 : S256x8x64.ShapeCasts S1x256x8x64
  packedbf16_S2x256x8x64_S1x256x8x64_0_0_0_0 : (Rect.unit (s := S2x256x8x64) ![0, 0, 0, 0] S1x256x8x64.size inb_S2x256x8x64_S1x256x8x64_0_0_0_0).PackedRows (EltTy.packing .bf16)
  inb_S2x512x512_S1x256x512_0_256_0 : ∀ a, (![0, 256, 0] : Fin 3 → Nat) a + S1x256x512.size a ≤ S2x512x512.size a
  inb_S2x512x512_S1x256x512_1_256_0 : ∀ a, (![1, 256, 0] : Fin 3 → Nat) a + S1x256x512.size a ≤ S2x512x512.size a
  slices_S16x256x64_o8_0_0_S8x256x64 : S16x256x64.Slices ![8, 0, 0] S8x256x64
  slices_S16x256x1_o8_0_0_S8x256x1 : S16x256x1.Slices ![8, 0, 0] S8x256x1
  inb_S2x256x8x64_S1x256x8x64_1_0_0_0 : ∀ a, (![1, 0, 0, 0] : Fin 4 → Nat) a + S1x256x8x64.size a ≤ S2x256x8x64.size a
  packedbf16_S2x256x8x64_S1x256x8x64_1_0_0_0 : (Rect.unit (s := S2x256x8x64) ![1, 0, 0, 0] S1x256x8x64.size inb_S2x256x8x64_S1x256x8x64_1_0_0_0).PackedRows (EltTy.packing .bf16)
  dot_S16x256x64_S16x256x64_S16x256x256_2_2_1_1_0_0_wf : DotDims.WF S16x256x64 S16x256x64 S16x256x256 [2] [2] [1] [1] [0] [0]
  dot_S16x256x256_S16x256x64_S16x256x64_2_1_1_2_0_0_wf : DotDims.WF S16x256x256 S16x256x64 S16x256x64 [2] [1] [1] [2] [0] [0]
  dot_S8x256x64_S8x256x64_S8x256x256_2_2_1_1_0_0_wf : DotDims.WF S8x256x64 S8x256x64 S8x256x256 [2] [2] [1] [1] [0] [0]
  dot_S8x256x256_S8x256x64_S8x256x64_2_1_1_2_0_0_wf : DotDims.WF S8x256x256 S8x256x64 S8x256x64 [2] [1] [1] [2] [0] [0]
  hcc0_scratch2 : 4 + S10.numel ≤ 36
  hcc0_scratch3 : 14 + S10.numel ≤ 36
  hcc0_scratch4 : 24 + S6.numel ≤ 36
  hcc0_scratch5 : 30 + S6.numel ≤ 36
  k0_dev1_lt : ∀ d0 : Dev nD, (k0_dev1 d0) < nD
  k0_dev2_lt : ∀ d0 : Dev nD, (k0_dev2 d0) < nD
  k0_off1_inb : ∀ d0 : Dev nD, ∀ a, (k0_off1 d0) a + S1x64x512.size a ≤ S2x512x512.size a
  k0_off1_wordsbf16 : ∀ d0 : Dev nD, (Rect.unit (s := S2x512x512) (k0_off1 d0) S1x64x512.size (k0_off1_inb d0)).WholeWords (EltTy.packing .bf16)
  k0_dev3_lt : ∀ d0 : Dev nD, (k0_dev3 d0) < nD
  k0_off2_inb : ∀ d0 : Dev nD, ∀ a, (k0_off2 d0) a + S1x64x512.size a ≤ S2x512x512.size a
  k0_off2_wordsbf16 : ∀ d0 : Dev nD, (Rect.unit (s := S2x512x512) (k0_off2 d0) S1x64x512.size (k0_off2_inb d0)).WholeWords (EltTy.packing .bf16)
  k0_dev4_lt : ∀ d0 : Dev nD, (k0_dev4 d0) < nD
  k0_off3_inb : ∀ d0 : Dev nD, ∀ a, (k0_off3 d0) a + S1x64x512.size a ≤ S2x512x512.size a
  k0_off3_wordsbf16 : ∀ d0 : Dev nD, (Rect.unit (s := S2x512x512) (k0_off3 d0) S1x64x512.size (k0_off3_inb d0)).WholeWords (EltTy.packing .bf16)
  k0_dev5_lt : ∀ d0 : Dev nD, (k0_dev5 d0) < nD
  k0_off4_inb : ∀ d0 : Dev nD, ∀ a, (k0_off4 d0) a + S1x64x512.size a ≤ S2x512x512.size a
  k0_off4_wordsbf16 : ∀ d0 : Dev nD, (Rect.unit (s := S2x512x512) (k0_off4 d0) S1x64x512.size (k0_off4_inb d0)).WholeWords (EltTy.packing .bf16)
  k0_dev6_lt : ∀ d0 : Dev nD, (k0_dev6 d0) < nD
  k0_off5_inb : ∀ d0 : Dev nD, ∀ a, (k0_off5 d0) a + S1x64x512.size a ≤ S2x512x512.size a
  k0_off5_wordsbf16 : ∀ d0 : Dev nD, (Rect.unit (s := S2x512x512) (k0_off5 d0) S1x64x512.size (k0_off5_inb d0)).WholeWords (EltTy.packing .bf16)
  k0_dev7_lt : ∀ d0 : Dev nD, (k0_dev7 d0) < nD
  k0_off6_inb : ∀ d0 : Dev nD, ∀ a, (k0_off6 d0) a + S1x64x512.size a ≤ S2x512x512.size a
  k0_off6_wordsbf16 : ∀ d0 : Dev nD, (Rect.unit (s := S2x512x512) (k0_off6 d0) S1x64x512.size (k0_off6_inb d0)).WholeWords (EltTy.packing .bf16)
  k0_dev8_lt : ∀ d0 : Dev nD, (k0_dev8 d0) < nD
  k0_off7_inb : ∀ d0 : Dev nD, ∀ a, (k0_off7 d0) a + S1x64x512.size a ≤ S2x512x512.size a
  k0_off7_wordsbf16 : ∀ d0 : Dev nD, (Rect.unit (s := S2x512x512) (k0_off7 d0) S1x64x512.size (k0_off7_inb d0)).WholeWords (EltTy.packing .bf16)
  k0_dev9_lt : ∀ d0 : Dev nD, (k0_dev9 d0) < nD
  k0_off8_inb : ∀ d0 : Dev nD, ∀ a, (k0_off8 d0) a + S1x64x512.size a ≤ S2x512x512.size a
  k0_off8_wordsbf16 : ∀ d0 : Dev nD, (Rect.unit (s := S2x512x512) (k0_off8 d0) S1x64x512.size (k0_off8_inb d0)).WholeWords (EltTy.packing .bf16)
  k0_dev10_lt : ∀ d0 : Dev nD, (k0_dev10 d0) < nD
  k0_off9_inb : ∀ d0 : Dev nD, ∀ a, (k0_off9 d0) a + S1x64x512.size a ≤ S2x512x512.size a
  k0_off9_wordsbf16 : ∀ d0 : Dev nD, (Rect.unit (s := S2x512x512) (k0_off9 d0) S1x64x512.size (k0_off9_inb d0)).WholeWords (EltTy.packing .bf16)
  k0_dev11_lt : ∀ d0 : Dev nD, (k0_dev11 d0) < nD
  k0_off10_inb : ∀ d0 : Dev nD, ∀ a, (k0_off10 d0) a + S1x64x512.size a ≤ S2x512x512.size a
  k0_off10_wordsbf16 : ∀ d0 : Dev nD, (Rect.unit (s := S2x512x512) (k0_off10 d0) S1x64x512.size (k0_off10_inb d0)).WholeWords (EltTy.packing .bf16)
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch2 : DmaSems sig S10 := SemArray.consecutive 4 S10 hcc0_scratch2
abbrev cc0_scratch3 : DmaSems sig S10 := SemArray.consecutive 14 S10 hcc0_scratch3
abbrev cc0_scratch4 : DmaSems sig S6 := SemArray.consecutive 24 S6 hcc0_scratch4
abbrev cc0_scratch5 : DmaSems sig S6 := SemArray.consecutive 30 S6 hcc0_scratch5
def dot_S16x256x64_S16x256x64_S16x256x256_2_2_1_1_0_0 : DotDims S16x256x64 S16x256x64 S16x256x256 where
  lhsContracting := [2]
  rhsContracting := [2]
  lhsNonContracting := [1]
  rhsNonContracting := [1]
  lhsBatch := [0]
  rhsBatch := [0]
  wf := dot_S16x256x64_S16x256x64_S16x256x256_2_2_1_1_0_0_wf
def dot_S16x256x256_S16x256x64_S16x256x64_2_1_1_2_0_0 : DotDims S16x256x256 S16x256x64 S16x256x64 where
  lhsContracting := [2]
  rhsContracting := [1]
  lhsNonContracting := [1]
  rhsNonContracting := [2]
  lhsBatch := [0]
  rhsBatch := [0]
  wf := dot_S16x256x256_S16x256x64_S16x256x64_2_1_1_2_0_0_wf
def dot_S8x256x64_S8x256x64_S8x256x256_2_2_1_1_0_0 : DotDims S8x256x64 S8x256x64 S8x256x256 where
  lhsContracting := [2]
  rhsContracting := [2]
  lhsNonContracting := [1]
  rhsNonContracting := [1]
  lhsBatch := [0]
  rhsBatch := [0]
  wf := dot_S8x256x64_S8x256x64_S8x256x256_2_2_1_1_0_0_wf
def dot_S8x256x256_S8x256x64_S8x256x64_2_1_1_2_0_0 : DotDims S8x256x256 S8x256x64 S8x256x64 where
  lhsContracting := [2]
  rhsContracting := [1]
  lhsNonContracting := [1]
  rhsNonContracting := [2]
  lhsBatch := [0]
  rhsBatch := [0]
  wf := dot_S8x256x256_S8x256x64_S8x256x64_2_1_1_2_0_0_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x512x8x64 : Shape := ⟨4, ![2, 512, 8, 64]⟩
abbrev S2x8x512x512 : Shape := ⟨4, ![2, 8, 512, 512]⟩
abbrev S_ : Shape := ⟨0, ![]⟩
abbrev S2x8x512 : Shape := ⟨3, ![2, 8, 512]⟩
abbrev S2x8x512x1 : Shape := ⟨4, ![2, 8, 512, 1]⟩
abbrev S2x8x64x512 : Shape := ⟨4, ![2, 8, 64, 512]⟩

abbrev nBuf : Space → Nat
  | .hbm => 21
  | .vmem => 0
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x512x8x64, .f32⟩
  | .hbm, ⟨3, _⟩ => ⟨S2x8x512x512, .f32⟩
  | .hbm, ⟨4, _⟩ => ⟨S_, .f32⟩
  | .hbm, ⟨5, _⟩ => ⟨S2x8x512x512, .f32⟩
  | .hbm, ⟨6, _⟩ => ⟨S2x8x512x512, .f32⟩
  | .hbm, ⟨7, _⟩ => ⟨S_, .f32⟩
  | .hbm, ⟨8, _⟩ => ⟨S2x8x512, .f32⟩
  | .hbm, ⟨9, _⟩ => ⟨S2x8x512x1, .f32⟩
  | .hbm, ⟨10, _⟩ => ⟨S2x8x512x512, .f32⟩
  | .hbm, ⟨11, _⟩ => ⟨S2x8x512x512, .f32⟩
  | .hbm, ⟨12, _⟩ => ⟨S2x8x512x512, .f32⟩
  | .hbm, ⟨13, _⟩ => ⟨S_, .f32⟩
  | .hbm, ⟨14, _⟩ => ⟨S2x8x512, .f32⟩
  | .hbm, ⟨15, _⟩ => ⟨S2x8x512x1, .f32⟩
  | .hbm, ⟨16, _⟩ => ⟨S2x8x512x512, .f32⟩
  | .hbm, ⟨17, _⟩ => ⟨S2x8x512x512, .f32⟩
  | .hbm, ⟨18, _⟩ => ⟨S2x8x64x512, .f32⟩
  | .hbm, ⟨19, _⟩ => ⟨S2x512x8x64, .f32⟩
  | .hbm, ⟨20, _⟩ => ⟨S2x512x8x64, .bf16⟩
  | _, _ => ⟨S2x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S2x8x512x512 : S_.BroadcastsInDim S2x8x512x512 (![] : Fin 0 → Fin S2x8x512x512.rank)
  reducesTo_S2x8x512x512_S2x8x512_d3 : S2x8x512x512.ReducesTo [3] S2x8x512
  h_S_ : 0 < S_.numel
  bcast_S2x8x512_S2x8x512x1_0_1_2 : S2x8x512.BroadcastsInDim S2x8x512x1 (![0, 1, 2] : Fin 3 → Fin S2x8x512x1.rank)
  bcast_S2x8x512x1_S2x8x512x512_0_1_2_3 : S2x8x512x1.BroadcastsInDim S2x8x512x512 (![0, 1, 2, 3] : Fin 4 → Fin S2x8x512x512.rank)
  transposes_S2x8x64x512_S2x512x8x64_0_3_1_2 : S2x8x64x512.Transposes [0, 3, 1, 2] S2x512x8x64
  bitsLt_bf16_f32 : FTy.bits .bf16 < FTy.bits .f32
  dot_S2x512x8x64_S2x512x8x64_S2x8x512x512_3_3_1_1_02_02_wf : DotDims.WF S2x512x8x64 S2x512x8x64 S2x8x512x512 [3] [3] [1] [1] [0, 2] [0, 2]
  dot_S2x512x8x64_S2x8x512x512_S2x8x64x512_1_3_3_2_02_01_wf : DotDims.WF S2x512x8x64 S2x8x512x512 S2x8x64x512 [1] [3] [3] [2] [0, 2] [0, 1]

variable [Facts₀]

def dot_S2x512x8x64_S2x512x8x64_S2x8x512x512_3_3_1_1_02_02 : DotDims S2x512x8x64 S2x512x8x64 S2x8x512x512 where
  lhsContracting := [3]
  rhsContracting := [3]
  lhsNonContracting := [1]
  rhsNonContracting := [1]
  lhsBatch := [0, 2]
  rhsBatch := [0, 2]
  wf := dot_S2x512x8x64_S2x512x8x64_S2x8x512x512_3_3_1_1_02_02_wf
def dot_S2x512x8x64_S2x8x512x512_S2x8x64x512_1_3_3_2_02_01 : DotDims S2x512x8x64 S2x8x512x512 S2x8x64x512 where
  lhsContracting := [1]
  rhsContracting := [3]
  lhsNonContracting := [3]
  rhsNonContracting := [2]
  lhsBatch := [0, 2]
  rhsBatch := [0, 1]
  wf := dot_S2x512x8x64_S2x8x512x512_S2x8x64x512_1_3_3_2_02_01_wf

class Facts : Prop extends Facts₀ where

variable [Facts]
-- ==== Proof.Spec.lean ====
/-
  The mathematics both programs compute, stated once over the extended reals and over explicit coordinates.

  A device holds a block of 256 query rows, its own 256 key/value rows and — after the exchange — the other
  256 key/value rows of the sequence. For a query row `(b, s, h)` the score against key row `k` is the inner
  product over the 64 features of the query scaled by one eighth with the key; the weights are the exponentials
  of the scores (no shift by the row maximum); the result at feature `d` is the weighted sum of the values
  divided by the sum of the weights, the two sums each split into the part over the device's own rows and the
  part over the received rows.
-/
import Idealize.ShloMosaic.PureOps.Ideal
import Idealize.ShloMosaic.Lib.ValueIdx
import Idealize.ShloMosaic.Lib.Layout

noncomputable section

namespace Cert.Attn

open Idealize.ShloMosaic Idealize.ShloMosaic.ValueIdx

/-- A device's block `[batch, row, head, feature]`. -/
abbrev SL : Shape := ⟨4, ![2, 256, 8, 64]⟩
/-- The whole array: 512 rows, cut in two along the rows. -/
abbrev SW : Shape := ⟨4, ![2, 512, 8, 64]⟩

/-- One eighth, as the f32 word both programs print (`64 ^ (-1/2)`, a dyadic). -/
def eighth : EReal := Ideal.ofBits .f32 0x3E000000#32

/-- The score of query row `(b, s, h)` of `q` against key row `k` of `kk`: the query is scaled first. -/
def score (q kk : SL.Idx → EReal) (b : Fin 2) (s : Fin 256) (h : Fin 8) (k : Fin 256) : EReal :=
  ∑ e : Fin 64, (q (ix4 b s h e) * eighth) * kk (ix4 b k h e)

/-- Unnormalised attention over own rows `(kl, vl)` and received rows `(kr, vr)`, at `(b, s, h, d)`. -/
def attnAt (q kl vl kr vr : SL.Idx → EReal) (b : Fin 2) (s : Fin 256) (h : Fin 8) (d : Fin 64) : EReal :=
  Ideal.div
    ((∑ k : Fin 256, Ideal.exp (score q kl b s h k) * vl (ix4 b k h d))
      + (∑ k : Fin 256, Ideal.exp (score q kr b s h k) * vr (ix4 b k h d)))
    ((∑ k : Fin 256, Ideal.exp (score q kl b s h k)) + (∑ k : Fin 256, Ideal.exp (score q kr b s h k)))

/-- The device across the first mesh axis: of device `2x + y` it is `2(1 - x) + y`. -/
def xnbr (c : Fin 4) : Fin 4 := ⟨(c.val + 2) % 4, Nat.mod_lt _ (by decide)⟩

/-- Device `c`'s block of a whole array: the rows its first mesh coordinate names. -/
abbrev blk (c : Fin 4) (X : SW.Idx → EReal) : SL.Idx → EReal :=
  Layout.blockN SL SW (Layout.meshBlock [2, 2] ![[], [0], [], []] c) X

end Cert.Attn

end
-- ==== Proof.RefFrame.lean ====
/-
  The reference program's run. Its result is the composed host operations of the three whole argument arrays
  (scores, scaling, shifted exponentials, normalisation, weighted values, transposition); its argument arrays
  end unchanged. Dropping the result's value gives the frame.
-/
import proofs.«900411_g7700000000000412_dist_agattn_v7x_xy2x2_x_b2_s256_h8_d64_bf16_1_alg».proof.Defs
import proofs.«900411_g7700000000000412_dist_agattn_v7x_xy2x2_x_b2_s256_h8_d64_bf16_1_alg».proof.Proof.Gen.ReferenceIdeal
import proofs.«900411_g7700000000000412_dist_agattn_v7x_xy2x2_x_b2_s256_h8_d64_bf16_1_alg».proof.Proof.Gen.Pre_finite_inputs_ReferenceIdeal
import proofs.«900411_g7700000000000412_dist_agattn_v7x_xy2x2_x_b2_s256_h8_d64_bf16_1_alg».proof.Proof.Gen.ReferenceIdeal.Run
import proofs.«900411_g7700000000000412_dist_agattn_v7x_xy2x2_x_b2_s256_h8_d64_bf16_1_alg».proof.Proof.Gen.ReferenceIdeal.Read
import proofs.«900411_g7700000000000412_dist_agattn_v7x_xy2x2_x_b2_s256_h8_d64_bf16_1_alg».proof.Proof.Spec

noncomputable section

open Idealize.ShloMosaic Idealize.ShloMosaic.TcCoe Idealize.SL.Sem

namespace Cert.Proof.RefSide

open Cert.Attn

/-- The reference's result as one function of the three whole arrays: its last stage. -/
def refOut (Q K V : SW.Idx → EReal) : SW.Idx → EReal :=
  Cert.ReferenceIdeal.Read.val_main_v14 (F := Ideal) Q K V

/-- The reference runs and ends with its arguments unchanged. -/
theorem frame_ri : Cert.frame_ReferenceIdeal :=
  fun m ρ _ => (θ_run Cert.ReferenceIdeal.defs _ _).mono (fun _ h c => (h c).2)
    (Cert.ReferenceIdeal.Value.run (F := Ideal) m ρ)

/-- The reference runs; its result is `refOut` of its argument arrays, which end unchanged. -/
theorem ref_run
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r =>
        r.2.mem (((0 : Dev Cert.ReferenceIdeal.nD).tc : Thread Cert.ReferenceIdeal.nD Cert.ReferenceIdeal.τ).loc Cert.ReferenceIdeal.main_v14)
            = refOut
                (m' (((0 : Dev Cert.ReferenceIdeal.nD).tc : Thread Cert.ReferenceIdeal.nD Cert.ReferenceIdeal.τ).loc Cert.ReferenceIdeal.main_arg0))
                (m' (((0 : Dev Cert.ReferenceIdeal.nD).tc : Thread Cert.ReferenceIdeal.nD Cert.ReferenceIdeal.τ).loc Cert.ReferenceIdeal.main_arg1))
                (m' (((0 : Dev Cert.ReferenceIdeal.nD).tc : Thread Cert.ReferenceIdeal.nD Cert.ReferenceIdeal.τ).loc Cert.ReferenceIdeal.main_arg2))
        ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg1)
            = m' (((0 : Dev Cert.ReferenceIdeal.nD).tc : Thread Cert.ReferenceIdeal.nD Cert.ReferenceIdeal.τ).loc Cert.ReferenceIdeal.main_arg1)
        ∧ r.2.mem (((0 : Dev Cert.ReferenceIdeal.nD).tc : Thread Cert.ReferenceIdeal.nD Cert.ReferenceIdeal.τ).loc Cert.ReferenceIdeal.main_arg2)
            = m' (((0 : Dev Cert.ReferenceIdeal.nD).tc : Thread Cert.ReferenceIdeal.nD Cert.ReferenceIdeal.τ).loc Cert.ReferenceIdeal.main_arg2)) :=
  (θ_run Cert.ReferenceIdeal.defs _ _).mono
    (fun _ h => ⟨(h 0).1.trans (Cert.ReferenceIdeal.Read.val_main_v14_eq (F := Ideal) _ _ _), (h 0).2⟩)
    (Cert.ReferenceIdeal.Value.run (F := Ideal) m' g')

end Cert.Proof.RefSide

end
-- ==== Proof.Flow.lean ====
/-
  The body's arithmetic as two pure terms, one per stored output block, over the vectors the body loads:
  the device's query block, the two planes of its own staged keys and values, and the two halves (batch 0,
  batch 1) of the received planes. Nothing here mentions memory or devices.
-/
import proofs.«900411_g7700000000000412_dist_agattn_v7x_xy2x2_x_b2_s256_h8_d64_bf16_1_alg».proof.Proof.Gen.KernelIdeal.Skeleton
import Idealize.ShloMosaic.Lib.ValueIdx

noncomputable section

namespace Cert.KernelIdeal.Flow

open Idealize.ShloMosaic Cert.KernelIdeal Cert.KernelIdeal.Gen

variable {F : FTy → Type} [FloatOps F]

/-- The plane a device stages of its key block: rows `256 b + s`, columns `64 h + d`, rounded to bf16. -/
def planeK (k : Vec F S2x256x8x64 .f32) : FVec F S1x512x512 .bf16 := k0_pay1 k

/-- The plane a device stages of its value block, the same layout. -/
def planeV (v : Vec F S2x256x8x64 .f32) : FVec F S1x512x512 .bf16 := k0_pay3 (k0_pay2 v)

/-- The scaled query rows, head-major: `[16 = (b, h), 256, 64]`. -/
def qt (q : Vec F S2x256x8x64 .f32) : FVec F S16x256x64 .bf16 := k0_pay5 (k0_pay4 q)

/-- Scores of every query row against the device's own key rows. -/
def s1 (q : Vec F S2x256x8x64 .f32) (lk : Vec F S1x512x512 .bf16) : FVec F S16x256x256 .f32 :=
  k0_pay8 (qt q) (k0_pay6 lk)

/-- Sum of the own-row weights, kept as a column. -/
def l1 (q : Vec F S2x256x8x64 .f32) (lk : Vec F S1x512x512 .bf16) : FVec F S16x256x1 .f32 := k0_pay10 (s1 q lk)

/-- Own-row weighted values. -/
def u1 (q : Vec F S2x256x8x64 .f32) (lk lv : Vec F S1x512x512 .bf16) : FVec F S16x256x64 .f32 :=
  k0_pay11 (k0_pay7 lv) (k0_pay9 (s1 q lk))

/-- What the body stores as batch 0 of the result: from the query block, the own planes, and rows
    `[0, 256)` of the two received planes. -/
def out0 (q : Vec F S2x256x8x64 .f32) (lk lv : Vec F S1x512x512 .bf16) (rk0 rv0 : Vec F S1x256x512 .bf16) :
    FVec F S1x256x8x64 .bf16 :=
  k0_pay12 (qt q) (l1 q lk) (u1 q lk lv) rk0 rv0

/-- What the body stores as batch 1 of the result: rows `[256, 512)` of the received planes. -/
def out1 (q : Vec F S2x256x8x64 .f32) (lk lv : Vec F S1x512x512 .bf16) (rk1 rv1 : Vec F S1x256x512 .bf16) :
    FVec F S1x256x8x64 .bf16 :=
  k0_pay17 (l1 q lk) (u1 q lk lv) (k0_pay13 rv1) (k0_pay15 (qt q) rk1) (k0_pay16 (qt q) rk1)

/-- Rows `[256 b, 256 b + 256)` of a staged plane: the half of the sequence that is batch `b`. -/
def half {α : Type} (b : Fin 2) (p : S1x512x512.Idx → α) : S1x256x512.Idx → α := fun j =>
  p (ValueIdx.ix3 (0 : Fin 1)
      (⟨256 * b.val + (j 1).val, by have h1 : (j 1).val < 256 := (j 1).isLt; have := b.isLt; omega⟩ : Fin 512)
      (⟨(j 2).val, (j 2).isLt⟩ : Fin 512))

end Cert.KernelIdeal.Flow

end
-- ==== Proof.Mesh.lean ====
/-
  The mesh as the exchange sees it: device `2x + y` has a neighbour across the first axis, `2(1 - x) + y`, and one
  across the second, `2x + (1 - y)`. Its coordinate `y` names the plane (0: keys, 1: values) it sends whole across
  the first axis; of the other plane it sends the last two of the eight 64-row chunks there and receives the first
  six from its second-axis neighbour, who forwards what it received.
  Here: the neighbours, the two scratch planes' chunk views, the semaphore cells, and what the planes hold in the
  end as closed functions of the devices' argument blocks.
-/
import proofs.«900411_g7700000000000412_dist_agattn_v7x_xy2x2_x_b2_s256_h8_d64_bf16_1_alg».proof.Proof.Gen.KernelIdeal
import proofs.«900411_g7700000000000412_dist_agattn_v7x_xy2x2_x_b2_s256_h8_d64_bf16_1_alg».proof.Proof.Gen.KernelIdeal.Skeleton
import proofs.«900411_g7700000000000412_dist_agattn_v7x_xy2x2_x_b2_s256_h8_d64_bf16_1_alg».proof.Proof.Gen.KernelIdeal.Launch
import proofs.«900411_g7700000000000412_dist_agattn_v7x_xy2x2_x_b2_s256_h8_d64_bf16_1_alg».proof.Proof.Gen.KernelIdeal.Points
import proofs.«900411_g7700000000000412_dist_agattn_v7x_xy2x2_x_b2_s256_h8_d64_bf16_1_alg».proof.Proof.Gen.KernelIdeal.Frame
import proofs.«900411_g7700000000000412_dist_agattn_v7x_xy2x2_x_b2_s256_h8_d64_bf16_1_alg».proof.Proof.Flow
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The neighbours -/

/-- Across the first mesh axis. -/
def xn (c : Dev nD) : Dev nD := ⟨((c.val % 2) + 2) - 2 * (c.val / 2), k0_dev1_eq c ▸ k0_dev1_lt c⟩
/-- Across the second mesh axis. -/
def yn (c : Dev nD) : Dev nD := ⟨(2 * (c.val / 2) + 1) - (c.val % 2), k0_dev2_eq c ▸ k0_dev2_lt c⟩
/-- The coordinate on the second axis: the plane sent whole across the first. -/
def yc (c : Dev nD) : Nat := c.val % 2

theorem xn_xn (c : Dev nD) : xn (xn c) = c := by revert c; decide
theorem yn_yn (c : Dev nD) : yn (yn c) = c := by revert c; decide
theorem xn_yn (c : Dev nD) : xn (yn c) = yn (xn c) := by revert c; decide
theorem yc_xn (c : Dev nD) : yc (xn c) = yc c := by revert c; decide
theorem yc_yn (c : Dev nD) : yc (yn c) = 1 - yc c := by revert c; decide
theorem yc_lt (c : Dev nD) : yc c < 2 := Nat.mod_lt _ (by decide)
theorem xn_ne (c : Dev nD) : xn c ≠ c := by revert c; decide
theorem yn_ne (c : Dev nD) : yn c ≠ c := by revert c; decide
theorem xn_ne_yn (c : Dev nD) : xn c ≠ yn c := by revert c; decide

theorem dev1_eq (c : Dev nD) : (⟨k0_dev1 c, k0_dev1_lt c⟩ : Dev nD) = xn c := Fin.ext (k0_dev1_eq c)
theorem dev2_eq (c : Dev nD) : (⟨k0_dev2 c, k0_dev2_lt c⟩ : Dev nD) = yn c := Fin.ext (k0_dev2_eq c)
theorem dev3_eq (c : Dev nD) : (⟨k0_dev3 c, k0_dev3_lt c⟩ : Dev nD) = xn c := Fin.ext (k0_dev3_eq c)
theorem dev4_eq (c : Dev nD) : (⟨k0_dev4 c, k0_dev4_lt c⟩ : Dev nD) = xn c := Fin.ext (k0_dev4_eq c)
theorem dev5_eq (c : Dev nD) : (⟨k0_dev5 c, k0_dev5_lt c⟩ : Dev nD) = xn c := Fin.ext (k0_dev5_eq c)
theorem dev6_eq (c : Dev nD) : (⟨k0_dev6 c, k0_dev6_lt c⟩ : Dev nD) = xn c := Fin.ext (k0_dev6_eq c)
theorem dev7_eq (c : Dev nD) : (⟨k0_dev7 c, k0_dev7_lt c⟩ : Dev nD) = xn c := Fin.ext (k0_dev7_eq c)
theorem dev8_eq (c : Dev nD) : (⟨k0_dev8 c, k0_dev8_lt c⟩ : Dev nD) = xn c := Fin.ext (k0_dev8_eq c)
theorem dev9_eq (c : Dev nD) : (⟨k0_dev9 c, k0_dev9_lt c⟩ : Dev nD) = xn c := Fin.ext (k0_dev9_eq c)
theorem dev10_eq (c : Dev nD) : (⟨k0_dev10 c, k0_dev10_lt c⟩ : Dev nD) = xn c := Fin.ext (k0_dev10_eq c)
theorem dev11_eq (c : Dev nD) : (⟨k0_dev11 c, k0_dev11_lt c⟩ : Dev nD) = xn c := Fin.ext (k0_dev11_eq c)
theorem dev12_eq (c : Dev nD) : (⟨k0_dev12 c, k0_dev12_lt c⟩ : Dev nD) = xn c := Fin.ext (k0_dev12_eq c)
theorem dev13_eq (c : Dev nD) : (⟨k0_dev13 c, k0_dev13_lt c⟩ : Dev nD) = yn c := Fin.ext (k0_dev13_eq c)
theorem dev14_eq (c : Dev nD) : (⟨k0_dev14 c, k0_dev14_lt c⟩ : Dev nD) = yn c := Fin.ext (k0_dev14_eq c)
theorem dev15_eq (c : Dev nD) : (⟨k0_dev15 c, k0_dev15_lt c⟩ : Dev nD) = yn c := Fin.ext (k0_dev15_eq c)
theorem dev16_eq (c : Dev nD) : (⟨k0_dev16 c, k0_dev16_lt c⟩ : Dev nD) = yn c := Fin.ext (k0_dev16_eq c)
theorem dev17_eq (c : Dev nD) : (⟨k0_dev17 c, k0_dev17_lt c⟩ : Dev nD) = yn c := Fin.ext (k0_dev17_eq c)
theorem dev18_eq (c : Dev nD) : (⟨k0_dev18 c, k0_dev18_lt c⟩ : Dev nD) = yn c := Fin.ext (k0_dev18_eq c)

/-! ## The scratch planes and their chunks -/

/-- The device's own staged planes, and the planes it receives. -/
abbrev locM : Memref sig .tc .vmem S2x512x512 .bf16 := Memref.whole cc0_scratch0
abbrev remM : Memref sig .tc .vmem S2x512x512 .bf16 := Memref.whole cc0_scratch1

/-- A 64-row chunk of a plane as the copies address it. -/
abbrev chunk (M : Memref sig .tc .vmem S2x512x512 .bf16) (off : Fin 3 → Nat)
    (h : ∀ a, off a + S1x64x512.size a ≤ S2x512x512.size a) : Memref sig .tc .vmem S64x512 .bf16 :=
  (M.slice (Rect.unit (s := S2x512x512) off S1x64x512.size h) (fun _ => rfl)).squeeze S64x512 squeezes_S1x64x512_S64x512

/-- Where the `i`-th copy across the first axis starts: chunks 0–7 of plane `y`, then chunks 6, 7 of plane `1 - y`. -/
def xoff (c : Dev nD) : Fin 10 → Fin 3 → Nat
  | 0 => k0_off1 c | 1 => k0_off2 c | 2 => k0_off3 c | 3 => k0_off4 c | 4 => k0_off5 c
  | 5 => k0_off6 c | 6 => k0_off7 c | 7 => k0_off8 c | 8 => k0_off9 c | 9 => k0_off10 c

theorem xoff_inb (c : Dev nD) : ∀ (i : Fin 10) (a : Fin 3), xoff c i a + S1x64x512.size a ≤ S2x512x512.size a
  | 0 => k0_off1_inb c | 1 => k0_off2_inb c | 2 => k0_off3_inb c | 3 => k0_off4_inb c | 4 => k0_off5_inb c
  | 5 => k0_off6_inb c | 6 => k0_off7_inb c | 7 => k0_off8_inb c | 8 => k0_off9_inb c | 9 => k0_off10_inb c

/-- The plane and the chunk the `i`-th copy across the first axis carries. -/
def xplane (c : Dev nD) (i : Fin 10) : Nat := if i.val < 8 then yc c else 1 - yc c
def xchunk (i : Fin 10) : Nat := if i.val < 8 then i.val else i.val - 2

theorem xoff_eq (c : Dev nD) (i : Fin 10) : xoff c i = ![xplane c i, 64 * xchunk i, 0] := by
  revert c i; decide +kernel

/-! ## The cells

  Per device: the runtime's barrier semaphore, and the 32 copy semaphores `4 + n`: `n < 10` the sends across the first
  axis, `10 ≤ n < 20` the matching receives, `20 ≤ n < 26` the forwards across the second axis, `26 ≤ n` their
  receives. -/

abbrev barS : Sem sig := (SemArray.scalar (sig.barrier 0 rfl) : Sems sig S_).sem

def dsem (n : Fin 32) : DmaSem sig := ⟨4 + n.val, by have := n.isLt; show 4 + n.val < 36; omega⟩

abbrev barCell (c : Dev nD) : GSem nD τ sig := ((c : Thread nD τ), .reg barS)
abbrev dmaCell (c : Dev nD) (n : Fin 32) : GSem nD τ sig := ((c : Thread nD τ), .dma (dsem n))

def nXs (i : Fin 10) : Fin 32 := ⟨i.val, by have := i.isLt; omega⟩
def nXr (i : Fin 10) : Fin 32 := ⟨10 + i.val, by have := i.isLt; omega⟩
def nYs (j : Fin 6) : Fin 32 := ⟨20 + j.val, by have := j.isLt; omega⟩
def nYr (j : Fin 6) : Fin 32 := ⟨26 + j.val, by have := j.isLt; omega⟩

abbrev xsCell (c : Dev nD) (i : Fin 10) : GSem nD τ sig := dmaCell c (nXs i)
abbrev xrCell (c : Dev nD) (i : Fin 10) : GSem nD τ sig := dmaCell c (nXr i)
abbrev ysCell (c : Dev nD) (j : Fin 6) : GSem nD τ sig := dmaCell c (nYs j)
abbrev yrCell (c : Dev nD) (j : Fin 6) : GSem nD τ sig := dmaCell c (nYr j)

/-- All 33, as one index: the barrier first. -/
def csem (k : Fin 33) : SemLoc sig :=
  if h : k.val = 0 then .reg barS else .dma (dsem ⟨k.val - 1, by have := k.isLt; omega⟩)
abbrev kcell (ck : Dev nD × Fin 33) : GSem nD τ sig := ((ck.1 : Thread nD τ), csem ck.2)

theorem dsem_injective : Function.Injective dsem := fun a b h => by
  have := congrArg Fin.val h; simp only [dsem] at this; exact Fin.ext (by omega)

theorem csem_injective : Function.Injective csem := by
  intro a b h
  unfold csem at h
  by_cases ha : a.val = 0 <;> by_cases hb : b.val = 0
  · exact Fin.ext (ha.trans hb.symm)
  · rw [dif_pos ha, dif_neg hb] at h; cases h
  · rw [dif_neg ha, dif_pos hb] at h; cases h
  · rw [dif_neg ha, dif_neg hb] at h
    have := congrArg Fin.val (dsem_injective (SemLoc.dma.inj h)); simp only at this; exact Fin.ext (by omega)

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem csem_zero : csem 0 = .reg barS := rfl
theorem csem_succ (n : Fin 32) : csem ⟨n.val + 1, by have := n.isLt; omega⟩ = .dma (dsem n) := by
  unfold csem; rw [dif_neg (by simp)]; rfl

/-- A copy's units: every chunk has the same shape, so the same credit. -/
abbrev N : ℕ := (chunk remM (k0_off1 (0 : Dev nD)) (k0_off1_inb 0)).view.dmaCredit

end Cert.KernelIdeal.Mesh

end
-- ==== Proof.Sched.lean ====
/-
  The exchange as a schedule of one round per cell.

  What the planes hold: the own planes are the staged key and value blocks; an entry of the received planes is the same
  entry of the first-axis neighbour's own planes, except rows below 384 (chunks 0–5) of the plane a device does not send
  whole, which come from the second-axis neighbour's first-axis neighbour (who holds equal blocks when the arrays are
  replicated along the second axis, but that is not used here).

  Duties of round 0. The barrier cell has two, one unit each: `false`, paid by the first-axis neighbour, hands over that
  neighbour's ten landing chunks and that it has reached round 0 of their receive cells; `true`, paid by the second-axis
  neighbour, the same for its six landing chunks. Every copy cell has the one duty `false` of a chunk's credit: a receive
  cell's hands the landing chunk at its final contents; a send cell's hands back the half share of the source chunk that
  travelled with the copy.
-/
import proofs.«900411_g7700000000000412_dist_agattn_v7x_xy2x2_x_b2_s256_h8_d64_bf16_1_alg».proof.Proof.Gen.KernelIdeal
import proofs.«900411_g7700000000000412_dist_agattn_v7x_xy2x2_x_b2_s256_h8_d64_bf16_1_alg».proof.Proof.Gen.KernelIdeal.Skeleton
import proofs.«900411_g7700000000000412_dist_agattn_v7x_xy2x2_x_b2_s256_h8_d64_bf16_1_alg».proof.Proof.Gen.KernelIdeal.Launch
import proofs.«900411_g7700000000000412_dist_agattn_v7x_xy2x2_x_b2_s256_h8_d64_bf16_1_alg».proof.Proof.Gen.KernelIdeal.Points
import proofs.«900411_g7700000000000412_dist_agattn_v7x_xy2x2_x_b2_s256_h8_d64_bf16_1_alg».proof.Proof.Gen.KernelIdeal.Frame
import proofs.«900411_g7700000000000412_dist_agattn_v7x_xy2x2_x_b2_s256_h8_d64_bf16_1_alg».proof.Proof.Flow
import proofs.«900411_g7700000000000412_dist_agattn_v7x_xy2x2_x_b2_s256_h8_d64_bf16_1_alg».proof.Proof.Mesh
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ UU ℕ

variable (m : (ℓ : Loc nD τ sig) → Buf (Elt F) ℓ)

/-! ## Contents -/

/-- The staged argument blocks of device `c`: queries, keys, values. -/
def qst (c : Dev nD) : (cc0_stg0_0 : Ref sig .tc).ty.Contents (Elt F) :=
  (win0_0.blk (0 : Fin 1)).view.read (Elt F) (m ((c : Thread nD τ).loc main_arg0))
def kst (c : Dev nD) : (cc0_stg1_0 : Ref sig .tc).ty.Contents (Elt F) :=
  (win0_1.blk (0 : Fin 1)).view.read (Elt F) (m ((c : Thread nD τ).loc main_arg1))
def vst (c : Dev nD) : (cc0_stg2_0 : Ref sig .tc).ty.Contents (Elt F) :=
  (win0_2.blk (0 : Fin 1)).view.read (Elt F) (m ((c : Thread nD τ).loc main_arg2))

/-- The own planes once staged: plane 0 the keys, plane 1 the values. -/
def locC (c : Dev nD) : (cc0_scratch0 : Ref sig .tc).ty.Contents (Elt F) := fun idx =>
  if (idx 0).val = 0 then Flow.planeK (kst m c) (ix3 (0 : Fin 1) (⟨(idx 1).val, (idx 1).isLt⟩ : Fin 512) (⟨(idx 2).val, (idx 2).isLt⟩ : Fin 512))
  else Flow.planeV (vst m c) (ix3 (0 : Fin 1) (⟨(idx 1).val, (idx 1).isLt⟩ : Fin 512) (⟨(idx 2).val, (idx 2).isLt⟩ : Fin 512))

/-- The device whose own plane an entry of the received planes comes from. -/
def srcDev (c : Dev nD) (idx : S2x512x512.Idx) : Dev nD :=
  if (idx 0).val ≠ yc c ∧ (idx 1).val < 384 then xn (yn c) else xn c

/-- The received planes once everything has landed. -/
def remC (c : Dev nD) : (cc0_scratch1 : Ref sig .tc).ty.Contents (Elt F) := fun idx => locC m (srcDev c idx) idx

/-- One plane of the own planes, and of the received planes, as the body's loads see them. -/
def locPlane (c : Dev nD) (t : Fin 2) : Vec F S1x512x512 .bf16 := fun j =>
  locC m c (ix3 t (⟨(j 1).val, (j 1).isLt⟩ : Fin 512) (⟨(j 2).val, (j 2).isLt⟩ : Fin 512))
def remPlane (c : Dev nD) (t : Fin 2) : Vec F S1x512x512 .bf16 := fun j =>
  remC m c (ix3 t (⟨(j 1).val, (j 1).isLt⟩ : Fin 512) (⟨(j 2).val, (j 2).isLt⟩ : Fin 512))

/-- What the result's staging buffer holds when the body ends: batch 0 from rows `[0, 256)` of the received planes,
    batch 1 from rows `[256, 512)`. -/
def outAt (c : Dev nD) : (cc0_stg3_0 : Ref sig .tc).ty.Contents (Elt F) := fun idx =>
  if (idx 0).val = 0 then
    Flow.out0 (qst m c) (locPlane m c 0) (locPlane m c 1) (Flow.half 0 (remPlane m c 0)) (Flow.half 0 (remPlane m c 1))
      (ix4 (0 : Fin 1) (⟨(idx 1).val, (idx 1).isLt⟩ : Fin 256) (⟨(idx 2).val, (idx 2).isLt⟩ : Fin 8) (⟨(idx 3).val, (idx 3).isLt⟩ : Fin 64))
  else
    Flow.out1 (qst m c) (locPlane m c 0) (locPlane m c 1) (Flow.half 1 (remPlane m c 0)) (Flow.half 1 (remPlane m c 1))
      (ix4 (0 : Fin 1) (⟨(idx 1).val, (idx 1).isLt⟩ : Fin 256) (⟨(idx 2).val, (idx 2).isLt⟩ : Fin 8) (⟨(idx 3).val, (idx 3).isLt⟩ : Fin 64))

/-! ## Chunks as assertions -/

/-- A chunk view's elements on device `c` at share `q`, the buffer's contents `f`. -/
abbrev pts (c : Dev nD) (M : Memref sig .tc .vmem S64x512 .bf16) (q : PosShare TreeShare)
    (f : Buf (Elt F) (M.view.loc (c : Thread nD τ))) : sProp 𝕄 :=
  M.view.loc (c : Thread nD τ) ↦[M.view.set]{q} f

/-- Chunk `i` of the first-axis plan in the own planes, and in the received planes. -/
abbrev lchunk (c : Dev nD) (i : Fin 10) : Memref sig .tc .vmem S64x512 .bf16 := chunk locM (xoff c i) (xoff_inb c i)
abbrev rchunk (c : Dev nD) (i : Fin 10) : Memref sig .tc .vmem S64x512 .bf16 := chunk remM (xoff c i) (xoff_inb c i)

/-- The six forwarded chunks are the first six of the plan. -/
def j10 (j : Fin 6) : Fin 10 := ⟨j.val, by have := j.isLt; omega⟩

def xsPay (c : Dev nD) (i : Fin 10) : sProp 𝕄 := pts c (lchunk c i) fullShare.left (locC m c)
def xrPay (c : Dev nD) (i : Fin 10) : sProp 𝕄 := pts c (rchunk (xn c) i) fullShare (remC m c)
def ysPay (c : Dev nD) (j : Fin 6) : sProp 𝕄 := pts c (rchunk c (j10 j)) fullShare.left (remC m c)
def yrPay (c : Dev nD) (j : Fin 6) : sProp 𝕄 := pts c (rchunk (yn c) (j10 j)) fullShare (remC m c)

/-- What the first-axis neighbour's barrier signal hands device `c`: that neighbour's ten landing chunks at any
    contents, and that it has reached round 0 of their receive cells. -/
def barPayX (c : Dev nD) : sProp 𝕄 :=
  iprop((bigSep Finset.univ fun i : Fin 10 => iprop(∃ f, pts (F := F) (xn c) (rchunk c i) fullShare f))
    ∗ bigSep Finset.univ fun i : Fin 10 => reached ER (xrCell (xn c) i) 0)
/-- What the second-axis neighbour's hands it: six chunks and six marks. -/
def barPayY (c : Dev nD) : sProp 𝕄 :=
  iprop((bigSep Finset.univ fun j : Fin 6 => iprop(∃ f, pts (F := F) (yn c) (rchunk c (j10 j)) fullShare f))
    ∗ bigSep Finset.univ fun j : Fin 6 => reached ER (yrCell (yn c) j) 0)

/-- A copy cell's payload by its semaphore's number. -/
def dmaPay (c : Dev nD) (q : DmaSem sig) : sProp 𝕄 :=
  if h : 4 ≤ q.val ∧ q.val < 14 then xsPay m c ⟨q.val - 4, by omega⟩
  else if h : 14 ≤ q.val ∧ q.val < 24 then xrPay m c ⟨q.val - 14, by omega⟩
  else if h : 24 ≤ q.val ∧ q.val < 30 then ysPay m c ⟨q.val - 24, by omega⟩
  else if h : 30 ≤ q.val ∧ q.val < 36 then yrPay m c ⟨q.val - 30, by omega⟩
  else iprop(emp)

/-! ## The schedule -/

abbrev IsBar (g : GSem nD τ sig) : Prop := g.1.2 = .tc ∧ g.2 = .reg barS
abbrev IsCopy (g : GSem nD τ sig) : Prop := g.1.2 = .tc ∧ ∃ q : DmaSem sig, g.2 = .dma q ∧ 4 ≤ q.val

def sched : Rounds.Schedule (GSem nD τ sig) Bool 𝕄 where
  duties g r := if r = 0 ∧ IsBar g then Finset.univ else if r = 0 ∧ IsCopy g then {false} else ∅
  unitless _ := False
  amount g _ _ := if g.2 = .reg barS then 1 else N
  payload g _ d := match g.2 with
    | .reg s => if s = barS then (if d then barPayY g.1.1 else barPayX g.1.1) else iprop(emp)
    | .dma q => dmaPay m g.1.1 q
  amount_pos g _ _ _ := by
    by_cases h : g.2 = .reg barS
    · rw [if_pos h]; exact Nat.one_pos
    · rw [if_neg h]; exact View.dmaCredit_pos _ (by decide)

instance sched_payload_storable (g : GSem nD τ sig) (r : ℕ) (d : Bool) :
    BI.Storable (upEmb : UEmb _ 𝕄) ((sched (F := F) m).payload g r d) := by
  show BI.Storable upEmb (match g.2 with
    | .reg s => if s = barS then (if d then barPayY g.1.1 else barPayX g.1.1) else iprop(emp)
    | .dma q => dmaPay m g.1.1 q)
  unfold barPayX barPayY dmaPay xsPay xrPay ysPay yrPay
  (repeat' split) <;> infer_instance

/-! ## The schedule's tables -/

section Tables
variable (c : Dev nD)

theorem dsem_val (n : Fin 32) : (dsem n).val = 4 + n.val := rfl
theorem dsem_nXs (i : Fin 10) : (dsem (nXs i)).val = 4 + i.val := rfl
theorem dsem_nXr (i : Fin 10) : (dsem (nXr i)).val = 14 + i.val := by show 4 + (10 + i.val) = _; omega
theorem dsem_nYs (j : Fin 6) : (dsem (nYs j)).val = 24 + j.val := by show 4 + (20 + j.val) = _; omega
theorem dsem_nYr (j : Fin 6) : (dsem (nYr j)).val = 30 + j.val := by show 4 + (26 + j.val) = _; omega

theorem not_bar_dma (n : Fin 32) : ¬ IsBar (dmaCell c n) := fun h => by cases h.2
theorem isCopy_dma (n : Fin 32) : IsCopy (dmaCell c n) := ⟨rfl, dsem n, rfl, by rw [dsem_val]; omega⟩
theorem dma_ne_bar (n : Fin 32) : (SemLoc.dma (dsem n) : SemLoc sig) ≠ .reg barS := fun h => by cases h

theorem duties_bar : (sched (F := F) m).duties (barCell c) 0 = Finset.univ := by
  dsimp only [sched]; exact if_pos ⟨rfl, rfl, rfl⟩
theorem duties_dma (n : Fin 32) : (sched (F := F) m).duties (dmaCell c n) 0 = {false} := by
  dsimp only [sched]; rw [if_neg (fun h => not_bar_dma c n h.2)]; exact if_pos ⟨rfl, isCopy_dma c n⟩
theorem duties_later (g : GSem nD τ sig) : ∀ r, 1 ≤ r → (sched (F := F) m).duties g r = ∅ :=
  fun r hr => by dsimp only [sched]; rw [if_neg fun h => by omega, if_neg fun h => by omega]

theorem amount_bar (d : Bool) : (sched (F := F) m).amount (barCell c) 0 d = 1 := by dsimp only [sched]; exact if_pos rfl
theorem amount_dma (n : Fin 32) (d : Bool) : (sched (F := F) m).amount (dmaCell c n) 0 d = N := by
  dsimp only [sched]; exact if_neg (dma_ne_bar n)

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (n : Fin 32) : (sched (F := F) m).expect (dmaCell c n) 0 = N := by
  unfold Schedule.expect Schedule.amountOf; rw [duties_dma, Finset.sum_singleton, amount_dma]

theorem payload_bar_true : (sched (F := F) m).payload (barCell c) 0 true = barPayY c := by
  dsimp only [sched]; rw [if_pos rfl, if_pos rfl]
theorem payload_bar_false : (sched (F := F) m).payload (barCell c) 0 false = barPayX c := by
  dsimp only [sched]; rw [if_pos rfl]; exact if_neg Bool.false_ne_true

theorem payload_xs (i : Fin 10) (d : Bool) : (sched (F := F) m).payload (xsCell c i) 0 d = xsPay m c i := by
  have hi := i.isLt
  show dmaPay m c (dsem (nXs i)) = _
  unfold dmaPay
  rw [dif_pos (by rw [dsem_nXs]; omega)]
  congr 1; exact Fin.ext (show (dsem (nXs i)).val - 4 = i.val by rw [dsem_nXs]; omega)
theorem payload_xr (i : Fin 10) (d : Bool) : (sched (F := F) m).payload (xrCell c i) 0 d = xrPay m c i := by
  have hi := i.isLt
  show dmaPay m c (dsem (nXr i)) = _
  unfold dmaPay
  rw [dif_neg (by rw [dsem_nXr]; omega), dif_pos (by rw [dsem_nXr]; omega)]
  congr 1; exact Fin.ext (show (dsem (nXr i)).val - 14 = i.val by rw [dsem_nXr]; omega)
theorem payload_ys (j : Fin 6) (d : Bool) : (sched (F := F) m).payload (ysCell c j) 0 d = ysPay m c j := by
  have hj := j.isLt
  show dmaPay m c (dsem (nYs j)) = _
  unfold dmaPay
  rw [dif_neg (by rw [dsem_nYs]; omega), dif_neg (by rw [dsem_nYs]; omega),
    dif_pos (by rw [dsem_nYs]; omega)]
  congr 1; exact Fin.ext (show (dsem (nYs j)).val - 24 = j.val by rw [dsem_nYs]; omega)
theorem payload_yr (j : Fin 6) (d : Bool) : (sched (F := F) m).payload (yrCell c j) 0 d = yrPay m c j := by
  have hj := j.isLt
  show dmaPay m c (dsem (nYr j)) = _
  unfold dmaPay
  rw [dif_neg (by rw [dsem_nYr]; omega), dif_neg (by rw [dsem_nYr]; omega),
    dif_neg (by rw [dsem_nYr]; omega), dif_pos (by rw [dsem_nYr]; omega)]
  congr 1; exact Fin.ext (show (dsem (nYr j)).val - 30 = j.val by rw [dsem_nYr]; omega)

/-- The rest of the barrier cell's round, no duty taken: both neighbours' payloads. -/
theorem rest_bar : bigSep ((sched (F := F) m).duties (barCell c) 0 \ ∅) (fun d => (sched (F := F) m).payload (barCell c) 0 d)
    = iprop(barPayX c ∗ barPayY c) := by
  rw [Finset.sdiff_empty, duties_bar, bigSep_univ_eq_bigSepL [false, true] (by decide) (by decide), bigSepL_cons_cons, bigSepL_singleton,
    payload_bar_false, payload_bar_true]
  rfl
/-- The rest of a copy cell's round: its one payload. -/
theorem rest_dma (n : Fin 32) : bigSep ((sched (F := F) m).duties (dmaCell c n) 0 \ ∅) (fun d => (sched (F := F) m).payload (dmaCell c n) 0 d)
    = (sched (F := F) m).payload (dmaCell c n) 0 false := by
  rw [Finset.sdiff_empty, duties_dma, bigSep_singleton]

end Tables

/-! ## The levels

  A device waits on its barrier cell owing copies to both neighbours' receive cells; on a first-axis receive cell owing
  forwards to its second-axis neighbour's receive cells; on everything else owing nothing. So: barrier cells at 1,
  first-axis receive cells at 2, second-axis receive cells at 3, all other cells at 0. -/

def L (g : GSem nD τ sig) : Finset Unit := if g.1.2 = .tc then {()} else ∅
def lv (g : GSem nD τ sig) (_ : Unit) : ℕ := match g.2 with
  | .reg s => if s = barS then 1 else 0
  | .dma q => if 14 ≤ q.val ∧ q.val < 24 then 2 else if 30 ≤ q.val ∧ q.val < 36 then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; exact if_pos rfl
theorem lv_xr (c : Dev nD) (i : Fin 10) : lv (xrCell c i) () = 2 := by
  have := i.isLt; dsimp only [lv]; rw [if_pos (by rw [dsem_nXr]; omega)]
theorem lv_yr (c : Dev nD) (j : Fin 6) : lv (yrCell c j) () = 3 := by
  have := j.isLt; dsimp only [lv]
  rw [if_neg (by rw [dsem_nYr]; omega), if_pos (by rw [dsem_nYr]; omega)]
theorem lv_xs (c : Dev nD) (i : Fin 10) : lv (xsCell c i) () = 0 := by
  have := i.isLt; dsimp only [lv]
  rw [if_neg (by rw [dsem_nXs]; omega), if_neg (by rw [dsem_nXs]; omega)]
theorem lv_ys (c : Dev nD) (j : Fin 6) : lv (ysCell c j) () = 0 := by
  have := j.isLt; dsimp only [lv]
  rw [if_neg (by rw [dsem_nYs]; omega), if_neg (by rw [dsem_nYs]; omega)]
theorem lv_stage (c : Dev nD) (q : DmaSem sig) (hq : q.val < 4) : lv ((c : Thread nD τ), .dma q) () = 0 := by
  dsimp only [lv]; rw [if_neg (by omega), if_neg (by omega)]

end Cert.KernelIdeal.Mesh

end
-- ==== Proof.KValOps.lean ====
/-
  The operations of the body that are not pointwise, each read at an index given by coordinates: the two
  batched products (queries against keys over the 64 features; weights against values over the 256 key rows) for
  16 and for 8 leading slots, the sum along the key axis, and the column kept from it.
-/
import proofs.«900411_g7700000000000412_dist_agattn_v7x_xy2x2_x_b2_s256_h8_d64_bf16_1_alg».proof.Proof.Spec
import proofs.«900411_g7700000000000412_dist_agattn_v7x_xy2x2_x_b2_s256_h8_d64_bf16_1_alg».proof.Proof.Flow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Idealize.ShloMosaic Idealize.ShloMosaic.ValueIdx Cert.KernelIdeal Cert.KernelIdeal.Gen Cert.KernelIdeal.Flow Cert.Attn

/-! ### The two batched products over 16 leading slots, read at an index -/

theorem qk16_lhs0 (j : S16x256x256.Idx) (q : dot_S16x256x64_S16x256x64_S16x256x256_2_2_1_1_0_0.contr.Idx) : (dot_S16x256x64_S16x256x64_S16x256x256_2_2_1_1_0_0.lhsIdx j q 0).val = (j 0).val := by
  unfold DotDims.lhsIdx
  rw [dif_pos (show (0 : Fin S16x256x64.rank) ∈ dot_S16x256x64_S16x256x64_S16x256x256_2_2_1_1_0_0.lhsBatch by decide)]
  rfl
theorem qk16_lhs1 (j : S16x256x256.Idx) (q : dot_S16x256x64_S16x256x64_S16x256x256_2_2_1_1_0_0.contr.Idx) : (dot_S16x256x64_S16x256x64_S16x256x256_2_2_1_1_0_0.lhsIdx j q 1).val = (j 1).val := by
  unfold DotDims.lhsIdx
  rw [dif_neg (show ¬(1 : Fin S16x256x64.rank) ∈ dot_S16x256x64_S16x256x64_S16x256x256_2_2_1_1_0_0.lhsBatch by decide), dif_pos (show (1 : Fin S16x256x64.rank) ∈ dot_S16x256x64_S16x256x64_S16x256x256_2_2_1_1_0_0.lhsNonContracting by decide)]
  rfl
theorem qk16_lhs2 (j : S16x256x256.Idx) (q : dot_S16x256x64_S16x256x64_S16x256x256_2_2_1_1_0_0.contr.Idx) : (dot_S16x256x64_S16x256x64_S16x256x256_2_2_1_1_0_0.lhsIdx j q 2).val = (q ⟨0, by decide⟩).val :=
  dot_S16x256x64_S16x256x64_S16x256x256_2_2_1_1_0_0.lhsIdx_val_of_single rfl j q
theorem qk16_rhs0 (j : S16x256x256.Idx) (q : dot_S16x256x64_S16x256x64_S16x256x256_2_2_1_1_0_0.contr.Idx) : (dot_S16x256x64_S16x256x64_S16x256x256_2_2_1_1_0_0.rhsIdx j q 0).val = (j 0).val := by
  unfold DotDims.rhsIdx
  rw [dif_pos (show (0 : Fin S16x256x64.rank) ∈ dot_S16x256x64_S16x256x64_S16x256x256_2_2_1_1_0_0.rhsBatch by decide)]
  rfl
theorem qk16_rhs1 (j : S16x256x256.Idx) (q : dot_S16x256x64_S16x256x64_S16x256x256_2_2_1_1_0_0.contr.Idx) : (dot_S16x256x64_S16x256x64_S16x256x256_2_2_1_1_0_0.rhsIdx j q 1).val = (j 2).val := by
  unfold DotDims.rhsIdx
  rw [dif_neg (show ¬(1 : Fin S16x256x64.rank) ∈ dot_S16x256x64_S16x256x64_S16x256x256_2_2_1_1_0_0.rhsBatch by decide), dif_pos (show (1 : Fin S16x256x64.rank) ∈ dot_S16x256x64_S16x256x64_S16x256x256_2_2_1_1_0_0.rhsNonContracting by decide)]
  rfl
theorem qk16_rhs2 (j : S16x256x256.Idx) (q : dot_S16x256x64_S16x256x64_S16x256x256_2_2_1_1_0_0.contr.Idx) : (dot_S16x256x64_S16x256x64_S16x256x256_2_2_1_1_0_0.rhsIdx j q 2).val = (q ⟨0, by decide⟩).val :=
  dot_S16x256x64_S16x256x64_S16x256x256_2_2_1_1_0_0.rhsIdx_val_of_single rfl j q

/-- Slot `g`'s product of the rows of `A` with the rows of `B` over the 64 features, into a zero accumulator:
    entry `(s, k)` is the inner product of row `s` of `A` with row `k` of `B`. -/
theorem qk16_apply (A B : FVec Ideal S16x256x64 .bf16) (g : Fin 16) (s k : Fin 256) :
    matmul dot_S16x256x64_S16x256x64_S16x256x256_2_2_1_1_0_0 none A B (constant S16x256x256 .f32 0x00000000#32) (ix3 g s k)
      = ∑ e : Fin 64, A (ix3 g s e) * B (ix3 g k e) := by
  show FloatOps.matmul dot_S16x256x64_S16x256x64_S16x256x256_2_2_1_1_0_0 none A B (constant S16x256x256 .f32 0x00000000#32) (ix3 g s k) = _
  rw [Ideal.matmul_constant_zero_apply, ← Equiv.sum_comp (contrEquiv1 dot_S16x256x64_S16x256x64_S16x256x256_2_2_1_1_0_0 64 rfl rfl).symm]
  refine Finset.sum_congr rfl fun e _ => ?_
  have hk := contrEquiv1_symm_val dot_S16x256x64_S16x256x64_S16x256x256_2_2_1_1_0_0 64 rfl rfl e
  have el : dot_S16x256x64_S16x256x64_S16x256x256_2_2_1_1_0_0.lhsIdx (ix3 g s k) ((contrEquiv1 dot_S16x256x64_S16x256x64_S16x256x256_2_2_1_1_0_0 64 rfl rfl).symm e) = ix3 g s e := funext fun a => Fin.ext (by
    match a with
    | ⟨0, _⟩ => exact qk16_lhs0 _ _
    | ⟨1, _⟩ => exact qk16_lhs1 _ _
    | ⟨2, _⟩ => exact (qk16_lhs2 _ _).trans hk)
  have er : dot_S16x256x64_S16x256x64_S16x256x256_2_2_1_1_0_0.rhsIdx (ix3 g s k) ((contrEquiv1 dot_S16x256x64_S16x256x64_S16x256x256_2_2_1_1_0_0 64 rfl rfl).symm e) = ix3 g k e := funext fun a => Fin.ext (by
    match a with
    | ⟨0, _⟩ => exact qk16_rhs0 _ _
    | ⟨1, _⟩ => exact qk16_rhs1 _ _
    | ⟨2, _⟩ => exact (qk16_rhs2 _ _).trans hk)
  rw [el, er]

theorem pv16_lhs0 (j : S16x256x64.Idx) (q : dot_S16x256x256_S16x256x64_S16x256x64_2_1_1_2_0_0.contr.Idx) : (dot_S16x256x256_S16x256x64_S16x256x64_2_1_1_2_0_0.lhsIdx j q 0).val = (j 0).val := by
  unfold DotDims.lhsIdx
  rw [dif_pos (show (0 : Fin S16x256x256.rank) ∈ dot_S16x256x256_S16x256x64_S16x256x64_2_1_1_2_0_0.lhsBatch by decide)]
  rfl
theorem pv16_lhs1 (j : S16x256x64.Idx) (q : dot_S16x256x256_S16x256x64_S16x256x64_2_1_1_2_0_0.contr.Idx) : (dot_S16x256x256_S16x256x64_S16x256x64_2_1_1_2_0_0.lhsIdx j q 1).val = (j 1).val := by
  unfold DotDims.lhsIdx
  rw [dif_neg (show ¬(1 : Fin S16x256x256.rank) ∈ dot_S16x256x256_S16x256x64_S16x256x64_2_1_1_2_0_0.lhsBatch by decide), dif_pos (show (1 : Fin S16x256x256.rank) ∈ dot_S16x256x256_S16x256x64_S16x256x64_2_1_1_2_0_0.lhsNonContracting by decide)]
  rfl
theorem pv16_lhs2 (j : S16x256x64.Idx) (q : dot_S16x256x256_S16x256x64_S16x256x64_2_1_1_2_0_0.contr.Idx) : (dot_S16x256x256_S16x256x64_S16x256x64_2_1_1_2_0_0.lhsIdx j q 2).val = (q ⟨0, by decide⟩).val :=
  dot_S16x256x256_S16x256x64_S16x256x64_2_1_1_2_0_0.lhsIdx_val_of_single rfl j q
theorem pv16_rhs0 (j : S16x256x64.Idx) (q : dot_S16x256x256_S16x256x64_S16x256x64_2_1_1_2_0_0.contr.Idx) : (dot_S16x256x256_S16x256x64_S16x256x64_2_1_1_2_0_0.rhsIdx j q 0).val = (j 0).val := by
  unfold DotDims.rhsIdx
  rw [dif_pos (show (0 : Fin S16x256x64.rank) ∈ dot_S16x256x256_S16x256x64_S16x256x64_2_1_1_2_0_0.rhsBatch by decide)]
  rfl
theorem pv16_rhs1 (j : S16x256x64.Idx) (q : dot_S16x256x256_S16x256x64_S16x256x64_2_1_1_2_0_0.contr.Idx) : (dot_S16x256x256_S16x256x64_S16x256x64_2_1_1_2_0_0.rhsIdx j q 1).val = (q ⟨0, by decide⟩).val :=
  dot_S16x256x256_S16x256x64_S16x256x64_2_1_1_2_0_0.rhsIdx_val_of_single rfl j q
theorem pv16_rhs2 (j : S16x256x64.Idx) (q : dot_S16x256x256_S16x256x64_S16x256x64_2_1_1_2_0_0.contr.Idx) : (dot_S16x256x256_S16x256x64_S16x256x64_2_1_1_2_0_0.rhsIdx j q 2).val = (j 2).val := by
  unfold DotDims.rhsIdx
  rw [dif_neg (show ¬(2 : Fin S16x256x64.rank) ∈ dot_S16x256x256_S16x256x64_S16x256x64_2_1_1_2_0_0.rhsBatch by decide), dif_pos (show (2 : Fin S16x256x64.rank) ∈ dot_S16x256x256_S16x256x64_S16x256x64_2_1_1_2_0_0.rhsNonContracting by decide)]
  rfl

/-- Slot `g`'s product of the weights `P` with the rows of `V` over the 256 key rows, into a zero accumulator:
    entry `(s, d)` is the sum over `k` of `P (s, k)` times `V (k, d)`. -/
theorem pv16_apply (P : FVec Ideal S16x256x256 .bf16) (V : FVec Ideal S16x256x64 .bf16) (g : Fin 16) (s : Fin 256) (d : Fin 64) :
    matmul dot_S16x256x256_S16x256x64_S16x256x64_2_1_1_2_0_0 none P V (constant S16x256x64 .f32 0x00000000#32) (ix3 g s d)
      = ∑ k : Fin 256, P (ix3 g s k) * V (ix3 g k d) := by
  show FloatOps.matmul dot_S16x256x256_S16x256x64_S16x256x64_2_1_1_2_0_0 none P V (constant S16x256x64 .f32 0x00000000#32) (ix3 g s d) = _
  rw [Ideal.matmul_constant_zero_apply, ← Equiv.sum_comp (contrEquiv1 dot_S16x256x256_S16x256x64_S16x256x64_2_1_1_2_0_0 256 rfl rfl).symm]
  refine Finset.sum_congr rfl fun k _ => ?_
  have hk := contrEquiv1_symm_val dot_S16x256x256_S16x256x64_S16x256x64_2_1_1_2_0_0 256 rfl rfl k
  have el : dot_S16x256x256_S16x256x64_S16x256x64_2_1_1_2_0_0.lhsIdx (ix3 g s d) ((contrEquiv1 dot_S16x256x256_S16x256x64_S16x256x64_2_1_1_2_0_0 256 rfl rfl).symm k) = ix3 g s k := funext fun a => Fin.ext (by
    match a with
    | ⟨0, _⟩ => exact pv16_lhs0 _ _
    | ⟨1, _⟩ => exact pv16_lhs1 _ _
    | ⟨2, _⟩ => exact (pv16_lhs2 _ _).trans hk)
  have er : dot_S16x256x256_S16x256x64_S16x256x64_2_1_1_2_0_0.rhsIdx (ix3 g s d) ((contrEquiv1 dot_S16x256x256_S16x256x64_S16x256x64_2_1_1_2_0_0 256 rfl rfl).symm k) = ix3 g k d := funext fun a => Fin.ext (by
    match a with
    | ⟨0, _⟩ => exact pv16_rhs0 _ _
    | ⟨1, _⟩ => exact (pv16_rhs1 _ _).trans hk
    | ⟨2, _⟩ => exact pv16_rhs2 _ _)
  rw [el, er]

/-- The sum along the key axis, read at `(g, s)`. The reduction's side condition, that its accumulator word is the zero
    word, is an equation `0 = 0` between literal words, and the statement spells it so. -/
theorem rowsum16_apply (src : FVec Ideal S16x256x256 .f32) (g : Fin 16) (s : Fin 256) :
    multiReduction (F := Ideal) .add [2] S16x256 src 0x00000000#32 reduces_S16x256x256_S16x256 (.inl rfl) rfl (ix2 g s)
      = ∑ k : Fin 256, src (ix3 g s k) := by
  refine (Ideal.multiReduction_add_single src 0x00000000#32 reduces_S16x256x256_S16x256 (.inl rfl) rfl (ix2 g s)).trans ?_
  refine Finset.sum_congr rfl fun k _ => congrArg src (funext fun a => Fin.ext (by
    match a with
    | ⟨0, _⟩ => rfl
    | ⟨1, _⟩ => rfl
    | ⟨2, _⟩ => rfl))

/-- A `[16, 256]` array kept as a column `[16, 256, 1]` reads `(g, s)` at `(g, s, z)`. -/
theorem col16_apply {α : Type} (x : S16x256.Idx → α) (g : Fin 16) (s : Fin 256) (z : Fin 1) :
    shapeCast S16x256x1 x shapeCasts_S16x256_S16x256x1 (ix3 g s z) = x (ix2 g s) :=
  shapeCast_apply x _ _ _ (by
    have hz : z.val = 0 := by omega
    rw [Shape.rowMajor_val_two, Shape.rowMajor_val_three]
    show g.val * 256 + s.val = (g.val * 256 + s.val) * 1 + z.val
    omega)

/-! ### The two batched products over 8 leading slots, read at an index -/

theorem qk8_lhs0 (j : S8x256x256.Idx) (q : dot_S8x256x64_S8x256x64_S8x256x256_2_2_1_1_0_0.contr.Idx) : (dot_S8x256x64_S8x256x64_S8x256x256_2_2_1_1_0_0.lhsIdx j q 0).val = (j 0).val := by
  unfold DotDims.lhsIdx
  rw [dif_pos (show (0 : Fin S8x256x64.rank) ∈ dot_S8x256x64_S8x256x64_S8x256x256_2_2_1_1_0_0.lhsBatch by decide)]
  rfl
theorem qk8_lhs1 (j : S8x256x256.Idx) (q : dot_S8x256x64_S8x256x64_S8x256x256_2_2_1_1_0_0.contr.Idx) : (dot_S8x256x64_S8x256x64_S8x256x256_2_2_1_1_0_0.lhsIdx j q 1).val = (j 1).val := by
  unfold DotDims.lhsIdx
  rw [dif_neg (show ¬(1 : Fin S8x256x64.rank) ∈ dot_S8x256x64_S8x256x64_S8x256x256_2_2_1_1_0_0.lhsBatch by decide), dif_pos (show (1 : Fin S8x256x64.rank) ∈ dot_S8x256x64_S8x256x64_S8x256x256_2_2_1_1_0_0.lhsNonContracting by decide)]
  rfl
theorem qk8_lhs2 (j : S8x256x256.Idx) (q : dot_S8x256x64_S8x256x64_S8x256x256_2_2_1_1_0_0.contr.Idx) : (dot_S8x256x64_S8x256x64_S8x256x256_2_2_1_1_0_0.lhsIdx j q 2).val = (q ⟨0, by decide⟩).val :=
  dot_S8x256x64_S8x256x64_S8x256x256_2_2_1_1_0_0.lhsIdx_val_of_single rfl j q
theorem qk8_rhs0 (j : S8x256x256.Idx) (q : dot_S8x256x64_S8x256x64_S8x256x256_2_2_1_1_0_0.contr.Idx) : (dot_S8x256x64_S8x256x64_S8x256x256_2_2_1_1_0_0.rhsIdx j q 0).val = (j 0).val := by
  unfold DotDims.rhsIdx
  rw [dif_pos (show (0 : Fin S8x256x64.rank) ∈ dot_S8x256x64_S8x256x64_S8x256x256_2_2_1_1_0_0.rhsBatch by decide)]
  rfl
theorem qk8_rhs1 (j : S8x256x256.Idx) (q : dot_S8x256x64_S8x256x64_S8x256x256_2_2_1_1_0_0.contr.Idx) : (dot_S8x256x64_S8x256x64_S8x256x256_2_2_1_1_0_0.rhsIdx j q 1).val = (j 2).val := by
  unfold DotDims.rhsIdx
  rw [dif_neg (show ¬(1 : Fin S8x256x64.rank) ∈ dot_S8x256x64_S8x256x64_S8x256x256_2_2_1_1_0_0.rhsBatch by decide), dif_pos (show (1 : Fin S8x256x64.rank) ∈ dot_S8x256x64_S8x256x64_S8x256x256_2_2_1_1_0_0.rhsNonContracting by decide)]
  rfl
theorem qk8_rhs2 (j : S8x256x256.Idx) (q : dot_S8x256x64_S8x256x64_S8x256x256_2_2_1_1_0_0.contr.Idx) : (dot_S8x256x64_S8x256x64_S8x256x256_2_2_1_1_0_0.rhsIdx j q 2).val = (q ⟨0, by decide⟩).val :=
  dot_S8x256x64_S8x256x64_S8x256x256_2_2_1_1_0_0.rhsIdx_val_of_single rfl j q

/-- Slot `g`'s product of the rows of `A` with the rows of `B` over the 64 features, into a zero accumulator:
    entry `(s, k)` is the inner product of row `s` of `A` with row `k` of `B`. -/
theorem qk8_apply (A B : FVec Ideal S8x256x64 .bf16) (g : Fin 8) (s k : Fin 256) :
    matmul dot_S8x256x64_S8x256x64_S8x256x256_2_2_1_1_0_0 none A B (constant S8x256x256 .f32 0x00000000#32) (ix3 g s k)
      = ∑ e : Fin 64, A (ix3 g s e) * B (ix3 g k e) := by
  show FloatOps.matmul dot_S8x256x64_S8x256x64_S8x256x256_2_2_1_1_0_0 none A B (constant S8x256x256 .f32 0x00000000#32) (ix3 g s k) = _
  rw [Ideal.matmul_constant_zero_apply, ← Equiv.sum_comp (contrEquiv1 dot_S8x256x64_S8x256x64_S8x256x256_2_2_1_1_0_0 64 rfl rfl).symm]
  refine Finset.sum_congr rfl fun e _ => ?_
  have hk := contrEquiv1_symm_val dot_S8x256x64_S8x256x64_S8x256x256_2_2_1_1_0_0 64 rfl rfl e
  have el : dot_S8x256x64_S8x256x64_S8x256x256_2_2_1_1_0_0.lhsIdx (ix3 g s k) ((contrEquiv1 dot_S8x256x64_S8x256x64_S8x256x256_2_2_1_1_0_0 64 rfl rfl).symm e) = ix3 g s e := funext fun a => Fin.ext (by
    match a with
    | ⟨0, _⟩ => exact qk8_lhs0 _ _
    | ⟨1, _⟩ => exact qk8_lhs1 _ _
    | ⟨2, _⟩ => exact (qk8_lhs2 _ _).trans hk)
  have er : dot_S8x256x64_S8x256x64_S8x256x256_2_2_1_1_0_0.rhsIdx (ix3 g s k) ((contrEquiv1 dot_S8x256x64_S8x256x64_S8x256x256_2_2_1_1_0_0 64 rfl rfl).symm e) = ix3 g k e := funext fun a => Fin.ext (by
    match a with
    | ⟨0, _⟩ => exact qk8_rhs0 _ _
    | ⟨1, _⟩ => exact qk8_rhs1 _ _
    | ⟨2, _⟩ => exact (qk8_rhs2 _ _).trans hk)
  rw [el, er]

theorem pv8_lhs0 (j : S8x256x64.Idx) (q : dot_S8x256x256_S8x256x64_S8x256x64_2_1_1_2_0_0.contr.Idx) : (dot_S8x256x256_S8x256x64_S8x256x64_2_1_1_2_0_0.lhsIdx j q 0).val = (j 0).val := by
  unfold DotDims.lhsIdx
  rw [dif_pos (show (0 : Fin S8x256x256.rank) ∈ dot_S8x256x256_S8x256x64_S8x256x64_2_1_1_2_0_0.lhsBatch by decide)]
  rfl
theorem pv8_lhs1 (j : S8x256x64.Idx) (q : dot_S8x256x256_S8x256x64_S8x256x64_2_1_1_2_0_0.contr.Idx) : (dot_S8x256x256_S8x256x64_S8x256x64_2_1_1_2_0_0.lhsIdx j q 1).val = (j 1).val := by
  unfold DotDims.lhsIdx
  rw [dif_neg (show ¬(1 : Fin S8x256x256.rank) ∈ dot_S8x256x256_S8x256x64_S8x256x64_2_1_1_2_0_0.lhsBatch by decide), dif_pos (show (1 : Fin S8x256x256.rank) ∈ dot_S8x256x256_S8x256x64_S8x256x64_2_1_1_2_0_0.lhsNonContracting by decide)]
  rfl
theorem pv8_lhs2 (j : S8x256x64.Idx) (q : dot_S8x256x256_S8x256x64_S8x256x64_2_1_1_2_0_0.contr.Idx) : (dot_S8x256x256_S8x256x64_S8x256x64_2_1_1_2_0_0.lhsIdx j q 2).val = (q ⟨0, by decide⟩).val :=
  dot_S8x256x256_S8x256x64_S8x256x64_2_1_1_2_0_0.lhsIdx_val_of_single rfl j q
theorem pv8_rhs0 (j : S8x256x64.Idx) (q : dot_S8x256x256_S8x256x64_S8x256x64_2_1_1_2_0_0.contr.Idx) : (dot_S8x256x256_S8x256x64_S8x256x64_2_1_1_2_0_0.rhsIdx j q 0).val = (j 0).val := by
  unfold DotDims.rhsIdx
  rw [dif_pos (show (0 : Fin S8x256x64.rank) ∈ dot_S8x256x256_S8x256x64_S8x256x64_2_1_1_2_0_0.rhsBatch by decide)]
  rfl
theorem pv8_rhs1 (j : S8x256x64.Idx) (q : dot_S8x256x256_S8x256x64_S8x256x64_2_1_1_2_0_0.contr.Idx) : (dot_S8x256x256_S8x256x64_S8x256x64_2_1_1_2_0_0.rhsIdx j q 1).val = (q ⟨0, by decide⟩).val :=
  dot_S8x256x256_S8x256x64_S8x256x64_2_1_1_2_0_0.rhsIdx_val_of_single rfl j q
theorem pv8_rhs2 (j : S8x256x64.Idx) (q : dot_S8x256x256_S8x256x64_S8x256x64_2_1_1_2_0_0.contr.Idx) : (dot_S8x256x256_S8x256x64_S8x256x64_2_1_1_2_0_0.rhsIdx j q 2).val = (j 2).val := by
  unfold DotDims.rhsIdx
  rw [dif_neg (show ¬(2 : Fin S8x256x64.rank) ∈ dot_S8x256x256_S8x256x64_S8x256x64_2_1_1_2_0_0.rhsBatch by decide), dif_pos (show (2 : Fin S8x256x64.rank) ∈ dot_S8x256x256_S8x256x64_S8x256x64_2_1_1_2_0_0.rhsNonContracting by decide)]
  rfl

/-- Slot `g`'s product of the weights `P` with the rows of `V` over the 256 key rows, into a zero accumulator:
    entry `(s, d)` is the sum over `k` of `P (s, k)` times `V (k, d)`. -/
theorem pv8_apply (P : FVec Ideal S8x256x256 .bf16) (V : FVec Ideal S8x256x64 .bf16) (g : Fin 8) (s : Fin 256) (d : Fin 64) :
    matmul dot_S8x256x256_S8x256x64_S8x256x64_2_1_1_2_0_0 none P V (constant S8x256x64 .f32 0x00000000#32) (ix3 g s d)
      = ∑ k : Fin 256, P (ix3 g s k) * V (ix3 g k d) := by
  show FloatOps.matmul dot_S8x256x256_S8x256x64_S8x256x64_2_1_1_2_0_0 none P V (constant S8x256x64 .f32 0x00000000#32) (ix3 g s d) = _
  rw [Ideal.matmul_constant_zero_apply, ← Equiv.sum_comp (contrEquiv1 dot_S8x256x256_S8x256x64_S8x256x64_2_1_1_2_0_0 256 rfl rfl).symm]
  refine Finset.sum_congr rfl fun k _ => ?_
  have hk := contrEquiv1_symm_val dot_S8x256x256_S8x256x64_S8x256x64_2_1_1_2_0_0 256 rfl rfl k
  have el : dot_S8x256x256_S8x256x64_S8x256x64_2_1_1_2_0_0.lhsIdx (ix3 g s d) ((contrEquiv1 dot_S8x256x256_S8x256x64_S8x256x64_2_1_1_2_0_0 256 rfl rfl).symm k) = ix3 g s k := funext fun a => Fin.ext (by
    match a with
    | ⟨0, _⟩ => exact pv8_lhs0 _ _
    | ⟨1, _⟩ => exact pv8_lhs1 _ _
    | ⟨2, _⟩ => exact (pv8_lhs2 _ _).trans hk)
  have er : dot_S8x256x256_S8x256x64_S8x256x64_2_1_1_2_0_0.rhsIdx (ix3 g s d) ((contrEquiv1 dot_S8x256x256_S8x256x64_S8x256x64_2_1_1_2_0_0 256 rfl rfl).symm k) = ix3 g k d := funext fun a => Fin.ext (by
    match a with
    | ⟨0, _⟩ => exact pv8_rhs0 _ _
    | ⟨1, _⟩ => exact (pv8_rhs1 _ _).trans hk
    | ⟨2, _⟩ => exact pv8_rhs2 _ _)
  rw [el, er]

/-- The sum along the key axis, read at `(g, s)`. The reduction's side condition, that its accumulator word is the zero
    word, is an equation `0 = 0` between literal words, and the statement spells it so. -/
theorem rowsum8_apply (src : FVec Ideal S8x256x256 .f32) (g : Fin 8) (s : Fin 256) :
    multiReduction (F := Ideal) .add [2] S8x256 src 0x00000000#32 reduces_S8x256x256_S8x256 (.inl rfl) rfl (ix2 g s)
      = ∑ k : Fin 256, src (ix3 g s k) := by
  refine (Ideal.multiReduction_add_single src 0x00000000#32 reduces_S8x256x256_S8x256 (.inl rfl) rfl (ix2 g s)).trans ?_
  refine Finset.sum_congr rfl fun k _ => congrArg src (funext fun a => Fin.ext (by
    match a with
    | ⟨0, _⟩ => rfl
    | ⟨1, _⟩ => rfl
    | ⟨2, _⟩ => rfl))

/-- A `[8, 256]` array kept as a column `[8, 256, 1]` reads `(g, s)` at `(g, s, z)`. -/
theorem col8_apply {α : Type} (x : S8x256.Idx → α) (g : Fin 8) (s : Fin 256) (z : Fin 1) :
    shapeCast S8x256x1 x shapeCasts_S8x256_S8x256x1 (ix3 g s z) = x (ix2 g s) :=
  shapeCast_apply x _ _ _ (by
    have hz : z.val = 0 := by omega
    rw [Shape.rowMajor_val_two, Shape.rowMajor_val_three]
    show g.val * 256 + s.val = (g.val * 256 + s.val) * 1 + z.val
    omega)

end Cert.KernelIdeal.KVal

end
-- ==== Proof.KValLayout.lean ====
/-
  Where an element of a device's block sits in the body's rearrangements. A block is `[batch, row, head, feature]`;
  the staged plane has row `256 b + k` and column `64 h + e`; the head-major arrays have leading slot `8 b + h`.
  Every lemma reads one chain of reshapes and transposes at explicit coordinates.
-/
import proofs.«900411_g7700000000000412_dist_agattn_v7x_xy2x2_x_b2_s256_h8_d64_bf16_1_alg».proof.Proof.Spec
import proofs.«900411_g7700000000000412_dist_agattn_v7x_xy2x2_x_b2_s256_h8_d64_bf16_1_alg».proof.Proof.Flow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Idealize.ShloMosaic Idealize.ShloMosaic.ValueIdx Cert.KernelIdeal Cert.KernelIdeal.Gen Cert.KernelIdeal.Flow Cert.Attn

/-- The leading slot of batch `b`, head `h` in a head-major array. -/
def slot (b : Fin 2) (h : Fin 8) : Fin 16 := ⟨8 * b.val + h.val, by omega⟩
/-- The plane's row of batch `b`, sequence row `k`. -/
def prow (b : Fin 2) (k : Fin 256) : Fin 512 := ⟨256 * b.val + k.val, by omega⟩
/-- The plane's column of head `h`, feature `e`. -/
def pcol (h : Fin 8) (e : Fin 64) : Fin 512 := ⟨64 * h.val + e.val, by omega⟩

/-- The staged key plane at row `256 b + k`, column `64 h + e` is the block's element `(b, k, h, e)`. -/
theorem planeK_apply (x : Vec Ideal S2x256x8x64 .f32) (b : Fin 2) (k : Fin 256) (h : Fin 8) (e : Fin 64) :
    planeK (F := Ideal) x (ix3 (0 : Fin 1) (prow b k) (pcol h e)) = x (ix4 b k h e) := by
  unfold planeK k0_pay1
  refine (shapeCast_ab_1ab_apply _ _ _ _ _).trans ?_
  rw [truncf_apply]
  refine (shapeCast_apply _ _ _ (ix4 b k h e) ?_).trans ?_
  · rw [Shape.rowMajor_val_four, Shape.rowMajor_val_two]
    show ((b.val * 256 + k.val) * 8 + h.val) * 64 + e.val = (256 * b.val + k.val) * 512 + (64 * h.val + e.val)
    omega
  · rw [shapeCast_self]

/-- The staged value plane, the same layout. -/
theorem planeV_apply (x : Vec Ideal S2x256x8x64 .f32) (b : Fin 2) (k : Fin 256) (h : Fin 8) (e : Fin 64) :
    planeV (F := Ideal) x (ix3 (0 : Fin 1) (prow b k) (pcol h e)) = x (ix4 b k h e) := by
  unfold planeV k0_pay3 k0_pay2
  refine (shapeCast_ab_1ab_apply _ _ _ _ _).trans ?_
  rw [truncf_apply]
  refine (shapeCast_apply _ _ _ (ix4 b k h e) ?_).trans ?_
  · rw [Shape.rowMajor_val_four, Shape.rowMajor_val_two]
    show ((b.val * 256 + k.val) * 8 + h.val) * 64 + e.val = (256 * b.val + k.val) * 512 + (64 * h.val + e.val)
    omega
  · rw [shapeCast_self]

/-- A plane rearranged head-major: slot `8 b + h`, row `k`, feature `e` reads the plane at row `256 b + k`, column `64 h + e`. -/
theorem headMajor_apply (p : Vec Ideal S1x512x512 .bf16) (b : Fin 2) (h : Fin 8) (k : Fin 256) (e : Fin 64) :
    k0_pay6 (F := Ideal) p (ix3 (slot b h) k e) = p (ix3 (0 : Fin 1) (prow b k) (pcol h e)) := by
  unfold k0_pay6
  refine (shapeCast_apply _ _ _ (ix4 b h k e) ?_).trans ?_
  · rw [Shape.rowMajor_val_four, Shape.rowMajor_val_three]
    show ((b.val * 8 + h.val) * 256 + k.val) * 64 + e.val = ((8 * b.val + h.val) * 256 + k.val) * 64 + e.val
    omega
  refine (transpose_apply _ _ _ _ (ix4 b k h e) fun c => match c with
    | ⟨0, _⟩ => rfl | ⟨1, _⟩ => rfl | ⟨2, _⟩ => rfl | ⟨3, _⟩ => rfl).trans ?_
  refine (shapeCast_apply _ _ _ (ix2 (prow b k) (pcol h e)) ?_).trans ?_
  · rw [Shape.rowMajor_val_two, Shape.rowMajor_val_four]
    show (256 * b.val + k.val) * 512 + (64 * h.val + e.val) = ((b.val * 256 + k.val) * 8 + h.val) * 64 + e.val
    omega
  exact shapeCast_1ab_ab_apply _ _ _ _

/-- The value plane goes through the same rearrangement. -/
theorem headMajorV_eq (p : Vec Ideal S1x512x512 .bf16) : k0_pay7 (F := Ideal) p = k0_pay6 (F := Ideal) p := rfl

/-- The device's own keys, head-major, are the key block's elements. -/
theorem ownK_apply (x : Vec Ideal S2x256x8x64 .f32) (b : Fin 2) (h : Fin 8) (k : Fin 256) (e : Fin 64) :
    k0_pay6 (F := Ideal) (planeK x) (ix3 (slot b h) k e) = x (ix4 b k h e) :=
  (headMajor_apply _ b h k e).trans (planeK_apply x b k h e)

/-- The device's own values, head-major, are the value block's elements. -/
theorem ownV_apply (x : Vec Ideal S2x256x8x64 .f32) (b : Fin 2) (h : Fin 8) (k : Fin 256) (e : Fin 64) :
    k0_pay7 (F := Ideal) (planeV x) (ix3 (slot b h) k e) = x (ix4 b k h e) := by
  rw [headMajorV_eq]
  exact (headMajor_apply _ b h k e).trans (planeV_apply x b k h e)

/-- The scaled queries, head-major: slot `8 b + h`, row `s`, feature `e` is the query block's `(b, s, h, e)` times one eighth. -/
theorem qt_apply (q : Vec Ideal S2x256x8x64 .f32) (b : Fin 2) (h : Fin 8) (s : Fin 256) (e : Fin 64) :
    qt (F := Ideal) q (ix3 (slot b h) s e) = q (ix4 b s h e) * eighth := by
  unfold qt k0_pay5 k0_pay4
  refine (shapeCast_apply _ _ _ (ix4 b h s e) ?_).trans ?_
  · rw [Shape.rowMajor_val_four, Shape.rowMajor_val_three]
    show ((b.val * 8 + h.val) * 256 + s.val) * 64 + e.val = ((8 * b.val + h.val) * 256 + s.val) * 64 + e.val
    omega
  refine (transpose_apply _ _ _ _ (ix4 b s h e) fun c => match c with
    | ⟨0, _⟩ => rfl | ⟨1, _⟩ => rfl | ⟨2, _⟩ => rfl | ⟨3, _⟩ => rfl).trans ?_
  rw [truncf_apply, mulf_apply, shapeCast_self, broadcast_apply]
  rfl

/-- Half `b` of a plane at row `k` is the plane at row `256 b + k`. -/
theorem half_apply {α : Type} (b : Fin 2) (p : S1x512x512.Idx → α) (k : Fin 256) (c : Fin 512) :
    half b p (ix3 (0 : Fin 1) k c) = p (ix3 (0 : Fin 1) (prow b k) c) := rfl

/-- A received half-plane rearranged head-major: head `h`, row `k`, feature `e` reads row `k`, column `64 h + e`. -/
theorem recv_apply (p : Vec Ideal S1x256x512 .bf16) (h : Fin 8) (k : Fin 256) (e : Fin 64) :
    k0_pay13 (F := Ideal) p (ix3 h k e) = p (ix3 (0 : Fin 1) k (pcol h e)) := by
  unfold k0_pay13
  refine (transpose_apply _ _ _ _ (ix3 k h e) fun c => match c with
    | ⟨0, _⟩ => rfl | ⟨1, _⟩ => rfl | ⟨2, _⟩ => rfl).trans ?_
  refine (shapeCast_apply _ _ _ (ix2 k (pcol h e)) ?_).trans ?_
  · rw [Shape.rowMajor_val_two, Shape.rowMajor_val_three]
    show k.val * 512 + (64 * h.val + e.val) = (k.val * 8 + h.val) * 64 + e.val
    omega
  exact shapeCast_1ab_ab_apply _ _ _ _

/-- The received keys of batch `b`, head-major, are the sender's key block's elements. -/
theorem recvK_apply (x : Vec Ideal S2x256x8x64 .f32) (b : Fin 2) (h : Fin 8) (k : Fin 256) (e : Fin 64) :
    k0_pay13 (F := Ideal) (half b (planeK (F := Ideal) x)) (ix3 h k e) = x (ix4 b k h e) :=
  (recv_apply _ h k e).trans ((half_apply b _ k (pcol h e)).trans (planeK_apply x b k h e))

/-- The received values of batch `b`, head-major, are the sender's value block's elements. -/
theorem recvV_apply (x : Vec Ideal S2x256x8x64 .f32) (b : Fin 2) (h : Fin 8) (k : Fin 256) (e : Fin 64) :
    k0_pay13 (F := Ideal) (half b (planeV (F := Ideal) x)) (ix3 h k e) = x (ix4 b k h e) :=
  (recv_apply _ h k e).trans ((half_apply b _ k (pcol h e)).trans (planeV_apply x b k h e))

/-- Eight consecutive leading slots of a head-major array: slot `g` of the slice is slot `off 0 + g` of the array. -/
theorem slots_apply {α : Type} {n : Nat} (off : Fin 3 → Nat)
    (hs : (⟨3, ![16, 256, n]⟩ : Shape).Slices off ⟨3, ![8, 256, n]⟩) (x : (⟨3, ![16, 256, n]⟩ : Shape).Idx → α)
    (g : Fin 8) (s : Fin 256) (e : Fin n) (g' : Fin 16) (h0 : g'.val = off 0 + g.val) (h1 : off 1 = 0) (h2 : off 2 = 0) :
    extractStridedSlice ⟨3, ![8, 256, n]⟩ off x hs (ix3 g s e) = x (ix3 g' s e) :=
  extractStridedSlice_apply off x hs _ _ fun a => match a with
    | ⟨0, _⟩ => h0
    | ⟨1, _⟩ => by show s.val = off 1 + s.val; omega
    | ⟨2, _⟩ => by show e.val = off 2 + e.val; omega

/-- A column `[8, 256, 1]` spread over the 64 features reads the column's entry. -/
theorem spread_apply {α : Type} (x : S8x256x1.Idx → α) (g : Fin 8) (s : Fin 256) (d : Fin 64) :
    broadcastTo S8x256x64 x broadcasts_S8x256x1_S8x256x64 (ix3 g s d) = x (ix3 g s (0 : Fin 1)) :=
  broadcastTo_apply x _ _ _ fun a => match a with
    | ⟨0, _⟩ => by show g.val = if (8 : Nat) = 1 then 0 else g.val; rw [if_neg (by decide)]
    | ⟨1, _⟩ => by show s.val = if (256 : Nat) = 1 then 0 else s.val; rw [if_neg (by decide)]
    | ⟨2, _⟩ => by show 0 = if (1 : Nat) = 1 then 0 else d.val; rw [if_pos rfl]

/-- The result put back row-major: row `s`, head `h` reads head `h`, row `s`. -/
theorem back_apply {α : Type} (x : S8x256x64.Idx → α) (s : Fin 256) (h : Fin 8) (d : Fin 64) :
    transpose S256x8x64 [1, 0, 2] x transposes_S8x256x64_p1_0_2_S256x8x64 (ix3 s h d) = x (ix3 h s d) :=
  transpose_apply _ x _ _ _ fun c => match c with | ⟨0, _⟩ => rfl | ⟨1, _⟩ => rfl | ⟨2, _⟩ => rfl

end Cert.KernelIdeal.KVal

end
-- ==== Proof.KValOut.lean ====
/-
  The body's two stored blocks at an index are the attention of the specification.

  Own rows first: the score array `s1` at slot `8 b + h`, row `s`, key row `k` is `score q kl b s h k`; the column `l1`
  is the sum over `k` of its exponentials and `u1` the sum of the exponentials times the values. Then the part over
  the received rows, which the body computes once per batch with the same operations on eight slots; both batches are
  one function (`tail` of `weights`) of slices of the own-row arrays and of the received half-planes, so it is read at
  an index once.
-/
import proofs.«900411_g7700000000000412_dist_agattn_v7x_xy2x2_x_b2_s256_h8_d64_bf16_1_alg».proof.Proof.Spec
import proofs.«900411_g7700000000000412_dist_agattn_v7x_xy2x2_x_b2_s256_h8_d64_bf16_1_alg».proof.Proof.Flow
import proofs.«900411_g7700000000000412_dist_agattn_v7x_xy2x2_x_b2_s256_h8_d64_bf16_1_alg».proof.Proof.KValOps
import proofs.«900411_g7700000000000412_dist_agattn_v7x_xy2x2_x_b2_s256_h8_d64_bf16_1_alg».proof.Proof.KValLayout

noncomputable section

namespace Cert.KernelIdeal.KVal

open Idealize.ShloMosaic Idealize.ShloMosaic.ValueIdx Cert.KernelIdeal Cert.KernelIdeal.Gen Cert.KernelIdeal.Flow Cert.Attn

/-! ## The device's own rows -/

/-- The own-row scores are the specification's scores against the device's key block. -/
theorem s1_apply (q kl : Vec Ideal S2x256x8x64 .f32) (b : Fin 2) (h : Fin 8) (s k : Fin 256) :
    s1 (F := Ideal) q (planeK kl) (ix3 (slot b h) s k) = score q kl b s h k := by
  unfold s1 k0_pay8
  refine (qk16_apply _ _ _ _ _).trans ?_
  unfold score
  refine Finset.sum_congr rfl fun e _ => ?_
  rw [qt_apply, ownK_apply]

/-- The own-row weights summed over the key rows. -/
theorem l1_apply (q kl : Vec Ideal S2x256x8x64 .f32) (b : Fin 2) (h : Fin 8) (s : Fin 256) (z : Fin 1) :
    l1 (F := Ideal) q (planeK kl) (ix3 (slot b h) s z) = ∑ k : Fin 256, Ideal.exp (score q kl b s h k) := by
  unfold l1 k0_pay10 k0_pay9
  refine (col16_apply _ _ _ _).trans ?_
  refine (rowsum16_apply _ _ _).trans ?_
  refine Finset.sum_congr rfl fun k _ => ?_
  show Ideal.exp (s1 (F := Ideal) q (planeK kl) (ix3 (slot b h) s k)) = _
  rw [s1_apply]

/-- The own-row weighted values. -/
theorem u1_apply (q kl vl : Vec Ideal S2x256x8x64 .f32) (b : Fin 2) (h : Fin 8) (s : Fin 256) (d : Fin 64) :
    u1 (F := Ideal) q (planeK kl) (planeV vl) (ix3 (slot b h) s d)
      = ∑ k : Fin 256, Ideal.exp (score q kl b s h k) * vl (ix4 b k h d) := by
  unfold u1 k0_pay11 k0_pay9
  refine (pv16_apply _ _ _ _ _).trans ?_
  refine Finset.sum_congr rfl fun k _ => ?_
  rw [ownV_apply]
  show Ideal.exp (s1 (F := Ideal) q (planeK kl) (ix3 (slot b h) s k)) * _ = _
  rw [s1_apply]

/-! ## The received rows and the final division -/

/-- The weights of eight slots of queries against received keys: the exponentials of their inner products. -/
def weights (qs kt : FVec Ideal S8x256x64 .bf16) : FVec Ideal S8x256x256 .f32 :=
  exp (matmul dot_S8x256x64_S8x256x64_S8x256x256_2_2_1_1_0_0 none qs kt (constant S8x256x256 .f32 0x00000000#32))

theorem weights_apply (qs kt : FVec Ideal S8x256x64 .bf16) (h : Fin 8) (s k : Fin 256) :
    weights qs kt (ix3 h s k) = Ideal.exp (∑ e : Fin 64, qs (ix3 h s e) * kt (ix3 h k e)) := by
  unfold weights
  show Ideal.exp (matmul dot_S8x256x64_S8x256x64_S8x256x256_2_2_1_1_0_0 none qs kt (constant S8x256x256 .f32 0x00000000#32) (ix3 h s k)) = _
  rw [qk8_apply]

/-- What a batch stores, from its eight slots of own-row sums `ua`, `la`, the weights `p` against the received keys and
    the received values `vt`: the two weighted sums added, the two weight sums added, the quotient, put back row-major. -/
def tail (ua : FVec Ideal S8x256x64 .f32) (la : FVec Ideal S8x256x1 .f32) (p : FVec Ideal S8x256x256 .f32)
    (vt : FVec Ideal S8x256x64 .bf16) : FVec Ideal S1x256x8x64 .bf16 :=
  shapeCast S1x256x8x64
    (truncf .bf16
      (transpose S256x8x64 [1, 0, 2]
        (divf
          (addf ua (matmul dot_S8x256x256_S8x256x64_S8x256x64_2_1_1_2_0_0 none (truncf .bf16 p bitsLt_bf16_f32) vt (constant S8x256x64 .f32 0x00000000#32)))
          (broadcastTo S8x256x64
            (addf la (shapeCast S8x256x1
              (multiReduction .add [2] S8x256 p 0x00000000#32 reduces_S8x256x256_S8x256 (.inl rfl) rfl)
              shapeCasts_S8x256_S8x256x1))
            broadcasts_S8x256x1_S8x256x64))
        transposes_S8x256x64_p1_0_2_S256x8x64)
      bitsLt_bf16_f32)
    shapeCasts_S256x8x64_S1x256x8x64

theorem tail_apply (ua : FVec Ideal S8x256x64 .f32) (la : FVec Ideal S8x256x1 .f32) (p : FVec Ideal S8x256x256 .f32)
    (vt : FVec Ideal S8x256x64 .bf16) (s : Fin 256) (h : Fin 8) (d : Fin 64) :
    tail ua la p vt (ix4 (0 : Fin 1) s h d)
      = Ideal.div (ua (ix3 h s d) + ∑ k : Fin 256, p (ix3 h s k) * vt (ix3 h k d))
          (la (ix3 h s (0 : Fin 1)) + ∑ k : Fin 256, p (ix3 h s k)) := by
  unfold tail
  refine (shapeCast_abc_1abc_apply _ _ _ _ _ _).trans ?_
  rw [truncf_apply]
  refine (back_apply _ _ _ _).trans ?_
  rw [divf_apply, addf_apply, pv8_apply, spread_apply, addf_apply, col8_apply, rowsum8_apply]
  rfl

/-- Batch 0's stored block is `tail` of the first eight slots. -/
theorem pay12_eq_tail (qtv : FVec Ideal S16x256x64 .bf16) (l1v : FVec Ideal S16x256x1 .f32) (u1v : FVec Ideal S16x256x64 .f32)
    (rk rv : Vec Ideal S1x256x512 .bf16) :
    k0_pay12 (F := Ideal) qtv l1v u1v rk rv
      = tail (extractStridedSlice S8x256x64 ![0, 0, 0] u1v slices_S16x256x64_o0_0_0_S8x256x64)
          (extractStridedSlice S8x256x1 ![0, 0, 0] l1v slices_S16x256x1_o0_0_0_S8x256x1)
          (weights (extractStridedSlice S8x256x64 ![0, 0, 0] qtv slices_S16x256x64_o0_0_0_S8x256x64) (k0_pay13 rk))
          (k0_pay13 rv) := rfl

/-- Batch 1's stored block is `tail` of the last eight slots. -/
theorem pay17_eq_tail (qtv : FVec Ideal S16x256x64 .bf16) (l1v : FVec Ideal S16x256x1 .f32) (u1v : FVec Ideal S16x256x64 .f32)
    (rk rv : Vec Ideal S1x256x512 .bf16) :
    k0_pay17 (F := Ideal) l1v u1v (k0_pay13 rv) (k0_pay15 qtv rk) (k0_pay16 qtv rk)
      = tail (extractStridedSlice S8x256x64 ![8, 0, 0] u1v slices_S16x256x64_o8_0_0_S8x256x64)
          (extractStridedSlice S8x256x1 ![8, 0, 0] l1v slices_S16x256x1_o8_0_0_S8x256x1)
          (weights (extractStridedSlice S8x256x64 ![8, 0, 0] qtv slices_S16x256x64_o8_0_0_S8x256x64) (k0_pay13 rk))
          (k0_pay13 rv) := rfl

/-- The weights of batch `b`'s queries against the received keys are the exponentials of the specification's scores. -/
theorem recvWeights_apply (b : Fin 2) (off : Fin 3 → Nat) (hs : S16x256x64.Slices off S8x256x64)
    (h0 : off 0 = 8 * b.val) (h1 : off 1 = 0) (h2 : off 2 = 0) (q kr : Vec Ideal S2x256x8x64 .f32)
    (h : Fin 8) (s k : Fin 256) :
    weights (extractStridedSlice S8x256x64 off (qt (F := Ideal) q) hs) (k0_pay13 (F := Ideal) (half b (planeK (F := Ideal) kr)))
        (ix3 h s k) = Ideal.exp (score q kr b s h k) := by
  rw [weights_apply]
  unfold score
  refine congrArg Ideal.exp (Finset.sum_congr rfl fun e _ => ?_)
  rw [slots_apply off hs _ h s e (slot b h) (by rw [h0]; rfl) h1 h2, qt_apply, recvK_apply]

/-- A batch's stored block, as `tail` of slots `[8 b, 8 b + 8)`, is the specification's attention at batch `b`. -/
theorem tail_eq_attn (b : Fin 2) (off : Fin 3 → Nat) (hs : S16x256x64.Slices off S8x256x64) (hc : S16x256x1.Slices off S8x256x1)
    (h0 : off 0 = 8 * b.val) (h1 : off 1 = 0) (h2 : off 2 = 0) (q kl vl kr vr : Vec Ideal S2x256x8x64 .f32)
    (s : Fin 256) (h : Fin 8) (d : Fin 64) :
    tail (extractStridedSlice S8x256x64 off (u1 (F := Ideal) q (planeK kl) (planeV vl)) hs)
        (extractStridedSlice S8x256x1 off (l1 (F := Ideal) q (planeK kl)) hc)
        (weights (extractStridedSlice S8x256x64 off (qt (F := Ideal) q) hs) (k0_pay13 (F := Ideal) (half b (planeK (F := Ideal) kr))))
        (k0_pay13 (F := Ideal) (half b (planeV (F := Ideal) vr))) (ix4 (0 : Fin 1) s h d)
      = attnAt q kl vl kr vr b s h d := by
  rw [tail_apply]
  unfold attnAt
  rw [slots_apply off hs _ h s d (slot b h) (by rw [h0]; rfl) h1 h2, u1_apply,
    slots_apply off hc _ h s (0 : Fin 1) (slot b h) (by rw [h0]; rfl) h1 h2, l1_apply]
  refine congrArg₂ Ideal.div (congrArg₂ (· + ·) rfl ?_) (congrArg₂ (· + ·) rfl ?_)
  · refine Finset.sum_congr rfl fun k _ => ?_
    rw [recvWeights_apply b off hs h0 h1 h2, recvV_apply]
  · refine Finset.sum_congr rfl fun k _ => ?_
    rw [recvWeights_apply b off hs h0 h1 h2]

/-! ## The two stored blocks -/

/-- Batch 0 of what the body stores is the attention of batch 0 over own and received rows. -/
theorem out0_eq (q kl vl kr vr : Vec Ideal S2x256x8x64 .f32) (s : Fin 256) (h : Fin 8) (d : Fin 64) :
    out0 (F := Ideal) q (planeK kl) (planeV vl) (half 0 (planeK kr)) (half 0 (planeV vr)) (ix4 (0 : Fin 1) s h d)
      = attnAt q kl vl kr vr 0 s h d := by
  unfold out0
  rw [pay12_eq_tail]
  exact tail_eq_attn 0 ![0, 0, 0] _ _ rfl rfl rfl q kl vl kr vr s h d

/-- Batch 1 of what the body stores is the attention of batch 1 over own and received rows. -/
theorem out1_eq (q kl vl kr vr : Vec Ideal S2x256x8x64 .f32) (s : Fin 256) (h : Fin 8) (d : Fin 64) :
    out1 (F := Ideal) q (planeK kl) (planeV vl) (half 1 (planeK kr)) (half 1 (planeV vr)) (ix4 (0 : Fin 1) s h d)
      = attnAt q kl vl kr vr 1 s h d := by
  unfold out1
  rw [pay17_eq_tail]
  exact tail_eq_attn 1 ![8, 0, 0] _ _ rfl rfl rfl q kl vl kr vr s h d

end Cert.KernelIdeal.KVal

end
-- ==== Proof.RefFormula.lean ====
/-
  The reference's result read at one index. At `(b, q, h, d)` it is the sum over the 512 key rows `k` of the
  value `V (b, k, h, d)` times the weight of `k`: the exponential of the score of `q` against `k` (the inner
  product over the 64 features, then scaled by one eighth) minus the row's maximum score, divided by the sum of
  those exponentials over all 512 rows. Every stage is read off the generated stage-by-stage lemmas; the
  maximum, which is a fold over an axis, is read by hand as a fold over the 512 key rows.
-/
import proofs.«900411_g7700000000000412_dist_agattn_v7x_xy2x2_x_b2_s256_h8_d64_bf16_1_alg».proof.Proof.RefFrame

noncomputable section

namespace Cert.Proof.RefSide

open Idealize.ShloMosaic Idealize.ShloMosaic.ValueIdx Cert.Attn Cert.ReferenceIdeal Cert.ReferenceIdeal.Read

/-- The reference's score of query row `q` against key row `k`: the inner product, scaled afterwards. -/
def wscore (Q K : SW.Idx → EReal) (b : Fin 2) (q : Fin 512) (h : Fin 8) (k : Fin 512) : EReal :=
  (∑ e : Fin 64, Q (ix4 b q h e) * K (ix4 b k h e)) * eighth

/-- The largest score of a query row, as the reference folds it: from the word for minus infinity. -/
def rowMax (Q K : SW.Idx → EReal) (b : Fin 2) (q : Fin 512) (h : Fin 8) : EReal :=
  (Finset.univ : Finset (Fin 512)).fold max (Ideal.ofBits .f32 0xFF800000#32) (wscore Q K b q h)

/-- The reference's weight numerator of key row `k`: the exponential of the shifted score. -/
def wexp (Q K : SW.Idx → EReal) (b : Fin 2) (q : Fin 512) (h : Fin 8) (k : Fin 512) : EReal :=
  Ideal.exp (wscore Q K b q h k - rowMax Q K b q h)

/-! ### Where the stages read their operands, at explicit coordinates -/

theorem lidx0_at (b : Fin 2) (h : Fin 8) (q k : Fin 512) (e : Fin 64) :
    lidx_main_v0 (ix4 b h q k) e = ix4 b q h e :=
  funext fun a => Fin.ext (by match a with | ⟨0, _⟩ => rfl | ⟨1, _⟩ => rfl | ⟨2, _⟩ => rfl | ⟨3, _⟩ => rfl)

theorem ridx0_at (b : Fin 2) (h : Fin 8) (q k : Fin 512) (e : Fin 64) :
    ridx_main_v0 (ix4 b h q k) e = ix4 b k h e :=
  funext fun a => Fin.ext (by match a with | ⟨0, _⟩ => rfl | ⟨1, _⟩ => rfl | ⟨2, _⟩ => rfl | ⟨3, _⟩ => rfl)

theorem idx45_at (b : Fin 2) (h : Fin 8) (q k : Fin 512) :
    idx_main_v4 (idx_main_v5 (ix4 b h q k)) = ix3 b h q :=
  funext fun a => Fin.ext (by match a with | ⟨0, _⟩ => rfl | ⟨1, _⟩ => rfl | ⟨2, _⟩ => rfl)

theorem idx910_at (b : Fin 2) (h : Fin 8) (q k : Fin 512) :
    idx_main_v9 (idx_main_v10 (ix4 b h q k)) = ix3 b h q :=
  funext fun a => Fin.ext (by match a with | ⟨0, _⟩ => rfl | ⟨1, _⟩ => rfl | ⟨2, _⟩ => rfl)

theorem idx8_at (b : Fin 2) (h : Fin 8) (q j : Fin 512) :
    idx_main_v8 (ix3 b h q) j = ix4 b h q j :=
  funext fun a => Fin.ext (by match a with | ⟨0, _⟩ => rfl | ⟨1, _⟩ => rfl | ⟨2, _⟩ => rfl | ⟨3, _⟩ => rfl)

theorem lidx12_at (b : Fin 2) (h : Fin 8) (d : Fin 64) (q k : Fin 512) :
    lidx_main_v12 (ix4 b h d q) k = ix4 b k h d :=
  funext fun a => Fin.ext (by match a with | ⟨0, _⟩ => rfl | ⟨1, _⟩ => rfl | ⟨2, _⟩ => rfl | ⟨3, _⟩ => rfl)

theorem ridx12_at (b : Fin 2) (h : Fin 8) (d : Fin 64) (q k : Fin 512) :
    ridx_main_v12 (ix4 b h d q) k = ix4 b h q k :=
  funext fun a => Fin.ext (by match a with | ⟨0, _⟩ => rfl | ⟨1, _⟩ => rfl | ⟨2, _⟩ => rfl | ⟨3, _⟩ => rfl)

theorem idx13_at (b : Fin 2) (q : Fin 512) (h : Fin 8) (d : Fin 64) :
    idx_main_v13 (ix4 b q h d) = ix4 b h d q :=
  funext fun a => Fin.ext (by match a with | ⟨0, _⟩ => rfl | ⟨1, _⟩ => rfl | ⟨2, _⟩ => rfl | ⟨3, _⟩ => rfl)

/-- A score-array index `(b, h, q)` with key row `k` put back on the reduced axis is `(b, h, q, k)`. -/
theorem lift_at (hR : S2x8x512x512.Reduces [3] S2x8x512) (b : Fin 2) (h : Fin 8) (q : Fin 512) (k : Fin 512) :
    hR.lift (ix3 b h q) k = ix4 b h q k := by
  funext c; apply Fin.ext
  fin_cases c <;> rfl

/-! ### The stages at explicit coordinates -/

/-- The scaled scores. -/
theorem v2_at (Q K : SW.Idx → EReal) (b : Fin 2) (h : Fin 8) (q k : Fin 512) :
    val_main_v2 (F := Ideal) Q K (ix4 b h q k) = wscore Q K b q h k := by
  rw [val_main_v2_apply, val_main_v0_apply, val_main_v1_apply, val_main_cst_apply]
  simp only [lidx0_at, ridx0_at]
  rfl

/-- The row maximum: a fold over the 512 key rows. -/
theorem v3_at (Q K : SW.Idx → EReal) (b : Fin 2) (h : Fin 8) (q : Fin 512) :
    val_main_v3 (F := Ideal) Q K (ix3 b h q) = rowMax Q K b q h := by
  have hR : S2x8x512x512.Reduces [3] S2x8x512 := by decide
  unfold val_main_v3
  rw [Host.reduce_eq_fold_single FloatOps.maximumf _ _ Facts₀.reducesTo_S2x8x512x512_S2x8x512_d3 hR Facts₀.h_S_]
  have hf : (val_main_v2 (F := Ideal) Q K ∘ hR.lift (ix3 b h q)) = fun k : Fin 512 => wscore Q K b q h k :=
    funext fun k => (congrArg (val_main_v2 (F := Ideal) Q K) (lift_at hR b h q k)).trans (v2_at Q K b h q k)
  exact congrArg (fun f => Finset.fold max (Ideal.ofBits .f32 0xFF800000#32) f (Finset.univ : Finset (Fin 512))) hf

/-- The exponentials of the shifted scores. -/
theorem v7_at (Q K : SW.Idx → EReal) (b : Fin 2) (h : Fin 8) (q k : Fin 512) :
    val_main_v7 (F := Ideal) Q K (ix4 b h q k) = wexp Q K b q h k := by
  rw [val_main_v7_apply, val_main_v6_apply, val_main_v5_apply, val_main_v4_apply, idx45_at, v2_at, v3_at]
  rfl

/-- The sum of the exponentials over the key rows, from the zero word. -/
theorem v10_at (Q K : SW.Idx → EReal) (b : Fin 2) (h : Fin 8) (q k : Fin 512) :
    val_main_v10 (F := Ideal) Q K (ix4 b h q k)
      = Ideal.ofBits .f32 0x00000000#32 + ∑ j : Fin 512, wexp Q K b q h j := by
  rw [val_main_v10_apply, val_main_v9_apply, idx910_at, val_main_v8_apply, val_main_cst_1_apply]
  simp only [idx8_at, v7_at]
  rfl

/-- The reference's result at `(b, q, h, d)`. -/
theorem refOut_at (Q K V : SW.Idx → EReal) (b : Fin 2) (q : Fin 512) (h : Fin 8) (d : Fin 64) :
    refOut Q K V (ix4 b q h d)
      = ∑ k : Fin 512, V (ix4 b k h d) * Ideal.div (wexp Q K b q h k)
          (Ideal.ofBits .f32 0x00000000#32 + ∑ j : Fin 512, wexp Q K b q h j) := by
  unfold refOut
  rw [val_main_v14_apply, val_main_v13_apply, idx13_at, val_main_v12_apply]
  simp only [lidx12_at, ridx12_at, val_main_v11_apply, v7_at, v10_at]
  rfl

end Cert.Proof.RefSide

end
-- ==== Proof.SoftmaxLaw.lean ====
/-
  The algebra between the two arrangements of attention, over the extended reals with every input a real number.

  * A product of an inner product with a real scale is the inner product of the scaled left factors.
  * A maximum, started from minus infinity, of finitely many reals (at least one) is a real.
  * Softmax does not see a real shift: the weights exp (s k - m) / Σ exp (s j - m), summed against values,
    are (Σ exp (s k) · v k) / Σ exp (s k).
  * A sum over 512 rows is the sum over the first 256 plus the sum over the last 256.
-/
import Idealize.ShloMosaic.PureOps.Ideal

noncomputable section

namespace Cert.Proof.RefSide

open Idealize.ShloMosaic

/-- A finite sum of real numbers, taken in the extended reals, is the real sum. -/
theorem coe_sum {ι : Type} (s : Finset ι) (f : ι → ℝ) :
    ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- Scaling an inner product of reals is scaling its left factors. -/
theorem scaled_dot {ι : Type} [Fintype ι] (a b : ι → ℝ) (c : ℝ) :
    (∑ e, (a e : EReal) * (b e : EReal)) * (c : EReal) = ((∑ e, (a e * c) * b e : ℝ) : EReal) := by
  simp only [← EReal.coe_mul, coe_sum]
  congr 1
  rw [Finset.sum_mul]
  exact Finset.sum_congr rfl fun e _ => by ring

/-- The inner product of scaled left factors, as a real. -/
theorem dot_scaled {ι : Type} [Fintype ι] (a b : ι → ℝ) (c : ℝ) :
    (∑ e, ((a e : EReal) * (c : EReal)) * (b e : EReal)) = ((∑ e, (a e * c) * b e : ℝ) : EReal) := by
  simp only [← EReal.coe_mul, coe_sum]

/-- A running maximum from minus infinity over at least one real is a real. -/
theorem fold_max_real {ι : Type} [Fintype ι] [Nonempty ι] (f : ι → ℝ) :
    ∃ r : ℝ, (Finset.univ : Finset ι).fold max (⊥ : EReal) (fun k => (f k : EReal)) = (r : EReal) := by
  classical
  have key : ∀ s : Finset ι, (s = ∅ ∧ s.fold max (⊥ : EReal) (fun k => (f k : EReal)) = ⊥)
      ∨ ∃ r : ℝ, s.fold max (⊥ : EReal) (fun k => (f k : EReal)) = (r : EReal) := by
    intro s
    induction s using Finset.induction_on with
    | empty => exact Or.inl ⟨rfl, rfl⟩
    | insert a s ha ih =>
      right
      rw [Finset.fold_insert ha]
      rcases ih with ⟨_, h⟩ | ⟨r, h⟩
      · exact ⟨f a, by rw [h]; exact max_eq_left bot_le⟩
      · exact ⟨max (f a) r, by rw [h]; exact (EReal.coe_strictMono.monotone.map_max).symm⟩
  rcases key Finset.univ with ⟨h, _⟩ | h
  · exact absurd h Finset.univ_nonempty.ne_empty
  · exact h

/-- Softmax weights with a real shift, summed against real values: the shift cancels. -/
theorem softmax_shift {ι : Type} [Fintype ι] [Nonempty ι] (s v : ι → ℝ) (m : ℝ) :
    (∑ k, (v k : EReal) * Ideal.div (Ideal.exp ((s k : EReal) - (m : EReal)))
        (0 + ∑ j, Ideal.exp ((s j : EReal) - (m : EReal))))
      = Ideal.div (∑ k, Ideal.exp (s k : EReal) * (v k : EReal)) (∑ k, Ideal.exp (s k : EReal)) := by
  have hW : (0 : ℝ) < ∑ j : ι, Real.exp (s j) := by
    apply Finset.sum_pos
    · intro j _; exact Real.exp_pos _
    · exact Finset.univ_nonempty
  have hWm : (0 : ℝ) < ∑ j : ι, Real.exp (s j - m) := by
    apply Finset.sum_pos
    · intro j _; exact Real.exp_pos _
    · exact Finset.univ_nonempty
  simp only [← EReal.coe_sub, Ideal.exp_coe, coe_sum, zero_add, Ideal.div_coe hW.ne', Ideal.div_coe hWm.ne',
    ← EReal.coe_mul]
  congr 1
  have hs : ∑ j, Real.exp (s j - m) = (∑ j, Real.exp (s j)) * Real.exp (-m) := by
    rw [Finset.sum_mul]; exact Finset.sum_congr rfl fun j _ => by rw [sub_eq_add_neg, Real.exp_add]
  rw [hs, Finset.sum_mul Finset.univ (fun k => Real.exp (s k) * v k)]
  refine Finset.sum_congr rfl fun k _ => ?_
  have hE : Real.exp (-m) ≠ 0 := (Real.exp_pos _).ne'
  rw [sub_eq_add_neg, Real.exp_add]
  field_simp

/-- The first 256 of 512 rows. -/
def lo (k : Fin 256) : Fin 512 := ⟨k.val, by have := k.isLt; omega⟩
/-- The last 256 of 512 rows. -/
def hi (k : Fin 256) : Fin 512 := ⟨256 + k.val, by have := k.isLt; omega⟩

/-- A sum over 512 rows, cut in the middle. -/
theorem sum_halves {M : Type} [AddCommMonoid M] (f : Fin 512 → M) :
    ∑ k, f k = (∑ k : Fin 256, f (lo k)) + ∑ k : Fin 256, f (hi k) :=
  Fin.sum_univ_add (a := 256) (b := 256) f

end Cert.Proof.RefSide

end
-- ==== Proof.RefConsts.lean ====
/-
  The float words the algebra needs as extended reals: one eighth (the score scale), minus infinity (where the
  reference's running maximum starts) and plus infinity (the bound of the finiteness precondition).
-/
import Idealize.ShloMosaic.PureOps.Ideal

noncomputable section

namespace Cert.Proof.RefSide

open Idealize.ShloMosaic

/-- The word `0x3E000000` is the real number one eighth. -/
theorem ofBits_eighth : Ideal.ofBits .f32 0x3E000000#32 = ((1 / 8 : ℝ) : EReal) := by
  simp [Ideal.ofBits, Ideal.ieee, -EReal.coe_mul]; norm_num

/-- The word `0x7F800000` is plus infinity. -/
theorem ofBits_pos_inf : Ideal.ofBits .f32 0x7F800000#32 = (⊤ : EReal) := by
  simp [Ideal.ofBits, Ideal.ieee]

/-- The word `0xFF800000` is minus infinity. -/
theorem ofBits_neg_inf : Ideal.ofBits .f32 0xFF800000#32 = (⊥ : EReal) := by
  simp [Ideal.ofBits, Ideal.ieee]

end Cert.Proof.RefSide

end
-- ==== Proof.RefBlock.lean ====
/-
  A device's block of the reference's result is the per-device attention over its own rows and the rows of the
  device across the first mesh axis.

  Device `c = 2 x + y` holds rows `[256 x, 256 x + 256)` of each whole array. With every entry real, the scaled
  inner products are reals, the row maximum is a real, and the shift by it cancels between the weights and their
  sum; the sum over the 512 key rows is the sum over rows `[0, 256)` plus the sum over rows `[256, 512)`, which
  are the device's own rows and its neighbour's, in one order or the other.
-/
import proofs.«900411_g7700000000000412_dist_agattn_v7x_xy2x2_x_b2_s256_h8_d64_bf16_1_alg».proof.Proof.RefFormula
import proofs.«900411_g7700000000000412_dist_agattn_v7x_xy2x2_x_b2_s256_h8_d64_bf16_1_alg».proof.Proof.SoftmaxLaw
import proofs.«900411_g7700000000000412_dist_agattn_v7x_xy2x2_x_b2_s256_h8_d64_bf16_1_alg».proof.Proof.RefConsts

noncomputable section

namespace Cert.Proof.RefSide

open Idealize.ShloMosaic Idealize.ShloMosaic.ValueIdx Cert.Attn

/-- The whole-array row of row `s` of device `c`'s block. -/
def rowOf (c : Fin 4) (s : Fin 256) : Fin 512 :=
  ⟨c.val / 2 * 256 + s.val, by have := c.isLt; have := s.isLt; omega⟩

/-- Device `c`'s block coordinate along the rows is `c / 2`. -/
theorem meshLin_rows (c : Fin 4) : Layout.meshLin [2, 2] c.val [0] = c.val / 2 := by
  revert c; decide

/-- A block read at `(b, s, h, d)` is the whole array read at row `rowOf c s`. -/
theorem blk_at (c : Fin 4) (X : SW.Idx → EReal) (b : Fin 2) (s : Fin 256) (h : Fin 8) (d : Fin 64) :
    blk c X (ix4 b s h d) = X (ix4 b (rowOf c s) h d) := by
  show X _ = X _
  congr 1
  funext a; apply Fin.ext
  match a with
  | ⟨0, _⟩ => show 0 * 2 + b.val = b.val; omega
  | ⟨1, _⟩ =>
    show Layout.meshLin [2, 2] c.val [0] * 256 + s.val = c.val / 2 * 256 + s.val
    rw [meshLin_rows]
  | ⟨2, _⟩ => show 0 * 8 + h.val = h.val; omega
  | ⟨3, _⟩ => show 0 * 64 + d.val = d.val; omega

/-- A device's rows and its neighbour's are the two halves, in one order or the other. -/
theorem rows_cases (c : Fin 4) :
    (rowOf c = lo ∧ rowOf (xnbr c) = hi) ∨ (rowOf c = hi ∧ rowOf (xnbr c) = lo) := by
  fin_cases c
  · left; constructor <;> funext k <;> apply Fin.ext <;> simp [rowOf, lo, hi, xnbr]
  · left; constructor <;> funext k <;> apply Fin.ext <;> simp [rowOf, lo, hi, xnbr]
  · right; constructor <;> funext k <;> apply Fin.ext <;> simp [rowOf, lo, hi, xnbr]
  · right; constructor <;> funext k <;> apply Fin.ext <;> simp [rowOf, lo, hi, xnbr]

/-- Device `c`'s block of the reference's result is the per-device attention of its blocks and its
    neighbour's key and value blocks. -/
theorem ref_block (Q K V : SW.Idx → EReal)
    (hQ : ∀ i, ∃ r : ℝ, Q i = (r : EReal)) (hK : ∀ i, ∃ r : ℝ, K i = (r : EReal))
    (hV : ∀ i, ∃ r : ℝ, V i = (r : EReal))
    (c : Fin 4) (b : Fin 2) (s : Fin 256) (h : Fin 8) (d : Fin 64) :
    blk c (refOut Q K V) (ix4 b s h d)
      = attnAt (blk c Q) (blk c K) (blk c V) (blk (xnbr c) K) (blk (xnbr c) V) b s h d := by
  choose rQ hQ' using hQ
  choose rK hK' using hK
  choose rV hV' using hV
  -- the real score of the query row against whole-array key row `k`
  let sc : Fin 512 → ℝ := fun k => ∑ e : Fin 64, (rQ (ix4 b (rowOf c s) h e) * (1 / 8)) * rK (ix4 b k h e)
  have hsc : ∀ k, wscore Q K b (rowOf c s) h k = ((sc k : ℝ) : EReal) := fun k => by
    unfold wscore eighth
    simp only [hQ', hK']
    rw [ofBits_eighth]
    exact scaled_dot _ _ _
  have hwf : wscore Q K b (rowOf c s) h = fun k => ((sc k : ℝ) : EReal) := funext hsc
  obtain ⟨m, hm⟩ : ∃ m : ℝ, rowMax Q K b (rowOf c s) h = (m : EReal) := by
    unfold rowMax; rw [hwf, ofBits_neg_inf]; exact fold_max_real sc
  have hwe : ∀ k, wexp Q K b (rowOf c s) h k = Ideal.exp (((sc k : ℝ) : EReal) - (m : EReal)) := fun k => by
    unfold wexp; rw [hsc, hm]
  have hscore : ∀ (c' : Fin 4) (k : Fin 256),
      score (blk c Q) (blk c' K) b s h k = ((sc (rowOf c' k) : ℝ) : EReal) := fun c' k => by
    unfold score eighth
    simp only [blk_at, hQ', hK']
    rw [ofBits_eighth]
    exact dot_scaled _ _ _
  rw [blk_at, refOut_at]
  simp only [hwe, Ideal.ofBits_zero_f32, hV']
  refine (softmax_shift sc (fun k => rV (ix4 b k h d)) m).trans ?_
  rw [sum_halves, sum_halves]
  unfold attnAt
  simp only [hscore, blk_at, hV']
  rcases rows_cases c with ⟨h1, h2⟩ | ⟨h1, h2⟩
  · rw [h1, h2]
  · rw [h1, h2, add_comm (∑ k : Fin 256, _) (∑ k : Fin 256, _),
      add_comm (∑ k : Fin 256, Ideal.exp _) (∑ k : Fin 256, Ideal.exp _)]

end Cert.Proof.RefSide

end
-- ==== Proof.RefFinite.lean ====
/-
  Finiteness of the whole arrays. The precondition says, of each device's three argument blocks, that every
  entry has absolute value below plus infinity; an extended real with that property is a real number. Each
  device's block is its part of the whole array, and every whole-array row lies in the block of device 0
  (rows below 256) or of device 2 (rows from 256 on): so every entry of the whole arrays is a real.
-/
import proofs.«900411_g7700000000000412_dist_agattn_v7x_xy2x2_x_b2_s256_h8_d64_bf16_1_alg».proof.Defs
import proofs.«900411_g7700000000000412_dist_agattn_v7x_xy2x2_x_b2_s256_h8_d64_bf16_1_alg».proof.Proof.Gen.Pre_finite_inputs_Kernel
import proofs.«900411_g7700000000000412_dist_agattn_v7x_xy2x2_x_b2_s256_h8_d64_bf16_1_alg».proof.Proof.RefBlock
import Idealize.ShloMosaic.Lib.ReduceAll
import Idealize.ShloMosaic.Lib.Pipeline.Value

noncomputable section

namespace Cert.Proof.RefSide

open Idealize.ShloMosaic Idealize.ShloMosaic.ValueIdx Idealize.ShloMosaic.TcCoe Idealize.SL.Sem Cert.Attn

/-- An extended real whose absolute value compares below plus infinity is a real number. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [ofBits_pos_inf] at h'
  induction x using EReal.rec with
  | bot => exact absurd h' (by simp [Ideal.cmp])
  | top => exact absurd h' (by simp [Ideal.cmp])
  | coe r => exact ⟨r, rfl⟩

section Pre

open Cert.Pre_finite_inputs_Kernel

/-- The scalar shape has one index. -/
instance : Subsingleton Cert.Pre_finite_inputs_Kernel.S_.Idx := ⟨fun _ _ => funext fun d => d.elim0⟩

/-- One conjunct of the precondition: all entries of a block compare below plus infinity in absolute value,
    so each is a real. -/
theorem real_of_all (a : FVec Ideal S2x256x8x64 .f32)
    (e : Host.reduce IntOp.andi
        (cmpf .olt (Host.absf a)
          (broadcastInDim S2x256x8x64 ![] Facts.bcast_S_S2x256x8x64 (constant (F := Ideal) S_ .f32 0x7F800000#32)))
        (constantI S_ 1 1#1) Facts.reducesTo_S2x256x8x64_S_d0_1_2_3 Facts.h_S_ ix0 = 1#1)
    (i : S2x256x8x64.Idx) : ∃ r : ℝ, a i = (r : EReal) := by
  have hi := Host.reduce_andi_all _ _ _ _ _ e i
  have hb : broadcastInDim S2x256x8x64 ![] Facts.bcast_S_S2x256x8x64 (constant (F := Ideal) S_ .f32 0x7F800000#32) i
      = FloatOps.ofBits .f32 0x7F800000#32 :=
    broadcastInDim_apply _ Facts.bcast_S_S2x256x8x64 _ i ix0 (fun a => a.elim0)
  have h2 : FloatOps.cmpf (F := Ideal) (φ := .f32) .olt (FloatOps.hostAbsf (a i))
      (broadcastInDim S2x256x8x64 ![] Facts.bcast_S_S2x256x8x64 (constant (F := Ideal) S_ .f32 0x7F800000#32) i) = 1#1 := hi
  rw [hb] at h2
  exact real_of_abs_lt_inf (a i) h2

/-- The precondition of one device: every entry of its three blocks is a real. -/
theorem real_of_fn (a0 a1 a2 : FVec Ideal S2x256x8x64 .f32) (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [fn] at h0
  obtain ⟨h01, h2⟩ := IntOp.andi_eq_one.1 h0
  obtain ⟨h0', h1⟩ := IntOp.andi_eq_one.1 h01
  exact ⟨real_of_all a0 h0', real_of_all a1 h1, real_of_all a2 h2⟩

end Pre

/-- If every entry of every device's block of a whole array is a real, every entry of the array is: rows below
    256 are in device 0's block, the others in device 2's. -/
theorem whole_of_blocks (X : SW.Idx → EReal) (hX : ∀ (c : Fin 4) (j : SL.Idx), ∃ r : ℝ, blk c X j = (r : EReal))
    (i : SW.Idx) : ∃ r : ℝ, X i = (r : EReal) := by
  obtain ⟨b, q, h, d, rfl⟩ : ∃ (b : Fin 2) (q : Fin 512) (h : Fin 8) (d : Fin 64), i = ix4 b q h d :=
    ⟨i 0, i 1, i 2, i 3, eq_ix4 i⟩
  by_cases hlt : q.val < 256
  · have e : rowOf 0 ⟨q.val, hlt⟩ = q := Fin.ext (by simp [rowOf])
    have := hX 0 (ix4 b ⟨q.val, hlt⟩ h d)
    rw [blk_at, e] at this
    exact this
  · have hq : q.val < 512 := q.isLt
    have e : rowOf 2 ⟨q.val - 256, by omega⟩ = q := Fin.ext (by simp [rowOf]; omega)
    have := hX 2 (ix4 b ⟨q.val - 256, by omega⟩ h d)
    rw [blk_at, e] at this
    exact this

/-- Under the kernel's precondition, with each device holding its blocks of the whole arrays, every entry of
    the three whole argument arrays is a real number. -/
theorem finite_whole
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 512, 8, 64]⟩ (Layout.meshBlock [2, 2] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 512, 8, 64]⟩ (Layout.meshBlock [2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 512, 8, 64]⟩ (Layout.meshBlock [2, 2] ![[], [0], [], []] c) (m' (((0 : Dev Cert.ReferenceIdeal.nD).tc : Thread Cert.ReferenceIdeal.nD Cert.ReferenceIdeal.τ).loc Cert.ReferenceIdeal.main_arg2))) :
    (∀ i : SW.Idx, ∃ r : ℝ, m' (((0 : Dev Cert.ReferenceIdeal.nD).tc : Thread Cert.ReferenceIdeal.nD Cert.ReferenceIdeal.τ).loc Cert.ReferenceIdeal.main_arg0) i = (r : EReal))
    ∧ (∀ i : SW.Idx, ∃ r : ℝ, m' (((0 : Dev Cert.ReferenceIdeal.nD).tc : Thread Cert.ReferenceIdeal.nD Cert.ReferenceIdeal.τ).loc Cert.ReferenceIdeal.main_arg1) i = (r : EReal))
    ∧ (∀ i : SW.Idx, ∃ r : ℝ, m' (((0 : Dev Cert.ReferenceIdeal.nD).tc : Thread Cert.ReferenceIdeal.nD Cert.ReferenceIdeal.τ).loc Cert.ReferenceIdeal.main_arg2) i = (r : EReal)) := by
  have hdev := fun c : Dev Cert.KernelIdeal.nD => real_of_fn _ _ _ (hpre c)
  refine ⟨whole_of_blocks _ fun c j => ?_, whole_of_blocks _ fun c j => ?_, whole_of_blocks _ fun c j => ?_⟩
  · obtain ⟨r, hr⟩ := (hdev c).1 j
    exact ⟨r, (congrFun (hagree c).1 j).symm.trans hr⟩
  · obtain ⟨r, hr⟩ := (hdev c).2.1 j
    exact ⟨r, (congrFun (hagree c).2.1 j).symm.trans hr⟩
  · obtain ⟨r, hr⟩ := (hdev c).2.2 j
    exact ⟨r, (congrFun (hagree c).2.2 j).symm.trans hr⟩

end Cert.Proof.RefSide

end
-- ==== Proof.Assemble.lean ====
/-
  A device's stored result is its block of the reference's result.

  The three argument windows are whole arrays at block index 0, so what a device stages is its argument buffer: its
  block of the whole array. The own planes are the layouts of the device's key and value blocks. An entry of the
  received planes comes from the own planes of the first-axis neighbour, or (rows below 384 of the plane not sent
  whole) of the first-axis neighbour of the second-axis neighbour; those two devices have the same first mesh
  coordinate, hence hold equal blocks of a whole array: the received planes are the layouts of the first-axis
  neighbour's key and value blocks. With that the body's two stored blocks are the per-device attention of the
  specification over own and neighbour blocks, which is the device's block of the reference's result when every
  entry of the whole arrays is real, as the precondition gives.
-/
import proofs.«900411_g7700000000000412_dist_agattn_v7x_xy2x2_x_b2_s256_h8_d64_bf16_1_alg».proof.Defs
import proofs.«900411_g7700000000000412_dist_agattn_v7x_xy2x2_x_b2_s256_h8_d64_bf16_1_alg».proof.Proof.Gen.Pre_finite_inputs_Kernel
import proofs.«900411_g7700000000000412_dist_agattn_v7x_xy2x2_x_b2_s256_h8_d64_bf16_1_alg».proof.Proof.Sched
import proofs.«900411_g7700000000000412_dist_agattn_v7x_xy2x2_x_b2_s256_h8_d64_bf16_1_alg».proof.Proof.KValOut
import proofs.«900411_g7700000000000412_dist_agattn_v7x_xy2x2_x_b2_s256_h8_d64_bf16_1_alg».proof.Proof.RefBlock
import proofs.«900411_g7700000000000412_dist_agattn_v7x_xy2x2_x_b2_s256_h8_d64_bf16_1_alg».proof.Proof.RefFinite

noncomputable section

namespace Cert.Proof.Assemble

open Idealize.ShloMosaic Idealize.ShloMosaic.ValueIdx Idealize.ShloMosaic.TcCoe Idealize.SL.Sem
open Cert.Attn Cert.KernelIdeal Cert.KernelIdeal.Gen Cert.KernelIdeal.Mesh Cert.KernelIdeal.Flow Cert.KernelIdeal.KVal
open Cert.Proof.RefSide

variable (m : (ℓ : Loc nD τ sig) → Buf (Elt Ideal) ℓ)

/-! ### The staged blocks are the argument buffers: each window is the whole array at block index 0 -/

theorem qst_eq (c : Dev nD) : qst (F := Ideal) m c = m ((c : Thread nD τ).loc main_arg0) := by
  funext j
  show m ((c : Thread nD τ).loc main_arg0) ((win0_0.blk (0 : Fin 1)).view.emb j) = _
  congr 1
  funext a; apply Fin.ext
  match a with
  | ⟨0, _⟩ => show 0 * 2 + 1 * (j 0).val = (j 0).val; omega
  | ⟨1, _⟩ => show 0 * 256 + 1 * (j 1).val = (j 1).val; omega
  | ⟨2, _⟩ => show 0 * 8 + 1 * (j 2).val = (j 2).val; omega
  | ⟨3, _⟩ => show 0 * 64 + 1 * (j 3).val = (j 3).val; omega

theorem kst_eq (c : Dev nD) : kst (F := Ideal) m c = m ((c : Thread nD τ).loc main_arg1) := by
  funext j
  show m ((c : Thread nD τ).loc main_arg1) ((win0_1.blk (0 : Fin 1)).view.emb j) = _
  congr 1
  funext a; apply Fin.ext
  match a with
  | ⟨0, _⟩ => show 0 * 2 + 1 * (j 0).val = (j 0).val; omega
  | ⟨1, _⟩ => show 0 * 256 + 1 * (j 1).val = (j 1).val; omega
  | ⟨2, _⟩ => show 0 * 8 + 1 * (j 2).val = (j 2).val; omega
  | ⟨3, _⟩ => show 0 * 64 + 1 * (j 3).val = (j 3).val; omega

theorem vst_eq (c : Dev nD) : vst (F := Ideal) m c = m ((c : Thread nD τ).loc main_arg2) := by
  funext j
  show m ((c : Thread nD τ).loc main_arg2) ((win0_2.blk (0 : Fin 1)).view.emb j) = _
  congr 1
  funext a; apply Fin.ext
  match a with
  | ⟨0, _⟩ => show 0 * 2 + 1 * (j 0).val = (j 0).val; omega
  | ⟨1, _⟩ => show 0 * 256 + 1 * (j 1).val = (j 1).val; omega
  | ⟨2, _⟩ => show 0 * 8 + 1 * (j 2).val = (j 2).val; omega
  | ⟨3, _⟩ => show 0 * 64 + 1 * (j 3).val = (j 3).val; omega

/-! ### The mesh: which rows a neighbour holds -/

/-- The specification's first-axis neighbour is the exchange's. -/
theorem xnbr_eq (c : Dev nD) : xnbr c = xn c := by revert c; decide

/-- A block depends on the device only through its first mesh coordinate: the first-axis neighbour of the
    second-axis neighbour holds the same rows as the first-axis neighbour. -/
theorem blk_xn_yn (c : Dev nD) (X : SW.Idx → EReal) : blk (xn (yn c)) X = blk (xn c) X := by
  funext i
  obtain ⟨b, s, h, d, rfl⟩ : ∃ (b : Fin 2) (s : Fin 256) (h : Fin 8) (d : Fin 64), i = ix4 b s h d :=
    ⟨i 0, i 1, i 2, i 3, eq_ix4 i⟩
  have e : rowOf (xn (yn c)) s = rowOf (xn c) s := by
    have hc : (xn (yn c)).val / 2 = (xn c).val / 2 := by revert c; decide
    apply Fin.ext
    show (xn (yn c)).val / 2 * 256 + s.val = (xn c).val / 2 * 256 + s.val
    rw [hc]
  rw [blk_at, blk_at, e]

theorem blk_srcDev (c : Dev nD) (idx : S2x512x512.Idx) (X : SW.Idx → EReal) : blk (srcDev c idx) X = blk (xn c) X := by
  unfold srcDev
  split
  · exact blk_xn_yn c X
  · rfl

/-! ### The planes the body loads -/

theorem plane_idx (j : S1x512x512.Idx) :
    ix3 (0 : Fin 1) (⟨(j 1).val, (j 1).isLt⟩ : Fin 512) (⟨(j 2).val, (j 2).isLt⟩ : Fin 512) = j := by
  funext a; apply Fin.ext
  match a with
  | ⟨0, _⟩ => show 0 = (j 0).val; have h1 : (j 0).val < 1 := (j 0).isLt; omega
  | ⟨1, _⟩ => rfl
  | ⟨2, _⟩ => rfl

theorem locPlane0 (c : Dev nD) : locPlane (F := Ideal) m c 0 = planeK (kst m c) := by
  funext j
  unfold locPlane locC
  rw [if_pos (by rfl)]
  exact congrArg (planeK (kst m c)) (plane_idx j)

theorem locPlane1 (c : Dev nD) : locPlane (F := Ideal) m c 1 = planeV (vst m c) := by
  funext j
  unfold locPlane locC
  refine (if_neg Nat.one_ne_zero).trans ?_
  exact congrArg (planeV (vst m c)) (plane_idx j)

theorem remPlane0 (K' : SW.Idx → EReal) (hk : ∀ d : Dev nD, kst (F := Ideal) m d = blk d K') (c : Dev nD) :
    remPlane (F := Ideal) m c 0 = planeK (F := Ideal) (blk (xn c) K') := by
  funext j
  unfold remPlane remC locC
  rw [if_pos (by rfl), hk, blk_srcDev]
  exact congrArg (planeK (F := Ideal) (blk (xn c) K')) (plane_idx j)

theorem remPlane1 (V' : SW.Idx → EReal) (hv : ∀ d : Dev nD, vst (F := Ideal) m d = blk d V') (c : Dev nD) :
    remPlane (F := Ideal) m c 1 = planeV (F := Ideal) (blk (xn c) V') := by
  funext j
  unfold remPlane remC locC
  refine (if_neg Nat.one_ne_zero).trans ?_
  rw [hv, blk_srcDev]
  exact congrArg (planeV (F := Ideal) (blk (xn c) V')) (plane_idx j)

/-! ### A device's result is its block of the reference's result -/

/-- What device `c`'s result buffer holds when the body ends is its block of the reference's result. -/
theorem out_block
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 512, 8, 64]⟩ (Layout.meshBlock [2, 2] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 512, 8, 64]⟩ (Layout.meshBlock [2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 512, 8, 64]⟩ (Layout.meshBlock [2, 2] ![[], [0], [], []] c) (m' (((0 : Dev Cert.ReferenceIdeal.nD).tc : Thread Cert.ReferenceIdeal.nD Cert.ReferenceIdeal.τ).loc Cert.ReferenceIdeal.main_arg2)))
    (c : Dev Cert.KernelIdeal.nD) :
    Cert.KernelIdeal.Mesh.outAt (F := Ideal) m c
      = Layout.blockN ⟨4, ![2, 256, 8, 64]⟩ ⟨4, ![2, 512, 8, 64]⟩ (Layout.meshBlock [2, 2] ![[], [0], [], []] c)
          (refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2))) := by
  obtain ⟨hQ, hK, hV⟩ := finite_whole m m' hpre hagree
  have hq : ∀ d : Dev nD, qst (F := Ideal) m d = blk d (m' (((0 : Dev Cert.ReferenceIdeal.nD).tc : Thread Cert.ReferenceIdeal.nD Cert.ReferenceIdeal.τ).loc Cert.ReferenceIdeal.main_arg0)) := fun d => (qst_eq m d).trans (hagree d).1
  have hk : ∀ d : Dev nD, kst (F := Ideal) m d = blk d (m' (((0 : Dev Cert.ReferenceIdeal.nD).tc : Thread Cert.ReferenceIdeal.nD Cert.ReferenceIdeal.τ).loc Cert.ReferenceIdeal.main_arg1)) := fun d => (kst_eq m d).trans (hagree d).2.1
  have hv : ∀ d : Dev nD, vst (F := Ideal) m d = blk d (m' (((0 : Dev Cert.ReferenceIdeal.nD).tc : Thread Cert.ReferenceIdeal.nD Cert.ReferenceIdeal.τ).loc Cert.ReferenceIdeal.main_arg2)) := fun d => (vst_eq m d).trans (hagree d).2.2
  funext idx
  obtain ⟨b, s, h, d, rfl⟩ : ∃ (b : Fin 2) (s : Fin 256) (h : Fin 8) (d : Fin 64), idx = ix4 b s h d :=
    ⟨idx 0, idx 1, idx 2, idx 3, eq_ix4 idx⟩
  refine Eq.trans ?_ (ref_block _ _ _ hQ hK hV c b s h d).symm
  rw [xnbr_eq, ← hq c, ← hk c, ← hv c]
  unfold outAt
  rw [locPlane0, locPlane1, remPlane0 m _ hk, remPlane1 m _ hv]
  by_cases hb : b.val = 0
  · obtain rfl : b = 0 := Fin.ext hb
    rw [if_pos (by rfl)]
    exact out0_eq _ _ _ _ _ s h d
  · obtain rfl : b = 1 := Fin.ext (by have := b.isLt; omega)
    refine (if_neg Nat.one_ne_zero).trans ?_
    exact out1_eq _ _ _ _ _ s h d

end Cert.Proof.Assemble

end
-- ==== Proof.Claims.lean ====
/-
  The claims, from the kernel's run.

  The kernel's run at the ideal values — every device's result buffer ends holding what the body stores as a
  function of the devices' argument blocks, and the argument buffers end unchanged — gives, with the reference's
  run and the equality of each device's stored block with its block of the reference's result: the kernel's frame,
  and that the kernel computes the reference's result block by block. The reference's frame is its own run; the
  idealised kernel is the kernel's own text, so nothing is to be preserved.
-/
import proofs.«900411_g7700000000000412_dist_agattn_v7x_xy2x2_x_b2_s256_h8_d64_bf16_1_alg».proof.Defs
import proofs.«900411_g7700000000000412_dist_agattn_v7x_xy2x2_x_b2_s256_h8_d64_bf16_1_alg».proof.Proof.Gen.Kernel
import proofs.«900411_g7700000000000412_dist_agattn_v7x_xy2x2_x_b2_s256_h8_d64_bf16_1_alg».proof.Proof.Gen.KernelIdeal
import proofs.«900411_g7700000000000412_dist_agattn_v7x_xy2x2_x_b2_s256_h8_d64_bf16_1_alg».proof.Proof.Gen.ReferenceIdeal
import proofs.«900411_g7700000000000412_dist_agattn_v7x_xy2x2_x_b2_s256_h8_d64_bf16_1_alg».proof.Proof.Gen.Pre_finite_inputs_Kernel
import proofs.«900411_g7700000000000412_dist_agattn_v7x_xy2x2_x_b2_s256_h8_d64_bf16_1_alg».proof.Proof.Gen.Pre_finite_inputs_ReferenceIdeal
import proofs.«900411_g7700000000000412_dist_agattn_v7x_xy2x2_x_b2_s256_h8_d64_bf16_1_alg».proof.Proof.RefFrame
import proofs.«900411_g7700000000000412_dist_agattn_v7x_xy2x2_x_b2_s256_h8_d64_bf16_1_alg».proof.Proof.Assemble

noncomputable section

namespace Cert.Proof

open Idealize.ShloMosaic Idealize.ShloMosaic.TcCoe Idealize.SL.Sem
open Cert.Proof.RefSide Cert.Proof.Assemble

/-- The kernel's run at the ideal values: on every device the result buffer ends at `outAt`, the body's stored
    blocks as a function of the devices' argument blocks, and the argument buffers end unchanged. -/
def KernelRunIdeal : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1) = Cert.KernelIdeal.Mesh.outAt (F := Ideal) m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

/-- The idealised kernel runs and its argument arrays end unchanged. -/
theorem frame_ki (hrunI : KernelRunIdeal) : Cert.frame_KernelIdeal :=
  fun m ρ _ => (θ_run _ _ _).mono (fun _ h c => (h c).2) (hrunI m ρ)

/-- The ideal pass rewrote nothing. -/
theorem preserves : Cert.preserves_Kernel_KernelIdeal := trivial

/-- Each device's result is its block of the reference's result. -/
theorem algebraic (hrunI : KernelRunIdeal) : Cert.algebraic_KernelIdeal_ReferenceIdeal :=
  fun m g m' g' hpre hagree =>
    ⟨refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)),
      (θ_run _ _ _).mono (fun _ h c => ⟨(h c).1.trans (out_block m m' hpre hagree c), (h c).2⟩) (hrunI m g),
      ref_run m' g'⟩

/-- All five claims, from the word-level kernel's frame and the idealised kernel's run. -/
theorem claim_of (hframe_Kernel : Cert.frame_Kernel) (hrunI : KernelRunIdeal) : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    hframe_Kernel, frame_ki hrunI, frame_ri, preserves, algebraic hrunI⟩

end Cert.Proof

end
-- ==== Proof.WFlow.lean ====
/-
  The body's arithmetic as two pure terms, one per stored output block, over the vectors the body loads:
  the device's query block, the two planes of its own staged keys and values, and the two halves (batch 0,
  batch 1) of the received planes. Nothing here mentions memory or devices.
-/
import proofs.«900411_g7700000000000412_dist_agattn_v7x_xy2x2_x_b2_s256_h8_d64_bf16_1_alg».proof.Proof.Gen.Kernel.Skeleton
import Idealize.ShloMosaic.Lib.ValueIdx

noncomputable section

namespace Cert.Kernel.Flow

open Idealize.ShloMosaic Cert.Kernel Cert.Kernel.Gen

variable {F : FTy → Type} [FloatOps F]

/-- The plane a device stages of its key block: rows `256 b + s`, columns `64 h + d`, rounded to bf16. -/
def planeK (k : Vec F S2x256x8x64 .f32) : FVec F S1x512x512 .bf16 := k0_pay1 k

/-- The plane a device stages of its value block, the same layout. -/
def planeV (v : Vec F S2x256x8x64 .f32) : FVec F S1x512x512 .bf16 := k0_pay3 (k0_pay2 v)

/-- The scaled query rows, head-major: `[16 = (b, h), 256, 64]`. -/
def qt (q : Vec F S2x256x8x64 .f32) : FVec F S16x256x64 .bf16 := k0_pay5 (k0_pay4 q)

/-- Scores of every query row against the device's own key rows. -/
def s1 (q : Vec F S2x256x8x64 .f32) (lk : Vec F S1x512x512 .bf16) : FVec F S16x256x256 .f32 :=
  k0_pay8 (qt q) (k0_pay6 lk)

/-- Sum of the own-row weights, kept as a column. -/
def l1 (q : Vec F S2x256x8x64 .f32) (lk : Vec F S1x512x512 .bf16) : FVec F S16x256x1 .f32 := k0_pay10 (s1 q lk)

/-- Own-row weighted values. -/
def u1 (q : Vec F S2x256x8x64 .f32) (lk lv : Vec F S1x512x512 .bf16) : FVec F S16x256x64 .f32 :=
  k0_pay11 (k0_pay7 lv) (k0_pay9 (s1 q lk))

/-- What the body stores as batch 0 of the result: from the query block, the own planes, and rows
    `[0, 256)` of the two received planes. -/
def out0 (q : Vec F S2x256x8x64 .f32) (lk lv : Vec F S1x512x512 .bf16) (rk0 rv0 : Vec F S1x256x512 .bf16) :
    FVec F S1x256x8x64 .bf16 :=
  k0_pay12 (qt q) (l1 q lk) (u1 q lk lv) rk0 rv0

/-- What the body stores as batch 1 of the result: rows `[256, 512)` of the received planes. -/
def out1 (q : Vec F S2x256x8x64 .f32) (lk lv : Vec F S1x512x512 .bf16) (rk1 rv1 : Vec F S1x256x512 .bf16) :
    FVec F S1x256x8x64 .bf16 :=
  k0_pay17 (l1 q lk) (u1 q lk lv) (k0_pay13 rv1) (k0_pay15 (qt q) rk1) (k0_pay16 (qt q) rk1)

/-- Rows `[256 b, 256 b + 256)` of a staged plane: the half of the sequence that is batch `b`. -/
def half {α : Type} (b : Fin 2) (p : S1x512x512.Idx → α) : S1x256x512.Idx → α := fun j =>
  p (ValueIdx.ix3 (0 : Fin 1)
      (⟨256 * b.val + (j 1).val, by have h1 : (j 1).val < 256 := (j 1).isLt; have := b.isLt; omega⟩ : Fin 512)
      (⟨(j 2).val, (j 2).isLt⟩ : Fin 512))

end Cert.Kernel.Flow

end
-- ==== Proof.WMesh.lean ====
/-
  The mesh as the exchange sees it: device `2x + y` has a neighbour across the first axis, `2(1 - x) + y`, and one
  across the second, `2x + (1 - y)`. Its coordinate `y` names the plane (0: keys, 1: values) it sends whole across
  the first axis; of the other plane it sends the last two of the eight 64-row chunks there and receives the first
  six from its second-axis neighbour, who forwards what it received.
  Here: the neighbours, the two scratch planes' chunk views, the semaphore cells, and what the planes hold in the
  end as closed functions of the devices' argument blocks.
-/
import proofs.«900411_g7700000000000412_dist_agattn_v7x_xy2x2_x_b2_s256_h8_d64_bf16_1_alg».proof.Proof.Gen.Kernel
import proofs.«900411_g7700000000000412_dist_agattn_v7x_xy2x2_x_b2_s256_h8_d64_bf16_1_alg».proof.Proof.Gen.Kernel.Skeleton
import proofs.«900411_g7700000000000412_dist_agattn_v7x_xy2x2_x_b2_s256_h8_d64_bf16_1_alg».proof.Proof.Gen.Kernel.Launch
import proofs.«900411_g7700000000000412_dist_agattn_v7x_xy2x2_x_b2_s256_h8_d64_bf16_1_alg».proof.Proof.Gen.Kernel.Points
import proofs.«900411_g7700000000000412_dist_agattn_v7x_xy2x2_x_b2_s256_h8_d64_bf16_1_alg».proof.Proof.Gen.Kernel.Frame
import proofs.«900411_g7700000000000412_dist_agattn_v7x_xy2x2_x_b2_s256_h8_d64_bf16_1_alg».proof.Proof.WFlow
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The neighbours -/

/-- Across the first mesh axis. -/
def xn (c : Dev nD) : Dev nD := ⟨((c.val % 2) + 2) - 2 * (c.val / 2), k0_dev1_eq c ▸ k0_dev1_lt c⟩
/-- Across the second mesh axis. -/
def yn (c : Dev nD) : Dev nD := ⟨(2 * (c.val / 2) + 1) - (c.val % 2), k0_dev2_eq c ▸ k0_dev2_lt c⟩
/-- The coordinate on the second axis: the plane sent whole across the first. -/
def yc (c : Dev nD) : Nat := c.val % 2

theorem xn_xn (c : Dev nD) : xn (xn c) = c := by revert c; decide
theorem yn_yn (c : Dev nD) : yn (yn c) = c := by revert c; decide
theorem xn_yn (c : Dev nD) : xn (yn c) = yn (xn c) := by revert c; decide
theorem yc_xn (c : Dev nD) : yc (xn c) = yc c := by revert c; decide
theorem yc_yn (c : Dev nD) : yc (yn c) = 1 - yc c := by revert c; decide
theorem yc_lt (c : Dev nD) : yc c < 2 := Nat.mod_lt _ (by decide)
theorem xn_ne (c : Dev nD) : xn c ≠ c := by revert c; decide
theorem yn_ne (c : Dev nD) : yn c ≠ c := by revert c; decide
theorem xn_ne_yn (c : Dev nD) : xn c ≠ yn c := by revert c; decide

theorem dev1_eq (c : Dev nD) : (⟨k0_dev1 c, k0_dev1_lt c⟩ : Dev nD) = xn c := Fin.ext (k0_dev1_eq c)
theorem dev2_eq (c : Dev nD) : (⟨k0_dev2 c, k0_dev2_lt c⟩ : Dev nD) = yn c := Fin.ext (k0_dev2_eq c)
theorem dev3_eq (c : Dev nD) : (⟨k0_dev3 c, k0_dev3_lt c⟩ : Dev nD) = xn c := Fin.ext (k0_dev3_eq c)
theorem dev4_eq (c : Dev nD) : (⟨k0_dev4 c, k0_dev4_lt c⟩ : Dev nD) = xn c := Fin.ext (k0_dev4_eq c)
theorem dev5_eq (c : Dev nD) : (⟨k0_dev5 c, k0_dev5_lt c⟩ : Dev nD) = xn c := Fin.ext (k0_dev5_eq c)
theorem dev6_eq (c : Dev nD) : (⟨k0_dev6 c, k0_dev6_lt c⟩ : Dev nD) = xn c := Fin.ext (k0_dev6_eq c)
theorem dev7_eq (c : Dev nD) : (⟨k0_dev7 c, k0_dev7_lt c⟩ : Dev nD) = xn c := Fin.ext (k0_dev7_eq c)
theorem dev8_eq (c : Dev nD) : (⟨k0_dev8 c, k0_dev8_lt c⟩ : Dev nD) = xn c := Fin.ext (k0_dev8_eq c)
theorem dev9_eq (c : Dev nD) : (⟨k0_dev9 c, k0_dev9_lt c⟩ : Dev nD) = xn c := Fin.ext (k0_dev9_eq c)
theorem dev10_eq (c : Dev nD) : (⟨k0_dev10 c, k0_dev10_lt c⟩ : Dev nD) = xn c := Fin.ext (k0_dev10_eq c)
theorem dev11_eq (c : Dev nD) : (⟨k0_dev11 c, k0_dev11_lt c⟩ : Dev nD) = xn c := Fin.ext (k0_dev11_eq c)
theorem dev12_eq (c : Dev nD) : (⟨k0_dev12 c, k0_dev12_lt c⟩ : Dev nD) = xn c := Fin.ext (k0_dev12_eq c)
theorem dev13_eq (c : Dev nD) : (⟨k0_dev13 c, k0_dev13_lt c⟩ : Dev nD) = yn c := Fin.ext (k0_dev13_eq c)
theorem dev14_eq (c : Dev nD) : (⟨k0_dev14 c, k0_dev14_lt c⟩ : Dev nD) = yn c := Fin.ext (k0_dev14_eq c)
theorem dev15_eq (c : Dev nD) : (⟨k0_dev15 c, k0_dev15_lt c⟩ : Dev nD) = yn c := Fin.ext (k0_dev15_eq c)
theorem dev16_eq (c : Dev nD) : (⟨k0_dev16 c, k0_dev16_lt c⟩ : Dev nD) = yn c := Fin.ext (k0_dev16_eq c)
theorem dev17_eq (c : Dev nD) : (⟨k0_dev17 c, k0_dev17_lt c⟩ : Dev nD) = yn c := Fin.ext (k0_dev17_eq c)
theorem dev18_eq (c : Dev nD) : (⟨k0_dev18 c, k0_dev18_lt c⟩ : Dev nD) = yn c := Fin.ext (k0_dev18_eq c)

/-! ## The scratch planes and their chunks -/

/-- The device's own staged planes, and the planes it receives. -/
abbrev locM : Memref sig .tc .vmem S2x512x512 .bf16 := Memref.whole cc0_scratch0
abbrev remM : Memref sig .tc .vmem S2x512x512 .bf16 := Memref.whole cc0_scratch1

/-- A 64-row chunk of a plane as the copies address it. -/
abbrev chunk (M : Memref sig .tc .vmem S2x512x512 .bf16) (off : Fin 3 → Nat)
    (h : ∀ a, off a + S1x64x512.size a ≤ S2x512x512.size a) : Memref sig .tc .vmem S64x512 .bf16 :=
  (M.slice (Rect.unit (s := S2x512x512) off S1x64x512.size h) (fun _ => rfl)).squeeze S64x512 squeezes_S1x64x512_S64x512

/-- Where the `i`-th copy across the first axis starts: chunks 0–7 of plane `y`, then chunks 6, 7 of plane `1 - y`. -/
def xoff (c : Dev nD) : Fin 10 → Fin 3 → Nat
  | 0 => k0_off1 c | 1 => k0_off2 c | 2 => k0_off3 c | 3 => k0_off4 c | 4 => k0_off5 c
  | 5 => k0_off6 c | 6 => k0_off7 c | 7 => k0_off8 c | 8 => k0_off9 c | 9 => k0_off10 c

theorem xoff_inb (c : Dev nD) : ∀ (i : Fin 10) (a : Fin 3), xoff c i a + S1x64x512.size a ≤ S2x512x512.size a
  | 0 => k0_off1_inb c | 1 => k0_off2_inb c | 2 => k0_off3_inb c | 3 => k0_off4_inb c | 4 => k0_off5_inb c
  | 5 => k0_off6_inb c | 6 => k0_off7_inb c | 7 => k0_off8_inb c | 8 => k0_off9_inb c | 9 => k0_off10_inb c

/-- The plane and the chunk the `i`-th copy across the first axis carries. -/
def xplane (c : Dev nD) (i : Fin 10) : Nat := if i.val < 8 then yc c else 1 - yc c
def xchunk (i : Fin 10) : Nat := if i.val < 8 then i.val else i.val - 2

theorem xoff_eq (c : Dev nD) (i : Fin 10) : xoff c i = ![xplane c i, 64 * xchunk i, 0] := by
  revert c i; decide +kernel

/-! ## The cells

  Per device: the runtime's barrier semaphore, and the 32 copy semaphores `4 + n`: `n < 10` the sends across the first
  axis, `10 ≤ n < 20` the matching receives, `20 ≤ n < 26` the forwards across the second axis, `26 ≤ n` their
  receives. -/

abbrev barS : Sem sig := (SemArray.scalar (sig.barrier 0 rfl) : Sems sig S_).sem

def dsem (n : Fin 32) : DmaSem sig := ⟨4 + n.val, by have := n.isLt; show 4 + n.val < 36; omega⟩

abbrev barCell (c : Dev nD) : GSem nD τ sig := ((c : Thread nD τ), .reg barS)
abbrev dmaCell (c : Dev nD) (n : Fin 32) : GSem nD τ sig := ((c : Thread nD τ), .dma (dsem n))

def nXs (i : Fin 10) : Fin 32 := ⟨i.val, by have := i.isLt; omega⟩
def nXr (i : Fin 10) : Fin 32 := ⟨10 + i.val, by have := i.isLt; omega⟩
def nYs (j : Fin 6) : Fin 32 := ⟨20 + j.val, by have := j.isLt; omega⟩
def nYr (j : Fin 6) : Fin 32 := ⟨26 + j.val, by have := j.isLt; omega⟩

abbrev xsCell (c : Dev nD) (i : Fin 10) : GSem nD τ sig := dmaCell c (nXs i)
abbrev xrCell (c : Dev nD) (i : Fin 10) : GSem nD τ sig := dmaCell c (nXr i)
abbrev ysCell (c : Dev nD) (j : Fin 6) : GSem nD τ sig := dmaCell c (nYs j)
abbrev yrCell (c : Dev nD) (j : Fin 6) : GSem nD τ sig := dmaCell c (nYr j)

/-- All 33, as one index: the barrier first. -/
def csem (k : Fin 33) : SemLoc sig :=
  if h : k.val = 0 then .reg barS else .dma (dsem ⟨k.val - 1, by have := k.isLt; omega⟩)
abbrev kcell (ck : Dev nD × Fin 33) : GSem nD τ sig := ((ck.1 : Thread nD τ), csem ck.2)

theorem dsem_injective : Function.Injective dsem := fun a b h => by
  have := congrArg Fin.val h; simp only [dsem] at this; exact Fin.ext (by omega)

theorem csem_injective : Function.Injective csem := by
  intro a b h
  unfold csem at h
  by_cases ha : a.val = 0 <;> by_cases hb : b.val = 0
  · exact Fin.ext (ha.trans hb.symm)
  · rw [dif_pos ha, dif_neg hb] at h; cases h
  · rw [dif_neg ha, dif_pos hb] at h; cases h
  · rw [dif_neg ha, dif_neg hb] at h
    have := congrArg Fin.val (dsem_injective (SemLoc.dma.inj h)); simp only at this; exact Fin.ext (by omega)

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem csem_zero : csem 0 = .reg barS := rfl
theorem csem_succ (n : Fin 32) : csem ⟨n.val + 1, by have := n.isLt; omega⟩ = .dma (dsem n) := by
  unfold csem; rw [dif_neg (by simp)]; rfl

/-- A copy's units: every chunk has the same shape, so the same credit. -/
abbrev N : ℕ := (chunk remM (k0_off1 (0 : Dev nD)) (k0_off1_inb 0)).view.dmaCredit

end Cert.Kernel.Mesh

end
-- ==== Proof.WSched.lean ====
/-
  The exchange as a schedule of one round per cell.

  What the planes hold: the own planes are the staged key and value blocks; an entry of the received planes is the same
  entry of the first-axis neighbour's own planes, except rows below 384 (chunks 0–5) of the plane a device does not send
  whole, which come from the second-axis neighbour's first-axis neighbour (who holds equal blocks when the arrays are
  replicated along the second axis, but that is not used here).

  Duties of round 0. The barrier cell has two, one unit each: `false`, paid by the first-axis neighbour, hands over that
  neighbour's ten landing chunks and that it has reached round 0 of their receive cells; `true`, paid by the second-axis
  neighbour, the same for its six landing chunks. Every copy cell has the one duty `false` of a chunk's credit: a receive
  cell's hands the landing chunk at its final contents; a send cell's hands back the half share of the source chunk that
  travelled with the copy.
-/
import proofs.«900411_g7700000000000412_dist_agattn_v7x_xy2x2_x_b2_s256_h8_d64_bf16_1_alg».proof.Proof.Gen.Kernel
import proofs.«900411_g7700000000000412_dist_agattn_v7x_xy2x2_x_b2_s256_h8_d64_bf16_1_alg».proof.Proof.Gen.Kernel.Skeleton
import proofs.«900411_g7700000000000412_dist_agattn_v7x_xy2x2_x_b2_s256_h8_d64_bf16_1_alg».proof.Proof.Gen.Kernel.Launch
import proofs.«900411_g7700000000000412_dist_agattn_v7x_xy2x2_x_b2_s256_h8_d64_bf16_1_alg».proof.Proof.Gen.Kernel.Points
import proofs.«900411_g7700000000000412_dist_agattn_v7x_xy2x2_x_b2_s256_h8_d64_bf16_1_alg».proof.Proof.Gen.Kernel.Frame
import proofs.«900411_g7700000000000412_dist_agattn_v7x_xy2x2_x_b2_s256_h8_d64_bf16_1_alg».proof.Proof.WFlow
import proofs.«900411_g7700000000000412_dist_agattn_v7x_xy2x2_x_b2_s256_h8_d64_bf16_1_alg».proof.Proof.WMesh
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ UU ℕ

variable (m : (ℓ : Loc nD τ sig) → Buf (Elt F) ℓ)

/-! ## Contents -/

/-- The staged argument blocks of device `c`: queries, keys, values. -/
def qst (c : Dev nD) : (cc0_stg0_0 : Ref sig .tc).ty.Contents (Elt F) :=
  (win0_0.blk (0 : Fin 1)).view.read (Elt F) (m ((c : Thread nD τ).loc main_arg0))
def kst (c : Dev nD) : (cc0_stg1_0 : Ref sig .tc).ty.Contents (Elt F) :=
  (win0_1.blk (0 : Fin 1)).view.read (Elt F) (m ((c : Thread nD τ).loc main_arg1))
def vst (c : Dev nD) : (cc0_stg2_0 : Ref sig .tc).ty.Contents (Elt F) :=
  (win0_2.blk (0 : Fin 1)).view.read (Elt F) (m ((c : Thread nD τ).loc main_arg2))

/-- The own planes once staged: plane 0 the keys, plane 1 the values. -/
def locC (c : Dev nD) : (cc0_scratch0 : Ref sig .tc).ty.Contents (Elt F) := fun idx =>
  if (idx 0).val = 0 then Flow.planeK (kst m c) (ix3 (0 : Fin 1) (⟨(idx 1).val, (idx 1).isLt⟩ : Fin 512) (⟨(idx 2).val, (idx 2).isLt⟩ : Fin 512))
  else Flow.planeV (vst m c) (ix3 (0 : Fin 1) (⟨(idx 1).val, (idx 1).isLt⟩ : Fin 512) (⟨(idx 2).val, (idx 2).isLt⟩ : Fin 512))

/-- The device whose own plane an entry of the received planes comes from. -/
def srcDev (c : Dev nD) (idx : S2x512x512.Idx) : Dev nD :=
  if (idx 0).val ≠ yc c ∧ (idx 1).val < 384 then xn (yn c) else xn c

/-- The received planes once everything has landed. -/
def remC (c : Dev nD) : (cc0_scratch1 : Ref sig .tc).ty.Contents (Elt F) := fun idx => locC m (srcDev c idx) idx

/-- One plane of the own planes, and of the received planes, as the body's loads see them. -/
def locPlane (c : Dev nD) (t : Fin 2) : Vec F S1x512x512 .bf16 := fun j =>
  locC m c (ix3 t (⟨(j 1).val, (j 1).isLt⟩ : Fin 512) (⟨(j 2).val, (j 2).isLt⟩ : Fin 512))
def remPlane (c : Dev nD) (t : Fin 2) : Vec F S1x512x512 .bf16 := fun j =>
  remC m c (ix3 t (⟨(j 1).val, (j 1).isLt⟩ : Fin 512) (⟨(j 2).val, (j 2).isLt⟩ : Fin 512))

/-- What the result's staging buffer holds when the body ends: batch 0 from rows `[0, 256)` of the received planes,
    batch 1 from rows `[256, 512)`. -/
def outAt (c : Dev nD) : (cc0_stg3_0 : Ref sig .tc).ty.Contents (Elt F) := fun idx =>
  if (idx 0).val = 0 then
    Flow.out0 (qst m c) (locPlane m c 0) (locPlane m c 1) (Flow.half 0 (remPlane m c 0)) (Flow.half 0 (remPlane m c 1))
      (ix4 (0 : Fin 1) (⟨(idx 1).val, (idx 1).isLt⟩ : Fin 256) (⟨(idx 2).val, (idx 2).isLt⟩ : Fin 8) (⟨(idx 3).val, (idx 3).isLt⟩ : Fin 64))
  else
    Flow.out1 (qst m c) (locPlane m c 0) (locPlane m c 1) (Flow.half 1 (remPlane m c 0)) (Flow.half 1 (remPlane m c 1))
      (ix4 (0 : Fin 1) (⟨(idx 1).val, (idx 1).isLt⟩ : Fin 256) (⟨(idx 2).val, (idx 2).isLt⟩ : Fin 8) (⟨(idx 3).val, (idx 3).isLt⟩ : Fin 64))

/-! ## Chunks as assertions -/

/-- A chunk view's elements on device `c` at share `q`, the buffer's contents `f`. -/
abbrev pts (c : Dev nD) (M : Memref sig .tc .vmem S64x512 .bf16) (q : PosShare TreeShare)
    (f : Buf (Elt F) (M.view.loc (c : Thread nD τ))) : sProp 𝕄 :=
  M.view.loc (c : Thread nD τ) ↦[M.view.set]{q} f

/-- Chunk `i` of the first-axis plan in the own planes, and in the received planes. -/
abbrev lchunk (c : Dev nD) (i : Fin 10) : Memref sig .tc .vmem S64x512 .bf16 := chunk locM (xoff c i) (xoff_inb c i)
abbrev rchunk (c : Dev nD) (i : Fin 10) : Memref sig .tc .vmem S64x512 .bf16 := chunk remM (xoff c i) (xoff_inb c i)

/-- The six forwarded chunks are the first six of the plan. -/
def j10 (j : Fin 6) : Fin 10 := ⟨j.val, by have := j.isLt; omega⟩

def xsPay (c : Dev nD) (i : Fin 10) : sProp 𝕄 := pts c (lchunk c i) fullShare.left (locC m c)
def xrPay (c : Dev nD) (i : Fin 10) : sProp 𝕄 := pts c (rchunk (xn c) i) fullShare (remC m c)
def ysPay (c : Dev nD) (j : Fin 6) : sProp 𝕄 := pts c (rchunk c (j10 j)) fullShare.left (remC m c)
def yrPay (c : Dev nD) (j : Fin 6) : sProp 𝕄 := pts c (rchunk (yn c) (j10 j)) fullShare (remC m c)

/-- What the first-axis neighbour's barrier signal hands device `c`: that neighbour's ten landing chunks at any
    contents, and that it has reached round 0 of their receive cells. -/
def barPayX (c : Dev nD) : sProp 𝕄 :=
  iprop((bigSep Finset.univ fun i : Fin 10 => iprop(∃ f, pts (F := F) (xn c) (rchunk c i) fullShare f))
    ∗ bigSep Finset.univ fun i : Fin 10 => reached ER (xrCell (xn c) i) 0)
/-- What the second-axis neighbour's hands it: six chunks and six marks. -/
def barPayY (c : Dev nD) : sProp 𝕄 :=
  iprop((bigSep Finset.univ fun j : Fin 6 => iprop(∃ f, pts (F := F) (yn c) (rchunk c (j10 j)) fullShare f))
    ∗ bigSep Finset.univ fun j : Fin 6 => reached ER (yrCell (yn c) j) 0)

/-- A copy cell's payload by its semaphore's number. -/
def dmaPay (c : Dev nD) (q : DmaSem sig) : sProp 𝕄 :=
  if h : 4 ≤ q.val ∧ q.val < 14 then xsPay m c ⟨q.val - 4, by omega⟩
  else if h : 14 ≤ q.val ∧ q.val < 24 then xrPay m c ⟨q.val - 14, by omega⟩
  else if h : 24 ≤ q.val ∧ q.val < 30 then ysPay m c ⟨q.val - 24, by omega⟩
  else if h : 30 ≤ q.val ∧ q.val < 36 then yrPay m c ⟨q.val - 30, by omega⟩
  else iprop(emp)

/-! ## The schedule -/

abbrev IsBar (g : GSem nD τ sig) : Prop := g.1.2 = .tc ∧ g.2 = .reg barS
abbrev IsCopy (g : GSem nD τ sig) : Prop := g.1.2 = .tc ∧ ∃ q : DmaSem sig, g.2 = .dma q ∧ 4 ≤ q.val

def sched : Rounds.Schedule (GSem nD τ sig) Bool 𝕄 where
  duties g r := if r = 0 ∧ IsBar g then Finset.univ else if r = 0 ∧ IsCopy g then {false} else ∅
  unitless _ := False
  amount g _ _ := if g.2 = .reg barS then 1 else N
  payload g _ d := match g.2 with
    | .reg s => if s = barS then (if d then barPayY g.1.1 else barPayX g.1.1) else iprop(emp)
    | .dma q => dmaPay m g.1.1 q
  amount_pos g _ _ _ := by
    by_cases h : g.2 = .reg barS
    · rw [if_pos h]; exact Nat.one_pos
    · rw [if_neg h]; exact View.dmaCredit_pos _ (by decide)

instance sched_payload_storable (g : GSem nD τ sig) (r : ℕ) (d : Bool) :
    BI.Storable (upEmb : UEmb _ 𝕄) ((sched (F := F) m).payload g r d) := by
  show BI.Storable upEmb (match g.2 with
    | .reg s => if s = barS then (if d then barPayY g.1.1 else barPayX g.1.1) else iprop(emp)
    | .dma q => dmaPay m g.1.1 q)
  unfold barPayX barPayY dmaPay xsPay xrPay ysPay yrPay
  (repeat' split) <;> infer_instance

/-! ## The schedule's tables -/

section Tables
variable (c : Dev nD)

theorem dsem_val (n : Fin 32) : (dsem n).val = 4 + n.val := rfl
theorem dsem_nXs (i : Fin 10) : (dsem (nXs i)).val = 4 + i.val := rfl
theorem dsem_nXr (i : Fin 10) : (dsem (nXr i)).val = 14 + i.val := by show 4 + (10 + i.val) = _; omega
theorem dsem_nYs (j : Fin 6) : (dsem (nYs j)).val = 24 + j.val := by show 4 + (20 + j.val) = _; omega
theorem dsem_nYr (j : Fin 6) : (dsem (nYr j)).val = 30 + j.val := by show 4 + (26 + j.val) = _; omega

theorem not_bar_dma (n : Fin 32) : ¬ IsBar (dmaCell c n) := fun h => by cases h.2
theorem isCopy_dma (n : Fin 32) : IsCopy (dmaCell c n) := ⟨rfl, dsem n, rfl, by rw [dsem_val]; omega⟩
theorem dma_ne_bar (n : Fin 32) : (SemLoc.dma (dsem n) : SemLoc sig) ≠ .reg barS := fun h => by cases h

theorem duties_bar : (sched (F := F) m).duties (barCell c) 0 = Finset.univ := by
  dsimp only [sched]; exact if_pos ⟨rfl, rfl, rfl⟩
theorem duties_dma (n : Fin 32) : (sched (F := F) m).duties (dmaCell c n) 0 = {false} := by
  dsimp only [sched]; rw [if_neg (fun h => not_bar_dma c n h.2)]; exact if_pos ⟨rfl, isCopy_dma c n⟩
theorem duties_later (g : GSem nD τ sig) : ∀ r, 1 ≤ r → (sched (F := F) m).duties g r = ∅ :=
  fun r hr => by dsimp only [sched]; rw [if_neg fun h => by omega, if_neg fun h => by omega]

theorem amount_bar (d : Bool) : (sched (F := F) m).amount (barCell c) 0 d = 1 := by dsimp only [sched]; exact if_pos rfl
theorem amount_dma (n : Fin 32) (d : Bool) : (sched (F := F) m).amount (dmaCell c n) 0 d = N := by
  dsimp only [sched]; exact if_neg (dma_ne_bar n)

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (n : Fin 32) : (sched (F := F) m).expect (dmaCell c n) 0 = N := by
  unfold Schedule.expect Schedule.amountOf; rw [duties_dma, Finset.sum_singleton, amount_dma]

theorem payload_bar_true : (sched (F := F) m).payload (barCell c) 0 true = barPayY c := by
  dsimp only [sched]; rw [if_pos rfl, if_pos rfl]
theorem payload_bar_false : (sched (F := F) m).payload (barCell c) 0 false = barPayX c := by
  dsimp only [sched]; rw [if_pos rfl]; exact if_neg Bool.false_ne_true

theorem payload_xs (i : Fin 10) (d : Bool) : (sched (F := F) m).payload (xsCell c i) 0 d = xsPay m c i := by
  have hi := i.isLt
  show dmaPay m c (dsem (nXs i)) = _
  unfold dmaPay
  rw [dif_pos (by rw [dsem_nXs]; omega)]
  congr 1; exact Fin.ext (show (dsem (nXs i)).val - 4 = i.val by rw [dsem_nXs]; omega)
theorem payload_xr (i : Fin 10) (d : Bool) : (sched (F := F) m).payload (xrCell c i) 0 d = xrPay m c i := by
  have hi := i.isLt
  show dmaPay m c (dsem (nXr i)) = _
  unfold dmaPay
  rw [dif_neg (by rw [dsem_nXr]; omega), dif_pos (by rw [dsem_nXr]; omega)]
  congr 1; exact Fin.ext (show (dsem (nXr i)).val - 14 = i.val by rw [dsem_nXr]; omega)
theorem payload_ys (j : Fin 6) (d : Bool) : (sched (F := F) m).payload (ysCell c j) 0 d = ysPay m c j := by
  have hj := j.isLt
  show dmaPay m c (dsem (nYs j)) = _
  unfold dmaPay
  rw [dif_neg (by rw [dsem_nYs]; omega), dif_neg (by rw [dsem_nYs]; omega),
    dif_pos (by rw [dsem_nYs]; omega)]
  congr 1; exact Fin.ext (show (dsem (nYs j)).val - 24 = j.val by rw [dsem_nYs]; omega)
theorem payload_yr (j : Fin 6) (d : Bool) : (sched (F := F) m).payload (yrCell c j) 0 d = yrPay m c j := by
  have hj := j.isLt
  show dmaPay m c (dsem (nYr j)) = _
  unfold dmaPay
  rw [dif_neg (by rw [dsem_nYr]; omega), dif_neg (by rw [dsem_nYr]; omega),
    dif_neg (by rw [dsem_nYr]; omega), dif_pos (by rw [dsem_nYr]; omega)]
  congr 1; exact Fin.ext (show (dsem (nYr j)).val - 30 = j.val by rw [dsem_nYr]; omega)

/-- The rest of the barrier cell's round, no duty taken: both neighbours' payloads. -/
theorem rest_bar : bigSep ((sched (F := F) m).duties (barCell c) 0 \ ∅) (fun d => (sched (F := F) m).payload (barCell c) 0 d)
    = iprop(barPayX c ∗ barPayY c) := by
  rw [Finset.sdiff_empty, duties_bar, bigSep_univ_eq_bigSepL [false, true] (by decide) (by decide), bigSepL_cons_cons, bigSepL_singleton,
    payload_bar_false, payload_bar_true]
  rfl
/-- The rest of a copy cell's round: its one payload. -/
theorem rest_dma (n : Fin 32) : bigSep ((sched (F := F) m).duties (dmaCell c n) 0 \ ∅) (fun d => (sched (F := F) m).payload (dmaCell c n) 0 d)
    = (sched (F := F) m).payload (dmaCell c n) 0 false := by
  rw [Finset.sdiff_empty, duties_dma, bigSep_singleton]

end Tables

/-! ## The levels

  A device waits on its barrier cell owing copies to both neighbours' receive cells; on a first-axis receive cell owing
  forwards to its second-axis neighbour's receive cells; on everything else owing nothing. So: barrier cells at 1,
  first-axis receive cells at 2, second-axis receive cells at 3, all other cells at 0. -/

def L (g : GSem nD τ sig) : Finset Unit := if g.1.2 = .tc then {()} else ∅
def lv (g : GSem nD τ sig) (_ : Unit) : ℕ := match g.2 with
  | .reg s => if s = barS then 1 else 0
  | .dma q => if 14 ≤ q.val ∧ q.val < 24 then 2 else if 30 ≤ q.val ∧ q.val < 36 then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; exact if_pos rfl
theorem lv_xr (c : Dev nD) (i : Fin 10) : lv (xrCell c i) () = 2 := by
  have := i.isLt; dsimp only [lv]; rw [if_pos (by rw [dsem_nXr]; omega)]
theorem lv_yr (c : Dev nD) (j : Fin 6) : lv (yrCell c j) () = 3 := by
  have := j.isLt; dsimp only [lv]
  rw [if_neg (by rw [dsem_nYr]; omega), if_pos (by rw [dsem_nYr]; omega)]
theorem lv_xs (c : Dev nD) (i : Fin 10) : lv (xsCell c i) () = 0 := by
  have := i.isLt; dsimp only [lv]
  rw [if_neg (by rw [dsem_nXs]; omega), if_neg (by rw [dsem_nXs]; omega)]
theorem lv_ys (c : Dev nD) (j : Fin 6) : lv (ysCell c j) () = 0 := by
  have := j.isLt; dsimp only [lv]
  rw [if_neg (by rw [dsem_nYs]; omega), if_neg (by rw [dsem_nYs]; omega)]
theorem lv_stage (c : Dev nD) (q : DmaSem sig) (hq : q.val < 4) : lv ((c : Thread nD τ), .dma q) () = 0 := by
  dsimp only [lv]; rw [if_neg (by omega), if_neg (by omega)]

end Cert.Kernel.Mesh

end
-- ==== Proof.WCells.lean ====
/-
  The exchange's bookkeeping that does not depend on what the copies carry: the 33 cells of a device split by the
  part they play, who pays which cell, the ghost state a device's body starts from, what a device owes when the
  program starts and the credit that gives the waiters, and the semaphores the kernel names itself.
-/
import proofs.«900411_g7700000000000412_dist_agattn_v7x_xy2x2_x_b2_s256_h8_d64_bf16_1_alg».proof.Proof.WMesh

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The neighbour maps as bijections -/

def xnE : Dev nD ≃ Dev nD := ⟨xn, xn, xn_xn, xn_xn⟩
def ynE : Dev nD ≃ Dev nD := ⟨yn, yn, yn_yn, yn_yn⟩

/-! ## The 33 cells by the part they play -/

/-- The sends across the first axis, their receives, the forwards across the second axis, their receives. -/
def kXs (i : Fin 10) : Fin 33 := ⟨1 + i.val, by have := i.isLt; omega⟩
def kXr (i : Fin 10) : Fin 33 := ⟨11 + i.val, by have := i.isLt; omega⟩
def kYs (j : Fin 6) : Fin 33 := ⟨21 + j.val, by have := j.isLt; omega⟩
def kYr (j : Fin 6) : Fin 33 := ⟨27 + j.val, by have := j.isLt; omega⟩

theorem csem_of_pos (k : Fin 33) (n : Fin 32) (h : k.val = n.val + 1) : csem k = .dma (dsem n) := by
  unfold csem
  rw [dif_neg (by omega)]
  exact congrArg _ (congrArg dsem (Fin.ext (by simp only []; omega)))

theorem kcell_zero (c : Dev nD) : kcell (c, 0) = barCell c := rfl
theorem kcell_kXs (c : Dev nD) (i : Fin 10) : kcell (c, kXs i) = xsCell c i :=
  Prod.ext rfl (csem_of_pos _ _ (by simp only [kXs, nXs]; omega))
theorem kcell_kXr (c : Dev nD) (i : Fin 10) : kcell (c, kXr i) = xrCell c i :=
  Prod.ext rfl (csem_of_pos _ _ (by simp only [kXr, nXr]; omega))
theorem kcell_kYs (c : Dev nD) (j : Fin 6) : kcell (c, kYs j) = ysCell c j :=
  Prod.ext rfl (csem_of_pos _ _ (by simp only [kYs, nYs]; omega))
theorem kcell_kYr (c : Dev nD) (j : Fin 6) : kcell (c, kYr j) = yrCell c j :=
  Prod.ext rfl (csem_of_pos _ _ (by simp only [kYr, nYr]; omega))
theorem kcell_succ (c : Dev nD) (n : Fin 32) : kcell (c, n.succ) = dmaCell c n :=
  Prod.ext rfl (show csem n.succ = .dma (dsem n) from csem_of_pos _ _ rfl)

/-- The index of a cell, by part. -/
def ix : Unit ⊕ Fin 10 ⊕ Fin 10 ⊕ Fin 6 ⊕ Fin 6 → Fin 33
  | .inl _ => 0
  | .inr (.inl i) => kXs i
  | .inr (.inr (.inl i)) => kXr i
  | .inr (.inr (.inr (.inl j))) => kYs j
  | .inr (.inr (.inr (.inr j))) => kYr j

theorem ix_bijective : Function.Bijective ix := by decide

def ixE : Unit ⊕ Fin 10 ⊕ Fin 10 ⊕ Fin 6 ⊕ Fin 6 ≃ Fin 33 := Equiv.ofBijective ix ix_bijective

/-- A conjunction over a device's 33 cells, part by part. -/
theorem bigSep_fin33 {M : Type} [URA M] (Φ : Fin 33 → sProp M) :
    bigSep Finset.univ Φ = iprop(Φ 0 ∗ (bigSep Finset.univ fun i : Fin 10 => Φ (kXs i)) ∗ (bigSep Finset.univ fun i : Fin 10 => Φ (kXr i))
      ∗ (bigSep Finset.univ fun j : Fin 6 => Φ (kYs j)) ∗ (bigSep Finset.univ fun j : Fin 6 => Φ (kYr j))) := by
  rw [bigSep_univ_equiv ixE Φ, bigSep_univ_sum, bigSep_univ_sum, bigSep_univ_sum, bigSep_univ_sum, bigSep_univ_of_subsingleton ()]
  rfl

/-- The barrier cell first, then the 32 copy cells. -/
theorem bigSep_fin33_succ {M : Type} [URA M] (Φ : Fin 33 → sProp M) :
    bigSep Finset.univ Φ = iprop(Φ 0 ∗ bigSep Finset.univ fun n : Fin 32 => Φ n.succ) := by
  rw [Fin.univ_succ, Finset.cons_eq_insert, bigSep_insert (by simp), bigSep_map]
  rfl

/-! ## Who pays which cell -/

/-- The device whose cell `k` device `c` pays (duty `false`): its first-axis neighbour's barrier cell and receive cells,
    its second-axis neighbour's receive cells, its own send cells. -/
def nb (k : Fin 33) (c : Dev nD) : Dev nD :=
  if k.val = 0 ∨ (11 ≤ k.val ∧ k.val ≤ 20) then xn c else if 27 ≤ k.val then yn c else c

theorem nb_nb (k : Fin 33) (c : Dev nD) : nb k (nb k c) = c := by
  unfold nb
  by_cases h1 : k.val = 0 ∨ (11 ≤ k.val ∧ k.val ≤ 20)
  · rw [if_pos h1, if_pos h1, xn_xn]
  · rw [if_neg h1, if_neg h1]
    by_cases h2 : 27 ≤ k.val
    · rw [if_pos h2, if_pos h2, yn_yn]
    · rw [if_neg h2, if_neg h2]

theorem nb_zero (c : Dev nD) : nb 0 c = xn c := if_pos (Or.inl rfl)
theorem nb_kXs (i : Fin 10) (c : Dev nD) : nb (kXs i) c = c := by
  have := i.isLt; unfold nb; rw [if_neg (by simp only [kXs]; omega), if_neg (by simp only [kXs]; omega)]
theorem nb_kXr (i : Fin 10) (c : Dev nD) : nb (kXr i) c = xn c := by
  have := i.isLt; unfold nb; rw [if_pos (by simp only [kXr]; omega)]
theorem nb_kYs (j : Fin 6) (c : Dev nD) : nb (kYs j) c = c := by
  have := j.isLt; unfold nb; rw [if_neg (by simp only [kYs]; omega), if_neg (by simp only [kYs]; omega)]
theorem nb_kYr (j : Fin 6) (c : Dev nD) : nb (kYr j) c = yn c := by
  have := j.isLt; unfold nb; rw [if_neg (by simp only [kYr]; omega), if_pos (by simp only [kYr]; omega)]

/-- Paying device and cell index to paid cell, a bijection of the 132 cells. -/
def nbP : Dev nD × Fin 33 ≃ Dev nD × Fin 33 :=
  ⟨fun p => (nb p.2 p.1, p.2), fun p => (nb p.2 p.1, p.2), fun p => by simp only [nb_nb], fun p => by simp only [nb_nb]⟩

/-! ## The ghost state a device's body starts from -/

section Ghost

/-- Every cell's invariant, at the names `K`, and that round 0 of every cell is reached: persistent, the same for all devices. -/
def records (Rd : Rounds.Schedule (GSem nD τ sig) Bool 𝕄) (K : Dev nD × Fin 33 → ℕ) : sProp 𝕄 :=
  iprop((bigSep Finset.univ fun ck : Dev nD × Fin 33 => cellInv ER Rd (K ck) (kcell ck))
    ∗ bigSep Finset.univ fun ck : Dev nD × Fin 33 => reached ER (kcell ck) 0)

instance records_persistent (Rd : Rounds.Schedule (GSem nD τ sig) Bool 𝕄) (K : Dev nD × Fin 33 → ℕ) : BI.Persistent (records Rd K) := by unfold records; infer_instance

/-- The tokens of the duties device `c` pays: duty `false` of each cell it pays, duty `true` of its second-axis neighbour's barrier. -/
def payToks (c : Dev nD) : sProp 𝕄 :=
  iprop((bigSep Finset.univ fun k : Fin 33 => dutyTok ER (kcell (nb k c, k)) 0 false) ∗ dutyTok ER (barCell (yn c)) 0 true)

/-- What is device `c`'s alone: its position at the start of round 0 of each of its cells, and the tokens it pays with. -/
def linear (c : Dev nD) : sProp 𝕄 :=
  iprop((bigSep Finset.univ fun k : Fin 33 => atPos ER (kcell (c, k)) 0 ∅ 0) ∗ payToks (F := F) c)

def ghost (Rd : Rounds.Schedule (GSem nD τ sig) Bool 𝕄) (K : Dev nD × Fin 33 → ℕ) (c : Dev nD) : sProp 𝕄 := iprop(records Rd K ∗ linear (F := F) c)

def G' (Rd : Rounds.Schedule (GSem nD τ sig) Bool 𝕄) (c : Dev nD) : sProp 𝕄 := iprop(∃ K, ghost Rd K c)

theorem records_inv (Rd : Rounds.Schedule (GSem nD τ sig) Bool 𝕄) (K : Dev nD × Fin 33 → ℕ) (ck : Dev nD × Fin 33) : (records Rd K : sProp 𝕄) ⊢ cellInv ER Rd (K ck) (kcell ck) := by
  have h : (bigSep Finset.univ fun ck : Dev nD × Fin 33 => (cellInv ER Rd (K ck) (kcell ck) : sProp 𝕄)) ⊢ cellInv ER Rd (K ck) (kcell ck) := bigSep_elim (Finset.mem_univ ck)
  unfold records; iintro ⟨H, -⟩; iapply h; iexact H
theorem records_reached (Rd : Rounds.Schedule (GSem nD τ sig) Bool 𝕄) (K : Dev nD × Fin 33 → ℕ) (ck : Dev nD × Fin 33) : (records Rd K : sProp 𝕄) ⊢ reached ER (kcell ck) 0 := by
  have h : (bigSep Finset.univ fun ck : Dev nD × Fin 33 => (reached ER (kcell ck) 0 : sProp 𝕄)) ⊢ reached ER (kcell ck) 0 := bigSep_elim (Finset.mem_univ ck)
  unfold records; iintro ⟨-, H⟩; iapply h; iexact H

end Ghost

/-- The tokens device `c` pays with, part by part. -/
theorem payToks_eq (c : Dev nD) :
    (payToks (F := F) c : sProp 𝕄) = iprop((dutyTok ER (barCell (xn c)) 0 false
      ∗ (bigSep Finset.univ fun i : Fin 10 => dutyTok ER (xsCell c i) 0 false) ∗ (bigSep Finset.univ fun i : Fin 10 => dutyTok ER (xrCell (xn c) i) 0 false)
      ∗ (bigSep Finset.univ fun j : Fin 6 => dutyTok ER (ysCell c j) 0 false) ∗ (bigSep Finset.univ fun j : Fin 6 => dutyTok ER (yrCell (yn c) j) 0 false))
      ∗ dutyTok ER (barCell (yn c)) 0 true) := by
  unfold payToks
  rw [bigSep_fin33]
  simp only [nb_zero, nb_kXs, nb_kXr, nb_kYs, nb_kYr, kcell_zero, kcell_kXs, kcell_kXr, kcell_kYs, kcell_kYr]

/-- A device's positions, part by part. -/
theorem atPos_eq (c : Dev nD) :
    (bigSep Finset.univ fun k : Fin 33 => (atPos ER (kcell (c, k)) 0 ∅ 0 : sProp 𝕄)) = iprop(atPos ER (barCell c) 0 ∅ 0
      ∗ (bigSep Finset.univ fun i : Fin 10 => atPos ER (xsCell c i) 0 ∅ 0) ∗ (bigSep Finset.univ fun i : Fin 10 => atPos ER (xrCell c i) 0 ∅ 0)
      ∗ (bigSep Finset.univ fun j : Fin 6 => atPos ER (ysCell c j) 0 ∅ 0) ∗ (bigSep Finset.univ fun j : Fin 6 => atPos ER (yrCell c j) 0 ∅ 0)) := by
  rw [bigSep_fin33]
  simp only [kcell_zero, kcell_kXs, kcell_kXr, kcell_kYs, kcell_kYr]

/-! ## What a device owes when the program starts, and the waiters' credit -/

/-- Device `c` owes: a copy's units to each receive cell it fills (ten on its first-axis neighbour, six on its second-axis
    neighbour), and a unit to each neighbour's barrier cell. -/
def O₀ (N : ℕ) (c : Dev nD) : CellTallies nD τ sig Unit :=
  (∑ i : Fin 10, tallyAt (xrCell (xn c) i) () N) + (∑ j : Fin 6, tallyAt (yrCell (yn c) j) () N)
    + tallyAt (barCell (xn c)) () 1 + tallyAt (barCell (yn c)) () 1

/-- The credit device `c` waits with: two units on its barrier cell, a copy's units on each of its receive cells. -/
def credsOf (N : ℕ) (c : Dev nD) : sProp 𝕄 :=
  iprop(cred (tallyAt (barCell c) () 2) ∗ (bigSep Finset.univ fun i : Fin 10 => cred (tallyAt (xrCell c i) () N))
    ∗ (bigSep Finset.univ fun j : Fin 6 => cred (tallyAt (yrCell c j) () N)))

/-! ## The semaphores the kernel names -/

/-- The 32 copy semaphores. -/
abbrev osem : Fin 32 → SemLoc sig := fun n => .dma (dsem n)

theorem ownSemFacts : Pipeline.OwnSemFacts cfg0.spec osem := by decide

end Cert.Kernel.Mesh

end
-- ==== Proof.WData.lean ====
/-
  The proof data of the one grid point: what a device holds before its body (the exchange's ghost state, its launch
  credit, the two scratch planes at any contents) and after it (the scratch planes back at any contents and its 32 copy
  semaphores at zero), what the windows' staging buffers hold after the body (the argument blocks unchanged, the result's
  at the closed term of the devices' blocks), what it owes before (both barrier units, the ten copies, the six forwards)
  and after (nothing); and the order on cells that makes every wait admissible.
-/
import proofs.«900411_g7700000000000412_dist_agattn_v7x_xy2x2_x_b2_s256_h8_d64_bf16_1_alg».proof.Proof.Gen.Kernel
import proofs.«900411_g7700000000000412_dist_agattn_v7x_xy2x2_x_b2_s256_h8_d64_bf16_1_alg».proof.Proof.Gen.Kernel.Skeleton
import proofs.«900411_g7700000000000412_dist_agattn_v7x_xy2x2_x_b2_s256_h8_d64_bf16_1_alg».proof.Proof.Gen.Kernel.Launch
import proofs.«900411_g7700000000000412_dist_agattn_v7x_xy2x2_x_b2_s256_h8_d64_bf16_1_alg».proof.Proof.Gen.Kernel.Points
import proofs.«900411_g7700000000000412_dist_agattn_v7x_xy2x2_x_b2_s256_h8_d64_bf16_1_alg».proof.Proof.Gen.Kernel.Frame
import proofs.«900411_g7700000000000412_dist_agattn_v7x_xy2x2_x_b2_s256_h8_d64_bf16_1_alg».proof.Proof.WFlow
import proofs.«900411_g7700000000000412_dist_agattn_v7x_xy2x2_x_b2_s256_h8_d64_bf16_1_alg».proof.Proof.WMesh
import proofs.«900411_g7700000000000412_dist_agattn_v7x_xy2x2_x_b2_s256_h8_d64_bf16_1_alg».proof.Proof.WSched
import proofs.«900411_g7700000000000412_dist_agattn_v7x_xy2x2_x_b2_s256_h8_d64_bf16_1_alg».proof.Proof.WCells
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The exchange's part of what a device starts from. -/
def start (c : Dev nD) : sProp 𝕄 :=
  iprop((∃ K, ghost (sched (F := F) m) K c) ∗ credsOf N c ∗ levAts L lv)

/-- A scratch plane pair whole. -/
abbrev locPts (c : Dev nD) (f : Buf (Elt F) ((c : Thread nD τ).loc cc0_scratch0)) : sProp 𝕄 :=
  ((c : Thread nD τ).loc cc0_scratch0) ↦{fullShare} f
abbrev remPts (c : Dev nD) (f : Buf (Elt F) ((c : Thread nD τ).loc cc0_scratch1)) : sProp 𝕄 :=
  ((c : Thread nD τ).loc cc0_scratch1) ↦{fullShare} f

def Φ₀ (c : Dev nD) : sProp 𝕄 := iprop(start m c ∗ (∃ f, locPts c f) ∗ (∃ f, remPts c f))
def Φ₁ (c : Dev nD) : sProp 𝕄 :=
  iprop((∃ f, locPts (F := F) c f) ∗ (∃ f, remPts (F := F) c f) ∗ bigSep Finset.univ fun n : Fin 32 => semVal (dmaCell c n) 0)

def dats (_ : Fin 1) (c : Dev nD) : Dat τ (Elt F) Unit ℕ UU ℕ cfg0 c where
  A w := m ((cfg0.win w).arr.view.loc (c : Thread nD τ))
  after w _ := match w with
    | ⟨0, _⟩ => qst m c
    | ⟨1, _⟩ => kst m c
    | ⟨2, _⟩ => vst m c
    | ⟨3, _⟩ => outAt m c
    | ⟨_ + 4, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => O₀ N c
    | ⟨_ + 1, _⟩ => 0

abbrev 𝒱₀ : Variants := Variants.none

/-! ## Where what a device owes sits -/

theorem O₀_pos {c : Dev nD} {g : GSem nD τ sig} {u : Unit} (h : 0 < O₀ N c g u) :
    (∃ i, g = xrCell (xn c) i) ∨ (∃ j, g = yrCell (yn c) j) ∨ g = barCell (xn c) ∨ g = barCell (yn c) := by
  unfold O₀ at h
  rcases Pipeline.add_pos_cases h with h | h
  · rcases Pipeline.add_pos_cases h with h | h
    · rcases Pipeline.add_pos_cases h with h | h
      · obtain ⟨i, _, hi⟩ := Pipeline.sum_pos_exists h
        rw [tallyAt_apply] at hi
        by_cases hg : g = xrCell (xn c) i ∧ u = ()
        · exact .inl ⟨i, hg.1⟩
        · rw [if_neg hg] at hi; exact absurd hi (Nat.lt_irrefl 0)
      · obtain ⟨j, _, hj⟩ := Pipeline.sum_pos_exists h
        rw [tallyAt_apply] at hj
        by_cases hg : g = yrCell (yn c) j ∧ u = ()
        · exact .inr (.inl ⟨j, hg.1⟩)
        · rw [if_neg hg] at hj; exact absurd hj (Nat.lt_irrefl 0)
    · rw [tallyAt_apply] at h
      by_cases hg : g = barCell (xn c) ∧ u = ()
      · exact .inr (.inr (.inl hg.1))
      · rw [if_neg hg] at h; exact absurd h (Nat.lt_irrefl 0)
  · rw [tallyAt_apply] at h
    by_cases hg : g = barCell (yn c) ∧ u = ()
    · exact .inr (.inr (.inr hg.1))
    · rw [if_neg hg] at h; exact absurd h (Nat.lt_irrefl 0)

/-- A wait on a cell below everything still owed is admissible. -/
theorem mayWait_below (c : Dev nD) (sm : SemLoc sig) (O : CellTallies nD τ sig Unit)
    (h : ∀ (g : GSem nD τ sig) (u : Unit), 0 < O g u → g.1.2 = .tc ∧ lv ((c : Thread nD τ), sm) () < lv g u) :
    (levAts L lv : sProp 𝕄) ⊢ MayWait (c : Thread nD τ) sm () O :=
  Pipeline.mayWait_of_levAts (by rw [L_tc]; exact Finset.mem_singleton_self _)
    (fun g u hg => ⟨by obtain ⟨⟨d, k⟩, s⟩ := g; have := (h _ u hg).1; simp only at this; subst this; rw [L_tc]; exact Finset.mem_singleton_self _, (h g u hg).2⟩)

/-- The staging semaphores' waits, owing everything or nothing. -/
theorem mayWait_stage (c : Dev nD) (q : DmaSem sig) (hq : q.val < 4) (O : CellTallies nD τ sig Unit) (hO : O = O₀ N c ∨ O = 0) :
    (levAts L lv : sProp 𝕄) ⊢ MayWait (c : Thread nD τ) (.dma q) () O := by
  rcases hO with rfl | rfl
  · refine mayWait_below c _ _ fun g u hg => ?_
    rw [lv_stage c q hq]
    rcases O₀_pos hg with ⟨i, rfl⟩ | ⟨j, rfl⟩ | rfl | rfl
    · exact ⟨rfl, by rw [lv_xr]; decide⟩
    · exact ⟨rfl, by rw [lv_yr]; decide⟩
    · exact ⟨rfl, by rw [lv_bar]; decide⟩
    · exact ⟨rfl, by rw [lv_bar]; decide⟩
  · rw [MayWait_zero]; iintro -; iempintro

end Cert.Kernel.Mesh

end
-- ==== Proof.WFund.lean ====
/-
  The exchange's ghost state at the start of the program, for any schedule over the 132 cells: the initial element of
  the rounds algebra pays out every cell's round state, position and reached-mark and every duty's token; each
  device's semaphores at zero turn its 33 round states into invariants; the tokens then go to the devices that pay.
-/
import proofs.«900411_g7700000000000412_dist_agattn_v7x_xy2x2_x_b2_s256_h8_d64_bf16_1_alg».proof.Proof.WCells

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The initial element -/

def ringCells : Finset (GSem nD τ sig) := Finset.univ.map ⟨kcell, kcell_injective⟩

/-- The duties' tokens as minted: per device, duty `false` of each of its 33 cells and duty `true` of its barrier cell. -/
abbrev tokOf (x : Dev nD × (Fin 33 ⊕ Unit)) : GSem nD τ sig × ℕ × Bool := match x.2 with
  | .inl k => (kcell (x.1, k), 0, false)
  | .inr _ => (barCell x.1, 0, true)

theorem tokOf_injective : Function.Injective (tokOf : Dev nD × (Fin 33 ⊕ Unit) → GSem nD τ sig × ℕ × Bool) := by
  rintro ⟨c, j⟩ ⟨c', j'⟩ h
  have h1 : c = c' := by
    have := congrArg (fun x : GSem nD τ sig × ℕ × Bool => x.1.1.1) h
    rcases j with k | u <;> rcases j' with k' | u' <;> exact this
  subst h1
  rcases j with k | u <;> rcases j' with k' | u'
  · have hk : (c, k) = (c, k') := kcell_injective (congrArg (fun x : GSem nD τ sig × ℕ × Bool => x.1) h)
    have hkk : k = k' := (Prod.ext_iff.mp hk).2
    subst hkk; rfl
  · exact absurd (show false = true from congrArg (fun x : GSem nD τ sig × ℕ × Bool => x.2.2) h) Bool.false_ne_true
  · exact absurd (show true = false from congrArg (fun x : GSem nD τ sig × ℕ × Bool => x.2.2) h) (fun h' => Bool.false_ne_true h'.symm)
  · rfl

def ringToks : Finset (GSem nD τ sig × ℕ × Bool) := Finset.univ.map ⟨tokOf, tokOf_injective⟩

/-- The launch's element: the staging cells' part and the exchange's. -/
def u₀ : UU :=
  (initOf (Pipeline.cells cfgs cellOf_inj) (Pipeline.launchToks cfgs cellOf_inj), initOf ringCells ringToks)

/-- The tokens of device `c`'s own cells' duties. -/
def toks (c : Dev nD) : sProp 𝕄 :=
  iprop((bigSep Finset.univ fun k : Fin 33 => dutyTok ER (kcell (c, k)) 0 false) ∗ dutyTok ER (barCell c) 0 true)

/-- What the initial element deals device `c`. -/
def G (Rd : Rounds.Schedule (GSem nD τ sig) Bool 𝕄) (c : Dev nD) : sProp 𝕄 :=
  iprop((bigSep Finset.univ fun k : Fin 33 => roundState ER Rd (kcell (c, k)) 0)
    ∗ (bigSep Finset.univ fun k : Fin 33 => iprop(atPos ER (kcell (c, k)) 0 ∅ 0 ∗ reached ER (kcell (c, k)) 0)) ∗ toks (F := F) c)

theorem fund_ring (Rd : Rounds.Schedule (GSem nD τ sig) Bool 𝕄) : BI.own (ER (initOf ringCells ringToks)) ⊢ (|==> bigSep Finset.univ (G Rd) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_of_subsingleton ()]; rfl
  iintro HX
  imod (Rounds.fund ER Rd ringCells ringToks) $$ HX with ⟨Hst, Hr, Hat, Htok⟩
  imodintro
  ihave Hst' := (Entails.of_eq (hX fun g => roundState ER Rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## From counters at zero to invariants -/

/-- The copy semaphores are the kernel's own 32; -/
theorem ownSems0_eq (c : Dev nD) : (Pipeline.ownSems0 (Ix := Unit) (Name := ℕ) (U := UU) (Lvl := ℕ) (Val := Elt F) (τ := τ) osem c : sProp 𝕄)
    = bigSep Finset.univ fun n : Fin 32 => semVal (dmaCell c n) 0 := rfl

/-- the barrier semaphore is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [ownSems0_eq, unscopedSems0_eq, bigSep_fin33_succ]
  simp only [kcell_succ, kcell_zero]
  iintro ⟨HS, HB⟩
  isplitl [HB]; · iexact HB
  iexact HS

theorem core_alloc (Rd : Rounds.Schedule (GSem nD τ sig) Bool 𝕄) [∀ g r d, BI.Storable (upEmb : UEmb _ 𝕄) (Rd.payload g r d)] (c : Dev nD) :
    iprop(Pipeline.ownSems0 (Ix := Unit) (Name := ℕ) (U := UU) (Lvl := ℕ) (Val := Elt F) (τ := τ) osem c ∗ unscopedSems0 c ∗ G Rd c)
      ⊢ |={Set.univ}=> iprop((bigSep Finset.univ fun k : Fin 33 => iprop(∃ κ : ℕ, cellInv ER Rd κ (kcell (c, k))))
          ∗ (bigSep Finset.univ fun k : Fin 33 => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER Rd (kcell (c, k)) 0)
      ⊢ (|={Set.univ}=> bigSep Finset.univ fun k : Fin 33 => iprop(∃ κ : ℕ, cellInv ER Rd κ (kcell (c, k))) : sProp 𝕄) from by
        rw [← bigSep_sep']
        exact (bigSep_mono fun k _ => (Rounds.body_intro ER Rd (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the payers -/

theorem toks_around : (bigSep Finset.univ fun c : Dev nD => (toks c : sProp 𝕄)) ⊢ bigSep Finset.univ fun c : Dev nD => payToks c := by
  unfold toks payToks
  rw [bigSep_sep', bigSep_sep',
    ← bigSep_univ_prod (fun p : Dev nD × Fin 33 => (dutyTok ER (kcell p) 0 false : sProp 𝕄)),
    bigSep_univ_equiv nbP (fun p : Dev nD × Fin 33 => (dutyTok ER (kcell p) 0 false : sProp 𝕄)),
    bigSep_univ_prod,
    bigSep_univ_equiv ynE (fun c : Dev nD => (dutyTok ER (barCell c) 0 true : sProp 𝕄))]
  exact Entails.of_eq rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (Rd : Rounds.Schedule (GSem nD τ sig) Bool 𝕄) (K : Dev nD × Fin 33 → ℕ) (c : Dev nD) : iprop(records Rd K ∗ linear (F := F) c) ⊢ G' Rd c := by
  unfold G' ghost
  iintro H; iexists K; iexact H

theorem regroup (Rd : Rounds.Schedule (GSem nD τ sig) Bool 𝕄) :
    (bigSep Finset.univ fun c : Dev nD => iprop((bigSep Finset.univ fun k : Fin 33 => iprop(∃ κ : ℕ, cellInv ER Rd κ (kcell (c, k))))
          ∗ (bigSep Finset.univ fun k : Fin 33 => iprop(atPos ER (kcell (c, k)) 0 ∅ 0 ∗ reached ER (kcell (c, k)) 0)) ∗ toks (F := F) c) : sProp 𝕄)
      ⊢ bigSep Finset.univ (G' Rd) := by
  rw [bigSep_sep', bigSep_sep', ← bigSep_univ_prod (fun ck : Dev nD × Fin 33 => iprop(∃ κ : ℕ, cellInv ER Rd κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER Rd κ (kcell ck) : sProp 𝕄))) $$ HI
  icases HK with ⟨%K, #HI⟩
  ihave Htk := (toks_around (F := F)) $$ Htok
  iapply (bigSep_with_persistent (R := records Rd K) fun c _ => ghost_intro Rd K c)
  isplitr
  · unfold records; isplitl; · iexact HI
    iexact HR
  · iapply ((Entails.of_eq (bigSep_sep' Finset.univ (fun c : Dev nD => bigSep Finset.univ fun k : Fin 33 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: every device's own and outliving semaphores at zero, and what the initial element dealt. -/
theorem glob (Rd : Rounds.Schedule (GSem nD τ sig) Bool 𝕄) [∀ g r d, BI.Storable (upEmb : UEmb _ 𝕄) (Rd.payload g r d)] : (bigSep Finset.univ fun c => iprop(Pipeline.ownSems0 (Ix := Unit) (Name := ℕ) (U := UU) (Lvl := ℕ) (Val := Elt F) (τ := τ) osem c ∗ unscopedSems0 c ∗ G Rd c) : sProp 𝕄)
    ⊢ |={Set.univ}=> bigSep Finset.univ (G' Rd) :=
  ((bigSep_mono fun c _ => core_alloc Rd c).trans (bigSep_fupd _ _)).trans (BI.fupd_mono (regroup Rd))

/-- The launch's element pays out the staging cells' part and every device's share of the exchange's. -/
theorem hu₀ (Rd : Rounds.Schedule (GSem nD τ sig) Bool 𝕄) : (ownU u₀ : sProp 𝕄)
    ⊢ |={Set.univ}=> iprop(BI.own (EP (initOf (Pipeline.cells cfgs cellOf_inj) (Pipeline.launchToks cfgs cellOf_inj))) ∗ bigSep Finset.univ (G Rd)) := by
  unfold u₀
  iintro Hu
  ihave H := (ownU_pair _ _) $$ Hu
  icases H with ⟨HP, HX⟩
  imod (fund_ring Rd) $$ HX with HG
  imodintro
  isplitl [HP] <;> iassumption

/-- info: 'Cert.Kernel.Mesh.glob' depends on axioms: [propext, Classical.choice, Quot.sound] -/
#guard_msgs in #print axioms glob

end Cert.Kernel.Mesh

end
-- ==== Proof.WCred.lean ====
/-
  The credit the program's start gives each device to wait with: what all devices owe a cell, summed, is what its owner
  may wait for. Two units on the barrier cell (one owed by each neighbour), a copy's units on each receive cell.
-/
import proofs.«900411_g7700000000000412_dist_agattn_v7x_xy2x2_x_b2_s256_h8_d64_bf16_1_alg».proof.Proof.WCells

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem creds (N : ℕ) (c : Dev nD) : (Pipeline.launchCred (O₀ N) c : sProp 𝕄) ⊢ credsOf N c := by
  have e : (Pipeline.launchCred (O₀ N) c : sProp 𝕄)
      = iprop((((bigSep Finset.univ fun i : Fin 10 => Pipeline.launchCred (fun d => tallyAt (xrCell (xn d) i) () N) c)
          ∗ (bigSep Finset.univ fun j : Fin 6 => Pipeline.launchCred (fun d => tallyAt (yrCell (yn d) j) () N) c))
          ∗ Pipeline.launchCred (fun d => tallyAt (barCell (xn d)) () 1) c)
          ∗ Pipeline.launchCred (fun d => tallyAt (barCell (yn d)) () 1) c) := by
    unfold O₀
    rw [Pipeline.launchCred_add, Pipeline.launchCred_add, Pipeline.launchCred_add,
      Pipeline.launchCred_sum Finset.univ (fun (i : Fin 10) d => tallyAt (xrCell (xn d) i) () N),
      Pipeline.launchCred_sum Finset.univ (fun (j : Fin 6) d => tallyAt (yrCell (yn d) j) () N)]
  have hX : (bigSep Finset.univ fun i : Fin 10 => (Pipeline.launchCred (fun d => tallyAt (xrCell (xn d) i) () N) c : sProp 𝕄))
      ⊢ bigSep Finset.univ fun i : Fin 10 => cred (tallyAt (xrCell c i) () N) :=
    bigSep_mono fun i _ => Pipeline.launchCred_tallyAt (.dma (dsem (nXr i))) xn xn xn_xn xn_xn () N c
  have hY : (bigSep Finset.univ fun j : Fin 6 => (Pipeline.launchCred (fun d => tallyAt (yrCell (yn d) j) () N) c : sProp 𝕄))
      ⊢ bigSep Finset.univ fun j : Fin 6 => cred (tallyAt (yrCell c j) () N) :=
    bigSep_mono fun j _ => Pipeline.launchCred_tallyAt (.dma (dsem (nYr j))) yn yn yn_yn yn_yn () N c
  rw [e]; unfold credsOf
  iintro ⟨⟨⟨HX, HY⟩, HB1⟩, HB2⟩
  ihave HB1' := (Pipeline.launchCred_tallyAt (.reg barS) xn xn xn_xn xn_xn () 1 c) $$ HB1
  ihave HB2' := (Pipeline.launchCred_tallyAt (.reg barS) yn yn yn_yn yn_yn () 1 c) $$ HB2
  isplitl [HB1' HB2']
  · iapply (show iprop(cred (tallyAt (barCell c) () 1) ∗ cred (tallyAt (barCell c) () 1)) ⊢ (cred (tallyAt (barCell c) () (1 + 1)) : sProp 𝕄) from by
      rw [← tallyAt_add]; exact (cred_add _ _).2)
    isplitl [HB1'] <;> iassumption
  isplitl [HX]
  · iapply hX; iexact HX
  · iapply hY; iexact HY

/-- info: 'Cert.Kernel.Mesh.creds' depends on axioms: [propext, Classical.choice, Quot.sound] -/
#guard_msgs in #print axioms creds

end Cert.Kernel.Mesh

end
-- ==== Proof.WLaunch.lean ====
/-
  From the devices' bodies to the run of the whole program: with every device's body proved against its proof data, the
  program started on the mesh from any memory with all counters at zero runs to the end under every fair interleaving,
  nothing faults, and each device's result array ends at the closed term while its argument arrays are unchanged.
-/
import proofs.«900411_g7700000000000412_dist_agattn_v7x_xy2x2_x_b2_s256_h8_d64_bf16_1_alg».proof.Proof.WData
import proofs.«900411_g7700000000000412_dist_agattn_v7x_xy2x2_x_b2_s256_h8_d64_bf16_1_alg».proof.Proof.WFund
import proofs.«900411_g7700000000000412_dist_agattn_v7x_xy2x2_x_b2_s256_h8_d64_bf16_1_alg».proof.Proof.WCred

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The side conditions -/

theorem share_eq (c : Dev nD) (w : Fin cfg0.W) : (dats m 0 c).share w = fullShare := by unfold Dat.share; split <;> rfl

/-- What the start of the program hands a device is what its body starts from. -/
theorem start_intro (c : Dev nD) :
    iprop(Pipeline.unscopedRestP Pipeline.Prefetch.none cfg0.spec c (fun b => m ((c : Thread nD τ).loc b)) ∗ levAts L lv
        ∗ Pipeline.launchCred (O₀ N) c ∗ prngReg c (ρ c) ∗ G' (sched (F := F) m) c)
      ⊢ |={Set.univ}=> iprop(start m c ∗ emp) := by
  iintro ⟨-, Hlev, Hcr, -, HG⟩
  ihave Hc := (creds (F := F) N c) $$ Hcr
  imodintro
  unfold start G'
  isplitl
  · isplitl [HG]; · iexact HG
    isplitl [Hc]; · iexact Hc
    iexact Hlev
  · iempintro

/-- With the two scratch planes, at whatever they hold when the kernel is entered, that is the first point's precondition. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hl⟩, ⟨%g, Hr⟩⟩
  isplitl [Hs]; · iexact Hs
  isplitl [Hl]
  · iexists f; iexact Hl
  · iexists g; iexact Hr

/-- The last point's postcondition gives back the copy semaphores at zero and the scratch planes. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f, Hl⟩, ⟨%g, Hr⟩, Hz⟩
  isplitr; · iempintro
  isplitl [Hz]; · iexact Hz
  isplitl [Hl]
  · iexists f; iexact Hl
  · iexists g; iexact Hr

/-- The staging semaphores sit below everything a device owes, before the point and after it. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The result array after the one point -/

/-- The one write-back overwrites the whole result array with what the body left in its staging buffer. -/
theorem arrAt_out (c : Dev nD) : (dats m 0 c).arrAt (3 : Fin 4) cfg0.N = outAt m c := by
  have h := (dats m 0 c).arrAt_succ (3 : Fin 4) t0_0
  rw [flush0_3] at h
  simp only [if_true] at h
  refine (show (dats m 0 c).arrAt 3 cfg0.N = (dats m 0 c).arrAt 3 (t0_0.val + 1) from rfl).trans (h.trans ?_)
  exact Memref.write_access_unit_zero_univ (Elt F) main_v1 (funext fun a => Nat.zero_mul _) _ _ _

/-! ## The run -/

set_option maxRecDepth 8000 in
/-- At the compiled mesh of four devices, for any float values, from any memory with zero counters: given every device's
    body, every weakly fair execution of the program — the four kernels meeting on the barrier semaphore, exchanging
    their planes' chunks across both axes and computing — terminates, nothing faulting, and every final state has each
    device's result array at the closed term `outAt` and its three argument arrays as they were. -/
theorem run_of_body (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀ N) (howed₀ := fun _ => rfl) (howedN := fun _ => rfl)
    (L := L) (lv := lv) (hL := L_of_ne) (hwaits := waits m)
    (G := G (sched (F := F) m)) (G' := G' (sched (F := F) m)) (u₀ := u₀)
    (hu₀ := hu₀ (sched (F := F) m))
    (hglob := glob (sched (F := F) m))
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c =>
      ⟨((h c).1 3).trans (arrAt_out m c),
       ((h c).1 0).trans ((dats m 0 c).arrAt_in 0 rfl _),
       ((h c).1 1).trans ((dats m 0 c).arrAt_in 1 rfl _),
       ((h c).1 2).trans ((dats m 0 c).arrAt_in 2 rfl _)⟩)

/-- info: 'Cert.Kernel.Mesh.run_of_body' depends on axioms: [propext, Classical.choice, Quot.sound] -/
#guard_msgs in #print axioms run_of_body

end Cert.Kernel.Mesh

end
-- ==== Proof.WFrame.lean ====
/-
  The word-level kernel's frame: its run on the mesh, every device's body given, with the value of the result dropped —
  the program runs to the end from any memory with the counters at zero and leaves its three argument arrays unchanged.
-/
import proofs.«900411_g7700000000000412_dist_agattn_v7x_xy2x2_x_b2_s256_h8_d64_bf16_1_alg».proof.Defs
import proofs.«900411_g7700000000000412_dist_agattn_v7x_xy2x2_x_b2_s256_h8_d64_bf16_1_alg».proof.Proof.Gen.Kernel
import proofs.«900411_g7700000000000412_dist_agattn_v7x_xy2x2_x_b2_s256_h8_d64_bf16_1_alg».proof.Proof.Gen.Pre_finite_inputs_Kernel
import proofs.«900411_g7700000000000412_dist_agattn_v7x_xy2x2_x_b2_s256_h8_d64_bf16_1_alg».proof.Proof.WLaunch

noncomputable section

namespace Cert.Proof

open Idealize.ShloMosaic Idealize.ShloMosaic.TcCoe Idealize.SL.Sem
open Idealize.ShloMosaic.Pipeline (BodyObligation)

theorem frame_Kernel_of
    (hbody : ∀ (m : (ℓ : Loc Cert.Kernel.nD Cert.Kernel.τ Cert.Kernel.sig) → Buf (Elt Bits) ℓ) (c : Dev Cert.Kernel.nD),
      BodyObligation (Cert.Kernel.Mesh.dats (F := Bits) m 0 c) (Cert.Kernel.defs₀ (F := Bits)) Cert.Kernel.Mesh.𝒱₀ () Set.univ) :
    Cert.frame_Kernel :=
  fun m ρ _ => (θ_run _ _ _).mono (fun _ h c => (h c).2) (Cert.Kernel.Mesh.run_of_body (F := Bits) m ρ (hbody m))

/-- info: 'Cert.Proof.frame_Kernel_of' depends on axioms: [propext, Classical.choice, Quot.sound] -/
#guard_msgs in #print axioms frame_Kernel_of

end Cert.Proof

end
-- ==== Proof.Cells.lean ====
/-
  The exchange's bookkeeping that does not depend on what the copies carry: the 33 cells of a device split by the
  part they play, who pays which cell, the ghost state a device's body starts from, what a device owes when the
  program starts and the credit that gives the waiters, and the semaphores the kernel names itself.
-/
import proofs.«900411_g7700000000000412_dist_agattn_v7x_xy2x2_x_b2_s256_h8_d64_bf16_1_alg».proof.Proof.Mesh

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The neighbour maps as bijections -/

def xnE : Dev nD ≃ Dev nD := ⟨xn, xn, xn_xn, xn_xn⟩
def ynE : Dev nD ≃ Dev nD := ⟨yn, yn, yn_yn, yn_yn⟩

/-! ## The 33 cells by the part they play -/

/-- The sends across the first axis, their receives, the forwards across the second axis, their receives. -/
def kXs (i : Fin 10) : Fin 33 := ⟨1 + i.val, by have := i.isLt; omega⟩
def kXr (i : Fin 10) : Fin 33 := ⟨11 + i.val, by have := i.isLt; omega⟩
def kYs (j : Fin 6) : Fin 33 := ⟨21 + j.val, by have := j.isLt; omega⟩
def kYr (j : Fin 6) : Fin 33 := ⟨27 + j.val, by have := j.isLt; omega⟩

theorem csem_of_pos (k : Fin 33) (n : Fin 32) (h : k.val = n.val + 1) : csem k = .dma (dsem n) := by
  unfold csem
  rw [dif_neg (by omega)]
  exact congrArg _ (congrArg dsem (Fin.ext (by simp only []; omega)))

theorem kcell_zero (c : Dev nD) : kcell (c, 0) = barCell c := rfl
theorem kcell_kXs (c : Dev nD) (i : Fin 10) : kcell (c, kXs i) = xsCell c i :=
  Prod.ext rfl (csem_of_pos _ _ (by simp only [kXs, nXs]; omega))
theorem kcell_kXr (c : Dev nD) (i : Fin 10) : kcell (c, kXr i) = xrCell c i :=
  Prod.ext rfl (csem_of_pos _ _ (by simp only [kXr, nXr]; omega))
theorem kcell_kYs (c : Dev nD) (j : Fin 6) : kcell (c, kYs j) = ysCell c j :=
  Prod.ext rfl (csem_of_pos _ _ (by simp only [kYs, nYs]; omega))
theorem kcell_kYr (c : Dev nD) (j : Fin 6) : kcell (c, kYr j) = yrCell c j :=
  Prod.ext rfl (csem_of_pos _ _ (by simp only [kYr, nYr]; omega))
theorem kcell_succ (c : Dev nD) (n : Fin 32) : kcell (c, n.succ) = dmaCell c n :=
  Prod.ext rfl (show csem n.succ = .dma (dsem n) from csem_of_pos _ _ rfl)

/-- The index of a cell, by part. -/
def ix : Unit ⊕ Fin 10 ⊕ Fin 10 ⊕ Fin 6 ⊕ Fin 6 → Fin 33
  | .inl _ => 0
  | .inr (.inl i) => kXs i
  | .inr (.inr (.inl i)) => kXr i
  | .inr (.inr (.inr (.inl j))) => kYs j
  | .inr (.inr (.inr (.inr j))) => kYr j

theorem ix_bijective : Function.Bijective ix := by decide

def ixE : Unit ⊕ Fin 10 ⊕ Fin 10 ⊕ Fin 6 ⊕ Fin 6 ≃ Fin 33 := Equiv.ofBijective ix ix_bijective

/-- A conjunction over a device's 33 cells, part by part. -/
theorem bigSep_fin33 {M : Type} [URA M] (Φ : Fin 33 → sProp M) :
    bigSep Finset.univ Φ = iprop(Φ 0 ∗ (bigSep Finset.univ fun i : Fin 10 => Φ (kXs i)) ∗ (bigSep Finset.univ fun i : Fin 10 => Φ (kXr i))
      ∗ (bigSep Finset.univ fun j : Fin 6 => Φ (kYs j)) ∗ (bigSep Finset.univ fun j : Fin 6 => Φ (kYr j))) := by
  rw [bigSep_univ_equiv ixE Φ, bigSep_univ_sum, bigSep_univ_sum, bigSep_univ_sum, bigSep_univ_sum, bigSep_univ_of_subsingleton ()]
  rfl

/-- The barrier cell first, then the 32 copy cells. -/
theorem bigSep_fin33_succ {M : Type} [URA M] (Φ : Fin 33 → sProp M) :
    bigSep Finset.univ Φ = iprop(Φ 0 ∗ bigSep Finset.univ fun n : Fin 32 => Φ n.succ) := by
  rw [Fin.univ_succ, Finset.cons_eq_insert, bigSep_insert (by simp), bigSep_map]
  rfl

/-! ## Who pays which cell -/

/-- The device whose cell `k` device `c` pays (duty `false`): its first-axis neighbour's barrier cell and receive cells,
    its second-axis neighbour's receive cells, its own send cells. -/
def nb (k : Fin 33) (c : Dev nD) : Dev nD :=
  if k.val = 0 ∨ (11 ≤ k.val ∧ k.val ≤ 20) then xn c else if 27 ≤ k.val then yn c else c

theorem nb_nb (k : Fin 33) (c : Dev nD) : nb k (nb k c) = c := by
  unfold nb
  by_cases h1 : k.val = 0 ∨ (11 ≤ k.val ∧ k.val ≤ 20)
  · rw [if_pos h1, if_pos h1, xn_xn]
  · rw [if_neg h1, if_neg h1]
    by_cases h2 : 27 ≤ k.val
    · rw [if_pos h2, if_pos h2, yn_yn]
    · rw [if_neg h2, if_neg h2]

theorem nb_zero (c : Dev nD) : nb 0 c = xn c := if_pos (Or.inl rfl)
theorem nb_kXs (i : Fin 10) (c : Dev nD) : nb (kXs i) c = c := by
  have := i.isLt; unfold nb; rw [if_neg (by simp only [kXs]; omega), if_neg (by simp only [kXs]; omega)]
theorem nb_kXr (i : Fin 10) (c : Dev nD) : nb (kXr i) c = xn c := by
  have := i.isLt; unfold nb; rw [if_pos (by simp only [kXr]; omega)]
theorem nb_kYs (j : Fin 6) (c : Dev nD) : nb (kYs j) c = c := by
  have := j.isLt; unfold nb; rw [if_neg (by simp only [kYs]; omega), if_neg (by simp only [kYs]; omega)]
theorem nb_kYr (j : Fin 6) (c : Dev nD) : nb (kYr j) c = yn c := by
  have := j.isLt; unfold nb; rw [if_neg (by simp only [kYr]; omega), if_pos (by simp only [kYr]; omega)]

/-- Paying device and cell index to paid cell, a bijection of the 132 cells. -/
def nbP : Dev nD × Fin 33 ≃ Dev nD × Fin 33 :=
  ⟨fun p => (nb p.2 p.1, p.2), fun p => (nb p.2 p.1, p.2), fun p => by simp only [nb_nb], fun p => by simp only [nb_nb]⟩

/-! ## The ghost state a device's body starts from -/

section Ghost

/-- Every cell's invariant, at the names `K`, and that round 0 of every cell is reached: persistent, the same for all devices. -/
def records (Rd : Rounds.Schedule (GSem nD τ sig) Bool 𝕄) (K : Dev nD × Fin 33 → ℕ) : sProp 𝕄 :=
  iprop((bigSep Finset.univ fun ck : Dev nD × Fin 33 => cellInv ER Rd (K ck) (kcell ck))
    ∗ bigSep Finset.univ fun ck : Dev nD × Fin 33 => reached ER (kcell ck) 0)

instance records_persistent (Rd : Rounds.Schedule (GSem nD τ sig) Bool 𝕄) (K : Dev nD × Fin 33 → ℕ) : BI.Persistent (records Rd K) := by unfold records; infer_instance

/-- The tokens of the duties device `c` pays: duty `false` of each cell it pays, duty `true` of its second-axis neighbour's barrier. -/
def payToks (c : Dev nD) : sProp 𝕄 :=
  iprop((bigSep Finset.univ fun k : Fin 33 => dutyTok ER (kcell (nb k c, k)) 0 false) ∗ dutyTok ER (barCell (yn c)) 0 true)

/-- What is device `c`'s alone: its position at the start of round 0 of each of its cells, and the tokens it pays with. -/
def linear (c : Dev nD) : sProp 𝕄 :=
  iprop((bigSep Finset.univ fun k : Fin 33 => atPos ER (kcell (c, k)) 0 ∅ 0) ∗ payToks (F := F) c)

def ghost (Rd : Rounds.Schedule (GSem nD τ sig) Bool 𝕄) (K : Dev nD × Fin 33 → ℕ) (c : Dev nD) : sProp 𝕄 := iprop(records Rd K ∗ linear (F := F) c)

def G' (Rd : Rounds.Schedule (GSem nD τ sig) Bool 𝕄) (c : Dev nD) : sProp 𝕄 := iprop(∃ K, ghost Rd K c)

theorem records_inv (Rd : Rounds.Schedule (GSem nD τ sig) Bool 𝕄) (K : Dev nD × Fin 33 → ℕ) (ck : Dev nD × Fin 33) : (records Rd K : sProp 𝕄) ⊢ cellInv ER Rd (K ck) (kcell ck) := by
  have h : (bigSep Finset.univ fun ck : Dev nD × Fin 33 => (cellInv ER Rd (K ck) (kcell ck) : sProp 𝕄)) ⊢ cellInv ER Rd (K ck) (kcell ck) := bigSep_elim (Finset.mem_univ ck)
  unfold records; iintro ⟨H, -⟩; iapply h; iexact H
theorem records_reached (Rd : Rounds.Schedule (GSem nD τ sig) Bool 𝕄) (K : Dev nD × Fin 33 → ℕ) (ck : Dev nD × Fin 33) : (records Rd K : sProp 𝕄) ⊢ reached ER (kcell ck) 0 := by
  have h : (bigSep Finset.univ fun ck : Dev nD × Fin 33 => (reached ER (kcell ck) 0 : sProp 𝕄)) ⊢ reached ER (kcell ck) 0 := bigSep_elim (Finset.mem_univ ck)
  unfold records; iintro ⟨-, H⟩; iapply h; iexact H

end Ghost

/-- The tokens device `c` pays with, part by part. -/
theorem payToks_eq (c : Dev nD) :
    (payToks (F := F) c : sProp 𝕄) = iprop((dutyTok ER (barCell (xn c)) 0 false
      ∗ (bigSep Finset.univ fun i : Fin 10 => dutyTok ER (xsCell c i) 0 false) ∗ (bigSep Finset.univ fun i : Fin 10 => dutyTok ER (xrCell (xn c) i) 0 false)
      ∗ (bigSep Finset.univ fun j : Fin 6 => dutyTok ER (ysCell c j) 0 false) ∗ (bigSep Finset.univ fun j : Fin 6 => dutyTok ER (yrCell (yn c) j) 0 false))
      ∗ dutyTok ER (barCell (yn c)) 0 true) := by
  unfold payToks
  rw [bigSep_fin33]
  simp only [nb_zero, nb_kXs, nb_kXr, nb_kYs, nb_kYr, kcell_zero, kcell_kXs, kcell_kXr, kcell_kYs, kcell_kYr]

/-- A device's positions, part by part. -/
theorem atPos_eq (c : Dev nD) :
    (bigSep Finset.univ fun k : Fin 33 => (atPos ER (kcell (c, k)) 0 ∅ 0 : sProp 𝕄)) = iprop(atPos ER (barCell c) 0 ∅ 0
      ∗ (bigSep Finset.univ fun i : Fin 10 => atPos ER (xsCell c i) 0 ∅ 0) ∗ (bigSep Finset.univ fun i : Fin 10 => atPos ER (xrCell c i) 0 ∅ 0)
      ∗ (bigSep Finset.univ fun j : Fin 6 => atPos ER (ysCell c j) 0 ∅ 0) ∗ (bigSep Finset.univ fun j : Fin 6 => atPos ER (yrCell c j) 0 ∅ 0)) := by
  rw [bigSep_fin33]
  simp only [kcell_zero, kcell_kXs, kcell_kXr, kcell_kYs, kcell_kYr]

/-! ## What a device owes when the program starts, and the waiters' credit -/

/-- Device `c` owes: a copy's units to each receive cell it fills (ten on its first-axis neighbour, six on its second-axis
    neighbour), and a unit to each neighbour's barrier cell. -/
def O₀ (N : ℕ) (c : Dev nD) : CellTallies nD τ sig Unit :=
  (∑ i : Fin 10, tallyAt (xrCell (xn c) i) () N) + (∑ j : Fin 6, tallyAt (yrCell (yn c) j) () N)
    + tallyAt (barCell (xn c)) () 1 + tallyAt (barCell (yn c)) () 1

/-- The credit device `c` waits with: two units on its barrier cell, a copy's units on each of its receive cells. -/
def credsOf (N : ℕ) (c : Dev nD) : sProp 𝕄 :=
  iprop(cred (tallyAt (barCell c) () 2) ∗ (bigSep Finset.univ fun i : Fin 10 => cred (tallyAt (xrCell c i) () N))
    ∗ (bigSep Finset.univ fun j : Fin 6 => cred (tallyAt (yrCell c j) () N)))

/-! ## The semaphores the kernel names -/

/-- The 32 copy semaphores. -/
abbrev osem : Fin 32 → SemLoc sig := fun n => .dma (dsem n)

theorem ownSemFacts : Pipeline.OwnSemFacts cfg0.spec osem := by decide

end Cert.KernelIdeal.Mesh

end
-- ==== Proof.Data.lean ====
/-
  The proof data of the one grid point: what a device holds before its body (the exchange's ghost state, its launch
  credit, the two scratch planes at any contents) and after it (the scratch planes back at any contents and its 32 copy
  semaphores at zero), what the windows' staging buffers hold after the body (the argument blocks unchanged, the result's
  at the closed term of the devices' blocks), what it owes before (both barrier units, the ten copies, the six forwards)
  and after (nothing); and the order on cells that makes every wait admissible.
-/
import proofs.«900411_g7700000000000412_dist_agattn_v7x_xy2x2_x_b2_s256_h8_d64_bf16_1_alg».proof.Proof.Gen.KernelIdeal
import proofs.«900411_g7700000000000412_dist_agattn_v7x_xy2x2_x_b2_s256_h8_d64_bf16_1_alg».proof.Proof.Gen.KernelIdeal.Skeleton
import proofs.«900411_g7700000000000412_dist_agattn_v7x_xy2x2_x_b2_s256_h8_d64_bf16_1_alg».proof.Proof.Gen.KernelIdeal.Launch
import proofs.«900411_g7700000000000412_dist_agattn_v7x_xy2x2_x_b2_s256_h8_d64_bf16_1_alg».proof.Proof.Gen.KernelIdeal.Points
import proofs.«900411_g7700000000000412_dist_agattn_v7x_xy2x2_x_b2_s256_h8_d64_bf16_1_alg».proof.Proof.Gen.KernelIdeal.Frame
import proofs.«900411_g7700000000000412_dist_agattn_v7x_xy2x2_x_b2_s256_h8_d64_bf16_1_alg».proof.Proof.Flow
import proofs.«900411_g7700000000000412_dist_agattn_v7x_xy2x2_x_b2_s256_h8_d64_bf16_1_alg».proof.Proof.Mesh
import proofs.«900411_g7700000000000412_dist_agattn_v7x_xy2x2_x_b2_s256_h8_d64_bf16_1_alg».proof.Proof.Sched
import proofs.«900411_g7700000000000412_dist_agattn_v7x_xy2x2_x_b2_s256_h8_d64_bf16_1_alg».proof.Proof.Cells
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The exchange's part of what a device starts from. -/
def start (c : Dev nD) : sProp 𝕄 :=
  iprop((∃ K, ghost (sched (F := F) m) K c) ∗ credsOf N c ∗ levAts L lv)

/-- A scratch plane pair whole. -/
abbrev locPts (c : Dev nD) (f : Buf (Elt F) ((c : Thread nD τ).loc cc0_scratch0)) : sProp 𝕄 :=
  ((c : Thread nD τ).loc cc0_scratch0) ↦{fullShare} f
abbrev remPts (c : Dev nD) (f : Buf (Elt F) ((c : Thread nD τ).loc cc0_scratch1)) : sProp 𝕄 :=
  ((c : Thread nD τ).loc cc0_scratch1) ↦{fullShare} f

def Φ₀ (c : Dev nD) : sProp 𝕄 := iprop(start m c ∗ (∃ f, locPts c f) ∗ (∃ f, remPts c f))
def Φ₁ (c : Dev nD) : sProp 𝕄 :=
  iprop((∃ f, locPts (F := F) c f) ∗ (∃ f, remPts (F := F) c f) ∗ bigSep Finset.univ fun n : Fin 32 => semVal (dmaCell c n) 0)

def dats (_ : Fin 1) (c : Dev nD) : Dat τ (Elt F) Unit ℕ UU ℕ cfg0 c where
  A w := m ((cfg0.win w).arr.view.loc (c : Thread nD τ))
  after w _ := match w with
    | ⟨0, _⟩ => qst m c
    | ⟨1, _⟩ => kst m c
    | ⟨2, _⟩ => vst m c
    | ⟨3, _⟩ => outAt m c
    | ⟨_ + 4, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => O₀ N c
    | ⟨_ + 1, _⟩ => 0

abbrev 𝒱₀ : Variants := Variants.none

/-! ## Where what a device owes sits -/

theorem O₀_pos {c : Dev nD} {g : GSem nD τ sig} {u : Unit} (h : 0 < O₀ N c g u) :
    (∃ i, g = xrCell (xn c) i) ∨ (∃ j, g = yrCell (yn c) j) ∨ g = barCell (xn c) ∨ g = barCell (yn c) := by
  unfold O₀ at h
  rcases Pipeline.add_pos_cases h with h | h
  · rcases Pipeline.add_pos_cases h with h | h
    · rcases Pipeline.add_pos_cases h with h | h
      · obtain ⟨i, _, hi⟩ := Pipeline.sum_pos_exists h
        rw [tallyAt_apply] at hi
        by_cases hg : g = xrCell (xn c) i ∧ u = ()
        · exact .inl ⟨i, hg.1⟩
        · rw [if_neg hg] at hi; exact absurd hi (Nat.lt_irrefl 0)
      · obtain ⟨j, _, hj⟩ := Pipeline.sum_pos_exists h
        rw [tallyAt_apply] at hj
        by_cases hg : g = yrCell (yn c) j ∧ u = ()
        · exact .inr (.inl ⟨j, hg.1⟩)
        · rw [if_neg hg] at hj; exact absurd hj (Nat.lt_irrefl 0)
    · rw [tallyAt_apply] at h
      by_cases hg : g = barCell (xn c) ∧ u = ()
      · exact .inr (.inr (.inl hg.1))
      · rw [if_neg hg] at h; exact absurd h (Nat.lt_irrefl 0)
  · rw [tallyAt_apply] at h
    by_cases hg : g = barCell (yn c) ∧ u = ()
    · exact .inr (.inr (.inr hg.1))
    · rw [if_neg hg] at h; exact absurd h (Nat.lt_irrefl 0)

/-- A wait on a cell below everything still owed is admissible. -/
theorem mayWait_below (c : Dev nD) (sm : SemLoc sig) (O : CellTallies nD τ sig Unit)
    (h : ∀ (g : GSem nD τ sig) (u : Unit), 0 < O g u → g.1.2 = .tc ∧ lv ((c : Thread nD τ), sm) () < lv g u) :
    (levAts L lv : sProp 𝕄) ⊢ MayWait (c : Thread nD τ) sm () O :=
  Pipeline.mayWait_of_levAts (by rw [L_tc]; exact Finset.mem_singleton_self _)
    (fun g u hg => ⟨by obtain ⟨⟨d, k⟩, s⟩ := g; have := (h _ u hg).1; simp only at this; subst this; rw [L_tc]; exact Finset.mem_singleton_self _, (h g u hg).2⟩)

/-- The staging semaphores' waits, owing everything or nothing. -/
theorem mayWait_stage (c : Dev nD) (q : DmaSem sig) (hq : q.val < 4) (O : CellTallies nD τ sig Unit) (hO : O = O₀ N c ∨ O = 0) :
    (levAts L lv : sProp 𝕄) ⊢ MayWait (c : Thread nD τ) (.dma q) () O := by
  rcases hO with rfl | rfl
  · refine mayWait_below c _ _ fun g u hg => ?_
    rw [lv_stage c q hq]
    rcases O₀_pos hg with ⟨i, rfl⟩ | ⟨j, rfl⟩ | rfl | rfl
    · exact ⟨rfl, by rw [lv_xr]; decide⟩
    · exact ⟨rfl, by rw [lv_yr]; decide⟩
    · exact ⟨rfl, by rw [lv_bar]; decide⟩
    · exact ⟨rfl, by rw [lv_bar]; decide⟩
  · rw [MayWait_zero]; iintro -; iempintro

end Cert.KernelIdeal.Mesh

end
-- ==== Proof.Fund.lean ====
/-
  The exchange's ghost state at the start of the program, for any schedule over the 132 cells: the initial element of
  the rounds algebra pays out every cell's round state, position and reached-mark and every duty's token; each
  device's semaphores at zero turn its 33 round states into invariants; the tokens then go to the devices that pay.
-/
import proofs.«900411_g7700000000000412_dist_agattn_v7x_xy2x2_x_b2_s256_h8_d64_bf16_1_alg».proof.Proof.Cells

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The initial element -/

def ringCells : Finset (GSem nD τ sig) := Finset.univ.map ⟨kcell, kcell_injective⟩

/-- The duties' tokens as minted: per device, duty `false` of each of its 33 cells and duty `true` of its barrier cell. -/
abbrev tokOf (x : Dev nD × (Fin 33 ⊕ Unit)) : GSem nD τ sig × ℕ × Bool := match x.2 with
  | .inl k => (kcell (x.1, k), 0, false)
  | .inr _ => (barCell x.1, 0, true)

theorem tokOf_injective : Function.Injective (tokOf : Dev nD × (Fin 33 ⊕ Unit) → GSem nD τ sig × ℕ × Bool) := by
  rintro ⟨c, j⟩ ⟨c', j'⟩ h
  have h1 : c = c' := by
    have := congrArg (fun x : GSem nD τ sig × ℕ × Bool => x.1.1.1) h
    rcases j with k | u <;> rcases j' with k' | u' <;> exact this
  subst h1
  rcases j with k | u <;> rcases j' with k' | u'
  · have hk : (c, k) = (c, k') := kcell_injective (congrArg (fun x : GSem nD τ sig × ℕ × Bool => x.1) h)
    have hkk : k = k' := (Prod.ext_iff.mp hk).2
    subst hkk; rfl
  · exact absurd (show false = true from congrArg (fun x : GSem nD τ sig × ℕ × Bool => x.2.2) h) Bool.false_ne_true
  · exact absurd (show true = false from congrArg (fun x : GSem nD τ sig × ℕ × Bool => x.2.2) h) (fun h' => Bool.false_ne_true h'.symm)
  · rfl

def ringToks : Finset (GSem nD τ sig × ℕ × Bool) := Finset.univ.map ⟨tokOf, tokOf_injective⟩

/-- The launch's element: the staging cells' part and the exchange's. -/
def u₀ : UU :=
  (initOf (Pipeline.cells cfgs cellOf_inj) (Pipeline.launchToks cfgs cellOf_inj), initOf ringCells ringToks)

/-- The tokens of device `c`'s own cells' duties. -/
def toks (c : Dev nD) : sProp 𝕄 :=
  iprop((bigSep Finset.univ fun k : Fin 33 => dutyTok ER (kcell (c, k)) 0 false) ∗ dutyTok ER (barCell c) 0 true)

/-- What the initial element deals device `c`. -/
def G (Rd : Rounds.Schedule (GSem nD τ sig) Bool 𝕄) (c : Dev nD) : sProp 𝕄 :=
  iprop((bigSep Finset.univ fun k : Fin 33 => roundState ER Rd (kcell (c, k)) 0)
    ∗ (bigSep Finset.univ fun k : Fin 33 => iprop(atPos ER (kcell (c, k)) 0 ∅ 0 ∗ reached ER (kcell (c, k)) 0)) ∗ toks (F := F) c)

theorem fund_ring (Rd : Rounds.Schedule (GSem nD τ sig) Bool 𝕄) : BI.own (ER (initOf ringCells ringToks)) ⊢ (|==> bigSep Finset.univ (G Rd) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_of_subsingleton ()]; rfl
  iintro HX
  imod (Rounds.fund ER Rd ringCells ringToks) $$ HX with ⟨Hst, Hr, Hat, Htok⟩
  imodintro
  ihave Hst' := (Entails.of_eq (hX fun g => roundState ER Rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## From counters at zero to invariants -/

/-- The copy semaphores are the kernel's own 32; -/
theorem ownSems0_eq (c : Dev nD) : (Pipeline.ownSems0 (Ix := Unit) (Name := ℕ) (U := UU) (Lvl := ℕ) (Val := Elt F) (τ := τ) osem c : sProp 𝕄)
    = bigSep Finset.univ fun n : Fin 32 => semVal (dmaCell c n) 0 := rfl

/-- the barrier semaphore is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [ownSems0_eq, unscopedSems0_eq, bigSep_fin33_succ]
  simp only [kcell_succ, kcell_zero]
  iintro ⟨HS, HB⟩
  isplitl [HB]; · iexact HB
  iexact HS

theorem core_alloc (Rd : Rounds.Schedule (GSem nD τ sig) Bool 𝕄) [∀ g r d, BI.Storable (upEmb : UEmb _ 𝕄) (Rd.payload g r d)] (c : Dev nD) :
    iprop(Pipeline.ownSems0 (Ix := Unit) (Name := ℕ) (U := UU) (Lvl := ℕ) (Val := Elt F) (τ := τ) osem c ∗ unscopedSems0 c ∗ G Rd c)
      ⊢ |={Set.univ}=> iprop((bigSep Finset.univ fun k : Fin 33 => iprop(∃ κ : ℕ, cellInv ER Rd κ (kcell (c, k))))
          ∗ (bigSep Finset.univ fun k : Fin 33 => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER Rd (kcell (c, k)) 0)
      ⊢ (|={Set.univ}=> bigSep Finset.univ fun k : Fin 33 => iprop(∃ κ : ℕ, cellInv ER Rd κ (kcell (c, k))) : sProp 𝕄) from by
        rw [← bigSep_sep']
        exact (bigSep_mono fun k _ => (Rounds.body_intro ER Rd (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the payers -/

theorem toks_around : (bigSep Finset.univ fun c : Dev nD => (toks c : sProp 𝕄)) ⊢ bigSep Finset.univ fun c : Dev nD => payToks c := by
  unfold toks payToks
  rw [bigSep_sep', bigSep_sep',
    ← bigSep_univ_prod (fun p : Dev nD × Fin 33 => (dutyTok ER (kcell p) 0 false : sProp 𝕄)),
    bigSep_univ_equiv nbP (fun p : Dev nD × Fin 33 => (dutyTok ER (kcell p) 0 false : sProp 𝕄)),
    bigSep_univ_prod,
    bigSep_univ_equiv ynE (fun c : Dev nD => (dutyTok ER (barCell c) 0 true : sProp 𝕄))]
  exact Entails.of_eq rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (Rd : Rounds.Schedule (GSem nD τ sig) Bool 𝕄) (K : Dev nD × Fin 33 → ℕ) (c : Dev nD) : iprop(records Rd K ∗ linear (F := F) c) ⊢ G' Rd c := by
  unfold G' ghost
  iintro H; iexists K; iexact H

theorem regroup (Rd : Rounds.Schedule (GSem nD τ sig) Bool 𝕄) :
    (bigSep Finset.univ fun c : Dev nD => iprop((bigSep Finset.univ fun k : Fin 33 => iprop(∃ κ : ℕ, cellInv ER Rd κ (kcell (c, k))))
          ∗ (bigSep Finset.univ fun k : Fin 33 => iprop(atPos ER (kcell (c, k)) 0 ∅ 0 ∗ reached ER (kcell (c, k)) 0)) ∗ toks (F := F) c) : sProp 𝕄)
      ⊢ bigSep Finset.univ (G' Rd) := by
  rw [bigSep_sep', bigSep_sep', ← bigSep_univ_prod (fun ck : Dev nD × Fin 33 => iprop(∃ κ : ℕ, cellInv ER Rd κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER Rd κ (kcell ck) : sProp 𝕄))) $$ HI
  icases HK with ⟨%K, #HI⟩
  ihave Htk := (toks_around (F := F)) $$ Htok
  iapply (bigSep_with_persistent (R := records Rd K) fun c _ => ghost_intro Rd K c)
  isplitr
  · unfold records; isplitl; · iexact HI
    iexact HR
  · iapply ((Entails.of_eq (bigSep_sep' Finset.univ (fun c : Dev nD => bigSep Finset.univ fun k : Fin 33 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: every device's own and outliving semaphores at zero, and what the initial element dealt. -/
theorem glob (Rd : Rounds.Schedule (GSem nD τ sig) Bool 𝕄) [∀ g r d, BI.Storable (upEmb : UEmb _ 𝕄) (Rd.payload g r d)] : (bigSep Finset.univ fun c => iprop(Pipeline.ownSems0 (Ix := Unit) (Name := ℕ) (U := UU) (Lvl := ℕ) (Val := Elt F) (τ := τ) osem c ∗ unscopedSems0 c ∗ G Rd c) : sProp 𝕄)
    ⊢ |={Set.univ}=> bigSep Finset.univ (G' Rd) :=
  ((bigSep_mono fun c _ => core_alloc Rd c).trans (bigSep_fupd _ _)).trans (BI.fupd_mono (regroup Rd))

/-- The launch's element pays out the staging cells' part and every device's share of the exchange's. -/
theorem hu₀ (Rd : Rounds.Schedule (GSem nD τ sig) Bool 𝕄) : (ownU u₀ : sProp 𝕄)
    ⊢ |={Set.univ}=> iprop(BI.own (EP (initOf (Pipeline.cells cfgs cellOf_inj) (Pipeline.launchToks cfgs cellOf_inj))) ∗ bigSep Finset.univ (G Rd)) := by
  unfold u₀
  iintro Hu
  ihave H := (ownU_pair _ _) $$ Hu
  icases H with ⟨HP, HX⟩
  imod (fund_ring Rd) $$ HX with HG
  imodintro
  isplitl [HP] <;> iassumption

/-- info: 'Cert.KernelIdeal.Mesh.glob' depends on axioms: [propext, Classical.choice, Quot.sound] -/
#guard_msgs in #print axioms glob

end Cert.KernelIdeal.Mesh

end
-- ==== Proof.Cred.lean ====
/-
  The credit the program's start gives each device to wait with: what all devices owe a cell, summed, is what its owner
  may wait for. Two units on the barrier cell (one owed by each neighbour), a copy's units on each receive cell.
-/
import proofs.«900411_g7700000000000412_dist_agattn_v7x_xy2x2_x_b2_s256_h8_d64_bf16_1_alg».proof.Proof.Cells

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem creds (N : ℕ) (c : Dev nD) : (Pipeline.launchCred (O₀ N) c : sProp 𝕄) ⊢ credsOf N c := by
  have e : (Pipeline.launchCred (O₀ N) c : sProp 𝕄)
      = iprop((((bigSep Finset.univ fun i : Fin 10 => Pipeline.launchCred (fun d => tallyAt (xrCell (xn d) i) () N) c)
          ∗ (bigSep Finset.univ fun j : Fin 6 => Pipeline.launchCred (fun d => tallyAt (yrCell (yn d) j) () N) c))
          ∗ Pipeline.launchCred (fun d => tallyAt (barCell (xn d)) () 1) c)
          ∗ Pipeline.launchCred (fun d => tallyAt (barCell (yn d)) () 1) c) := by
    unfold O₀
    rw [Pipeline.launchCred_add, Pipeline.launchCred_add, Pipeline.launchCred_add,
      Pipeline.launchCred_sum Finset.univ (fun (i : Fin 10) d => tallyAt (xrCell (xn d) i) () N),
      Pipeline.launchCred_sum Finset.univ (fun (j : Fin 6) d => tallyAt (yrCell (yn d) j) () N)]
  have hX : (bigSep Finset.univ fun i : Fin 10 => (Pipeline.launchCred (fun d => tallyAt (xrCell (xn d) i) () N) c : sProp 𝕄))
      ⊢ bigSep Finset.univ fun i : Fin 10 => cred (tallyAt (xrCell c i) () N) :=
    bigSep_mono fun i _ => Pipeline.launchCred_tallyAt (.dma (dsem (nXr i))) xn xn xn_xn xn_xn () N c
  have hY : (bigSep Finset.univ fun j : Fin 6 => (Pipeline.launchCred (fun d => tallyAt (yrCell (yn d) j) () N) c : sProp 𝕄))
      ⊢ bigSep Finset.univ fun j : Fin 6 => cred (tallyAt (yrCell c j) () N) :=
    bigSep_mono fun j _ => Pipeline.launchCred_tallyAt (.dma (dsem (nYr j))) yn yn yn_yn yn_yn () N c
  rw [e]; unfold credsOf
  iintro ⟨⟨⟨HX, HY⟩, HB1⟩, HB2⟩
  ihave HB1' := (Pipeline.launchCred_tallyAt (.reg barS) xn xn xn_xn xn_xn () 1 c) $$ HB1
  ihave HB2' := (Pipeline.launchCred_tallyAt (.reg barS) yn yn yn_yn yn_yn () 1 c) $$ HB2
  isplitl [HB1' HB2']
  · iapply (show iprop(cred (tallyAt (barCell c) () 1) ∗ cred (tallyAt (barCell c) () 1)) ⊢ (cred (tallyAt (barCell c) () (1 + 1)) : sProp 𝕄) from by
      rw [← tallyAt_add]; exact (cred_add _ _).2)
    isplitl [HB1'] <;> iassumption
  isplitl [HX]
  · iapply hX; iexact HX
  · iapply hY; iexact HY

/-- info: 'Cert.KernelIdeal.Mesh.creds' depends on axioms: [propext, Classical.choice, Quot.sound] -/
#guard_msgs in #print axioms creds

end Cert.KernelIdeal.Mesh

end
-- ==== Proof.Launch.lean ====
/-
  From the devices' bodies to the run of the whole program: with every device's body proved against its proof data, the
  program started on the mesh from any memory with all counters at zero runs to the end under every fair interleaving,
  nothing faults, and each device's result array ends at the closed term while its argument arrays are unchanged.
-/
import proofs.«900411_g7700000000000412_dist_agattn_v7x_xy2x2_x_b2_s256_h8_d64_bf16_1_alg».proof.Proof.Data
import proofs.«900411_g7700000000000412_dist_agattn_v7x_xy2x2_x_b2_s256_h8_d64_bf16_1_alg».proof.Proof.Fund
import proofs.«900411_g7700000000000412_dist_agattn_v7x_xy2x2_x_b2_s256_h8_d64_bf16_1_alg».proof.Proof.Cred

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The side conditions -/

theorem share_eq (c : Dev nD) (w : Fin cfg0.W) : (dats m 0 c).share w = fullShare := by unfold Dat.share; split <;> rfl

/-- What the start of the program hands a device is what its body starts from. -/
theorem start_intro (c : Dev nD) :
    iprop(Pipeline.unscopedRestP Pipeline.Prefetch.none cfg0.spec c (fun b => m ((c : Thread nD τ).loc b)) ∗ levAts L lv
        ∗ Pipeline.launchCred (O₀ N) c ∗ prngReg c (ρ c) ∗ G' (sched (F := F) m) c)
      ⊢ |={Set.univ}=> iprop(start m c ∗ emp) := by
  iintro ⟨-, Hlev, Hcr, -, HG⟩
  ihave Hc := (creds (F := F) N c) $$ Hcr
  imodintro
  unfold start G'
  isplitl
  · isplitl [HG]; · iexact HG
    isplitl [Hc]; · iexact Hc
    iexact Hlev
  · iempintro

/-- With the two scratch planes, at whatever they hold when the kernel is entered, that is the first point's precondition. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hl⟩, ⟨%g, Hr⟩⟩
  isplitl [Hs]; · iexact Hs
  isplitl [Hl]
  · iexists f; iexact Hl
  · iexists g; iexact Hr

/-- The last point's postcondition gives back the copy semaphores at zero and the scratch planes. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f, Hl⟩, ⟨%g, Hr⟩, Hz⟩
  isplitr; · iempintro
  isplitl [Hz]; · iexact Hz
  isplitl [Hl]
  · iexists f; iexact Hl
  · iexists g; iexact Hr

/-- The staging semaphores sit below everything a device owes, before the point and after it. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The result array after the one point -/

/-- The one write-back overwrites the whole result array with what the body left in its staging buffer. -/
theorem arrAt_out (c : Dev nD) : (dats m 0 c).arrAt (3 : Fin 4) cfg0.N = outAt m c := by
  have h := (dats m 0 c).arrAt_succ (3 : Fin 4) t0_0
  rw [flush0_3] at h
  simp only [if_true] at h
  refine (show (dats m 0 c).arrAt 3 cfg0.N = (dats m 0 c).arrAt 3 (t0_0.val + 1) from rfl).trans (h.trans ?_)
  exact Memref.write_access_unit_zero_univ (Elt F) main_v1 (funext fun a => Nat.zero_mul _) _ _ _

/-! ## The run -/

set_option maxRecDepth 8000 in
/-- At the compiled mesh of four devices, for any float values, from any memory with zero counters: given every device's
    body, every weakly fair execution of the program — the four kernels meeting on the barrier semaphore, exchanging
    their planes' chunks across both axes and computing — terminates, nothing faulting, and every final state has each
    device's result array at the closed term `outAt` and its three argument arrays as they were. -/
theorem run_of_body (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀ N) (howed₀ := fun _ => rfl) (howedN := fun _ => rfl)
    (L := L) (lv := lv) (hL := L_of_ne) (hwaits := waits m)
    (G := G (sched (F := F) m)) (G' := G' (sched (F := F) m)) (u₀ := u₀)
    (hu₀ := hu₀ (sched (F := F) m))
    (hglob := glob (sched (F := F) m))
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c =>
      ⟨((h c).1 3).trans (arrAt_out m c),
       ((h c).1 0).trans ((dats m 0 c).arrAt_in 0 rfl _),
       ((h c).1 1).trans ((dats m 0 c).arrAt_in 1 rfl _),
       ((h c).1 2).trans ((dats m 0 c).arrAt_in 2 rfl _)⟩)

/-- info: 'Cert.KernelIdeal.Mesh.run_of_body' depends on axioms: [propext, Classical.choice, Quot.sound] -/
#guard_msgs in #print axioms run_of_body

end Cert.KernelIdeal.Mesh

end
-- ==== Proof.Regions.lean ====
/-
  The 64-row chunks of the two scratch planes as sets of entries, and what a copy of a chunk leaves.

  A chunk is the unit-stride rectangle of one plane, 64 rows and all 512 columns at an offset; through the
  squeeze that drops the plane axis its entries are the same, so membership is three inequalities. The own planes
  and the received planes have one shape, so a chunk at one offset names the same entries in both, and a copy of it
  from one buffer into the other leaves, at each entry of the chunk, the source buffer's value at that entry.
-/
import proofs.«900411_g7700000000000412_dist_agattn_v7x_xy2x2_x_b2_s256_h8_d64_bf16_1_alg».proof.Proof.Mesh
import proofs.«900411_g7700000000000412_dist_agattn_v7x_xy2x2_x_b2_s256_h8_d64_bf16_1_alg».proof.Proof.Sched

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## Chunks as sets -/

section Sets
omit [FloatOps F]

theorem chunk_set_loc (off : Fin 3 → Nat) (h : ∀ a, off a + S1x64x512.size a ≤ S2x512x512.size a) :
    (chunk locM off h).view.set = (Rect.unit (s := S2x512x512) off S1x64x512.size h).set := by
  show (((View.whole cc0_scratch0 : View sig .tc _ _ _).slice (Rect.unit (s := S2x512x512) off S1x64x512.size h)).reshape S64x512 _).set = _
  rw [View.set_reshape, View.set_slice_whole]

theorem chunk_set_rem (off : Fin 3 → Nat) (h : ∀ a, off a + S1x64x512.size a ≤ S2x512x512.size a) :
    (chunk remM off h).view.set = (Rect.unit (s := S2x512x512) off S1x64x512.size h).set := by
  show (((View.whole cc0_scratch1 : View sig .tc _ _ _).slice (Rect.unit (s := S2x512x512) off S1x64x512.size h)).reshape S64x512 _).set = _
  rw [View.set_reshape, View.set_slice_whole]

/-- An entry is in a chunk of the own planes exactly when each coordinate is within the chunk's extent from its offset. -/
theorem mem_chunk_loc (off : Fin 3 → Nat) (h : ∀ a, off a + S1x64x512.size a ≤ S2x512x512.size a) (idx : S2x512x512.Idx) :
    idx ∈ (chunk locM off h).view.set ↔ ∀ a, off a ≤ (idx a).val ∧ (idx a).val < off a + S1x64x512.size a := by
  rw [chunk_set_loc]; exact Rect.mem_set_unit

/-- The same in the received planes. -/
theorem mem_chunk_rem (off : Fin 3 → Nat) (h : ∀ a, off a + S1x64x512.size a ≤ S2x512x512.size a) (idx : S2x512x512.Idx) :
    idx ∈ (chunk remM off h).view.set ↔ ∀ a, off a ≤ (idx a).val ∧ (idx a).val < off a + S1x64x512.size a := by
  rw [chunk_set_rem]; exact Rect.mem_set_unit

/-- A chunk of either buffer lives in that buffer, on whatever device. -/
theorem chunk_loc_loc (c : Dev nD) (off : Fin 3 → Nat) (h : ∀ a, off a + S1x64x512.size a ≤ S2x512x512.size a) :
    (chunk locM off h).view.loc (c : Thread nD τ) = (c : Thread nD τ).loc cc0_scratch0 := rfl
theorem chunk_loc_rem (c : Dev nD) (off : Fin 3 → Nat) (h : ∀ a, off a + S1x64x512.size a ≤ S2x512x512.size a) :
    (chunk remM off h).view.loc (c : Thread nD τ) = (c : Thread nD τ).loc cc0_scratch1 := rfl

/-- A chunk at one offset is the same set of entries in both buffers. -/
theorem chunk_set_loc_eq_rem (off : Fin 3 → Nat) (h : ∀ a, off a + S1x64x512.size a ≤ S2x512x512.size a) :
    ((chunk locM off h).view.set : Finset S2x512x512.Idx) = (chunk remM off h).view.set :=
  (chunk_set_loc off h).trans (chunk_set_rem off h).symm

theorem lchunk_set_eq_rchunk_set (c : Dev nD) (i : Fin 10) :
    ((lchunk c i).view.set : Finset S2x512x512.Idx) = (rchunk c i).view.set := chunk_set_loc_eq_rem _ _

theorem xplane_of_lt (c : Dev nD) {i : Fin 10} (h : i.val < 8) : xplane c i = yc c := if_pos h
theorem xplane_of_ge (c : Dev nD) {i : Fin 10} (h : 8 ≤ i.val) : xplane c i = 1 - yc c := if_neg (by omega)
theorem xchunk_of_lt {i : Fin 10} (h : i.val < 8) : xchunk i = i.val := if_pos h
theorem xchunk_of_ge {i : Fin 10} (h : 8 ≤ i.val) : xchunk i = i.val - 2 := if_neg (by omega)

/-- Chunk `i` of device `c`'s first-axis plan: its plane, and its 64 rows. -/
theorem mem_rchunk (c : Dev nD) (i : Fin 10) (idx : S2x512x512.Idx) :
    idx ∈ (rchunk c i).view.set ↔
      (idx 0).val = xplane c i ∧ 64 * xchunk i ≤ (idx 1).val ∧ (idx 1).val < 64 * xchunk i + 64 := by
  rw [mem_chunk_rem, xoff_eq]
  have h2 : (idx 2).val < 512 := (idx 2).isLt
  constructor
  · intro h
    have h0 := h 0
    have h1 := h 1
    replace h0 : xplane c i ≤ (idx 0).val ∧ (idx 0).val < xplane c i + 1 := h0
    replace h1 : 64 * xchunk i ≤ (idx 1).val ∧ (idx 1).val < 64 * xchunk i + 64 := h1
    omega
  · rintro ⟨e0, lo, hi⟩ a
    match a with
    | ⟨0, _⟩ => show xplane c i ≤ (idx 0).val ∧ (idx 0).val < xplane c i + 1; omega
    | ⟨1, _⟩ => show 64 * xchunk i ≤ (idx 1).val ∧ (idx 1).val < 64 * xchunk i + 64; omega
    | ⟨2, _⟩ => show 0 ≤ (idx 2).val ∧ (idx 2).val < 0 + 512; omega

theorem mem_lchunk (c : Dev nD) (i : Fin 10) (idx : S2x512x512.Idx) :
    idx ∈ (lchunk c i).view.set ↔
      (idx 0).val = xplane c i ∧ 64 * xchunk i ≤ (idx 1).val ∧ (idx 1).val < 64 * xchunk i + 64 := by
  rw [lchunk_set_eq_rchunk_set]; exact mem_rchunk c i idx

end Sets

/-! ## What a copy of a chunk leaves -/

section Landing
omit [FloatOps F]

/-- A chunk of the own planes copied into the same chunk of some device's received planes: at an entry of the chunk
    the destination now holds the source's value at that entry. -/
theorem landed_own (off : Fin 3 → Nat) (h : ∀ a, off a + S1x64x512.size a ≤ S2x512x512.size a)
    (fs : (cc0_scratch0 : Ref sig .tc).ty.Contents (Elt F)) (fd : (cc0_scratch1 : Ref sig .tc).ty.Contents (Elt F))
    (idx : S2x512x512.Idx) (hidx : idx ∈ (chunk remM off h).view.set) :
    ((chunk remM off h).view.write (Elt F) fd ((chunk locM off h).view.read (Elt F) fs) Finset.univ) idx = fs idx := by
  obtain ⟨y, rfl⟩ := View.exists_emb_of_mem_set _ hidx
  rw [View.write_emb_of_mem _ _ (Finset.mem_univ y)]
  rfl

/-- A chunk of the received planes forwarded into the same chunk of another device's received planes. -/
theorem landed_fwd (off : Fin 3 → Nat) (h : ∀ a, off a + S1x64x512.size a ≤ S2x512x512.size a)
    (fs fd : (cc0_scratch1 : Ref sig .tc).ty.Contents (Elt F))
    (idx : S2x512x512.Idx) (hidx : idx ∈ (chunk remM off h).view.set) :
    ((chunk remM off h).view.write (Elt F) fd ((chunk remM off h).view.read (Elt F) fs) Finset.univ) idx = fs idx := by
  obtain ⟨y, rfl⟩ := View.exists_emb_of_mem_set _ hidx
  rw [View.write_emb_of_mem _ _ (Finset.mem_univ y)]
  rfl

/-- The same at the plan's chunks, the buffers typed by the devices that hold them. -/
theorem landed_lchunk (c c' : Dev nD) (i : Fin 10) (fs : Buf (Elt F) ((c : Thread nD τ).loc cc0_scratch0))
    (fd : Buf (Elt F) ((c' : Thread nD τ).loc cc0_scratch1)) (idx : S2x512x512.Idx) (hidx : idx ∈ (rchunk c i).view.set) :
    ((rchunk c i).view.write (Elt F) fd ((lchunk c i).view.read (Elt F) fs) Finset.univ) idx = fs idx :=
  landed_own _ _ fs fd idx hidx

theorem landed_rchunk (c c' c'' : Dev nD) (i : Fin 10) (fs : Buf (Elt F) ((c' : Thread nD τ).loc cc0_scratch1))
    (fd : Buf (Elt F) ((c'' : Thread nD τ).loc cc0_scratch1)) (idx : S2x512x512.Idx) (hidx : idx ∈ (rchunk c i).view.set) :
    ((rchunk c i).view.write (Elt F) fd ((rchunk c i).view.read (Elt F) fs) Finset.univ) idx = fs idx :=
  landed_fwd _ _ fs fd idx hidx

/-- On a chunk of `c`'s first-axis plan, the neighbour's received planes come from `c` itself. -/
theorem srcDev_xn_of_mem (c : Dev nD) (i : Fin 10) (idx : S2x512x512.Idx) (hidx : idx ∈ (rchunk c i).view.set) :
    srcDev (xn c) idx = c := by
  obtain ⟨e0, lo, hi⟩ := (mem_rchunk c i idx).mp hidx
  have hy := yc_lt c
  unfold srcDev
  rw [if_neg ?_, xn_xn]
  rintro ⟨h0, h1⟩
  rw [yc_xn] at h0
  by_cases h8 : i.val < 8
  · rw [xplane_of_lt c h8] at e0; exact h0 e0
  · rw [xchunk_of_ge (by omega)] at lo
    omega

/-- On one of the six forwarded chunks of `c`'s plan, `c`'s received planes come from its first-axis neighbour … -/
theorem srcDev_of_mem_fwd (c : Dev nD) (j : Fin 6) (idx : S2x512x512.Idx) (hidx : idx ∈ (rchunk c (j10 j)).view.set) :
    srcDev c idx = xn c := by
  obtain ⟨e0, lo, hi⟩ := (mem_rchunk c (j10 j) idx).mp hidx
  have hj : (j10 j).val < 8 := by have := j.isLt; show j.val < 8; omega
  rw [xplane_of_lt c hj] at e0
  unfold srcDev
  rw [if_neg fun h => h.1 e0]

/-- … and so do its second-axis neighbour's, there. -/
theorem srcDev_yn_of_mem_fwd (c : Dev nD) (j : Fin 6) (idx : S2x512x512.Idx) (hidx : idx ∈ (rchunk c (j10 j)).view.set) :
    srcDev (yn c) idx = xn c := by
  obtain ⟨e0, lo, hi⟩ := (mem_rchunk c (j10 j) idx).mp hidx
  have hj6 := j.isLt
  have hj : (j10 j).val < 8 := by show j.val < 8; omega
  have hjv : (j10 j).val = j.val := rfl
  rw [xplane_of_lt c hj] at e0
  rw [xchunk_of_lt hj, hjv] at hi
  have hy := yc_lt c
  unfold srcDev
  rw [if_pos ⟨by rw [yc_yn]; omega, by omega⟩, yn_yn]

end Landing

/-! ## The payloads the two kinds of copy establish -/

/-- A copy across the first axis lands the sender's own chunk where the receiver's final contents say it should be. -/
theorem xr_landed (c : Dev nD) (i : Fin 10) (fd : Buf (Elt F) ((rchunk c i).view.loc (xn c : Thread nD τ))) :
    pts (F := F) (xn c) (rchunk c i) fullShare
        ((rchunk c i).view.write (Elt F) fd ((lchunk c i).view.read (Elt F) (locC m c)) Finset.univ)
      ⊢ xrPay m (xn c) i := by
  unfold xrPay
  rw [xn_xn]
  refine Entails.of_eq (pointsTo_congr fun idx hidx => ?_)
  rw [landed_lchunk c (xn c) i (locC m c) fd idx hidx]
  show locC m c idx = locC m (srcDev (xn c) idx) idx
  rw [srcDev_xn_of_mem c i idx hidx]

/-- A forward across the second axis lands what the forwarder received where the receiver's final contents say. -/
theorem yr_landed (c : Dev nD) (j : Fin 6) (fd : Buf (Elt F) ((rchunk c (j10 j)).view.loc (yn c : Thread nD τ))) :
    pts (F := F) (yn c) (rchunk c (j10 j)) fullShare
        ((rchunk c (j10 j)).view.write (Elt F) fd ((rchunk c (j10 j)).view.read (Elt F) (remC m c)) Finset.univ)
      ⊢ yrPay m (yn c) j := by
  unfold yrPay
  rw [yn_yn]
  refine Entails.of_eq (pointsTo_congr fun idx hidx => ?_)
  rw [landed_rchunk c c (yn c) (j10 j) (remC m c) fd idx hidx]
  show locC m (srcDev c idx) idx = locC m (srcDev (yn c) idx) idx
  rw [srcDev_of_mem_fwd c j idx hidx, srcDev_yn_of_mem_fwd c j idx hidx]

end Cert.KernelIdeal.Mesh

end
-- ==== Proof.RegionsPart.lean ====
/-
  The received planes of a device cut into the sixteen chunks that land there, and the own planes into the ten
  chunks sent and the rest.

  Of the received planes of device `c`, plane `yc c` arrives whole across the first axis as chunks 0–7; of the other
  plane, chunks 6 and 7 arrive across the first axis and chunks 0–5 are forwarded by the second-axis neighbour, whose own
  plan names them as its chunks 0–5. These sixteen sets are pairwise disjoint and cover the two planes, so one
  points-to over the buffer is the separating conjunction of the sixteen.
-/
import proofs.«900411_g7700000000000412_dist_agattn_v7x_xy2x2_x_b2_s256_h8_d64_bf16_1_alg».proof.Proof.Mesh
import proofs.«900411_g7700000000000412_dist_agattn_v7x_xy2x2_x_b2_s256_h8_d64_bf16_1_alg».proof.Proof.Sched
import proofs.«900411_g7700000000000412_dist_agattn_v7x_xy2x2_x_b2_s256_h8_d64_bf16_1_alg».proof.Proof.Regions

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- The two scratch buffers of device `c`. -/
abbrev locLoc (c : Dev nD) : Loc nD τ sig := (c : Thread nD τ).loc cc0_scratch0
abbrev remLoc (c : Dev nD) : Loc nD τ sig := (c : Thread nD τ).loc cc0_scratch1

/-- The ten chunks that land across the first axis, the six forwarded across the second, and the ten sent. -/
def landX (c : Dev nD) (i : Fin 10) : Finset (Idx (remLoc c)) := (rchunk c i).view.set
def landY (c : Dev nD) (j : Fin 6) : Finset (Idx (remLoc c)) := (rchunk (yn c) (j10 j)).view.set
def sentX (c : Dev nD) (i : Fin 10) : Finset (Idx (locLoc c)) := (lchunk c i).view.set

section Sets
omit [FloatOps F]

theorem mem_landX (c : Dev nD) (i : Fin 10) (idx : S2x512x512.Idx) :
    idx ∈ landX c i ↔ (idx 0).val = xplane c i ∧ 64 * xchunk i ≤ (idx 1).val ∧ (idx 1).val < 64 * xchunk i + 64 :=
  mem_rchunk c i idx

/-- A forwarded chunk: the plane the device does not receive whole, rows `[64 j, 64 j + 64)`. -/
theorem mem_landY (c : Dev nD) (j : Fin 6) (idx : S2x512x512.Idx) :
    idx ∈ landY c j ↔ (idx 0).val = 1 - yc c ∧ 64 * j.val ≤ (idx 1).val ∧ (idx 1).val < 64 * j.val + 64 := by
  have hj : (j10 j).val < 8 := by have := j.isLt; show j.val < 8; omega
  unfold landY
  rw [mem_rchunk, xplane_of_lt _ hj, xchunk_of_lt hj, yc_yn]
  rfl

theorem landX_disjoint (c : Dev nD) (i i' : Fin 10) (hne : i ≠ i') : Disjoint (landX c i) (landX c i') := by
  refine Finset.disjoint_left.mpr fun idx h h' => ?_
  obtain ⟨e0, lo, hi⟩ := (mem_landX c i idx).mp h
  obtain ⟨e0', lo', hi'⟩ := (mem_landX c i' idx).mp h'
  have hv : i.val ≠ i'.val := fun e => hne (Fin.ext e)
  have hy := yc_lt c
  by_cases h8 : i.val < 8 <;> by_cases h8' : i'.val < 8
  · rw [xchunk_of_lt h8] at lo hi; rw [xchunk_of_lt h8'] at lo' hi'; omega
  · rw [xplane_of_lt c h8] at e0; rw [xplane_of_ge c (by omega)] at e0'; omega
  · rw [xplane_of_ge c (by omega)] at e0; rw [xplane_of_lt c h8'] at e0'; omega
  · rw [xchunk_of_ge (by omega)] at lo hi; rw [xchunk_of_ge (by omega)] at lo' hi'; omega

theorem landY_disjoint (c : Dev nD) (j j' : Fin 6) (hne : j ≠ j') : Disjoint (landY c j) (landY c j') := by
  refine Finset.disjoint_left.mpr fun idx h h' => ?_
  obtain ⟨e0, lo, hi⟩ := (mem_landY c j idx).mp h
  obtain ⟨e0', lo', hi'⟩ := (mem_landY c j' idx).mp h'
  have hv : j.val ≠ j'.val := fun e => hne (Fin.ext e)
  omega

theorem landX_landY_disjoint (c : Dev nD) (i : Fin 10) (j : Fin 6) : Disjoint (landX c i) (landY c j) := by
  refine Finset.disjoint_left.mpr fun idx h h' => ?_
  obtain ⟨e0, lo, hi⟩ := (mem_landX c i idx).mp h
  obtain ⟨e0', lo', hi'⟩ := (mem_landY c j idx).mp h'
  have hy := yc_lt c
  have hj := j.isLt
  by_cases h8 : i.val < 8
  · rw [xplane_of_lt c h8] at e0; omega
  · rw [xchunk_of_ge (by omega)] at lo hi; omega

/-- Every entry of the received planes is in one of the sixteen. -/
theorem land_cover (c : Dev nD) :
    (Finset.univ.biUnion (landX c)) ∪ (Finset.univ.biUnion (landY c)) = (Finset.univ : Finset (Idx (remLoc c))) := by
  refine Finset.eq_univ_iff_forall.mpr fun (idx : S2x512x512.Idx) => ?_
  have h0 : (idx 0).val < 2 := (idx 0).isLt
  have h1 : (idx 1).val < 512 := (idx 1).isLt
  have hy := yc_lt c
  rw [Finset.mem_union, Finset.mem_biUnion, Finset.mem_biUnion]
  by_cases hp : (idx 0).val = yc c
  · refine Or.inl ⟨⟨(idx 1).val / 64, by omega⟩, Finset.mem_univ _, (mem_landX c _ idx).mpr ?_⟩
    have h8 : (⟨(idx 1).val / 64, by omega⟩ : Fin 10).val < 8 := by show (idx 1).val / 64 < 8; omega
    rw [xplane_of_lt c h8, xchunk_of_lt h8]
    show (idx 0).val = yc c ∧ 64 * ((idx 1).val / 64) ≤ (idx 1).val ∧ (idx 1).val < 64 * ((idx 1).val / 64) + 64
    omega
  · by_cases hr : (idx 1).val < 384
    · refine Or.inr ⟨⟨(idx 1).val / 64, by omega⟩, Finset.mem_univ _, (mem_landY c _ idx).mpr ?_⟩
      show (idx 0).val = 1 - yc c ∧ 64 * ((idx 1).val / 64) ≤ (idx 1).val ∧ (idx 1).val < 64 * ((idx 1).val / 64) + 64
      omega
    · refine Or.inl ⟨⟨(idx 1).val / 64 + 2, by omega⟩, Finset.mem_univ _, (mem_landX c _ idx).mpr ?_⟩
      have h8 : 8 ≤ (⟨(idx 1).val / 64 + 2, by omega⟩ : Fin 10).val := by show 8 ≤ (idx 1).val / 64 + 2; omega
      rw [xplane_of_ge c h8, xchunk_of_ge h8]
      show (idx 0).val = 1 - yc c ∧ 64 * ((idx 1).val / 64 + 2 - 2) ≤ (idx 1).val ∧ (idx 1).val < 64 * ((idx 1).val / 64 + 2 - 2) + 64
      omega

theorem land_disjoint (c : Dev nD) : Disjoint (Finset.univ.biUnion (landX c)) (Finset.univ.biUnion (landY c)) :=
  (Finset.disjoint_biUnion_left _ _ _).mpr fun i _ => (Finset.disjoint_biUnion_right _ _ _).mpr fun j _ =>
    landX_landY_disjoint c i j

theorem sentX_eq_landX (c : Dev nD) (i : Fin 10) : (sentX c i : Finset S2x512x512.Idx) = landX c i :=
  lchunk_set_eq_rchunk_set c i

theorem sentX_disjoint (c : Dev nD) (i i' : Fin 10) (hne : i ≠ i') : Disjoint (sentX c i) (sentX c i') := by
  have h := landX_disjoint c i i' hne
  rw [← sentX_eq_landX, ← sentX_eq_landX] at h
  exact h

end Sets

/-! ## One points-to, cut along the chunks -/

/-- The received planes at any share: the ten first-axis landing chunks and the six second-axis ones. -/
theorem rem_split (c : Dev nD) (q : PosShare TreeShare) (f : Buf (Elt F) (remLoc c)) :
    (remLoc c ↦{q} f : sProp 𝕄) ⊣⊢
      iprop((bigSep Finset.univ fun i : Fin 10 => pts (F := F) c (rchunk c i) q f)
        ∗ (bigSep Finset.univ fun j : Fin 6 => pts (F := F) c (rchunk (yn c) (j10 j)) q f)) := by
  have e1 : (remLoc c ↦[Finset.univ.biUnion (landX c)]{q} f : sProp 𝕄) = bigSep Finset.univ fun i => remLoc c ↦[landX c i]{q} f :=
    pointsTo_biUnion Finset.univ (landX c) fun i _ i' _ hne => landX_disjoint c i i' hne
  have e2 : (remLoc c ↦[Finset.univ.biUnion (landY c)]{q} f : sProp 𝕄) = bigSep Finset.univ fun j => remLoc c ↦[landY c j]{q} f :=
    pointsTo_biUnion Finset.univ (landY c) fun j _ j' _ hne => landY_disjoint c j j' hne
  have h : (remLoc c ↦[Finset.univ.biUnion (landX c) ∪ Finset.univ.biUnion (landY c)]{q} f : sProp 𝕄) ⊣⊢
      iprop((remLoc c ↦[Finset.univ.biUnion (landX c)]{q} f) ∗ remLoc c ↦[Finset.univ.biUnion (landY c)]{q} f) :=
    pointsTo_union (land_disjoint c)
  rw [land_cover, e1, e2] at h
  exact h

/-- The own planes at any share: the ten chunks sent across the first axis, and the rest. -/
theorem loc_split (c : Dev nD) (q : PosShare TreeShare) (f : Buf (Elt F) (locLoc c)) :
    (locLoc c ↦{q} f : sProp 𝕄) ⊣⊢
      iprop((bigSep Finset.univ fun i : Fin 10 => pts (F := F) c (lchunk c i) q f)
        ∗ (locLoc c ↦[Finset.univ \ Finset.univ.biUnion (sentX c)]{q} f)) := by
  have e1 : (locLoc c ↦[Finset.univ.biUnion (sentX c)]{q} f : sProp 𝕄) = bigSep Finset.univ fun i => locLoc c ↦[sentX c i]{q} f :=
    pointsTo_biUnion Finset.univ (sentX c) fun i _ i' _ hne => sentX_disjoint c i i' hne
  have h : (locLoc c ↦[Finset.univ]{q} f : sProp 𝕄) ⊣⊢
      iprop((locLoc c ↦[Finset.univ.biUnion (sentX c)]{q} f) ∗ locLoc c ↦[Finset.univ \ Finset.univ.biUnion (sentX c)]{q} f) :=
    pointsTo_split_subset (Finset.subset_univ _)
  rw [e1] at h
  exact h

end Cert.KernelIdeal.Mesh

end
-- ==== Proof.RegionsIO.lean ====
/-
  What the body's loads read from the scratch planes, and what its stores leave.

  A load through a unit-stride rectangle of a whole buffer reads the buffer at the rectangle's offset plus the local
  coordinate. A plane of the own planes read whole is the staged key or value plane; rows `[256 b, 256 b + 256)` of a
  plane of the received planes are half `b` of that plane. The two stores of one plane each, the second over the
  first, leave a buffer that is one plane's payload on plane 0 and the other's on plane 1.
-/
import proofs.«900411_g7700000000000412_dist_agattn_v7x_xy2x2_x_b2_s256_h8_d64_bf16_1_alg».proof.Proof.Mesh
import proofs.«900411_g7700000000000412_dist_agattn_v7x_xy2x2_x_b2_s256_h8_d64_bf16_1_alg».proof.Proof.Sched

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- The result's staging buffer. -/
abbrev outM : Memref sig .tc .vmem S2x256x8x64 .bf16 := Memref.whole cc0_stg3_0

/-! ## Loads -/

section Loads

/-- Rows `[256 b, 256 b + 256)` of plane `p` of the received planes, as a load reads them. -/
theorem rem_load (c : Dev nD) (p b : Fin 2) (off : Fin 3 → Nat) (inb : ∀ a, off a + S1x256x512.size a ≤ S2x512x512.size a)
    (h0 : off 0 = p.val) (h1 : off 1 = 256 * b.val) (h2 : off 2 = 0) :
    (remM : Memref sig .tc .vmem S2x512x512 .bf16).view.readAt (Elt F) (Rect.unit (s := S2x512x512) off S1x256x512.size inb).toLoadRect (remC m c)
      = Flow.half b (remPlane m c p) := by
  funext x
  have hx0 : (x 0).val < 1 := (x 0).isLt
  show remC m c ((Rect.unit (s := S2x512x512) off S1x256x512.size inb).toLoadRect.idx x) = remC m c _
  refine congrArg (remC m c) (funext fun a => Fin.ext ?_)
  match a with
  | ⟨0, _⟩ => show off 0 + 1 * (x 0).val = p.val; omega
  | ⟨1, _⟩ => show off 1 + 1 * (x 1).val = 256 * b.val + (x 1).val; omega
  | ⟨2, _⟩ => show off 2 + 1 * (x 2).val = (x 2).val; omega

theorem rem_load_0_0 (c : Dev nD) :
    (remM : Memref sig .tc .vmem S2x512x512 .bf16).view.readAt (Elt F) (Rect.unit (s := S2x512x512) ![0, 0, 0] S1x256x512.size inb_S2x512x512_S1x256x512_0_0_0).toLoadRect (remC m c)
      = Flow.half 0 (remPlane m c 0) := rem_load m c 0 0 _ _ rfl rfl rfl
theorem rem_load_1_0 (c : Dev nD) :
    (remM : Memref sig .tc .vmem S2x512x512 .bf16).view.readAt (Elt F) (Rect.unit (s := S2x512x512) ![1, 0, 0] S1x256x512.size inb_S2x512x512_S1x256x512_1_0_0).toLoadRect (remC m c)
      = Flow.half 0 (remPlane m c 1) := rem_load m c 1 0 _ _ rfl rfl rfl
theorem rem_load_0_256 (c : Dev nD) :
    (remM : Memref sig .tc .vmem S2x512x512 .bf16).view.readAt (Elt F) (Rect.unit (s := S2x512x512) ![0, 256, 0] S1x256x512.size inb_S2x512x512_S1x256x512_0_256_0).toLoadRect (remC m c)
      = Flow.half 1 (remPlane m c 0) := rem_load m c 0 1 _ _ rfl rfl rfl
theorem rem_load_1_256 (c : Dev nD) :
    (remM : Memref sig .tc .vmem S2x512x512 .bf16).view.readAt (Elt F) (Rect.unit (s := S2x512x512) ![1, 256, 0] S1x256x512.size inb_S2x512x512_S1x256x512_1_256_0).toLoadRect (remC m c)
      = Flow.half 1 (remPlane m c 1) := rem_load m c 1 1 _ _ rfl rfl rfl

/-- Plane `p` of the own planes, as a load reads it whole. -/
theorem loc_load (c : Dev nD) (p : Fin 2) (off : Fin 3 → Nat) (inb : ∀ a, off a + S1x512x512.size a ≤ S2x512x512.size a)
    (h0 : off 0 = p.val) (h1 : off 1 = 0) (h2 : off 2 = 0) :
    (locM : Memref sig .tc .vmem S2x512x512 .bf16).view.readAt (Elt F) (Rect.unit (s := S2x512x512) off S1x512x512.size inb).toLoadRect (locC m c)
      = locPlane m c p := by
  funext x
  have hx0 : (x 0).val < 1 := (x 0).isLt
  show locC m c ((Rect.unit (s := S2x512x512) off S1x512x512.size inb).toLoadRect.idx x) = locC m c _
  refine congrArg (locC m c) (funext fun a => Fin.ext ?_)
  match a with
  | ⟨0, _⟩ => show off 0 + 1 * (x 0).val = p.val; omega
  | ⟨1, _⟩ => show off 1 + 1 * (x 1).val = (x 1).val; omega
  | ⟨2, _⟩ => show off 2 + 1 * (x 2).val = (x 2).val; omega

theorem loc_load_0 (c : Dev nD) :
    (locM : Memref sig .tc .vmem S2x512x512 .bf16).view.readAt (Elt F) (Rect.unit (s := S2x512x512) ![0, 0, 0] S1x512x512.size inb_S2x512x512_S1x512x512_0_0_0).toLoadRect (locC m c)
      = locPlane m c 0 := loc_load m c 0 _ _ rfl rfl rfl
theorem loc_load_1 (c : Dev nD) :
    (locM : Memref sig .tc .vmem S2x512x512 .bf16).view.readAt (Elt F) (Rect.unit (s := S2x512x512) ![1, 0, 0] S1x512x512.size inb_S2x512x512_S1x512x512_1_0_0).toLoadRect (locC m c)
      = locPlane m c 1 := loc_load m c 1 _ _ rfl rfl rfl

/-- An index of a one-plane array is its row and column under the plane coordinate 0. -/
theorem plane_idx (j : S1x512x512.Idx) :
    ix3 (0 : Fin 1) (⟨(j 1).val, (j 1).isLt⟩ : Fin 512) (⟨(j 2).val, (j 2).isLt⟩ : Fin 512) = j := by
  funext a
  match a with
  | ⟨0, _⟩ => exact Fin.ext (by have h : (j 0).val < 1 := (j 0).isLt; show 0 = (j 0).val; omega)
  | ⟨1, _⟩ => rfl
  | ⟨2, _⟩ => rfl

/-- Plane 0 of the own planes is the staged key plane, plane 1 the staged value plane. -/
theorem locPlane_zero (c : Dev nD) : locPlane m c 0 = Flow.planeK (kst m c) := by
  funext j
  unfold locPlane locC
  exact (if_pos rfl).trans (congrArg (Flow.planeK (kst m c)) (plane_idx j))

theorem locPlane_one (c : Dev nD) : locPlane m c 1 = Flow.planeV (vst m c) := by
  funext j
  unfold locPlane locC
  exact (if_neg (show ¬ ((1 : Fin 2).val = 0) from by decide)).trans (congrArg (Flow.planeV (vst m c)) (plane_idx j))

end Loads

/-! ## Stores -/

section Stores
omit [FloatOps F]

/-- A store of one plane through the own planes' buffer: on that plane the payload at the row and column … -/
theorem loc_write_plane (p : Fin 2) (off : Fin 3 → Nat) (inb : ∀ a, off a + S1x512x512.size a ≤ S2x512x512.size a)
    (h0 : off 0 = p.val) (h1 : off 1 = 0) (h2 : off 2 = 0)
    (f : (cc0_scratch0 : Ref sig .tc).ty.Contents (Elt F)) (w : S1x512x512.Idx → Elt F .bf16) (idx : S2x512x512.Idx)
    (hidx : (idx 0).val = p.val) :
    (((locM : Memref sig .tc .vmem S2x512x512 .bf16).access (Rect.unit (s := S2x512x512) off S1x512x512.size inb) : View sig .tc _ _ _).write
        (Elt F) f w Finset.univ) idx
      = w (ix3 (0 : Fin 1) (⟨(idx 1).val, (idx 1).isLt⟩ : Fin 512) (⟨(idx 2).val, (idx 2).isLt⟩ : Fin 512)) := by
  have he : ((locM : Memref sig .tc .vmem S2x512x512 .bf16).access (Rect.unit (s := S2x512x512) off S1x512x512.size inb) : View sig .tc _ _ _).emb
      (ix3 (0 : Fin 1) (⟨(idx 1).val, (idx 1).isLt⟩ : Fin 512) (⟨(idx 2).val, (idx 2).isLt⟩ : Fin 512)) = idx :=
    funext fun a => Fin.ext (by
      match a with
      | ⟨0, _⟩ => show off 0 + 1 * 0 = (idx 0).val; omega
      | ⟨1, _⟩ => show off 1 + 1 * (idx 1).val = (idx 1).val; omega
      | ⟨2, _⟩ => show off 2 + 1 * (idx 2).val = (idx 2).val; omega)
  have h := View.write_emb_of_mem (v := ((locM : Memref sig .tc .vmem S2x512x512 .bf16).access (Rect.unit (s := S2x512x512) off S1x512x512.size inb) : View sig .tc _ _ _))
    (Val := Elt F) f w (M := Finset.univ)
    (x := ix3 (0 : Fin 1) (⟨(idx 1).val, (idx 1).isLt⟩ : Fin 512) (⟨(idx 2).val, (idx 2).isLt⟩ : Fin 512)) (Finset.mem_univ _)
  rw [he] at h
  exact h

/-- … and off that plane what was there. -/
theorem loc_write_off_plane (p : Fin 2) (off : Fin 3 → Nat) (inb : ∀ a, off a + S1x512x512.size a ≤ S2x512x512.size a)
    (h0 : off 0 = p.val)
    (f : (cc0_scratch0 : Ref sig .tc).ty.Contents (Elt F)) (w : S1x512x512.Idx → Elt F .bf16) (idx : S2x512x512.Idx)
    (hidx : (idx 0).val ≠ p.val) :
    (((locM : Memref sig .tc .vmem S2x512x512 .bf16).access (Rect.unit (s := S2x512x512) off S1x512x512.size inb) : View sig .tc _ _ _).write
        (Elt F) f w Finset.univ) idx = f idx := by
  refine View.write_of_not_mem _ _ _ fun hm => hidx ?_
  have e : ((locM : Memref sig .tc .vmem S2x512x512 .bf16).access (Rect.unit (s := S2x512x512) off S1x512x512.size inb) : View sig .tc _ _ _).setOn Finset.univ
      = (Rect.unit (s := S2x512x512) off S1x512x512.size inb).set := View.set_slice_whole cc0_scratch0 _
  rw [e] at hm
  have h := (Rect.mem_set_unit.mp hm) 0
  replace h : off 0 ≤ (idx 0).val ∧ (idx 0).val < off 0 + 1 := h
  omega

/-- The same two facts for the result's staging buffer, whose halves are the two batches. -/
theorem out_write_half (p : Fin 2) (off : Fin 4 → Nat) (inb : ∀ a, off a + S1x256x8x64.size a ≤ S2x256x8x64.size a)
    (h0 : off 0 = p.val) (h1 : off 1 = 0) (h2 : off 2 = 0) (h3 : off 3 = 0)
    (f : (cc0_stg3_0 : Ref sig .tc).ty.Contents (Elt F)) (w : S1x256x8x64.Idx → Elt F .bf16) (idx : S2x256x8x64.Idx)
    (hidx : (idx 0).val = p.val) :
    (((outM : Memref sig .tc .vmem S2x256x8x64 .bf16).access (Rect.unit (s := S2x256x8x64) off S1x256x8x64.size inb) : View sig .tc _ _ _).write
        (Elt F) f w Finset.univ) idx
      = w (ix4 (0 : Fin 1) (⟨(idx 1).val, (idx 1).isLt⟩ : Fin 256) (⟨(idx 2).val, (idx 2).isLt⟩ : Fin 8) (⟨(idx 3).val, (idx 3).isLt⟩ : Fin 64)) := by
  have he : ((outM : Memref sig .tc .vmem S2x256x8x64 .bf16).access (Rect.unit (s := S2x256x8x64) off S1x256x8x64.size inb) : View sig .tc _ _ _).emb
      (ix4 (0 : Fin 1) (⟨(idx 1).val, (idx 1).isLt⟩ : Fin 256) (⟨(idx 2).val, (idx 2).isLt⟩ : Fin 8) (⟨(idx 3).val, (idx 3).isLt⟩ : Fin 64)) = idx :=
    funext fun a => Fin.ext (by
      match a with
      | ⟨0, _⟩ => show off 0 + 1 * 0 = (idx 0).val; omega
      | ⟨1, _⟩ => show off 1 + 1 * (idx 1).val = (idx 1).val; omega
      | ⟨2, _⟩ => show off 2 + 1 * (idx 2).val = (idx 2).val; omega
      | ⟨3, _⟩ => show off 3 + 1 * (idx 3).val = (idx 3).val; omega)
  have h := View.write_emb_of_mem (v := ((outM : Memref sig .tc .vmem S2x256x8x64 .bf16).access (Rect.unit (s := S2x256x8x64) off S1x256x8x64.size inb) : View sig .tc _ _ _))
    (Val := Elt F) f w (M := Finset.univ)
    (x := ix4 (0 : Fin 1) (⟨(idx 1).val, (idx 1).isLt⟩ : Fin 256) (⟨(idx 2).val, (idx 2).isLt⟩ : Fin 8) (⟨(idx 3).val, (idx 3).isLt⟩ : Fin 64)) (Finset.mem_univ _)
  rw [he] at h
  exact h

theorem out_write_off_half (p : Fin 2) (off : Fin 4 → Nat) (inb : ∀ a, off a + S1x256x8x64.size a ≤ S2x256x8x64.size a)
    (h0 : off 0 = p.val)
    (f : (cc0_stg3_0 : Ref sig .tc).ty.Contents (Elt F)) (w : S1x256x8x64.Idx → Elt F .bf16) (idx : S2x256x8x64.Idx)
    (hidx : (idx 0).val ≠ p.val) :
    (((outM : Memref sig .tc .vmem S2x256x8x64 .bf16).access (Rect.unit (s := S2x256x8x64) off S1x256x8x64.size inb) : View sig .tc _ _ _).write
        (Elt F) f w Finset.univ) idx = f idx := by
  refine View.write_of_not_mem _ _ _ fun hm => hidx ?_
  have e : ((outM : Memref sig .tc .vmem S2x256x8x64 .bf16).access (Rect.unit (s := S2x256x8x64) off S1x256x8x64.size inb) : View sig .tc _ _ _).setOn Finset.univ
      = (Rect.unit (s := S2x256x8x64) off S1x256x8x64.size inb).set := View.set_slice_whole cc0_stg3_0 _
  rw [e] at hm
  have h := (Rect.mem_set_unit.mp hm) 0
  replace h : off 0 ≤ (idx 0).val ∧ (idx 0).val < off 0 + 1 := h
  omega

end Stores

/-- The store of the key plane then the store of the value plane leave the own planes' final contents, whatever was there. -/
theorem loc_stores (c : Dev nD) (f0 : (cc0_scratch0 : Ref sig .tc).ty.Contents (Elt F)) :
    (((locM : Memref sig .tc .vmem S2x512x512 .bf16).access (Rect.unit (s := S2x512x512) ![1, 0, 0] S1x512x512.size inb_S2x512x512_S1x512x512_1_0_0) : View sig .tc _ _ _).write (Elt F)
      (((locM : Memref sig .tc .vmem S2x512x512 .bf16).access (Rect.unit (s := S2x512x512) ![0, 0, 0] S1x512x512.size inb_S2x512x512_S1x512x512_0_0_0) : View sig .tc _ _ _).write (Elt F)
        f0 (k0_pay1 (kst m c)) Finset.univ)
      (k0_pay3 (k0_pay2 (vst m c))) Finset.univ) = locC m c := by
  funext idx
  have hlt : ((idx : S2x512x512.Idx) 0).val < 2 := (idx 0).isLt
  by_cases hp : ((idx : S2x512x512.Idx) 0).val = 0
  · refine (loc_write_off_plane 1 _ _ rfl _ _ idx (by rw [hp]; decide)).trans ?_
    refine (loc_write_plane 0 _ _ rfl rfl rfl _ _ idx hp).trans ?_
    unfold locC
    exact (if_pos hp).symm
  · refine (loc_write_plane 1 _ _ rfl rfl rfl _ _ idx (show (idx 0).val = (1 : Fin 2).val by show (idx 0).val = 1; omega)).trans ?_
    unfold locC
    exact (if_neg hp).symm

/-- The store of batch 0 then the store of batch 1 leave the result's final contents, whatever was there. -/
theorem out_stores (c : Dev nD) (f0 : (cc0_stg3_0 : Ref sig .tc).ty.Contents (Elt F)) :
    (((outM : Memref sig .tc .vmem S2x256x8x64 .bf16).access (Rect.unit (s := S2x256x8x64) ![1, 0, 0, 0] S1x256x8x64.size inb_S2x256x8x64_S1x256x8x64_1_0_0_0) : View sig .tc _ _ _).write (Elt F)
      (((outM : Memref sig .tc .vmem S2x256x8x64 .bf16).access (Rect.unit (s := S2x256x8x64) ![0, 0, 0, 0] S1x256x8x64.size inb_S2x256x8x64_S1x256x8x64_0_0_0_0) : View sig .tc _ _ _).write (Elt F)
        f0 (Flow.out0 (qst m c) (locPlane m c 0) (locPlane m c 1) (Flow.half 0 (remPlane m c 0)) (Flow.half 0 (remPlane m c 1))) Finset.univ)
      (Flow.out1 (qst m c) (locPlane m c 0) (locPlane m c 1) (Flow.half 1 (remPlane m c 0)) (Flow.half 1 (remPlane m c 1))) Finset.univ)
      = outAt m c := by
  funext idx
  have hlt : ((idx : S2x256x8x64.Idx) 0).val < 2 := (idx 0).isLt
  by_cases hp : ((idx : S2x256x8x64.Idx) 0).val = 0
  · refine (out_write_off_half 1 _ _ rfl _ _ idx (by rw [hp]; decide)).trans ?_
    refine (out_write_half 0 _ _ rfl rfl rfl rfl _ _ idx hp).trans ?_
    unfold outAt
    exact (if_pos hp).symm
  · refine (out_write_half 1 _ _ rfl rfl rfl rfl _ _ idx (show (idx 0).val = (1 : Fin 2).val by show (idx 0).val = 1; omega)).trans ?_
    unfold outAt
    exact (if_neg hp).symm

end Cert.KernelIdeal.Mesh

end
-- ==== Proof.RegionsCover.lean ====
/-
  Which landing chunks a load of half a received plane reads, and a points-to over any selection of landing chunks.

  Rows `[256 b, 256 b + 256)` of plane `p` are four chunks. On the plane a device receives whole they are chunks
  `4 b … 4 b + 3` of the first-axis plan; on the other plane they are the forwarded chunks `4 b … 4 b + 3` below row 384
  and the first-axis chunks 8, 9 from row 384 on. The selection is stated by a filter on the chunk indices, so that no
  case split on the device is needed.
-/
import proofs.«900411_g7700000000000412_dist_agattn_v7x_xy2x2_x_b2_s256_h8_d64_bf16_1_alg».proof.Proof.Mesh
import proofs.«900411_g7700000000000412_dist_agattn_v7x_xy2x2_x_b2_s256_h8_d64_bf16_1_alg».proof.Proof.Sched
import proofs.«900411_g7700000000000412_dist_agattn_v7x_xy2x2_x_b2_s256_h8_d64_bf16_1_alg».proof.Proof.Regions
import proofs.«900411_g7700000000000412_dist_agattn_v7x_xy2x2_x_b2_s256_h8_d64_bf16_1_alg».proof.Proof.RegionsPart

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- The first-axis landing chunks, and the forwarded ones, inside rows `[256 b, 256 b + 256)` of plane `p`. -/
def halfX (c : Dev nD) (p b : Fin 2) : Finset (Fin 10) :=
  Finset.univ.filter fun i => xplane c i = p.val ∧ 4 * b.val ≤ xchunk i ∧ xchunk i < 4 * b.val + 4
def halfY (c : Dev nD) (p b : Fin 2) : Finset (Fin 6) :=
  Finset.univ.filter fun j => 1 - yc c = p.val ∧ 4 * b.val ≤ j.val ∧ j.val < 4 * b.val + 4

section Sets
omit [FloatOps F]

/-- The entries a load through a unit-stride rectangle of the received planes reads. -/
theorem mem_rem_load_set (off size : Fin 3 → Nat) (inb : ∀ a, off a + size a ≤ S2x512x512.size a) (idx : S2x512x512.Idx) :
    idx ∈ (remM : Memref sig .tc .vmem S2x512x512 .bf16).view.setOn (Rect.unit (s := S2x512x512) off size inb).toLoadRect.set
      ↔ ∀ a, off a ≤ (idx a).val ∧ (idx a).val < off a + size a := by
  show idx ∈ Finset.map (Function.Embedding.refl _) (Rect.unit (s := S2x512x512) off size inb).set ↔ _
  rw [Finset.map_refl]; exact Rect.mem_set_unit

/-- The same for the own planes. -/
theorem mem_loc_load_set (off size : Fin 3 → Nat) (inb : ∀ a, off a + size a ≤ S2x512x512.size a) (idx : S2x512x512.Idx) :
    idx ∈ (locM : Memref sig .tc .vmem S2x512x512 .bf16).view.setOn (Rect.unit (s := S2x512x512) off size inb).toLoadRect.set
      ↔ ∀ a, off a ≤ (idx a).val ∧ (idx a).val < off a + size a := by
  show idx ∈ Finset.map (Function.Embedding.refl _) (Rect.unit (s := S2x512x512) off size inb).set ↔ _
  rw [Finset.map_refl]; exact Rect.mem_set_unit

/-- A load of rows `[256 b, 256 b + 256)` of plane `p` of the received planes reads only the landing chunks inside them. -/
theorem rem_load_subset (c : Dev nD) (p b : Fin 2) (off : Fin 3 → Nat) (inb : ∀ a, off a + S1x256x512.size a ≤ S2x512x512.size a)
    (h0 : off 0 = p.val) (h1 : off 1 = 256 * b.val) (h2 : off 2 = 0) :
    (remM : Memref sig .tc .vmem S2x512x512 .bf16).view.setOn (Rect.unit (s := S2x512x512) off S1x256x512.size inb).toLoadRect.set
      ⊆ ((halfX c p b).biUnion (landX c) ∪ (halfY c p b).biUnion (landY c) : Finset (Idx (remLoc c))) := by
  intro (idx : S2x512x512.Idx) hidx
  have hm := (mem_rem_load_set off S1x256x512.size inb idx).mp hidx
  have m0 : off 0 ≤ (idx 0).val ∧ (idx 0).val < off 0 + 1 := hm 0
  have m1 : off 1 ≤ (idx 1).val ∧ (idx 1).val < off 1 + 256 := hm 1
  have hc : idx ∈ (Finset.univ.biUnion (landX c)) ∪ (Finset.univ.biUnion (landY c)) := by
    rw [land_cover]; exact Finset.mem_univ _
  rw [Finset.mem_union, Finset.mem_biUnion, Finset.mem_biUnion] at hc
  rw [Finset.mem_union, Finset.mem_biUnion, Finset.mem_biUnion]
  rcases hc with ⟨i, -, hi⟩ | ⟨j, -, hj⟩
  · obtain ⟨e0, lo, hi'⟩ := (mem_landX c i idx).mp hi
    refine Or.inl ⟨i, ?_, hi⟩
    unfold halfX
    rw [Finset.mem_filter]
    exact ⟨Finset.mem_univ _, by omega, by omega, by omega⟩
  · obtain ⟨e0, lo, hi'⟩ := (mem_landY c j idx).mp hj
    refine Or.inr ⟨j, ?_, hj⟩
    unfold halfY
    rw [Finset.mem_filter]
    exact ⟨Finset.mem_univ _, by omega, by omega, by omega⟩

end Sets

/-- A points-to over any selection of the landing chunks is the separating conjunction of the selected chunks. -/
theorem rem_split_on (c : Dev nD) (q : PosShare TreeShare) (f : Buf (Elt F) (remLoc c)) (SX : Finset (Fin 10)) (SY : Finset (Fin 6)) :
    (remLoc c ↦[SX.biUnion (landX c) ∪ SY.biUnion (landY c)]{q} f : sProp 𝕄) ⊣⊢
      iprop((bigSep SX fun i : Fin 10 => pts (F := F) c (rchunk c i) q f)
        ∗ (bigSep SY fun j : Fin 6 => pts (F := F) c (rchunk (yn c) (j10 j)) q f)) := by
  have e1 : (remLoc c ↦[SX.biUnion (landX c)]{q} f : sProp 𝕄) = bigSep SX fun i => remLoc c ↦[landX c i]{q} f :=
    pointsTo_biUnion SX (landX c) fun i _ i' _ hne => landX_disjoint c i i' hne
  have e2 : (remLoc c ↦[SY.biUnion (landY c)]{q} f : sProp 𝕄) = bigSep SY fun j => remLoc c ↦[landY c j]{q} f :=
    pointsTo_biUnion SY (landY c) fun j _ j' _ hne => landY_disjoint c j j' hne
  have hd : Disjoint (SX.biUnion (landX c)) (SY.biUnion (landY c)) :=
    (Finset.disjoint_biUnion_left _ _ _).mpr fun i _ => (Finset.disjoint_biUnion_right _ _ _).mpr fun j _ =>
      landX_landY_disjoint c i j
  have h : (remLoc c ↦[SX.biUnion (landX c) ∪ SY.biUnion (landY c)]{q} f : sProp 𝕄) ⊣⊢
      iprop((remLoc c ↦[SX.biUnion (landX c)]{q} f) ∗ remLoc c ↦[SY.biUnion (landY c)]{q} f) :=
    pointsTo_union hd
  rw [e1, e2] at h
  exact h

end Cert.KernelIdeal.Mesh

end
-- ==== Proof.RegionsRows.lean ====
/-
  The landing chunks joined by rows, as explicit chains.

  A batch's loads read rows `[256 b, 256 b + 256)` of both received planes. On device `c` these rows are, for `b = 0`,
  chunks 0–3 of the first-axis plan and the forwarded chunks 0–3; for `b = 1`, chunks 4–9 of the first-axis plan (4–7 on
  the plane received whole, 8 and 9 being chunks 6 and 7 of the other plane) and the forwarded chunks 4 and 5.
-/
import proofs.«900411_g7700000000000412_dist_agattn_v7x_xy2x2_x_b2_s256_h8_d64_bf16_1_alg».proof.Proof.Mesh
import proofs.«900411_g7700000000000412_dist_agattn_v7x_xy2x2_x_b2_s256_h8_d64_bf16_1_alg».proof.Proof.Sched
import proofs.«900411_g7700000000000412_dist_agattn_v7x_xy2x2_x_b2_s256_h8_d64_bf16_1_alg».proof.Proof.Regions
import proofs.«900411_g7700000000000412_dist_agattn_v7x_xy2x2_x_b2_s256_h8_d64_bf16_1_alg».proof.Proof.RegionsPart
import proofs.«900411_g7700000000000412_dist_agattn_v7x_xy2x2_x_b2_s256_h8_d64_bf16_1_alg».proof.Proof.RegionsCover

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Idealize.SL.BI (bigSepL bigSep_eq_bigSepL_of_eq bigSep_univ_eq_bigSepL)
variable {F : FTy → Type} [FloatOps F]

local notation "𝕄" => MT nD τ sig Unit (Elt F) ℕ UU ℕ

variable (m : (ℓ : Loc nD τ sig) → Buf (Elt F) ℓ)

/-! ## The plan seen from the first-axis neighbour -/

section Plan
omit [FloatOps F]

/-- The first-axis neighbour has the same second coordinate, so the same plan of offsets. -/
theorem xoff_xn (c : Dev nD) (i : Fin 10) : xoff (xn c) i = xoff c i := by
  rw [xoff_eq, xoff_eq]; unfold xplane; rw [yc_xn]

theorem chunk_congr (M : Memref sig .tc .vmem S2x512x512 .bf16) {off off' : Fin 3 → Nat} (e : off = off')
    (h : ∀ a, off a + S1x64x512.size a ≤ S2x512x512.size a) (h' : ∀ a, off' a + S1x64x512.size a ≤ S2x512x512.size a) :
    chunk M off h = chunk M off' h' := by subst e; rfl

theorem rchunk_xn (c : Dev nD) (i : Fin 10) : rchunk (xn c) i = rchunk c i := chunk_congr remM (xoff_xn c i) _ _
theorem lchunk_xn (c : Dev nD) (i : Fin 10) : lchunk (xn c) i = lchunk c i := chunk_congr locM (xoff_xn c i) _ _

theorem j10_0 : j10 0 = (0 : Fin 10) := rfl
theorem j10_1 : j10 1 = (1 : Fin 10) := rfl
theorem j10_2 : j10 2 = (2 : Fin 10) := rfl
theorem j10_3 : j10 3 = (3 : Fin 10) := rfl
theorem j10_4 : j10 4 = (4 : Fin 10) := rfl
theorem j10_5 : j10 5 = (5 : Fin 10) := rfl

end Plan

/-! ## Rows of both planes -/

/-- The entries of rows `[256 b, 256 b + 256)` of both received planes. -/
def rowsSet (c : Dev nD) (b : Fin 2) : Finset (Idx (remLoc c)) :=
  Finset.univ.filter fun idx : S2x512x512.Idx => 256 * b.val ≤ (idx 1).val ∧ (idx 1).val < 256 * b.val + 256

/-- The first-axis chunks and the forwarded chunks inside those rows. -/
def selX (b : Fin 2) : Finset (Fin 10) := Finset.univ.filter fun i => 4 * b.val ≤ xchunk i ∧ xchunk i < 4 * b.val + 4
def selY (b : Fin 2) : Finset (Fin 6) := Finset.univ.filter fun j => 4 * b.val ≤ j.val ∧ j.val < 4 * b.val + 4

section Sets
omit [FloatOps F]

theorem mem_rowsSet (c : Dev nD) (b : Fin 2) (idx : S2x512x512.Idx) :
    idx ∈ rowsSet c b ↔ 256 * b.val ≤ (idx 1).val ∧ (idx 1).val < 256 * b.val + 256 := by
  unfold rowsSet; rw [Finset.mem_filter]; exact and_iff_right (Finset.mem_univ _)

theorem selX_zero : selX 0 = [(0 : Fin 10), 1, 2, 3].toFinset := by decide
theorem selX_one : selX 1 = [(4 : Fin 10), 5, 6, 7, 8, 9].toFinset := by decide
theorem selY_zero : selY 0 = [(0 : Fin 6), 1, 2, 3].toFinset := by decide
theorem selY_one : selY 1 = [(4 : Fin 6), 5].toFinset := by decide

/-- The rows are exactly the selected chunks. -/
theorem rowsSet_eq (c : Dev nD) (b : Fin 2) :
    rowsSet c b = (selX b).biUnion (landX c) ∪ (selY b).biUnion (landY c) := by
  ext (idx : S2x512x512.Idx)
  rw [mem_rowsSet, Finset.mem_union, Finset.mem_biUnion, Finset.mem_biUnion]
  constructor
  · intro hr
    have hc : idx ∈ (Finset.univ.biUnion (landX c)) ∪ (Finset.univ.biUnion (landY c)) := by
      rw [land_cover]; exact Finset.mem_univ _
    rw [Finset.mem_union, Finset.mem_biUnion, Finset.mem_biUnion] at hc
    rcases hc with ⟨i, -, hi⟩ | ⟨j, -, hj⟩
    · obtain ⟨e0, lo, hi'⟩ := (mem_landX c i idx).mp hi
      refine Or.inl ⟨i, ?_, hi⟩
      unfold selX; rw [Finset.mem_filter]
      exact ⟨Finset.mem_univ _, by omega, by omega⟩
    · obtain ⟨e0, lo, hi'⟩ := (mem_landY c j idx).mp hj
      refine Or.inr ⟨j, ?_, hj⟩
      unfold selY; rw [Finset.mem_filter]
      exact ⟨Finset.mem_univ _, by omega, by omega⟩
  · rintro (⟨i, hi, hm⟩ | ⟨j, hj, hm⟩)
    · obtain ⟨e0, lo, hi'⟩ := (mem_landX c i idx).mp hm
      unfold selX at hi; rw [Finset.mem_filter] at hi
      omega
    · obtain ⟨e0, lo, hi'⟩ := (mem_landY c j idx).mp hm
      unfold selY at hj; rw [Finset.mem_filter] at hj
      omega

/-- A load of rows `[256 b, 256 b + 256)` of either received plane reads inside those rows. -/
theorem rem_load_rows (c : Dev nD) (b : Fin 2) (off : Fin 3 → Nat) (inb : ∀ a, off a + S1x256x512.size a ≤ S2x512x512.size a)
    (h1 : off 1 = 256 * b.val) :
    (remM : Memref sig .tc .vmem S2x512x512 .bf16).view.setOn (Rect.unit (s := S2x512x512) off S1x256x512.size inb).toLoadRect.set
      ⊆ rowsSet c b := by
  intro (idx : S2x512x512.Idx) hidx
  have hm := (mem_rem_load_set off S1x256x512.size inb idx).mp hidx
  have m1 : off 1 ≤ (idx 1).val ∧ (idx 1).val < off 1 + 256 := hm 1
  rw [mem_rowsSet]; omega

theorem rem_load_rows_0_0 (c : Dev nD) :
    (remM : Memref sig .tc .vmem S2x512x512 .bf16).view.setOn (Rect.unit (s := S2x512x512) ![0, 0, 0] S1x256x512.size inb_S2x512x512_S1x256x512_0_0_0).toLoadRect.set
      ⊆ rowsSet c 0 := rem_load_rows c 0 _ _ rfl
theorem rem_load_rows_1_0 (c : Dev nD) :
    (remM : Memref sig .tc .vmem S2x512x512 .bf16).view.setOn (Rect.unit (s := S2x512x512) ![1, 0, 0] S1x256x512.size inb_S2x512x512_S1x256x512_1_0_0).toLoadRect.set
      ⊆ rowsSet c 0 := rem_load_rows c 0 _ _ rfl
theorem rem_load_rows_0_256 (c : Dev nD) :
    (remM : Memref sig .tc .vmem S2x512x512 .bf16).view.setOn (Rect.unit (s := S2x512x512) ![0, 256, 0] S1x256x512.size inb_S2x512x512_S1x256x512_0_256_0).toLoadRect.set
      ⊆ rowsSet c 1 := rem_load_rows c 1 _ _ rfl
theorem rem_load_rows_1_256 (c : Dev nD) :
    (remM : Memref sig .tc .vmem S2x512x512 .bf16).view.setOn (Rect.unit (s := S2x512x512) ![1, 256, 0] S1x256x512.size inb_S2x512x512_S1x256x512_1_256_0).toLoadRect.set
      ⊆ rowsSet c 1 := rem_load_rows c 1 _ _ rfl

end Sets

/-! ## The joins -/

/-- Separating conjunction associates, as an equation. -/
theorem sep_assoc_eq {M : Type _} [URA M] (P Q R : sProp M) : iprop((BI.sep P Q) ∗ R) = iprop(P ∗ Q ∗ R) :=
  Std.Associative.assoc (op := (BI.sep : sProp M → sProp M → sProp M)) P Q R

/-- The rows of batch `b` at any share: the selected chunks. -/
theorem rows_split (c : Dev nD) (b : Fin 2) (q : PosShare TreeShare) (f : Buf (Elt F) (remLoc c)) :
    (remLoc c ↦[rowsSet c b]{q} f : sProp 𝕄) ⊣⊢
      iprop((bigSep (selX b) fun i : Fin 10 => pts (F := F) c (rchunk c i) q f)
        ∗ (bigSep (selY b) fun j : Fin 6 => pts (F := F) c (rchunk (yn c) (j10 j)) q f)) := by
  rw [rowsSet_eq]; exact rem_split_on c q f (selX b) (selY b)

/-- Rows `[0, 256)`: first-axis chunks 0–3 and forwarded chunks 0–3. -/
theorem rows_join0 (c : Dev nD) (q : PosShare TreeShare) (f : Buf (Elt F) (remLoc c)) :
    iprop(pts (F := F) c (rchunk c 0) q f ∗ pts (F := F) c (rchunk c 1) q f ∗ pts (F := F) c (rchunk c 2) q f ∗ pts (F := F) c (rchunk c 3) q f
        ∗ pts (F := F) c (rchunk (yn c) (j10 0)) q f ∗ pts (F := F) c (rchunk (yn c) (j10 1)) q f
        ∗ pts (F := F) c (rchunk (yn c) (j10 2)) q f ∗ pts (F := F) c (rchunk (yn c) (j10 3)) q f)
      ⊣⊢ (remLoc c ↦[rowsSet c 0]{q} f : sProp 𝕄) := by
  have h := rows_split (F := F) c 0 q f
  rw [bigSep_eq_bigSepL_of_eq _ selX_zero (by decide), bigSep_eq_bigSepL_of_eq _ selY_zero (by decide)] at h
  simp only [bigSepL_cons_cons, bigSepL_singleton] at h
  rw [sep_assoc_eq, sep_assoc_eq, sep_assoc_eq] at h
  exact h.symm

/-- Rows `[256, 512)`: first-axis chunks 4–9 and forwarded chunks 4, 5. -/
theorem rows_join1 (c : Dev nD) (q : PosShare TreeShare) (f : Buf (Elt F) (remLoc c)) :
    iprop(pts (F := F) c (rchunk c 4) q f ∗ pts (F := F) c (rchunk c 5) q f ∗ pts (F := F) c (rchunk c 6) q f ∗ pts (F := F) c (rchunk c 7) q f
        ∗ pts (F := F) c (rchunk c 8) q f ∗ pts (F := F) c (rchunk c 9) q f
        ∗ pts (F := F) c (rchunk (yn c) (j10 4)) q f ∗ pts (F := F) c (rchunk (yn c) (j10 5)) q f)
      ⊣⊢ (remLoc c ↦[rowsSet c 1]{q} f : sProp 𝕄) := by
  have h := rows_split (F := F) c 1 q f
  rw [bigSep_eq_bigSepL_of_eq _ selX_one (by decide), bigSep_eq_bigSepL_of_eq _ selY_one (by decide)] at h
  simp only [bigSepL_cons_cons, bigSepL_singleton] at h
  rw [sep_assoc_eq, sep_assoc_eq, sep_assoc_eq, sep_assoc_eq, sep_assoc_eq] at h
  exact h.symm

/-! ## Thirty-two conjuncts, one by one -/

theorem bigSep_fin32 {M : Type _} [URA M] (Φ : Fin 32 → sProp M) :
    bigSep Finset.univ Φ = iprop(Φ (0 : Fin 32) ∗ Φ (1 : Fin 32) ∗ Φ (2 : Fin 32) ∗ Φ (3 : Fin 32) ∗ Φ (4 : Fin 32) ∗ Φ (5 : Fin 32) ∗ Φ (6 : Fin 32) ∗ Φ (7 : Fin 32) ∗ Φ (8 : Fin 32) ∗ Φ (9 : Fin 32) ∗ Φ (10 : Fin 32) ∗ Φ (11 : Fin 32) ∗ Φ (12 : Fin 32) ∗ Φ (13 : Fin 32) ∗ Φ (14 : Fin 32) ∗ Φ (15 : Fin 32) ∗ Φ (16 : Fin 32) ∗ Φ (17 : Fin 32) ∗ Φ (18 : Fin 32) ∗ Φ (19 : Fin 32) ∗ Φ (20 : Fin 32) ∗ Φ (21 : Fin 32) ∗ Φ (22 : Fin 32) ∗ Φ (23 : Fin 32) ∗ Φ (24 : Fin 32) ∗ Φ (25 : Fin 32) ∗ Φ (26 : Fin 32) ∗ Φ (27 : Fin 32) ∗ Φ (28 : Fin 32) ∗ Φ (29 : Fin 32) ∗ Φ (30 : Fin 32) ∗ Φ (31 : Fin 32)) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

end Cert.KernelIdeal.Mesh

end
-- ==== Proof.Steps.lean ====
/-
  The exchange's three kinds of step, each stated once for every chunk: a copy of an own chunk across the first axis, a
  forward of a received chunk across the second, and a wait for a copy cell's round. A copy lends the left half share of
  its source (it comes back with the send cell's round) and hands the destination's owner the landing chunk at its final
  contents; a wait yields the cell's one payload.
-/
import proofs.«900411_g7700000000000412_dist_agattn_v7x_xy2x2_x_b2_s256_h8_d64_bf16_1_alg».proof.Proof.Gen.KernelIdeal
import proofs.«900411_g7700000000000412_dist_agattn_v7x_xy2x2_x_b2_s256_h8_d64_bf16_1_alg».proof.Proof.Gen.KernelIdeal.Skeleton
import proofs.«900411_g7700000000000412_dist_agattn_v7x_xy2x2_x_b2_s256_h8_d64_bf16_1_alg».proof.Proof.Gen.KernelIdeal.Launch
import proofs.«900411_g7700000000000412_dist_agattn_v7x_xy2x2_x_b2_s256_h8_d64_bf16_1_alg».proof.Proof.Gen.KernelIdeal.Points
import proofs.«900411_g7700000000000412_dist_agattn_v7x_xy2x2_x_b2_s256_h8_d64_bf16_1_alg».proof.Proof.Gen.KernelIdeal.Frame
import proofs.«900411_g7700000000000412_dist_agattn_v7x_xy2x2_x_b2_s256_h8_d64_bf16_1_alg».proof.Proof.Flow
import proofs.«900411_g7700000000000412_dist_agattn_v7x_xy2x2_x_b2_s256_h8_d64_bf16_1_alg».proof.Proof.Mesh
import proofs.«900411_g7700000000000412_dist_agattn_v7x_xy2x2_x_b2_s256_h8_d64_bf16_1_alg».proof.Proof.Sched
import proofs.«900411_g7700000000000412_dist_agattn_v7x_xy2x2_x_b2_s256_h8_d64_bf16_1_alg».proof.Proof.Cells
import proofs.«900411_g7700000000000412_dist_agattn_v7x_xy2x2_x_b2_s256_h8_d64_bf16_1_alg».proof.Proof.Data
import proofs.«900411_g7700000000000412_dist_agattn_v7x_xy2x2_x_b2_s256_h8_d64_bf16_1_alg».proof.Proof.Regions
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Mesh
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (K : Dev nD × Fin 33 → ℕ)

/-- Every chunk of the received planes credits a copy cell the same amount. -/
theorem rchunk_credit (c : Dev nD) (i : Fin 10) (sm : DmaSem sig) : (rchunk c i).view.amount (.dma sm) = N := rfl

/-- Copy `i` across the first axis, addressed to `n = xn c`. -/
theorem wp_xsend (c n : Dev nD) (hn : n = xn c) (i : Fin 10)
    {hsc : (rchunk c i : Memref sig (Dev.tc n : Thread nD τ).2.kind .vmem S64x512 .bf16).view.ref.isScScratch = false}
    {hsrc : (lchunk c i).view.WordExact} {hdst : (rchunk c i).view.WordExact}
    {hsem : DmaTarget.Typed .vmem (.dma (dsem (nXr i))) (.remote (Dev.tc n : Thread nD τ) (rchunk c i) (.dma (dsem (nXs i))) hsc)}
    {α : Type} {Q : α → sProp 𝕄} {k : PUnit → Prog (TpuEff nD τ sig (Elt F) Λ₀ .tc) α}
    (fn : Buf (Elt F) ((rchunk c i).view.loc (xn c : Thread nD τ))) (W : Waits sig Unit) (O : CellTallies nD τ sig Unit) :
    iprop(cellInv ER (sched m) (K (c, kXs i)) (xsCell c i) ∗ cellInv ER (sched m) (K (xn c, kXr i)) (xrCell (xn c) i)
        ∗ pts c (lchunk c i) fullShare.left (locC m c) ∗ pts (xn c) (rchunk c i) fullShare fn
        ∗ owes (c : Thread nD τ) (O + tallyAt (xrCell (xn c) i) () N) W
        ∗ dutyTok ER (xsCell c i) 0 false ∗ reached ER (xsCell c i) 0
        ∗ dutyTok ER (xrCell (xn c) i) 0 false ∗ reached ER (xrCell (xn c) i) 0)
      ⊢ iprop(((cred (tallyAt (xsCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (lchunk c i) (.remote (Dev.tc n : Thread nD τ) (rchunk c i) (.dma (dsem (nXs i))) hsc) (.dma (dsem (nXr i))) hsrc hdst hsem) k) Q) := by
  subst hn
  exact Rounds.wp_send_pointsTo 𝒱₀ ER (sched m) (c : Thread nD τ) none (κ₁ := K (c, kXs i)) (κ₂ := K (xn c, kXr i))
    (c' := (xn c : Thread nD τ)) (src := lchunk c i) (dst := rchunk c i) (sS := .dma (dsem (nXs i))) (sem := .dma (dsem (nXr i)))
    (r₁ := 0) (r₂ := 0) (d₁ := false) (d₂ := false) (fd := fn) (q := fullShare.left) (fs := locC m c)
    (by rw [duties_dma]; exact Finset.mem_singleton_self _) (by rw [duties_dma]; exact Finset.mem_singleton_self _)
    () () N (rchunk_credit c i _) (amount_dma m c (nXs i) false) (amount_dma m (xn c) (nXr i) false) O rfl (W := W)
    (by rw [payload_xs]; exact BI.Entails.refl _)
    (by rw [payload_xr]; exact xr_landed m c i fn)

/-- Forward `j` across the second axis, addressed to `n = yn c`. -/
theorem wp_ysend (c n : Dev nD) (hn : n = yn c) (j : Fin 6)
    {hsc : (rchunk c (j10 j) : Memref sig (Dev.tc n : Thread nD τ).2.kind .vmem S64x512 .bf16).view.ref.isScScratch = false}
    {hsrc : (rchunk c (j10 j)).view.WordExact} {hdst : (rchunk c (j10 j)).view.WordExact}
    {hsem : DmaTarget.Typed .vmem (.dma (dsem (nYr j))) (.remote (Dev.tc n : Thread nD τ) (rchunk c (j10 j)) (.dma (dsem (nYs j))) hsc)}
    {α : Type} {Q : α → sProp 𝕄} {k : PUnit → Prog (TpuEff nD τ sig (Elt F) Λ₀ .tc) α}
    (fn : Buf (Elt F) ((rchunk c (j10 j)).view.loc (yn c : Thread nD τ))) (W : Waits sig Unit) (O : CellTallies nD τ sig Unit) :
    iprop(cellInv ER (sched m) (K (c, kYs j)) (ysCell c j) ∗ cellInv ER (sched m) (K (yn c, kYr j)) (yrCell (yn c) j)
        ∗ pts c (rchunk c (j10 j)) fullShare.left (remC m c) ∗ pts (yn c) (rchunk c (j10 j)) fullShare fn
        ∗ owes (c : Thread nD τ) (O + tallyAt (yrCell (yn c) j) () N) W
        ∗ dutyTok ER (ysCell c j) 0 false ∗ reached ER (ysCell c j) 0
        ∗ dutyTok ER (yrCell (yn c) j) 0 false ∗ reached ER (yrCell (yn c) j) 0)
      ⊢ iprop(((cred (tallyAt (ysCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rchunk c (j10 j)) (.remote (Dev.tc n : Thread nD τ) (rchunk c (j10 j)) (.dma (dsem (nYs j))) hsc) (.dma (dsem (nYr j))) hsrc hdst hsem) k) Q) := by
  subst hn
  exact Rounds.wp_send_pointsTo 𝒱₀ ER (sched m) (c : Thread nD τ) none (κ₁ := K (c, kYs j)) (κ₂ := K (yn c, kYr j))
    (c' := (yn c : Thread nD τ)) (src := rchunk c (j10 j)) (dst := rchunk c (j10 j)) (sS := .dma (dsem (nYs j))) (sem := .dma (dsem (nYr j)))
    (r₁ := 0) (r₂ := 0) (d₁ := false) (d₂ := false) (fd := fn) (q := fullShare.left) (fs := remC m c)
    (by rw [duties_dma]; exact Finset.mem_singleton_self _) (by rw [duties_dma]; exact Finset.mem_singleton_self _)
    () () N (rchunk_credit c (j10 j) _) (amount_dma m c (nYs j) false) (amount_dma m (yn c) (nYr j) false) O rfl (W := W)
    (by rw [payload_ys]; exact BI.Entails.refl _)
    (by rw [payload_yr]; exact yr_landed m c j fn)

/-- The wait for the whole round of copy cell `n`, its credit in hand: the cell's payload. -/
theorem wp_dwait (c : Dev nD) (n : Fin 32) {sp' : Space} {s' : Shape} {e' : EltTy}
    {src : Memref sig .tc sp' s' e'} {dst : Memref sig .tc .vmem S64x512 .bf16} (hN : dst.view.dmaCredit = N)
    {hsrc : src.view.WordExact} {hdst : dst.view.WordExact}
    {α : Type} {Q : α → sProp 𝕄} {k : PUnit → Prog (TpuEff nD τ sig (Elt F) Λ₀ .tc) α}
    (W : Waits sig Unit) (O : CellTallies nD τ sig Unit) :
    iprop(cellInv ER (sched m) (K (c, n.succ)) (dmaCell c n) ∗ cred (tallyAt (dmaCell c n) () N) ∗ owes (c : Thread nD τ) O W
        ∗ MayWait (c : Thread nD τ) (.dma (dsem n)) () O ∗ atPos ER (dmaCell c n) 0 ∅ 0)
      ⊢ iprop(((owes (c : Thread nD τ) O (insert (SemLoc.dma (dsem n), ()) W) ∗ atPos ER (dmaCell c n) 1 ∅ 0
              ∗ (sched (F := F) m).payload (dmaCell c n) 0 false)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dsem n) src dst hsrc hdst) k) Q) := by
  iintro ⟨#HI, Hc, HO, Hmw, Hat⟩ Hk
  iapply (Rounds.wp_wait_rest_token 𝒱₀ ER (sched m) (c : Thread nD τ) none (κ := K (c, n.succ))
      (wpE_waitDma2_eq 𝒱₀ (c : Thread nD τ) none Set.univ) (Set.mem_univ _) () (O := O) (W := W) (R := 0) (m := 0) (T := ∅)
      (by rw [Nat.zero_add, expect_dma, hN])) $$ [Hc HO Hmw Hat]
  · isplitr; · iexact HI
    rw [hN]
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  iapply (Entails.of_eq (rest_dma m c n)) $$ Hpay

/-! ## The same steps from the shared records, one premise per resource -/

theorem wp_xsendR (c n : Dev nD) (hn : n = xn c) (i : Fin 10)
    {hsc : (rchunk c i : Memref sig (Dev.tc n : Thread nD τ).2.kind .vmem S64x512 .bf16).view.ref.isScScratch = false}
    {hsrc : (lchunk c i).view.WordExact} {hdst : (rchunk c i).view.WordExact}
    {hsem : DmaTarget.Typed .vmem (.dma (dsem (nXr i))) (.remote (Dev.tc n : Thread nD τ) (rchunk c i) (.dma (dsem (nXs i))) hsc)}
    {α : Type} {Q : α → sProp 𝕄} {k : PUnit → Prog (TpuEff nD τ sig (Elt F) Λ₀ .tc) α}
    (fn : Buf (Elt F) ((rchunk c i).view.loc (xn c : Thread nD τ))) (W : Waits sig Unit) (O O' : CellTallies nD τ sig Unit)
    (hO : O' = O + tallyAt (xrCell (xn c) i) () N) :
    (records (sched (F := F) m) K : sProp 𝕄) ⊢ iprop(pts c (lchunk c i) fullShare.left (locC m c) -∗ pts (xn c) (rchunk c i) fullShare fn
        -∗ owes (c : Thread nD τ) O' W -∗ dutyTok ER (xsCell c i) 0 false -∗ dutyTok ER (xrCell (xn c) i) 0 false
        -∗ ((cred (tallyAt (xsCell c i) () N) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
              (.op (.enqueueDma (lchunk c i) (.remote (Dev.tc n : Thread nD τ) (rchunk c i) (.dma (dsem (nXs i))) hsc) (.dma (dsem (nXr i))) hsrc hdst hsem) k) Q) := by
  subst hO
  iintro #Hrec Hs Hd HO Ht1 Ht2 Hk
  ihave #HI1 := (records_inv (sched (F := F) m) K (c, kXs i)) $$ Hrec
  ihave #HI2 := (records_inv (sched (F := F) m) K (xn c, kXr i)) $$ Hrec
  ihave #Hr1 := (records_reached (sched (F := F) m) K (c, kXs i)) $$ Hrec
  ihave #Hr2 := (records_reached (sched (F := F) m) K (xn c, kXr i)) $$ Hrec
  rw [kcell_kXs, kcell_kXr]
  iapply (wp_xsend m K c n hn i fn W O) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

theorem wp_ysendR (c n : Dev nD) (hn : n = yn c) (j : Fin 6)
    {hsc : (rchunk c (j10 j) : Memref sig (Dev.tc n : Thread nD τ).2.kind .vmem S64x512 .bf16).view.ref.isScScratch = false}
    {hsrc : (rchunk c (j10 j)).view.WordExact} {hdst : (rchunk c (j10 j)).view.WordExact}
    {hsem : DmaTarget.Typed .vmem (.dma (dsem (nYr j))) (.remote (Dev.tc n : Thread nD τ) (rchunk c (j10 j)) (.dma (dsem (nYs j))) hsc)}
    {α : Type} {Q : α → sProp 𝕄} {k : PUnit → Prog (TpuEff nD τ sig (Elt F) Λ₀ .tc) α}
    (fn : Buf (Elt F) ((rchunk c (j10 j)).view.loc (yn c : Thread nD τ))) (W : Waits sig Unit) (O O' : CellTallies nD τ sig Unit)
    (hO : O' = O + tallyAt (yrCell (yn c) j) () N) :
    (records (sched (F := F) m) K : sProp 𝕄) ⊢ iprop(pts c (rchunk c (j10 j)) fullShare.left (remC m c) -∗ pts (yn c) (rchunk c (j10 j)) fullShare fn
        -∗ owes (c : Thread nD τ) O' W -∗ dutyTok ER (ysCell c j) 0 false -∗ dutyTok ER (yrCell (yn c) j) 0 false
        -∗ ((cred (tallyAt (ysCell c j) () N) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
              (.op (.enqueueDma (rchunk c (j10 j)) (.remote (Dev.tc n : Thread nD τ) (rchunk c (j10 j)) (.dma (dsem (nYs j))) hsc) (.dma (dsem (nYr j))) hsrc hdst hsem) k) Q) := by
  subst hO
  iintro #Hrec Hs Hd HO Ht1 Ht2 Hk
  ihave #HI1 := (records_inv (sched (F := F) m) K (c, kYs j)) $$ Hrec
  ihave #HI2 := (records_inv (sched (F := F) m) K (yn c, kYr j)) $$ Hrec
  ihave #Hr1 := (records_reached (sched (F := F) m) K (c, kYs j)) $$ Hrec
  ihave #Hr2 := (records_reached (sched (F := F) m) K (yn c, kYr j)) $$ Hrec
  rw [kcell_kYs, kcell_kYr]
  iapply (wp_ysend m K c n hn j fn W O) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

theorem wp_dwaitR (c : Dev nD) (n : Fin 32) {sp' : Space} {s' : Shape} {e' : EltTy}
    {src : Memref sig .tc sp' s' e'} {dst : Memref sig .tc .vmem S64x512 .bf16} (hN : dst.view.dmaCredit = N)
    {hsrc : src.view.WordExact} {hdst : dst.view.WordExact}
    {α : Type} {Q : α → sProp 𝕄} {k : PUnit → Prog (TpuEff nD τ sig (Elt F) Λ₀ .tc) α}
    (W : Waits sig Unit) (O : CellTallies nD τ sig Unit) :
    (records (sched (F := F) m) K : sProp 𝕄) ⊢ iprop(cred (tallyAt (dmaCell c n) () N) -∗ owes (c : Thread nD τ) O W
        -∗ MayWait (c : Thread nD τ) (.dma (dsem n)) () O -∗ atPos ER (dmaCell c n) 0 ∅ 0
        -∗ ((owes (c : Thread nD τ) O (insert (SemLoc.dma (dsem n), ()) W) ∗ atPos ER (dmaCell c n) 1 ∅ 0
              ∗ (sched (F := F) m).payload (dmaCell c n) 0 false)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dsem n) src dst hsrc hdst) k) Q) := by
  iintro #Hrec Hc HO Hmw Hat Hk
  ihave #HI := (records_inv (sched (F := F) m) K (c, n.succ)) $$ Hrec
  rw [kcell_succ]
  iapply (wp_dwait m K c n hN W O) $$ [Hc HO Hmw Hat]
  · isplitr; · iexact HI
    isplitl [Hc]; · iexact Hc
    isplitl [HO]; · iexact HO
    isplitl [Hmw]; · iexact Hmw
    iexact Hat
  iexact Hk

end Cert.KernelIdeal.Mesh
end
-- ==== Proof.Owes.lean ====
/-
  What a device still owes as its body proceeds.

  A device pays in order: one unit to each neighbour's barrier cell, then a copy's units to each of the ten receive
  cells of its first-axis neighbour, then a copy's units to each of the six receive cells of its second-axis neighbour.
  `OX c i` is what it owes the first-axis receive cells from the `i`-th on, `OY c j` the second-axis ones from the
  `j`-th on; each payment peels the last summand off. A wait on the barrier cell (level 1) is below everything in
  `OX` (level 2) and `OY` (level 3); a wait on a first-axis receive cell (level 2) is below everything in `OY`.
-/
import proofs.«900411_g7700000000000412_dist_agattn_v7x_xy2x2_x_b2_s256_h8_d64_bf16_1_alg».proof.Proof.Mesh
import proofs.«900411_g7700000000000412_dist_agattn_v7x_xy2x2_x_b2_s256_h8_d64_bf16_1_alg».proof.Proof.Sched
import proofs.«900411_g7700000000000412_dist_agattn_v7x_xy2x2_x_b2_s256_h8_d64_bf16_1_alg».proof.Proof.Cells
import proofs.«900411_g7700000000000412_dist_agattn_v7x_xy2x2_x_b2_s256_h8_d64_bf16_1_alg».proof.Proof.Data
import Idealize.ShloMosaic.Lib.Pipeline.Launch
import Idealize.ShloMosaic.Lib.Pipeline.Kit

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Sums over the entries from a position on -/

/-- The sum of `f` over the indices from `i` on. -/
def tailSum {A : Type} [AddCommMonoid A] {n : ℕ} (f : Fin n → A) (i : ℕ) : A :=
  ∑ k ∈ Finset.univ.filter (fun k : Fin n => i ≤ k.val), f k

theorem tailSum_zero {A : Type} [AddCommMonoid A] {n : ℕ} (f : Fin n → A) : tailSum f 0 = ∑ k, f k := by
  unfold tailSum
  rw [Finset.filter_true_of_mem fun k _ => Nat.zero_le _]

theorem tailSum_end {A : Type} [AddCommMonoid A] {n : ℕ} (f : Fin n → A) : tailSum f n = 0 := by
  unfold tailSum
  rw [Finset.filter_false_of_mem fun k _ => Nat.not_le.2 k.isLt, Finset.sum_empty]

/-- From `i` on is from `i + 1` on, and `i`. -/
theorem tailSum_peel {A : Type} [AddCommMonoid A] {n : ℕ} (f : Fin n → A) (i : Fin n) :
    tailSum f i.val = tailSum f (i.val + 1) + f i := by
  unfold tailSum
  have hs : Finset.univ.filter (fun k : Fin n => i.val ≤ k.val)
      = insert i (Finset.univ.filter (fun k : Fin n => i.val + 1 ≤ k.val)) := by
    ext k
    simp only [Finset.mem_filter, Finset.mem_univ, true_and, Finset.mem_insert]
    constructor
    · intro h
      by_cases hk : k = i
      · exact Or.inl hk
      · exact Or.inr (by have : k.val ≠ i.val := fun e => hk (Fin.ext e); omega)
    · rintro (rfl | h)
      · exact Nat.le_refl _
      · omega
  have hi : i ∉ Finset.univ.filter (fun k : Fin n => i.val + 1 ≤ k.val) := by
    simp only [Finset.mem_filter, Finset.mem_univ, true_and]; omega
  rw [hs, Finset.sum_insert hi, add_comm]

/-! ## What is owed the receive cells, from a position on -/

/-- Owed the first-axis neighbour's receive cells from the `i`-th on. -/
def OX (c : Dev nD) (i : ℕ) : CellTallies nD τ sig Unit := tailSum (fun i' : Fin 10 => tallyAt (xrCell (xn c) i') () N) i
/-- Owed the second-axis neighbour's receive cells from the `j`-th on. -/
def OY (c : Dev nD) (j : ℕ) : CellTallies nD τ sig Unit := tailSum (fun j' : Fin 6 => tallyAt (yrCell (yn c) j') () N) j

theorem OX_zero (c : Dev nD) : OX c 0 = ∑ i : Fin 10, tallyAt (xrCell (xn c) i) () N := tailSum_zero _
theorem OY_zero (c : Dev nD) : OY c 0 = ∑ j : Fin 6, tallyAt (yrCell (yn c) j) () N := tailSum_zero _
theorem OX_end (c : Dev nD) : OX c 10 = 0 := tailSum_end _
theorem OY_end (c : Dev nD) : OY c 6 = 0 := tailSum_end _
theorem OX_peel (c : Dev nD) (i : Fin 10) : OX c i.val = OX c (i.val + 1) + tallyAt (xrCell (xn c) i) () N := tailSum_peel _ i
theorem OY_peel (c : Dev nD) (j : Fin 6) : OY c j.val = OY c (j.val + 1) + tallyAt (yrCell (yn c) j) () N := tailSum_peel _ j

/-! ## The payments, one at a time -/

/-- First the unit to the first-axis neighbour's barrier cell. -/
theorem owe_barX (c : Dev nD) :
    O₀ N c = (OX c 0 + OY c 0 + tallyAt (barCell (yn c)) () 1) + tallyAt (barCell (xn c)) () 1 := by
  unfold O₀
  rw [OX_zero, OY_zero]
  exact add_right_comm _ _ _

/-- Then the unit to the second-axis neighbour's. -/
theorem owe_barY (c : Dev nD) :
    OX c 0 + OY c 0 + tallyAt (barCell (yn c)) () 1 = (OX c 0 + OY c 0) + tallyAt (barCell (yn c)) () 1 := rfl

/-- The `i`-th copy across the first axis. -/
theorem owe_X (c : Dev nD) (i : Fin 10) :
    OX c i.val + OY c 0 = (OX c (i.val + 1) + OY c 0) + tallyAt (xrCell (xn c) i) () N := by
  rw [OX_peel c i]
  exact add_right_comm _ _ _

/-- All ten paid. -/
theorem owe_X_done (c : Dev nD) : OX c 10 + OY c 0 = OY c 0 := by rw [OX_end, zero_add]

/-- The `j`-th forward across the second axis. -/
theorem owe_Y (c : Dev nD) (j : Fin 6) :
    OY c j.val = OY c (j.val + 1) + tallyAt (yrCell (yn c) j) () N := OY_peel c j

/-! ## Where what is owed sits -/

theorem OX_pos {c : Dev nD} {i : ℕ} {g : GSem nD τ sig} {u : Unit} (h : 0 < OX c i g u) : ∃ i', g = xrCell (xn c) i' := by
  unfold OX tailSum at h
  obtain ⟨i', _, hi⟩ := Pipeline.sum_pos_exists h
  rw [tallyAt_apply] at hi
  by_cases hg : g = xrCell (xn c) i' ∧ u = ()
  · exact ⟨i', hg.1⟩
  · rw [if_neg hg] at hi; exact absurd hi (Nat.lt_irrefl 0)

theorem OY_pos {c : Dev nD} {j : ℕ} {g : GSem nD τ sig} {u : Unit} (h : 0 < OY c j g u) : ∃ j', g = yrCell (yn c) j' := by
  unfold OY tailSum at h
  obtain ⟨j', _, hj⟩ := Pipeline.sum_pos_exists h
  rw [tallyAt_apply] at hj
  by_cases hg : g = yrCell (yn c) j' ∧ u = ()
  · exact ⟨j', hg.1⟩
  · rw [if_neg hg] at hj; exact absurd hj (Nat.lt_irrefl 0)

/-! ## The waits -/

/-- The wait on the barrier cell, both barrier units paid and every copy still owed. -/
theorem mayWait_bar (c : Dev nD) (i j : ℕ) :
    (levAts L lv : sProp 𝕄) ⊢ MayWait (c : Thread nD τ) (.reg barS) () (OX c i + OY c j) := by
  refine mayWait_below c _ _ fun g u hg => ?_
  have hb : lv ((c : Thread nD τ), SemLoc.reg barS) () = 1 := lv_bar c
  rw [hb]
  rcases Pipeline.add_pos_cases hg with h | h
  · obtain ⟨i', rfl⟩ := OX_pos h
    exact ⟨rfl, by rw [lv_xr]; decide⟩
  · obtain ⟨j', rfl⟩ := OY_pos h
    exact ⟨rfl, by rw [lv_yr]; decide⟩

/-- The wait on a first-axis receive cell, only forwards still owed. -/
theorem mayWait_xr (c : Dev nD) (i : Fin 10) (j : ℕ) :
    (levAts L lv : sProp 𝕄) ⊢ MayWait (c : Thread nD τ) (.dma (dsem (nXr i))) () (OY c j) := by
  refine mayWait_below c _ _ fun g u hg => ?_
  have hx : lv ((c : Thread nD τ), SemLoc.dma (dsem (nXr i))) () = 2 := lv_xr c i
  rw [hx]
  obtain ⟨j', rfl⟩ := OY_pos hg
  exact ⟨rfl, by rw [lv_yr]; decide⟩

/-! ## Conjunctions over ten and over six, one by one -/

theorem bigSep_fin10 {M : Type} [URA M] (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ

theorem bigSep_fin6 {M : Type} [URA M] (Φ : Fin 6 → sProp M) :
    bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

end Cert.KernelIdeal.Mesh

end
-- ==== Proof.Shares.lean ====
/-
  Bookkeeping for a device's body: a chunk held whole is its two half shares; the own planes held whole open into the
  ten chunks sent (at the left half share), the rest of the planes at that share, and the right half share of all of it,
  and close again; the received planes close from their sixteen chunks at both half shares; and a device's positions,
  tokens and credit written out one by one.
-/
import proofs.«900411_g7700000000000412_dist_agattn_v7x_xy2x2_x_b2_s256_h8_d64_bf16_1_alg».proof.Proof.Sched
import proofs.«900411_g7700000000000412_dist_agattn_v7x_xy2x2_x_b2_s256_h8_d64_bf16_1_alg».proof.Proof.Regions
import proofs.«900411_g7700000000000412_dist_agattn_v7x_xy2x2_x_b2_s256_h8_d64_bf16_1_alg».proof.Proof.RegionsPart
import proofs.«900411_g7700000000000412_dist_agattn_v7x_xy2x2_x_b2_s256_h8_d64_bf16_1_alg».proof.Proof.Owes

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Shares -/

/-- A chunk at the full share is the chunk at its two halves. -/
theorem pts_halve (c : Dev nD) (M : Memref sig .tc .vmem S64x512 .bf16) (f : Buf (Elt F) (M.view.loc (c : Thread nD τ))) :
    (pts (F := F) c M fullShare f : sProp 𝕄) ⊣⊢ iprop(pts c M fullShare.left f ∗ pts c M fullShare.right f) :=
  pointsTo_share (PosShare.mem_left_op_right fullShare)

/-- The own planes, held whole: the ten chunks sent at the left half, the rest at the left half, everything at the right half. -/
theorem loc_open (c : Dev nD) (f : Buf (Elt F) (locLoc c)) :
    (locPts c f : sProp 𝕄) ⊢ iprop((bigSep Finset.univ fun i : Fin 10 => pts (F := F) c (lchunk c i) fullShare.left f)
      ∗ (locLoc c ↦[Finset.univ \ Finset.univ.biUnion (sentX c)]{fullShare.left} f) ∗ (locLoc c ↦{fullShare.right} f)) := by
  have h1 : (locLoc c ↦{fullShare} f : sProp 𝕄) ⊢ iprop((locLoc c ↦{fullShare.left} f) ∗ (locLoc c ↦{fullShare.right} f)) :=
    (pointsTo_share (PosShare.mem_left_op_right fullShare)).1
  have h2 := (loc_split (F := F) c fullShare.left f).1
  iintro H
  ihave H2 := h1 $$ H
  icases H2 with ⟨HL, HR⟩
  ihave H3 := h2 $$ HL
  icases H3 with ⟨HA, HB⟩
  isplitl [HA]; · iexact HA
  isplitl [HB]; · iexact HB
  iexact HR

theorem loc_rejoin (c : Dev nD) (f : Buf (Elt F) (locLoc c)) :
    iprop((bigSep Finset.univ fun i : Fin 10 => pts (F := F) c (lchunk c i) fullShare.left f)
      ∗ (locLoc c ↦[Finset.univ \ Finset.univ.biUnion (sentX c)]{fullShare.left} f) ∗ (locLoc c ↦{fullShare.right} f)) ⊢ (locPts c f : sProp 𝕄) := by
  have h1 : iprop((locLoc c ↦{fullShare.left} f) ∗ (locLoc c ↦{fullShare.right} f)) ⊢ (locLoc c ↦{fullShare} f : sProp 𝕄) :=
    (pointsTo_share (PosShare.mem_left_op_right fullShare)).2
  have h2 := (loc_split (F := F) c fullShare.left f).2
  iintro ⟨HA, HB, HR⟩
  iapply h1
  isplitl [HA HB]
  · iapply h2
    isplitl [HA]; · iexact HA
    iexact HB
  · iexact HR

/-- The received planes close from their sixteen chunks held at both halves. -/
theorem rem_rejoin (c : Dev nD) (f : Buf (Elt F) (remLoc c)) :
    iprop((bigSep Finset.univ fun i : Fin 10 => pts (F := F) c (rchunk c i) fullShare.left f)
      ∗ (bigSep Finset.univ fun j : Fin 6 => pts (F := F) c (rchunk (yn c) (j10 j)) fullShare.left f)
      ∗ (bigSep Finset.univ fun i : Fin 10 => pts (F := F) c (rchunk c i) fullShare.right f)
      ∗ (bigSep Finset.univ fun j : Fin 6 => pts (F := F) c (rchunk (yn c) (j10 j)) fullShare.right f)) ⊢ (remPts c f : sProp 𝕄) := by
  have h1 : iprop((remLoc c ↦{fullShare.left} f) ∗ (remLoc c ↦{fullShare.right} f)) ⊢ (remLoc c ↦{fullShare} f : sProp 𝕄) :=
    (pointsTo_share (PosShare.mem_left_op_right fullShare)).2
  have hl := (rem_split (F := F) c fullShare.left f).2
  have hr := (rem_split (F := F) c fullShare.right f).2
  iintro ⟨HXL, HYL, HXR, HYR⟩
  iapply h1
  isplitl [HXL HYL]
  · iapply hl
    isplitl [HXL]; · iexact HXL
    iexact HYL
  · iapply hr
    isplitl [HXR]; · iexact HXR
    iexact HYR

/-! ## A device's positions, tokens and credit, one by one -/

theorem linear_chain (c : Dev nD) :
    (linear (F := F) c : sProp 𝕄) = iprop((atPos ER (barCell c) 0 ∅ 0
        ∗ (atPos ER (xsCell c (0 : Fin 10)) 0 ∅ 0 ∗ atPos ER (xsCell c (1 : Fin 10)) 0 ∅ 0 ∗ atPos ER (xsCell c (2 : Fin 10)) 0 ∅ 0 ∗ atPos ER (xsCell c (3 : Fin 10)) 0 ∅ 0 ∗ atPos ER (xsCell c (4 : Fin 10)) 0 ∅ 0 ∗ atPos ER (xsCell c (5 : Fin 10)) 0 ∅ 0 ∗ atPos ER (xsCell c (6 : Fin 10)) 0 ∅ 0 ∗ atPos ER (xsCell c (7 : Fin 10)) 0 ∅ 0 ∗ atPos ER (xsCell c (8 : Fin 10)) 0 ∅ 0 ∗ atPos ER (xsCell c (9 : Fin 10)) 0 ∅ 0)
        ∗ (atPos ER (xrCell c (0 : Fin 10)) 0 ∅ 0 ∗ atPos ER (xrCell c (1 : Fin 10)) 0 ∅ 0 ∗ atPos ER (xrCell c (2 : Fin 10)) 0 ∅ 0 ∗ atPos ER (xrCell c (3 : Fin 10)) 0 ∅ 0 ∗ atPos ER (xrCell c (4 : Fin 10)) 0 ∅ 0 ∗ atPos ER (xrCell c (5 : Fin 10)) 0 ∅ 0 ∗ atPos ER (xrCell c (6 : Fin 10)) 0 ∅ 0 ∗ atPos ER (xrCell c (7 : Fin 10)) 0 ∅ 0 ∗ atPos ER (xrCell c (8 : Fin 10)) 0 ∅ 0 ∗ atPos ER (xrCell c (9 : Fin 10)) 0 ∅ 0)
        ∗ (atPos ER (ysCell c (0 : Fin 6)) 0 ∅ 0 ∗ atPos ER (ysCell c (1 : Fin 6)) 0 ∅ 0 ∗ atPos ER (ysCell c (2 : Fin 6)) 0 ∅ 0 ∗ atPos ER (ysCell c (3 : Fin 6)) 0 ∅ 0 ∗ atPos ER (ysCell c (4 : Fin 6)) 0 ∅ 0 ∗ atPos ER (ysCell c (5 : Fin 6)) 0 ∅ 0)
        ∗ (atPos ER (yrCell c (0 : Fin 6)) 0 ∅ 0 ∗ atPos ER (yrCell c (1 : Fin 6)) 0 ∅ 0 ∗ atPos ER (yrCell c (2 : Fin 6)) 0 ∅ 0 ∗ atPos ER (yrCell c (3 : Fin 6)) 0 ∅ 0 ∗ atPos ER (yrCell c (4 : Fin 6)) 0 ∅ 0 ∗ atPos ER (yrCell c (5 : Fin 6)) 0 ∅ 0))
      ∗ ((dutyTok ER (barCell (xn c)) 0 false
        ∗ (dutyTok ER (xsCell c (0 : Fin 10)) 0 false ∗ dutyTok ER (xsCell c (1 : Fin 10)) 0 false ∗ dutyTok ER (xsCell c (2 : Fin 10)) 0 false ∗ dutyTok ER (xsCell c (3 : Fin 10)) 0 false ∗ dutyTok ER (xsCell c (4 : Fin 10)) 0 false ∗ dutyTok ER (xsCell c (5 : Fin 10)) 0 false ∗ dutyTok ER (xsCell c (6 : Fin 10)) 0 false ∗ dutyTok ER (xsCell c (7 : Fin 10)) 0 false ∗ dutyTok ER (xsCell c (8 : Fin 10)) 0 false ∗ dutyTok ER (xsCell c (9 : Fin 10)) 0 false)
        ∗ (dutyTok ER (xrCell (xn c) (0 : Fin 10)) 0 false ∗ dutyTok ER (xrCell (xn c) (1 : Fin 10)) 0 false ∗ dutyTok ER (xrCell (xn c) (2 : Fin 10)) 0 false ∗ dutyTok ER (xrCell (xn c) (3 : Fin 10)) 0 false ∗ dutyTok ER (xrCell (xn c) (4 : Fin 10)) 0 false ∗ dutyTok ER (xrCell (xn c) (5 : Fin 10)) 0 false ∗ dutyTok ER (xrCell (xn c) (6 : Fin 10)) 0 false ∗ dutyTok ER (xrCell (xn c) (7 : Fin 10)) 0 false ∗ dutyTok ER (xrCell (xn c) (8 : Fin 10)) 0 false ∗ dutyTok ER (xrCell (xn c) (9 : Fin 10)) 0 false)
        ∗ (dutyTok ER (ysCell c (0 : Fin 6)) 0 false ∗ dutyTok ER (ysCell c (1 : Fin 6)) 0 false ∗ dutyTok ER (ysCell c (2 : Fin 6)) 0 false ∗ dutyTok ER (ysCell c (3 : Fin 6)) 0 false ∗ dutyTok ER (ysCell c (4 : Fin 6)) 0 false ∗ dutyTok ER (ysCell c (5 : Fin 6)) 0 false)
        ∗ (dutyTok ER (yrCell (yn c) (0 : Fin 6)) 0 false ∗ dutyTok ER (yrCell (yn c) (1 : Fin 6)) 0 false ∗ dutyTok ER (yrCell (yn c) (2 : Fin 6)) 0 false ∗ dutyTok ER (yrCell (yn c) (3 : Fin 6)) 0 false ∗ dutyTok ER (yrCell (yn c) (4 : Fin 6)) 0 false ∗ dutyTok ER (yrCell (yn c) (5 : Fin 6)) 0 false))
        ∗ dutyTok ER (barCell (yn c)) 0 true)) := by
  unfold linear
  rw [atPos_eq, payToks_eq]
  simp only [bigSep_fin10, bigSep_fin6]

theorem credsOf_chain (c : Dev nD) :
    (credsOf (F := F) N c : sProp 𝕄) = iprop(cred (tallyAt (barCell c) () 2)
      ∗ (cred (tallyAt (xrCell c (0 : Fin 10)) () N) ∗ cred (tallyAt (xrCell c (1 : Fin 10)) () N) ∗ cred (tallyAt (xrCell c (2 : Fin 10)) () N) ∗ cred (tallyAt (xrCell c (3 : Fin 10)) () N) ∗ cred (tallyAt (xrCell c (4 : Fin 10)) () N) ∗ cred (tallyAt (xrCell c (5 : Fin 10)) () N) ∗ cred (tallyAt (xrCell c (6 : Fin 10)) () N) ∗ cred (tallyAt (xrCell c (7 : Fin 10)) () N) ∗ cred (tallyAt (xrCell c (8 : Fin 10)) () N) ∗ cred (tallyAt (xrCell c (9 : Fin 10)) () N))
      ∗ (cred (tallyAt (yrCell c (0 : Fin 6)) () N) ∗ cred (tallyAt (yrCell c (1 : Fin 6)) () N) ∗ cred (tallyAt (yrCell c (2 : Fin 6)) () N) ∗ cred (tallyAt (yrCell c (3 : Fin 6)) () N) ∗ cred (tallyAt (yrCell c (4 : Fin 6)) () N) ∗ cred (tallyAt (yrCell c (5 : Fin 6)) () N))) := by
  unfold credsOf
  simp only [bigSep_fin10, bigSep_fin6]

end Cert.KernelIdeal.Mesh

end
-- ==== Proof.BodyDefs.lean ====
/-
  What one device's body starts from and ends with, as assertions: before, the exchange's ghost state and launch credit,
  the order on cells, the two scratch plane pairs at any contents, what it owes, and the four staging buffers (the three
  argument blocks; the result's at whatever it held); after, the scratch planes back, its copy semaphores at zero, nothing
  owed, the argument blocks unchanged and the result's staging buffer at the closed term.
-/
import proofs.«900411_g7700000000000412_dist_agattn_v7x_xy2x2_x_b2_s256_h8_d64_bf16_1_alg».proof.Proof.Gen.KernelIdeal
import proofs.«900411_g7700000000000412_dist_agattn_v7x_xy2x2_x_b2_s256_h8_d64_bf16_1_alg».proof.Proof.Gen.KernelIdeal.Skeleton
import proofs.«900411_g7700000000000412_dist_agattn_v7x_xy2x2_x_b2_s256_h8_d64_bf16_1_alg».proof.Proof.Gen.KernelIdeal.Launch
import proofs.«900411_g7700000000000412_dist_agattn_v7x_xy2x2_x_b2_s256_h8_d64_bf16_1_alg».proof.Proof.Gen.KernelIdeal.Points
import proofs.«900411_g7700000000000412_dist_agattn_v7x_xy2x2_x_b2_s256_h8_d64_bf16_1_alg».proof.Proof.Gen.KernelIdeal.Frame
import proofs.«900411_g7700000000000412_dist_agattn_v7x_xy2x2_x_b2_s256_h8_d64_bf16_1_alg».proof.Proof.Flow
import proofs.«900411_g7700000000000412_dist_agattn_v7x_xy2x2_x_b2_s256_h8_d64_bf16_1_alg».proof.Proof.Mesh
import proofs.«900411_g7700000000000412_dist_agattn_v7x_xy2x2_x_b2_s256_h8_d64_bf16_1_alg».proof.Proof.Sched
import proofs.«900411_g7700000000000412_dist_agattn_v7x_xy2x2_x_b2_s256_h8_d64_bf16_1_alg».proof.Proof.Cells
import proofs.«900411_g7700000000000412_dist_agattn_v7x_xy2x2_x_b2_s256_h8_d64_bf16_1_alg».proof.Proof.Data
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Mesh
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- A whole staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The kernel's body on the buffers the launch calls it with. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    cc0_scratch2 cc0_scratch3 cc0_scratch4 cc0_scratch5

def bodyPre (K : Dev nD × Fin 33 → ℕ) (c : Dev nD) : sProp 𝕄 :=
  iprop((ghost (sched (F := F) m) K c ∗ credsOf N c ∗ levAts L lv ∗ (∃ f, locPts c f) ∗ (∃ f, remPts c f))
    ∗ (dats m 0 c).owesAt () t0_0.castSucc
    ∗ stg c cc0_stg0_0 (qst m c) ∗ stg c cc0_stg1_0 (kst m c) ∗ stg c cc0_stg2_0 (vst m c)
    ∗ (∃ d, stg c cc0_stg3_0 ((dats m 0 c).before (3 : Fin 4) t0_0 d)))

def bodyPost (c : Dev nD) : sProp 𝕄 :=
  iprop(Φ₁ c ∗ (dats m 0 c).owesAt () t0_0.succ ∗ stg c cc0_stg0_0 (qst m c) ∗ stg c cc0_stg1_0 (kst m c) ∗ stg c cc0_stg2_0 (vst m c)
    ∗ stg c cc0_stg3_0 (outAt m c))

/-- The statement of the body's run: from `bodyPre` to `bodyPost`, in continuation form. -/
def SoundBody : Prop := ∀ (K : Dev nD × Fin 33 → ℕ) (c : Dev nD) (Kt : PUnit → sProp 𝕄),
    iprop(bodyPre m K c ∗ (bodyPost m c -∗ Kt ⟨⟩))
      ⊢ wp frame (wpE (defs₀ (F := F)) 𝒱₀ c none) Set.univ (theBody (F := F)) Kt

end Cert.KernelIdeal.Mesh
end
-- ==== Proof.BodyWrap.lean ====
/-
  Two pieces around a device's body.

  The body's statement in the form the pipeline asks of the one grid point: the staging buffers are whole buffers,
  the three argument windows are fetched at the point, so what their staging buffers hold when the body starts is
  the staged argument blocks; the invariant before the point opens into the exchange's ghost state at some names.
  And the end of the exchange on a device: each of its 32 copy cells, at the start of round 1 with nothing taken,
  has no duty left in any round, so it closes with its counter at zero.
-/
import proofs.«900411_g7700000000000412_dist_agattn_v7x_xy2x2_x_b2_s256_h8_d64_bf16_1_alg».proof.Proof.Gen.KernelIdeal
import proofs.«900411_g7700000000000412_dist_agattn_v7x_xy2x2_x_b2_s256_h8_d64_bf16_1_alg».proof.Proof.Gen.KernelIdeal.Skeleton
import proofs.«900411_g7700000000000412_dist_agattn_v7x_xy2x2_x_b2_s256_h8_d64_bf16_1_alg».proof.Proof.Gen.KernelIdeal.Launch
import proofs.«900411_g7700000000000412_dist_agattn_v7x_xy2x2_x_b2_s256_h8_d64_bf16_1_alg».proof.Proof.Gen.KernelIdeal.Points
import proofs.«900411_g7700000000000412_dist_agattn_v7x_xy2x2_x_b2_s256_h8_d64_bf16_1_alg».proof.Proof.Gen.KernelIdeal.Frame
import proofs.«900411_g7700000000000412_dist_agattn_v7x_xy2x2_x_b2_s256_h8_d64_bf16_1_alg».proof.Proof.Mesh
import proofs.«900411_g7700000000000412_dist_agattn_v7x_xy2x2_x_b2_s256_h8_d64_bf16_1_alg».proof.Proof.Sched
import proofs.«900411_g7700000000000412_dist_agattn_v7x_xy2x2_x_b2_s256_h8_d64_bf16_1_alg».proof.Proof.Cells
import proofs.«900411_g7700000000000412_dist_agattn_v7x_xy2x2_x_b2_s256_h8_d64_bf16_1_alg».proof.Proof.Data
import proofs.«900411_g7700000000000412_dist_agattn_v7x_xy2x2_x_b2_s256_h8_d64_bf16_1_alg».proof.Proof.BodyDefs
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body in the pipeline's form -/

/-- A whole buffer held in full at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The argument windows are fetched at the point: their staging buffers hold the staged blocks. -/
theorem before_0 (c : Dev nD) (d) : (dats (F := F) m 0 c).before (0 : Fin 4) t0_0 d = qst m c := by
  unfold Dat.before; rw [if_pos (by rfl)]; rfl
theorem before_1 (c : Dev nD) (d) : (dats (F := F) m 0 c).before (1 : Fin 4) t0_0 d = kst m c := by
  unfold Dat.before; rw [if_pos (by rfl)]; rfl
theorem before_2 (c : Dev nD) (d) : (dats (F := F) m 0 c).before (2 : Fin 4) t0_0 d = vst m c := by
  unfold Dat.before; rw [if_pos (by rfl)]; rfl

set_option maxRecDepth 100000 in
/-- What the pipeline hands the body at the one point. -/
def bodyPre' (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

set_option maxRecDepth 100000 in
/-- The pipeline's body obligation on device `c`, from the body's run. -/
theorem body_obligation_of (h : SoundBody (F := F) m) (c : Dev nD) :
    BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ (theBody (F := F)) (fun _ => bodyPost m c)
  unfold bodyPre' Φ₀ start
  simp only [before_0, before_1, before_2]
  iintro ⟨⟨⟨⟨%K, Hg⟩, Hcred, Hlev⟩, Hloc, Hrem⟩, Ho, ⟨%d0, H0⟩, ⟨%d1, H1⟩, ⟨%d2, H2⟩, H3⟩
  iapply (h K c fun _ => bodyPost m c)
  unfold bodyPre
  isplitr []
  · isplitl [Hg Hcred Hlev Hloc Hrem]
    · isplitl [Hg]; · iexact Hg
      isplitl [Hcred]; · iexact Hcred
      isplitl [Hlev]; · iexact Hlev
      isplitl [Hloc]; · iexact Hloc
      iexact Hrem
    isplitl [Ho]; · iexact Ho
    isplitl [H0]; · iexact H0
    isplitl [H1]; · iexact H1
    isplitl [H2]; · iexact H2
    iexact H3
  · iintro H; iexact H

/-! ## The copy cells close -/

/-- The 32 copy cells by the part they play. -/
def nIx : Fin 10 ⊕ Fin 10 ⊕ Fin 6 ⊕ Fin 6 → Fin 32
  | .inl i => nXs i
  | .inr (.inl i) => nXr i
  | .inr (.inr (.inl j)) => nYs j
  | .inr (.inr (.inr j)) => nYr j

theorem nIx_bijective : Function.Bijective nIx := by decide

def nIxE : Fin 10 ⊕ Fin 10 ⊕ Fin 6 ⊕ Fin 6 ≃ Fin 32 := Equiv.ofBijective nIx nIx_bijective

/-- A conjunction over a device's 32 copy cells, part by part. -/
theorem bigSep_fin32_fam {M : Type} [URA M] (Φ : Fin 32 → sProp M) :
    bigSep Finset.univ Φ = iprop((bigSep Finset.univ fun i : Fin 10 => Φ (nXs i)) ∗ (bigSep Finset.univ fun i : Fin 10 => Φ (nXr i))
      ∗ (bigSep Finset.univ fun j : Fin 6 => Φ (nYs j)) ∗ (bigSep Finset.univ fun j : Fin 6 => Φ (nYr j))) := by
  rw [bigSep_univ_equiv nIxE Φ, bigSep_univ_sum, bigSep_univ_sum, bigSep_univ_sum]
  rfl

/-- One copy cell, at the start of round 1 with nothing taken, closes: its counter is zero. -/
theorem close_one (K : Dev nD × Fin 33 → ℕ) (c : Dev nD) (n : Fin 32) :
    iprop(records (sched (F := F) m) K ∗ atPos ER (dmaCell c n) 1 ∅ 0) ⊢ iprop(|={Set.univ}=> semVal (dmaCell c n) 0) := by
  iintro ⟨#Hrec, Hat⟩
  ihave HI := (records_inv (sched (F := F) m) K (c, n.succ)) $$ Hrec
  rw [kcell_succ]
  iapply (Rounds.cell_close ER (sched (F := F) m) (Set.mem_univ (K (c, n.succ))) (fun h => h) (R := 1) (duties_later m (dmaCell c n)))
  isplitl [HI]
  · iexact HI
  · iexact Hat

/-- All 32 close. -/
theorem close_32 (K : Dev nD × Fin 33 → ℕ) (c : Dev nD) :
    iprop(records (sched (F := F) m) K ∗ bigSep Finset.univ fun n : Fin 32 => atPos ER (dmaCell c n) 1 ∅ 0)
      ⊢ iprop(|={Set.univ}=> bigSep Finset.univ fun n : Fin 32 => semVal (dmaCell c n) 0) :=
  (bigSep_with_persistent (Ψ := fun n : Fin 32 => iprop(|={Set.univ}=> semVal (dmaCell c n) 0)) fun n _ => close_one m K c n).trans
    (bigSep_fupd _ _)

/-- The same from the four families of positions. -/
theorem close_all (K : Dev nD × Fin 33 → ℕ) (c : Dev nD) :
    (records (sched (F := F) m) K : sProp 𝕄) ⊢ iprop((bigSep Finset.univ fun i : Fin 10 => atPos ER (xsCell c i) 1 ∅ 0)
      -∗ (bigSep Finset.univ fun i : Fin 10 => atPos ER (xrCell c i) 1 ∅ 0)
      -∗ (bigSep Finset.univ fun j : Fin 6 => atPos ER (ysCell c j) 1 ∅ 0)
      -∗ (bigSep Finset.univ fun j : Fin 6 => atPos ER (yrCell c j) 1 ∅ 0)
      -∗ |={Set.univ}=> bigSep Finset.univ fun n : Fin 32 => semVal (dmaCell c n) 0) := by
  iintro #Hrec Hxs Hxr Hys Hyr
  iapply (close_32 m K c)
  isplitr
  · iexact Hrec
  rw [bigSep_fin32_fam]
  isplitl [Hxs]; · iexact Hxs
  isplitl [Hxr]; · iexact Hxr
  isplitl [Hys]; · iexact Hys
  iexact Hyr

end Cert.KernelIdeal.Mesh

end
-- ==== Proof.BodyPost.lean ====
/-
  The end of a device's body: what it holds then — the two scratch plane pairs, its copy semaphores at zero, nothing
  owed, the argument blocks' staging buffers unchanged and the result's at the stored blocks — is the state the
  pipeline asks after the one grid point.
-/
import proofs.«900411_g7700000000000412_dist_agattn_v7x_xy2x2_x_b2_s256_h8_d64_bf16_1_alg».proof.Proof.Gen.KernelIdeal
import proofs.«900411_g7700000000000412_dist_agattn_v7x_xy2x2_x_b2_s256_h8_d64_bf16_1_alg».proof.Proof.Gen.KernelIdeal.Skeleton
import proofs.«900411_g7700000000000412_dist_agattn_v7x_xy2x2_x_b2_s256_h8_d64_bf16_1_alg».proof.Proof.Gen.KernelIdeal.Launch
import proofs.«900411_g7700000000000412_dist_agattn_v7x_xy2x2_x_b2_s256_h8_d64_bf16_1_alg».proof.Proof.Gen.KernelIdeal.Points
import proofs.«900411_g7700000000000412_dist_agattn_v7x_xy2x2_x_b2_s256_h8_d64_bf16_1_alg».proof.Proof.Gen.KernelIdeal.Frame
import proofs.«900411_g7700000000000412_dist_agattn_v7x_xy2x2_x_b2_s256_h8_d64_bf16_1_alg».proof.Proof.Mesh
import proofs.«900411_g7700000000000412_dist_agattn_v7x_xy2x2_x_b2_s256_h8_d64_bf16_1_alg».proof.Proof.Sched
import proofs.«900411_g7700000000000412_dist_agattn_v7x_xy2x2_x_b2_s256_h8_d64_bf16_1_alg».proof.Proof.Cells
import proofs.«900411_g7700000000000412_dist_agattn_v7x_xy2x2_x_b2_s256_h8_d64_bf16_1_alg».proof.Proof.Data
import proofs.«900411_g7700000000000412_dist_agattn_v7x_xy2x2_x_b2_s256_h8_d64_bf16_1_alg».proof.Proof.BodyDefs
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body's last step -/

/-- What the body holds at its end makes up the state after the point: the scratch planes, the copy semaphores at
    zero, nothing owed, and the four staging buffers at the staged blocks and the stored result. -/
theorem post_intro (c : Dev nD) (W' : Waits sig Unit) :
    iprop((∃ f, locPts (F := F) c f) ∗ (∃ f, remPts (F := F) c f)
      ∗ (bigSep Finset.univ fun n : Fin 32 => semVal (dmaCell c n) 0)
      ∗ owes (c : Thread nD τ) 0 W'
      ∗ (((c : Thread nD τ).loc cc0_stg0_0) ↦{fullShare} qst m c)
      ∗ (((c : Thread nD τ).loc cc0_stg1_0) ↦{fullShare} kst m c)
      ∗ (((c : Thread nD τ).loc cc0_stg2_0) ↦{fullShare} vst m c)
      ∗ (((c : Thread nD τ).loc cc0_stg3_0) ↦{fullShare} outAt m c))
      ⊢ (bodyPost m c : sProp 𝕄) := by
  unfold bodyPost Φ₁ Dat.owesAt Pipeline.owesWithin
  rw [show (dats m 0 c).owed t0_0.succ = 0 from rfl]
  iintro ⟨Hloc, Hrem, Hsem, HO, H0, H1, H2, H3⟩
  isplitl [Hloc Hrem Hsem]
  · isplitl [Hloc]; · iexact Hloc
    isplitl [Hrem]; · iexact Hrem
    iexact Hsem
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

end Cert.KernelIdeal.Mesh

end
-- ==== Proof.Body.lean ====
/-
  One device's body, stepped once at a symbolic device `c = 2x + y`.

  The order of events. The device hands its first-axis neighbour the ten chunks of its received planes that neighbour
  will fill (plane `y` whole, the last two chunks of plane `1 - y`) and its second-axis neighbour the other six, each with
  a barrier signal; stages its key and value blocks as the two own planes; waits for both neighbours' signals, which bring
  their landing chunks. It then copies ten own chunks across the first axis, lending the left half share of each source;
  loads the queries and, through the right half share, both own planes. Each of the first six received chunks, once its
  receive cell's round is complete, is forwarded across the second axis (again the left half travels). With the four
  forwarded chunks of the other plane in, rows `[0, 256)` of both received planes are read through the right half shares
  joined over those eight chunks, and batch 0 of the result is stored; the remaining eight chunks give rows `[256, 512)`
  and batch 1. Every send cell's round then returns the lent half; the 32 copy cells, with no round left, are closed at
  zero; the halves are rejoined into the two scratch plane pairs. What is owed shrinks by one tally per signal and copy,
  and each wait sits below everything still owed: the barrier below all receive cells, a first-axis receive cell below the
  second-axis ones, everything else waited owing nothing.

  What the result's staging buffer holds at the end is the closed term `outAt`: the two stores' payloads over the query
  block, the own planes and the two halves of the received planes.
-/
import proofs.«900411_g7700000000000412_dist_agattn_v7x_xy2x2_x_b2_s256_h8_d64_bf16_1_alg».proof.Proof.Gen.KernelIdeal
import proofs.«900411_g7700000000000412_dist_agattn_v7x_xy2x2_x_b2_s256_h8_d64_bf16_1_alg».proof.Proof.Gen.KernelIdeal.Skeleton
import proofs.«900411_g7700000000000412_dist_agattn_v7x_xy2x2_x_b2_s256_h8_d64_bf16_1_alg».proof.Proof.Gen.KernelIdeal.Launch
import proofs.«900411_g7700000000000412_dist_agattn_v7x_xy2x2_x_b2_s256_h8_d64_bf16_1_alg».proof.Proof.Gen.KernelIdeal.Points
import proofs.«900411_g7700000000000412_dist_agattn_v7x_xy2x2_x_b2_s256_h8_d64_bf16_1_alg».proof.Proof.Gen.KernelIdeal.Frame
import proofs.«900411_g7700000000000412_dist_agattn_v7x_xy2x2_x_b2_s256_h8_d64_bf16_1_alg».proof.Proof.Flow
import proofs.«900411_g7700000000000412_dist_agattn_v7x_xy2x2_x_b2_s256_h8_d64_bf16_1_alg».proof.Proof.Mesh
import proofs.«900411_g7700000000000412_dist_agattn_v7x_xy2x2_x_b2_s256_h8_d64_bf16_1_alg».proof.Proof.Sched
import proofs.«900411_g7700000000000412_dist_agattn_v7x_xy2x2_x_b2_s256_h8_d64_bf16_1_alg».proof.Proof.Cells
import proofs.«900411_g7700000000000412_dist_agattn_v7x_xy2x2_x_b2_s256_h8_d64_bf16_1_alg».proof.Proof.Data
import proofs.«900411_g7700000000000412_dist_agattn_v7x_xy2x2_x_b2_s256_h8_d64_bf16_1_alg».proof.Proof.Regions
import proofs.«900411_g7700000000000412_dist_agattn_v7x_xy2x2_x_b2_s256_h8_d64_bf16_1_alg».proof.Proof.RegionsPart
import proofs.«900411_g7700000000000412_dist_agattn_v7x_xy2x2_x_b2_s256_h8_d64_bf16_1_alg».proof.Proof.RegionsIO
import proofs.«900411_g7700000000000412_dist_agattn_v7x_xy2x2_x_b2_s256_h8_d64_bf16_1_alg».proof.Proof.RegionsCover
import proofs.«900411_g7700000000000412_dist_agattn_v7x_xy2x2_x_b2_s256_h8_d64_bf16_1_alg».proof.Proof.RegionsRows
import proofs.«900411_g7700000000000412_dist_agattn_v7x_xy2x2_x_b2_s256_h8_d64_bf16_1_alg».proof.Proof.Steps
import proofs.«900411_g7700000000000412_dist_agattn_v7x_xy2x2_x_b2_s256_h8_d64_bf16_1_alg».proof.Proof.Owes
import proofs.«900411_g7700000000000412_dist_agattn_v7x_xy2x2_x_b2_s256_h8_d64_bf16_1_alg».proof.Proof.Shares
import proofs.«900411_g7700000000000412_dist_agattn_v7x_xy2x2_x_b2_s256_h8_d64_bf16_1_alg».proof.Proof.BodyDefs
import proofs.«900411_g7700000000000412_dist_agattn_v7x_xy2x2_x_b2_s256_h8_d64_bf16_1_alg».proof.Proof.BodyWrap
import proofs.«900411_g7700000000000412_dist_agattn_v7x_xy2x2_x_b2_s256_h8_d64_bf16_1_alg».proof.Proof.BodyPost
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Mesh
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic
variable {F : FTy → Type} [FloatOps F]
local notation "𝕄" => MT nD τ sig Unit (Elt F) ℕ UU ℕ
variable (m : (ℓ : Loc nD τ sig) → Buf (Elt F) ℓ)

theorem hz4 : (![0, 0, 0, 0] : Fin 4 → Nat) = fun _ => 0 := funext fun a => by fin_cases a <;> rfl

/-- The marks that a device's own receive cells are at round 0, as families. -/
theorem reached_xr (K : Dev nD × Fin 33 → ℕ) (c : Dev nD) :
    (records (sched (F := F) m) K : sProp 𝕄) ⊢ bigSep Finset.univ fun i : Fin 10 => reached ER (xrCell c i) 0 :=
  bigSep_intro_persistent fun i _ => (records_reached (sched (F := F) m) K (c, kXr i)).trans (Entails.of_eq (by rw [kcell_kXr]))
theorem reached_yr (K : Dev nD × Fin 33 → ℕ) (c : Dev nD) :
    (records (sched (F := F) m) K : sProp 𝕄) ⊢ bigSep Finset.univ fun j : Fin 6 => reached ER (yrCell c j) 0 :=
  bigSep_intro_persistent fun j _ => (records_reached (sched (F := F) m) K (c, kYr j)).trans (Entails.of_eq (by rw [kcell_kYr]))

/-- A landing chunk at any contents, as the neighbour's barrier payload spells it. -/
theorem slot_x (c : Dev nD) (i : Fin 10) (f : Buf (Elt F) ((rchunk c i).view.loc (c : Thread nD τ))) :
    pts (F := F) c (rchunk c i) fullShare f ⊢ iprop(∃ f', pts (F := F) c (rchunk (xn c) i) fullShare f') := by
  rw [rchunk_xn]; iintro H; iexists f; iexact H
theorem slot_y (c : Dev nD) (j : Fin 6) (f : Buf (Elt F) ((rchunk (yn c) (j10 j)).view.loc (c : Thread nD τ))) :
    pts (F := F) c (rchunk (yn c) (j10 j)) fullShare f ⊢ iprop(∃ f', pts (F := F) c (rchunk (yn c) (j10 j)) fullShare f') := by
  iintro H; iexists f; iexact H

theorem slots_x (c : Dev nD) (f : Buf (Elt F) (remLoc c)) :
    (bigSep Finset.univ fun i : Fin 10 => pts (F := F) c (rchunk c i) fullShare f : sProp 𝕄)
      ⊢ bigSep Finset.univ fun i : Fin 10 => iprop(∃ f', pts (F := F) c (rchunk (xn c) i) fullShare f') :=
  bigSep_mono fun i _ => slot_x c i f
theorem slots_y (c : Dev nD) (f : Buf (Elt F) (remLoc c)) :
    (bigSep Finset.univ fun j : Fin 6 => pts (F := F) c (rchunk (yn c) (j10 j)) fullShare f : sProp 𝕄)
      ⊢ bigSep Finset.univ fun j : Fin 6 => iprop(∃ f', pts (F := F) c (rchunk (yn c) (j10 j)) fullShare f') :=
  bigSep_mono fun j _ => slot_y c j f

/-- A load of a whole staging buffer reads its contents. -/
theorem read_q (f : (cc0_stg0_0 : Ref sig .tc).ty.Contents (Elt F)) :
    (Memref.whole cc0_stg0_0 : Memref sig .tc .vmem S2x256x8x64 .f32).view.readAt (Elt F)
      (Rect.unit (s := S2x256x8x64) ![0, 0, 0, 0] S2x256x8x64.size inb_S2x256x8x64_S2x256x8x64_0_0_0_0).toLoadRect f = f :=
  Memref.readAt_unit_zero (Elt F) cc0_stg0_0 hz4 _ f
theorem read_k (f : (cc0_stg1_0 : Ref sig .tc).ty.Contents (Elt F)) :
    (Memref.whole cc0_stg1_0 : Memref sig .tc .vmem S2x256x8x64 .f32).view.readAt (Elt F)
      (Rect.unit (s := S2x256x8x64) ![0, 0, 0, 0] S2x256x8x64.size inb_S2x256x8x64_S2x256x8x64_0_0_0_0).toLoadRect f = f :=
  Memref.readAt_unit_zero (Elt F) cc0_stg1_0 hz4 _ f
theorem read_v (f : (cc0_stg2_0 : Ref sig .tc).ty.Contents (Elt F)) :
    (Memref.whole cc0_stg2_0 : Memref sig .tc .vmem S2x256x8x64 .f32).view.readAt (Elt F)
      (Rect.unit (s := S2x256x8x64) ![0, 0, 0, 0] S2x256x8x64.size inb_S2x256x8x64_S2x256x8x64_0_0_0_0).toLoadRect f = f :=
  Memref.readAt_unit_zero (Elt F) cc0_stg2_0 hz4 _ f

/-- What a first-axis receive cell hands over, spelt at the device's own chunk view. -/
theorem xrPay_eq (c : Dev nD) (i : Fin 10) : xrPay m c i = pts (F := F) c (rchunk c i) fullShare (remC m c) := by
  have h : ((rchunk (xn c) i).view.set : Finset S2x512x512.Idx) = (rchunk c i).view.set :=
    Finset.ext fun idx => by rw [mem_rchunk, mem_rchunk]; unfold xplane; rw [yc_xn]
  show ((remLoc c) ↦[(rchunk (xn c) i).view.set]{fullShare} (remC m c) : sProp 𝕄) = ((remLoc c) ↦[(rchunk c i).view.set]{fullShare} (remC m c))
  rw [h]

/-- The first six chunks of the plan, named as forwards. -/
theorem rc_j10 (c : Dev nD) (j : Fin 6) (i : Fin 10) (h : i = j10 j) (q : PosShare TreeShare) (f : Buf (Elt F) (remLoc c)) :
    pts (F := F) c (rchunk c i) q f = pts (F := F) c (rchunk c (j10 j)) q f := by subst h; rfl

/-- The own planes' chunks credit a copy cell the same amount as the received planes'. -/
theorem lchunk_credit (c : Dev nD) (i : Fin 10) (sm : DmaSem sig) : (lchunk c i).view.amount (.dma sm) = N := rfl

/-- The two stored blocks, as the body's payload terms spell them. -/
theorem out0_def (q : Vec F S2x256x8x64 .f32) (lk lv : Vec F S1x512x512 .bf16) (rk rv : Vec F S1x256x512 .bf16) :
    Flow.out0 q lk lv rk rv
      = k0_pay12 (k0_pay5 (k0_pay4 q)) (k0_pay10 (k0_pay8 (k0_pay5 (k0_pay4 q)) (k0_pay6 lk)))
          (k0_pay11 (k0_pay7 lv) (k0_pay9 (k0_pay8 (k0_pay5 (k0_pay4 q)) (k0_pay6 lk)))) rk rv := rfl
theorem out1_def (q : Vec F S2x256x8x64 .f32) (lk lv : Vec F S1x512x512 .bf16) (rk rv : Vec F S1x256x512 .bf16) :
    Flow.out1 q lk lv rk rv
      = k0_pay17 (k0_pay10 (k0_pay8 (k0_pay5 (k0_pay4 q)) (k0_pay6 lk)))
          (k0_pay11 (k0_pay7 lv) (k0_pay9 (k0_pay8 (k0_pay5 (k0_pay4 q)) (k0_pay6 lk)))) (k0_pay13 rv)
          (k0_pay15 (k0_pay5 (k0_pay4 q)) rk) (k0_pay16 (k0_pay5 (k0_pay4 q)) rk) := rfl

set_option maxHeartbeats 1000000 in
set_option maxRecDepth 65536 in
theorem sound_body : SoundBody (F := F) m := by
  intro K c Kt
  unfold theBody
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c]
  unfold bodyPre ghost
  iintro ⟨⟨⟨⟨#Hrec, Hlin⟩, Hcred, #Hlev, ⟨%fl, Hloc⟩, ⟨%fr, Hrem⟩⟩, Ho, ⟨%gq, %hgq, Hq⟩, ⟨%gk, %hgk, Hk⟩, ⟨%gv, %hgv, Hv⟩, ⟨%d3, %go, %hgo, Hout⟩⟩, Hk'⟩
  subst hgq hgk hgv
  unfold Dat.owesAt Pipeline.owesWithin
  icases Ho with ⟨%W, %hW, HO⟩
  rw [show (dats m 0 c).owed t0_0.castSucc = O₀ N c from rfl]
  ihave Hlin' := (Entails.of_eq (linear_chain c)) $$ Hlin
  icases Hlin' with ⟨⟨HaB, ⟨Haxs0, Haxs1, Haxs2, Haxs3, Haxs4, Haxs5, Haxs6, Haxs7, Haxs8, Haxs9⟩, ⟨Haxr0, Haxr1, Haxr2, Haxr3, Haxr4, Haxr5, Haxr6, Haxr7, Haxr8, Haxr9⟩, ⟨Hays0, Hays1, Hays2, Hays3, Hays4, Hays5⟩, ⟨Hayr0, Hayr1, Hayr2, Hayr3, Hayr4, Hayr5⟩⟩, ⟨HtBX, ⟨Htxs0, Htxs1, Htxs2, Htxs3, Htxs4, Htxs5, Htxs6, Htxs7, Htxs8, Htxs9⟩, ⟨Htxr0, Htxr1, Htxr2, Htxr3, Htxr4, Htxr5, Htxr6, Htxr7, Htxr8, Htxr9⟩, ⟨Htys0, Htys1, Htys2, Htys3, Htys4, Htys5⟩, ⟨Htyr0, Htyr1, Htyr2, Htyr3, Htyr4, Htyr5⟩⟩, HtBY⟩
  ihave Hcred' := (Entails.of_eq (credsOf_chain c)) $$ Hcred
  icases Hcred' with ⟨HcB, ⟨Hcxr0, Hcxr1, Hcxr2, Hcxr3, Hcxr4, Hcxr5, Hcxr6, Hcxr7, Hcxr8, Hcxr9⟩, ⟨Hcyr0, Hcyr1, Hcyr2, Hcyr3, Hcyr4, Hcyr5⟩⟩
  -- the received planes chunk by chunk: ten for the first-axis neighbour to fill, six for the second-axis neighbour
  ihave Hrem := (rem_split c fullShare fr).1 $$ Hrem
  icases Hrem with ⟨HX, HY⟩
  -- the signal to the first-axis neighbour's barrier: the ten landing chunks and the marks of their receive cells
  ihave #HIbx := (records_inv (sched (F := F) m) K (xn c, 0)) $$ Hrec
  ihave #Hrbx := (records_reached (sched (F := F) m) K (xn c, 0)) $$ Hrec
  iapply (Rounds.wp_signal 𝒱₀ ER (sched m) (c : Thread nD τ) none (dst := (xn c : Thread nD τ)) (κ := K (xn c, 0))
      (d := false) (by rw [duties_bar]; exact Finset.mem_univ _) ((amount_bar m (xn c) false).trans (by decide)) ()
      (OX c 0 + OY c 0 + tallyAt (barCell (yn c)) () 1) (owe_barX c)) $$ [HO HtBX HX]
  · isplitr; · iexact HIbx
    isplitl [HO]; · iexact HO
    isplitl [HtBX]; · iexact HtBX
    isplitl [HX]
    · rw [payload_bar_false]; unfold barPayX; rw [xn_xn]
      isplitl [HX]
      · iapply (slots_x c fr) $$ HX
      · iapply (reached_xr m K c) $$ Hrec
    · iexact Hrbx
  iintro HO
  -- the signal to the second-axis neighbour's barrier: the six landing chunks and their marks
  ihave #HIby := (records_inv (sched (F := F) m) K (yn c, 0)) $$ Hrec
  ihave #Hrby := (records_reached (sched (F := F) m) K (yn c, 0)) $$ Hrec
  iapply (Rounds.wp_signal 𝒱₀ ER (sched m) (c : Thread nD τ) none (dst := (yn c : Thread nD τ)) (κ := K (yn c, 0))
      (d := true) (by rw [duties_bar]; exact Finset.mem_univ _) ((amount_bar m (yn c) true).trans (by decide)) ()
      (OX c 0 + OY c 0) (owe_barY c)) $$ [HO HtBY HY]
  · isplitr; · iexact HIby
    isplitl [HO]; · iexact HO
    isplitl [HtBY]; · iexact HtBY
    isplitl [HY]
    · rw [payload_bar_true]; unfold barPayY; rw [yn_yn]
      isplitl [HY]
      · iapply (slots_y c fr) $$ HY
      · iapply (reached_yr m K c) $$ Hrec
    · iexact Hrby
  iintro HO
  -- the own planes are staged: keys into plane 0, values into plane 1
  iapply (wp_load 𝒱₀ (c : Thread nD τ) none Set.univ (m := (Memref.whole cc0_stg1_0 : Memref sig .tc .vmem S2x256x8x64 .f32)) (Finset.subset_univ _)) $$ Hk; iintro Hk
  rw [read_k]
  iapply (wp_load 𝒱₀ (c : Thread nD τ) none Set.univ (m := locM) (Finset.subset_univ _)) $$ Hloc; iintro Hloc
  iapply (wp_store 𝒱₀ (c : Thread nD τ) none Set.univ (m := locM) (r := Rect.unit (s := S2x512x512) ![0, 0, 0] S1x512x512.size inb_S2x512x512_S1x512x512_0_0_0) (Mk := Finset.univ) (Finset.subset_univ _)) $$ Hloc; iintro Hloc
  iapply (wp_load 𝒱₀ (c : Thread nD τ) none Set.univ (m := (Memref.whole cc0_stg2_0 : Memref sig .tc .vmem S2x256x8x64 .f32)) (Finset.subset_univ _)) $$ Hv; iintro Hv
  rw [read_v]
  iapply (wp_load 𝒱₀ (c : Thread nD τ) none Set.univ (m := locM) (Finset.subset_univ _)) $$ Hloc; iintro Hloc
  iapply (wp_store 𝒱₀ (c : Thread nD τ) none Set.univ (m := locM) (r := Rect.unit (s := S2x512x512) ![1, 0, 0] S1x512x512.size inb_S2x512x512_S1x512x512_1_0_0) (Mk := Finset.univ) (Finset.subset_univ _)) $$ Hloc; iintro Hloc
  ihave Hloc' := (Entails.of_eq (congrArg (fun f => (locPts (F := F) c f : sProp 𝕄)) (loc_stores m c fl))) $$ Hloc
  -- the wait for both neighbours: their landing chunks arrive with it
  ihave #HIb := (records_inv (sched (F := F) m) K (c, 0)) $$ Hrec
  iapply (Rounds.wp_wait_rest_token 𝒱₀ ER (sched m) (c : Thread nD τ) none (κ := K (c, 0))
      (wpE_semWait_eq 𝒱₀ (c : Thread nD τ) none Set.univ) (Set.mem_univ _) () (O := OX c 0 + OY c 0) (W := W) (R := 0) (m := 0) (T := ∅)
      (by rw [expect_bar]; decide)) $$ [HcB HO HaB]
  · isplitr; · iexact HIb
    isplitl [HcB]; · iexact HcB
    isplitl [HO]; · iexact HO
    isplitr; · iapply (mayWait_bar c 0 0); iexact Hlev
    iexact HaB
  iintro ⟨HO, HaB, -, Hpay⟩
  ihave Hp := (Entails.of_eq (rest_bar m c)) $$ Hpay
  unfold barPayX barPayY
  icases Hp with ⟨⟨HDX, #HrX⟩, ⟨HDY, #HrY⟩⟩
  ihave HDX' := (Entails.of_eq (bigSep_fin10 _)) $$ HDX
  icases HDX' with ⟨⟨%fx0, Hdx0⟩, ⟨%fx1, Hdx1⟩, ⟨%fx2, Hdx2⟩, ⟨%fx3, Hdx3⟩, ⟨%fx4, Hdx4⟩, ⟨%fx5, Hdx5⟩, ⟨%fx6, Hdx6⟩, ⟨%fx7, Hdx7⟩, ⟨%fx8, Hdx8⟩, ⟨%fx9, Hdx9⟩⟩
  ihave HDY' := (Entails.of_eq (bigSep_fin6 _)) $$ HDY
  icases HDY' with ⟨⟨%fy0, Hdy0⟩, ⟨%fy1, Hdy1⟩, ⟨%fy2, Hdy2⟩, ⟨%fy3, Hdy3⟩, ⟨%fy4, Hdy4⟩, ⟨%fy5, Hdy5⟩⟩
  -- the own planes: the left half share chunk by chunk for the copies, the right half whole for the loads
  ihave Hlo := (loc_open c (locC m c)) $$ Hloc'
  icases Hlo with ⟨HLs, HLrest, HLR⟩
  ihave HLs' := (Entails.of_eq (bigSep_fin10 _)) $$ HLs
  icases HLs' with ⟨Hls0, Hls1, Hls2, Hls3, Hls4, Hls5, Hls6, Hls7, Hls8, Hls9⟩
  -- the ten copies across the first axis
  iapply (wp_xsendR m K c _ (dev3_eq c) 0 fx0 _ (OX c 1 + OY c 0) (OX c 0 + OY c 0) (owe_X c 0)) $$ Hrec Hls0 Hdx0 HO Htxs0 Htxr0
  iintro ⟨Hcxs0, HO⟩
  iapply (wp_xsendR m K c _ (dev4_eq c) 1 fx1 _ (OX c 2 + OY c 0) (OX c 1 + OY c 0) (owe_X c 1)) $$ Hrec Hls1 Hdx1 HO Htxs1 Htxr1
  iintro ⟨Hcxs1, HO⟩
  iapply (wp_xsendR m K c _ (dev5_eq c) 2 fx2 _ (OX c 3 + OY c 0) (OX c 2 + OY c 0) (owe_X c 2)) $$ Hrec Hls2 Hdx2 HO Htxs2 Htxr2
  iintro ⟨Hcxs2, HO⟩
  iapply (wp_xsendR m K c _ (dev6_eq c) 3 fx3 _ (OX c 4 + OY c 0) (OX c 3 + OY c 0) (owe_X c 3)) $$ Hrec Hls3 Hdx3 HO Htxs3 Htxr3
  iintro ⟨Hcxs3, HO⟩
  iapply (wp_xsendR m K c _ (dev7_eq c) 4 fx4 _ (OX c 5 + OY c 0) (OX c 4 + OY c 0) (owe_X c 4)) $$ Hrec Hls4 Hdx4 HO Htxs4 Htxr4
  iintro ⟨Hcxs4, HO⟩
  iapply (wp_xsendR m K c _ (dev8_eq c) 5 fx5 _ (OX c 6 + OY c 0) (OX c 5 + OY c 0) (owe_X c 5)) $$ Hrec Hls5 Hdx5 HO Htxs5 Htxr5
  iintro ⟨Hcxs5, HO⟩
  iapply (wp_xsendR m K c _ (dev9_eq c) 6 fx6 _ (OX c 7 + OY c 0) (OX c 6 + OY c 0) (owe_X c 6)) $$ Hrec Hls6 Hdx6 HO Htxs6 Htxr6
  iintro ⟨Hcxs6, HO⟩
  iapply (wp_xsendR m K c _ (dev10_eq c) 7 fx7 _ (OX c 8 + OY c 0) (OX c 7 + OY c 0) (owe_X c 7)) $$ Hrec Hls7 Hdx7 HO Htxs7 Htxr7
  iintro ⟨Hcxs7, HO⟩
  iapply (wp_xsendR m K c _ (dev11_eq c) 8 fx8 _ (OX c 9 + OY c 0) (OX c 8 + OY c 0) (owe_X c 8)) $$ Hrec Hls8 Hdx8 HO Htxs8 Htxr8
  iintro ⟨Hcxs8, HO⟩
  iapply (wp_xsendR m K c _ (dev12_eq c) 9 fx9 _ (OX c 10 + OY c 0) (OX c 9 + OY c 0) (owe_X c 9)) $$ Hrec Hls9 Hdx9 HO Htxs9 Htxr9
  iintro ⟨Hcxs9, HO⟩
  ihave HO' := (Entails.of_eq (congrArg (fun O => (owes (c : Thread nD τ) O _ : sProp 𝕄)) (owe_X_done c))) $$ HO
  -- the queries, and the own planes through the right half share
  iapply (wp_load 𝒱₀ (c : Thread nD τ) none Set.univ (m := (Memref.whole cc0_stg0_0 : Memref sig .tc .vmem S2x256x8x64 .f32)) (Finset.subset_univ _)) $$ Hq; iintro Hq
  rw [read_q]
  iapply (wp_load 𝒱₀ (c : Thread nD τ) none Set.univ (m := locM) (Finset.subset_univ _)) $$ HLR; iintro HLR
  rw [loc_load_0 m c]
  iapply (wp_load 𝒱₀ (c : Thread nD τ) none Set.univ (m := locM) (Finset.subset_univ _)) $$ HLR; iintro HLR
  rw [loc_load_1 m c]
  -- each of the first six chunks, once landed, is forwarded across the second axis (its left half share travels)
  iapply (wp_dwaitR m K c (nXr 0) (dst := rchunk c 0) (rchunk_credit c 0 (dsem (nXr 0))) _ (OY c 0)) $$ Hrec Hcxr0 HO' [] Haxr0
  · iapply (mayWait_xr c 0 0); iexact Hlev
  iintro ⟨HO, Haxr0, Hpay⟩
  ihave Hr0 := (Entails.of_eq ((payload_xr m c 0 false).trans (xrPay_eq m c 0))) $$ Hpay
  ihave Hh := (pts_halve c (rchunk c 0) (remC m c)).1 $$ Hr0
  icases Hh with ⟨Hrl0, Hrr0⟩
  ihave Hrj0 := (Entails.of_eq (rc_j10 c 0 0 rfl fullShare.left (remC m c))) $$ Hrl0
  iapply (wp_ysendR m K c _ (dev13_eq c) 0 fy0 _ (OY c 1) (OY c 0) (owe_Y c 0)) $$ Hrec Hrj0 Hdy0 HO Htys0 Htyr0
  iintro ⟨Hcys0, HO⟩
  iapply (wp_dwaitR m K c (nXr 1) (dst := rchunk c 1) (rchunk_credit c 1 (dsem (nXr 1))) _ (OY c 1)) $$ Hrec Hcxr1 HO [] Haxr1
  · iapply (mayWait_xr c 1 1); iexact Hlev
  iintro ⟨HO, Haxr1, Hpay⟩
  ihave Hr1 := (Entails.of_eq ((payload_xr m c 1 false).trans (xrPay_eq m c 1))) $$ Hpay
  ihave Hh := (pts_halve c (rchunk c 1) (remC m c)).1 $$ Hr1
  icases Hh with ⟨Hrl1, Hrr1⟩
  ihave Hrj1 := (Entails.of_eq (rc_j10 c 1 1 rfl fullShare.left (remC m c))) $$ Hrl1
  iapply (wp_ysendR m K c _ (dev14_eq c) 1 fy1 _ (OY c 2) (OY c 1) (owe_Y c 1)) $$ Hrec Hrj1 Hdy1 HO Htys1 Htyr1
  iintro ⟨Hcys1, HO⟩
  iapply (wp_dwaitR m K c (nXr 2) (dst := rchunk c 2) (rchunk_credit c 2 (dsem (nXr 2))) _ (OY c 2)) $$ Hrec Hcxr2 HO [] Haxr2
  · iapply (mayWait_xr c 2 2); iexact Hlev
  iintro ⟨HO, Haxr2, Hpay⟩
  ihave Hr2 := (Entails.of_eq ((payload_xr m c 2 false).trans (xrPay_eq m c 2))) $$ Hpay
  ihave Hh := (pts_halve c (rchunk c 2) (remC m c)).1 $$ Hr2
  icases Hh with ⟨Hrl2, Hrr2⟩
  ihave Hrj2 := (Entails.of_eq (rc_j10 c 2 2 rfl fullShare.left (remC m c))) $$ Hrl2
  iapply (wp_ysendR m K c _ (dev15_eq c) 2 fy2 _ (OY c 3) (OY c 2) (owe_Y c 2)) $$ Hrec Hrj2 Hdy2 HO Htys2 Htyr2
  iintro ⟨Hcys2, HO⟩
  iapply (wp_dwaitR m K c (nXr 3) (dst := rchunk c 3) (rchunk_credit c 3 (dsem (nXr 3))) _ (OY c 3)) $$ Hrec Hcxr3 HO [] Haxr3
  · iapply (mayWait_xr c 3 3); iexact Hlev
  iintro ⟨HO, Haxr3, Hpay⟩
  ihave Hr3 := (Entails.of_eq ((payload_xr m c 3 false).trans (xrPay_eq m c 3))) $$ Hpay
  ihave Hh := (pts_halve c (rchunk c 3) (remC m c)).1 $$ Hr3
  icases Hh with ⟨Hrl3, Hrr3⟩
  ihave Hrj3 := (Entails.of_eq (rc_j10 c 3 3 rfl fullShare.left (remC m c))) $$ Hrl3
  iapply (wp_ysendR m K c _ (dev16_eq c) 3 fy3 _ (OY c 4) (OY c 3) (owe_Y c 3)) $$ Hrec Hrj3 Hdy3 HO Htys3 Htyr3
  iintro ⟨Hcys3, HO⟩
  iapply (wp_dwaitR m K c (nXr 4) (dst := rchunk c 4) (rchunk_credit c 4 (dsem (nXr 4))) _ (OY c 4)) $$ Hrec Hcxr4 HO [] Haxr4
  · iapply (mayWait_xr c 4 4); iexact Hlev
  iintro ⟨HO, Haxr4, Hpay⟩
  ihave Hr4 := (Entails.of_eq ((payload_xr m c 4 false).trans (xrPay_eq m c 4))) $$ Hpay
  ihave Hh := (pts_halve c (rchunk c 4) (remC m c)).1 $$ Hr4
  icases Hh with ⟨Hrl4, Hrr4⟩
  ihave Hrj4 := (Entails.of_eq (rc_j10 c 4 4 rfl fullShare.left (remC m c))) $$ Hrl4
  iapply (wp_ysendR m K c _ (dev17_eq c) 4 fy4 _ (OY c 5) (OY c 4) (owe_Y c 4)) $$ Hrec Hrj4 Hdy4 HO Htys4 Htyr4
  iintro ⟨Hcys4, HO⟩
  iapply (wp_dwaitR m K c (nXr 5) (dst := rchunk c 5) (rchunk_credit c 5 (dsem (nXr 5))) _ (OY c 5)) $$ Hrec Hcxr5 HO [] Haxr5
  · iapply (mayWait_xr c 5 5); iexact Hlev
  iintro ⟨HO, Haxr5, Hpay⟩
  ihave Hr5 := (Entails.of_eq ((payload_xr m c 5 false).trans (xrPay_eq m c 5))) $$ Hpay
  ihave Hh := (pts_halve c (rchunk c 5) (remC m c)).1 $$ Hr5
  icases Hh with ⟨Hrl5, Hrr5⟩
  ihave Hrj5 := (Entails.of_eq (rc_j10 c 5 5 rfl fullShare.left (remC m c))) $$ Hrl5
  iapply (wp_ysendR m K c _ (dev18_eq c) 5 fy5 _ (OY c 6) (OY c 5) (owe_Y c 5)) $$ Hrec Hrj5 Hdy5 HO Htys5 Htyr5
  iintro ⟨Hcys5, HO⟩
  ihave HOz := (Entails.of_eq (congrArg (fun O => (owes (c : Thread nD τ) O _ : sProp 𝕄)) (OY_end c))) $$ HO
  -- batch 0: the four forwarded chunks of the other plane, then rows [0, 256) of both received planes
  iapply (wp_dwaitR m K c (nYr 0) (dst := rchunk c (j10 0)) (rchunk_credit c (j10 0) (dsem (nYr 0))) _ 0) $$ Hrec Hcyr0 HOz [] Hayr0
  · rw [MayWait_zero]; iempintro
  iintro ⟨HO, Hayr0, Hpay⟩
  ihave Hy0 := (Entails.of_eq ((payload_yr m c 0 false).trans (by unfold yrPay; rfl))) $$ Hpay
  ihave Hh := (pts_halve c (rchunk (yn c) (j10 0)) (remC m c)).1 $$ Hy0
  icases Hh with ⟨Hyp0, Hyq0⟩
  iapply (wp_dwaitR m K c (nYr 1) (dst := rchunk c (j10 1)) (rchunk_credit c (j10 1) (dsem (nYr 1))) _ 0) $$ Hrec Hcyr1 HO [] Hayr1
  · rw [MayWait_zero]; iempintro
  iintro ⟨HO, Hayr1, Hpay⟩
  ihave Hy1 := (Entails.of_eq ((payload_yr m c 1 false).trans (by unfold yrPay; rfl))) $$ Hpay
  ihave Hh := (pts_halve c (rchunk (yn c) (j10 1)) (remC m c)).1 $$ Hy1
  icases Hh with ⟨Hyp1, Hyq1⟩
  iapply (wp_dwaitR m K c (nYr 2) (dst := rchunk c (j10 2)) (rchunk_credit c (j10 2) (dsem (nYr 2))) _ 0) $$ Hrec Hcyr2 HO [] Hayr2
  · rw [MayWait_zero]; iempintro
  iintro ⟨HO, Hayr2, Hpay⟩
  ihave Hy2 := (Entails.of_eq ((payload_yr m c 2 false).trans (by unfold yrPay; rfl))) $$ Hpay
  ihave Hh := (pts_halve c (rchunk (yn c) (j10 2)) (remC m c)).1 $$ Hy2
  icases Hh with ⟨Hyp2, Hyq2⟩
  iapply (wp_dwaitR m K c (nYr 3) (dst := rchunk c (j10 3)) (rchunk_credit c (j10 3) (dsem (nYr 3))) _ 0) $$ Hrec Hcyr3 HO [] Hayr3
  · rw [MayWait_zero]; iempintro
  iintro ⟨HO, Hayr3, Hpay⟩
  ihave Hy3 := (Entails.of_eq ((payload_yr m c 3 false).trans (by unfold yrPay; rfl))) $$ Hpay
  ihave Hh := (pts_halve c (rchunk (yn c) (j10 3)) (remC m c)).1 $$ Hy3
  icases Hh with ⟨Hyp3, Hyq3⟩
  ihave HR0 := (rows_join0 c fullShare.right (remC m c)).1 $$ [Hrr0 Hrr1 Hrr2 Hrr3 Hyq0 Hyq1 Hyq2 Hyq3]
  ·
    isplitl [Hrr0]; · iexact Hrr0
    isplitl [Hrr1]; · iexact Hrr1
    isplitl [Hrr2]; · iexact Hrr2
    isplitl [Hrr3]; · iexact Hrr3
    isplitl [Hyq0]; · iexact Hyq0
    isplitl [Hyq1]; · iexact Hyq1
    isplitl [Hyq2]; · iexact Hyq2
    iexact Hyq3
  iapply (wp_load 𝒱₀ (c : Thread nD τ) none Set.univ (m := remM) (rem_load_rows_0_0 c)) $$ HR0; iintro HR0
  rw [rem_load_0_0 m c]
  iapply (wp_load 𝒱₀ (c : Thread nD τ) none Set.univ (m := remM) (rem_load_rows_1_0 c)) $$ HR0; iintro HR0
  rw [rem_load_1_0 m c]
  rw [← out0_def]
  iapply (wp_load 𝒱₀ (c : Thread nD τ) none Set.univ (m := outM) (Finset.subset_univ _)) $$ Hout; iintro Hout
  iapply (wp_store 𝒱₀ (c : Thread nD τ) none Set.univ (m := outM) (r := Rect.unit (s := S2x256x8x64) ![0, 0, 0, 0] S1x256x8x64.size inb_S2x256x8x64_S1x256x8x64_0_0_0_0) (Mk := Finset.univ) (Finset.subset_univ _)) $$ Hout; iintro Hout
  ihave Hb0 := (rows_join0 c fullShare.right (remC m c)).2 $$ HR0
  icases Hb0 with ⟨Hrr0, Hrr1, Hrr2, Hrr3, Hyq0, Hyq1, Hyq2, Hyq3⟩
  -- batch 1: the last two forwards, the other plane's last two chunks, this plane's last two; rows [256, 512)
  iapply (wp_dwaitR m K c (nYr 4) (dst := rchunk c (j10 4)) (rchunk_credit c (j10 4) (dsem (nYr 4))) _ 0) $$ Hrec Hcyr4 HO [] Hayr4
  · rw [MayWait_zero]; iempintro
  iintro ⟨HO, Hayr4, Hpay⟩
  ihave Hy4 := (Entails.of_eq ((payload_yr m c 4 false).trans (by unfold yrPay; rfl))) $$ Hpay
  ihave Hh := (pts_halve c (rchunk (yn c) (j10 4)) (remC m c)).1 $$ Hy4
  icases Hh with ⟨Hyp4, Hyq4⟩
  iapply (wp_dwaitR m K c (nYr 5) (dst := rchunk c (j10 5)) (rchunk_credit c (j10 5) (dsem (nYr 5))) _ 0) $$ Hrec Hcyr5 HO [] Hayr5
  · rw [MayWait_zero]; iempintro
  iintro ⟨HO, Hayr5, Hpay⟩
  ihave Hy5 := (Entails.of_eq ((payload_yr m c 5 false).trans (by unfold yrPay; rfl))) $$ Hpay
  ihave Hh := (pts_halve c (rchunk (yn c) (j10 5)) (remC m c)).1 $$ Hy5
  icases Hh with ⟨Hyp5, Hyq5⟩
  iapply (wp_dwaitR m K c (nXr 8) (dst := rchunk c 8) (rchunk_credit c 8 (dsem (nXr 8))) _ 0) $$ Hrec Hcxr8 HO [] Haxr8
  · rw [MayWait_zero]; iempintro
  iintro ⟨HO, Haxr8, Hpay⟩
  ihave Hr8 := (Entails.of_eq ((payload_xr m c 8 false).trans (xrPay_eq m c 8))) $$ Hpay
  ihave Hh := (pts_halve c (rchunk c 8) (remC m c)).1 $$ Hr8
  icases Hh with ⟨Hrl8, Hrr8⟩
  iapply (wp_dwaitR m K c (nXr 9) (dst := rchunk c 9) (rchunk_credit c 9 (dsem (nXr 9))) _ 0) $$ Hrec Hcxr9 HO [] Haxr9
  · rw [MayWait_zero]; iempintro
  iintro ⟨HO, Haxr9, Hpay⟩
  ihave Hr9 := (Entails.of_eq ((payload_xr m c 9 false).trans (xrPay_eq m c 9))) $$ Hpay
  ihave Hh := (pts_halve c (rchunk c 9) (remC m c)).1 $$ Hr9
  icases Hh with ⟨Hrl9, Hrr9⟩
  iapply (wp_dwaitR m K c (nXr 6) (dst := rchunk c 6) (rchunk_credit c 6 (dsem (nXr 6))) _ 0) $$ Hrec Hcxr6 HO [] Haxr6
  · rw [MayWait_zero]; iempintro
  iintro ⟨HO, Haxr6, Hpay⟩
  ihave Hr6 := (Entails.of_eq ((payload_xr m c 6 false).trans (xrPay_eq m c 6))) $$ Hpay
  ihave Hh := (pts_halve c (rchunk c 6) (remC m c)).1 $$ Hr6
  icases Hh with ⟨Hrl6, Hrr6⟩
  iapply (wp_dwaitR m K c (nXr 7) (dst := rchunk c 7) (rchunk_credit c 7 (dsem (nXr 7))) _ 0) $$ Hrec Hcxr7 HO [] Haxr7
  · rw [MayWait_zero]; iempintro
  iintro ⟨HO, Haxr7, Hpay⟩
  ihave Hr7 := (Entails.of_eq ((payload_xr m c 7 false).trans (xrPay_eq m c 7))) $$ Hpay
  ihave Hh := (pts_halve c (rchunk c 7) (remC m c)).1 $$ Hr7
  icases Hh with ⟨Hrl7, Hrr7⟩
  ihave HR1 := (rows_join1 c fullShare.right (remC m c)).1 $$ [Hrr4 Hrr5 Hrr6 Hrr7 Hrr8 Hrr9 Hyq4 Hyq5]
  ·
    isplitl [Hrr4]; · iexact Hrr4
    isplitl [Hrr5]; · iexact Hrr5
    isplitl [Hrr6]; · iexact Hrr6
    isplitl [Hrr7]; · iexact Hrr7
    isplitl [Hrr8]; · iexact Hrr8
    isplitl [Hrr9]; · iexact Hrr9
    isplitl [Hyq4]; · iexact Hyq4
    iexact Hyq5
  iapply (wp_load 𝒱₀ (c : Thread nD τ) none Set.univ (m := remM) (rem_load_rows_0_256 c)) $$ HR1; iintro HR1
  rw [rem_load_0_256 m c]
  iapply (wp_load 𝒱₀ (c : Thread nD τ) none Set.univ (m := remM) (rem_load_rows_1_256 c)) $$ HR1; iintro HR1
  rw [rem_load_1_256 m c]
  rw [← out1_def]
  iapply (wp_load 𝒱₀ (c : Thread nD τ) none Set.univ (m := outM) (Finset.subset_univ _)) $$ Hout; iintro Hout
  iapply (wp_store 𝒱₀ (c : Thread nD τ) none Set.univ (m := outM) (r := Rect.unit (s := S2x256x8x64) ![1, 0, 0, 0] S1x256x8x64.size inb_S2x256x8x64_S1x256x8x64_1_0_0_0) (Mk := Finset.univ) (Finset.subset_univ _)) $$ Hout; iintro Hout
  ihave Hb1 := (rows_join1 c fullShare.right (remC m c)).2 $$ HR1
  icases Hb1 with ⟨Hrr4, Hrr5, Hrr6, Hrr7, Hrr8, Hrr9, Hyq4, Hyq5⟩
  -- every copy has left: the lent half shares come back
  iapply (wp_dwaitR m K c (nXs 0) (dst := lchunk c 0) (lchunk_credit c 0 (dsem (nXs 0))) _ 0) $$ Hrec Hcxs0 HO [] Haxs0
  · rw [MayWait_zero]; iempintro
  iintro ⟨HO, Haxs0, Hpay⟩
  ihave Hls0 := (Entails.of_eq ((payload_xs m c 0 false).trans (by unfold xsPay; rfl))) $$ Hpay
  iapply (wp_dwaitR m K c (nXs 1) (dst := lchunk c 1) (lchunk_credit c 1 (dsem (nXs 1))) _ 0) $$ Hrec Hcxs1 HO [] Haxs1
  · rw [MayWait_zero]; iempintro
  iintro ⟨HO, Haxs1, Hpay⟩
  ihave Hls1 := (Entails.of_eq ((payload_xs m c 1 false).trans (by unfold xsPay; rfl))) $$ Hpay
  iapply (wp_dwaitR m K c (nXs 2) (dst := lchunk c 2) (lchunk_credit c 2 (dsem (nXs 2))) _ 0) $$ Hrec Hcxs2 HO [] Haxs2
  · rw [MayWait_zero]; iempintro
  iintro ⟨HO, Haxs2, Hpay⟩
  ihave Hls2 := (Entails.of_eq ((payload_xs m c 2 false).trans (by unfold xsPay; rfl))) $$ Hpay
  iapply (wp_dwaitR m K c (nXs 3) (dst := lchunk c 3) (lchunk_credit c 3 (dsem (nXs 3))) _ 0) $$ Hrec Hcxs3 HO [] Haxs3
  · rw [MayWait_zero]; iempintro
  iintro ⟨HO, Haxs3, Hpay⟩
  ihave Hls3 := (Entails.of_eq ((payload_xs m c 3 false).trans (by unfold xsPay; rfl))) $$ Hpay
  iapply (wp_dwaitR m K c (nXs 4) (dst := lchunk c 4) (lchunk_credit c 4 (dsem (nXs 4))) _ 0) $$ Hrec Hcxs4 HO [] Haxs4
  · rw [MayWait_zero]; iempintro
  iintro ⟨HO, Haxs4, Hpay⟩
  ihave Hls4 := (Entails.of_eq ((payload_xs m c 4 false).trans (by unfold xsPay; rfl))) $$ Hpay
  iapply (wp_dwaitR m K c (nXs 5) (dst := lchunk c 5) (lchunk_credit c 5 (dsem (nXs 5))) _ 0) $$ Hrec Hcxs5 HO [] Haxs5
  · rw [MayWait_zero]; iempintro
  iintro ⟨HO, Haxs5, Hpay⟩
  ihave Hls5 := (Entails.of_eq ((payload_xs m c 5 false).trans (by unfold xsPay; rfl))) $$ Hpay
  iapply (wp_dwaitR m K c (nXs 6) (dst := lchunk c 6) (lchunk_credit c 6 (dsem (nXs 6))) _ 0) $$ Hrec Hcxs6 HO [] Haxs6
  · rw [MayWait_zero]; iempintro
  iintro ⟨HO, Haxs6, Hpay⟩
  ihave Hls6 := (Entails.of_eq ((payload_xs m c 6 false).trans (by unfold xsPay; rfl))) $$ Hpay
  iapply (wp_dwaitR m K c (nXs 7) (dst := lchunk c 7) (lchunk_credit c 7 (dsem (nXs 7))) _ 0) $$ Hrec Hcxs7 HO [] Haxs7
  · rw [MayWait_zero]; iempintro
  iintro ⟨HO, Haxs7, Hpay⟩
  ihave Hls7 := (Entails.of_eq ((payload_xs m c 7 false).trans (by unfold xsPay; rfl))) $$ Hpay
  iapply (wp_dwaitR m K c (nXs 8) (dst := lchunk c 8) (lchunk_credit c 8 (dsem (nXs 8))) _ 0) $$ Hrec Hcxs8 HO [] Haxs8
  · rw [MayWait_zero]; iempintro
  iintro ⟨HO, Haxs8, Hpay⟩
  ihave Hls8 := (Entails.of_eq ((payload_xs m c 8 false).trans (by unfold xsPay; rfl))) $$ Hpay
  iapply (wp_dwaitR m K c (nXs 9) (dst := lchunk c 9) (lchunk_credit c 9 (dsem (nXs 9))) _ 0) $$ Hrec Hcxs9 HO [] Haxs9
  · rw [MayWait_zero]; iempintro
  iintro ⟨HO, Haxs9, Hpay⟩
  ihave Hls9 := (Entails.of_eq ((payload_xs m c 9 false).trans (by unfold xsPay; rfl))) $$ Hpay
  iapply (wp_dwaitR m K c (nYs 0) (dst := rchunk c (j10 0)) (rchunk_credit c (j10 0) (dsem (nYs 0))) _ 0) $$ Hrec Hcys0 HO [] Hays0
  · rw [MayWait_zero]; iempintro
  iintro ⟨HO, Hays0, Hpay⟩
  ihave Hrk0 := (Entails.of_eq ((payload_ys m c 0 false).trans (by unfold ysPay; rfl))) $$ Hpay
  ihave Hrl0 := (Entails.of_eq (rc_j10 c 0 0 rfl fullShare.left (remC m c)).symm) $$ Hrk0
  iapply (wp_dwaitR m K c (nYs 1) (dst := rchunk c (j10 1)) (rchunk_credit c (j10 1) (dsem (nYs 1))) _ 0) $$ Hrec Hcys1 HO [] Hays1
  · rw [MayWait_zero]; iempintro
  iintro ⟨HO, Hays1, Hpay⟩
  ihave Hrk1 := (Entails.of_eq ((payload_ys m c 1 false).trans (by unfold ysPay; rfl))) $$ Hpay
  ihave Hrl1 := (Entails.of_eq (rc_j10 c 1 1 rfl fullShare.left (remC m c)).symm) $$ Hrk1
  iapply (wp_dwaitR m K c (nYs 2) (dst := rchunk c (j10 2)) (rchunk_credit c (j10 2) (dsem (nYs 2))) _ 0) $$ Hrec Hcys2 HO [] Hays2
  · rw [MayWait_zero]; iempintro
  iintro ⟨HO, Hays2, Hpay⟩
  ihave Hrk2 := (Entails.of_eq ((payload_ys m c 2 false).trans (by unfold ysPay; rfl))) $$ Hpay
  ihave Hrl2 := (Entails.of_eq (rc_j10 c 2 2 rfl fullShare.left (remC m c)).symm) $$ Hrk2
  iapply (wp_dwaitR m K c (nYs 3) (dst := rchunk c (j10 3)) (rchunk_credit c (j10 3) (dsem (nYs 3))) _ 0) $$ Hrec Hcys3 HO [] Hays3
  · rw [MayWait_zero]; iempintro
  iintro ⟨HO, Hays3, Hpay⟩
  ihave Hrk3 := (Entails.of_eq ((payload_ys m c 3 false).trans (by unfold ysPay; rfl))) $$ Hpay
  ihave Hrl3 := (Entails.of_eq (rc_j10 c 3 3 rfl fullShare.left (remC m c)).symm) $$ Hrk3
  iapply (wp_dwaitR m K c (nYs 4) (dst := rchunk c (j10 4)) (rchunk_credit c (j10 4) (dsem (nYs 4))) _ 0) $$ Hrec Hcys4 HO [] Hays4
  · rw [MayWait_zero]; iempintro
  iintro ⟨HO, Hays4, Hpay⟩
  ihave Hrk4 := (Entails.of_eq ((payload_ys m c 4 false).trans (by unfold ysPay; rfl))) $$ Hpay
  ihave Hrl4 := (Entails.of_eq (rc_j10 c 4 4 rfl fullShare.left (remC m c)).symm) $$ Hrk4
  iapply (wp_dwaitR m K c (nYs 5) (dst := rchunk c (j10 5)) (rchunk_credit c (j10 5) (dsem (nYs 5))) _ 0) $$ Hrec Hcys5 HO [] Hays5
  · rw [MayWait_zero]; iempintro
  iintro ⟨HO, Hays5, Hpay⟩
  ihave Hrk5 := (Entails.of_eq ((payload_ys m c 5 false).trans (by unfold ysPay; rfl))) $$ Hpay
  ihave Hrl5 := (Entails.of_eq (rc_j10 c 5 5 rfl fullShare.left (remC m c)).symm) $$ Hrk5
  -- the 32 copy cells have no round left: their counters, at zero, are the device's again
  imod (close_all m K c) $$ Hrec [Haxs0 Haxs1 Haxs2 Haxs3 Haxs4 Haxs5 Haxs6 Haxs7 Haxs8 Haxs9] [Haxr0 Haxr1 Haxr2 Haxr3 Haxr4 Haxr5 Haxr6 Haxr7 Haxr8 Haxr9] [Hays0 Hays1 Hays2 Hays3 Hays4 Hays5] [Hayr0 Hayr1 Hayr2 Hayr3 Hayr4 Hayr5] with Hz
  · iapply (Entails.of_eq (bigSep_fin10 _).symm)
    isplitl [Haxs0]; · iexact Haxs0
    isplitl [Haxs1]; · iexact Haxs1
    isplitl [Haxs2]; · iexact Haxs2
    isplitl [Haxs3]; · iexact Haxs3
    isplitl [Haxs4]; · iexact Haxs4
    isplitl [Haxs5]; · iexact Haxs5
    isplitl [Haxs6]; · iexact Haxs6
    isplitl [Haxs7]; · iexact Haxs7
    isplitl [Haxs8]; · iexact Haxs8
    iexact Haxs9
  · iapply (Entails.of_eq (bigSep_fin10 _).symm)
    isplitl [Haxr0]; · iexact Haxr0
    isplitl [Haxr1]; · iexact Haxr1
    isplitl [Haxr2]; · iexact Haxr2
    isplitl [Haxr3]; · iexact Haxr3
    isplitl [Haxr4]; · iexact Haxr4
    isplitl [Haxr5]; · iexact Haxr5
    isplitl [Haxr6]; · iexact Haxr6
    isplitl [Haxr7]; · iexact Haxr7
    isplitl [Haxr8]; · iexact Haxr8
    iexact Haxr9
  · iapply (Entails.of_eq (bigSep_fin6 _).symm)
    isplitl [Hays0]; · iexact Hays0
    isplitl [Hays1]; · iexact Hays1
    isplitl [Hays2]; · iexact Hays2
    isplitl [Hays3]; · iexact Hays3
    isplitl [Hays4]; · iexact Hays4
    iexact Hays5
  · iapply (Entails.of_eq (bigSep_fin6 _).symm)
    isplitl [Hayr0]; · iexact Hayr0
    isplitl [Hayr1]; · iexact Hayr1
    isplitl [Hayr2]; · iexact Hayr2
    isplitl [Hayr3]; · iexact Hayr3
    isplitl [Hayr4]; · iexact Hayr4
    iexact Hayr5
  rw [out_stores m c go, wp_ret]; imodintro
  iapply Hk'
  iapply (post_intro m c _)
  isplitl [Hls0 Hls1 Hls2 Hls3 Hls4 Hls5 Hls6 Hls7 Hls8 Hls9 HLrest HLR]
  · iexists (locC m c)
    iapply (loc_rejoin c (locC m c))
    isplitl [Hls0 Hls1 Hls2 Hls3 Hls4 Hls5 Hls6 Hls7 Hls8 Hls9]
    · iapply (Entails.of_eq (bigSep_fin10 _).symm)
      isplitl [Hls0]; · iexact Hls0
      isplitl [Hls1]; · iexact Hls1
      isplitl [Hls2]; · iexact Hls2
      isplitl [Hls3]; · iexact Hls3
      isplitl [Hls4]; · iexact Hls4
      isplitl [Hls5]; · iexact Hls5
      isplitl [Hls6]; · iexact Hls6
      isplitl [Hls7]; · iexact Hls7
      isplitl [Hls8]; · iexact Hls8
      iexact Hls9
    isplitl [HLrest]; · iexact HLrest
    iexact HLR
  isplitl [Hrl0 Hrl1 Hrl2 Hrl3 Hrl4 Hrl5 Hrl6 Hrl7 Hrl8 Hrl9 Hyp0 Hyp1 Hyp2 Hyp3 Hyp4 Hyp5 Hrr0 Hrr1 Hrr2 Hrr3 Hrr4 Hrr5 Hrr6 Hrr7 Hrr8 Hrr9 Hyq0 Hyq1 Hyq2 Hyq3 Hyq4 Hyq5]
  · iexists (remC m c)
    iapply (rem_rejoin c (remC m c))
    isplitl [Hrl0 Hrl1 Hrl2 Hrl3 Hrl4 Hrl5 Hrl6 Hrl7 Hrl8 Hrl9]
    · iapply (Entails.of_eq (bigSep_fin10 _).symm)
      isplitl [Hrl0]; · iexact Hrl0
      isplitl [Hrl1]; · iexact Hrl1
      isplitl [Hrl2]; · iexact Hrl2
      isplitl [Hrl3]; · iexact Hrl3
      isplitl [Hrl4]; · iexact Hrl4
      isplitl [Hrl5]; · iexact Hrl5
      isplitl [Hrl6]; · iexact Hrl6
      isplitl [Hrl7]; · iexact Hrl7
      isplitl [Hrl8]; · iexact Hrl8
      iexact Hrl9
    isplitl [Hyp0 Hyp1 Hyp2 Hyp3 Hyp4 Hyp5]
    · iapply (Entails.of_eq (bigSep_fin6 _).symm)
      isplitl [Hyp0]; · iexact Hyp0
      isplitl [Hyp1]; · iexact Hyp1
      isplitl [Hyp2]; · iexact Hyp2
      isplitl [Hyp3]; · iexact Hyp3
      isplitl [Hyp4]; · iexact Hyp4
      iexact Hyp5
    isplitl [Hrr0 Hrr1 Hrr2 Hrr3 Hrr4 Hrr5 Hrr6 Hrr7 Hrr8 Hrr9]
    · iapply (Entails.of_eq (bigSep_fin10 _).symm)
      isplitl [Hrr0]; · iexact Hrr0
      isplitl [Hrr1]; · iexact Hrr1
      isplitl [Hrr2]; · iexact Hrr2
      isplitl [Hrr3]; · iexact Hrr3
      isplitl [Hrr4]; · iexact Hrr4
      isplitl [Hrr5]; · iexact Hrr5
      isplitl [Hrr6]; · iexact Hrr6
      isplitl [Hrr7]; · iexact Hrr7
      isplitl [Hrr8]; · iexact Hrr8
      iexact Hrr9
    iapply (Entails.of_eq (bigSep_fin6 _).symm)
    isplitl [Hyq0]; · iexact Hyq0
    isplitl [Hyq1]; · iexact Hyq1
    isplitl [Hyq2]; · iexact Hyq2
    isplitl [Hyq3]; · iexact Hyq3
    isplitl [Hyq4]; · iexact Hyq4
    iexact Hyq5
  isplitl [Hz]; · iexact Hz
  isplitl [HO]; · iexact HO
  isplitl [Hq]; · iexact Hq
  isplitl [Hk]; · iexact Hk
  isplitl [Hv]; · iexact Hv
  iexact Hout

/-- The library's body obligation on every device. -/
theorem body_obligation (c : Dev nD) : BodyObligation (dats (F := F) m 0 c) (defs₀ (F := F)) 𝒱₀ () Set.univ :=
  body_obligation_of m (sound_body m) c

end Cert.KernelIdeal.Mesh
end
-- ==== Proof.WRegions.lean ====
/-
  The 64-row chunks of the two scratch planes as sets of entries, and what a copy of a chunk leaves.

  A chunk is the unit-stride rectangle of one plane, 64 rows and all 512 columns at an offset; through the
  squeeze that drops the plane axis its entries are the same, so membership is three inequalities. The own planes
  and the received planes have one shape, so a chunk at one offset names the same entries in both, and a copy of it
  from one buffer into the other leaves, at each entry of the chunk, the source buffer's value at that entry.
-/
import proofs.«900411_g7700000000000412_dist_agattn_v7x_xy2x2_x_b2_s256_h8_d64_bf16_1_alg».proof.Proof.WMesh
import proofs.«900411_g7700000000000412_dist_agattn_v7x_xy2x2_x_b2_s256_h8_d64_bf16_1_alg».proof.Proof.WSched

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## Chunks as sets -/

section Sets
omit [FloatOps F]

theorem chunk_set_loc (off : Fin 3 → Nat) (h : ∀ a, off a + S1x64x512.size a ≤ S2x512x512.size a) :
    (chunk locM off h).view.set = (Rect.unit (s := S2x512x512) off S1x64x512.size h).set := by
  show (((View.whole cc0_scratch0 : View sig .tc _ _ _).slice (Rect.unit (s := S2x512x512) off S1x64x512.size h)).reshape S64x512 _).set = _
  rw [View.set_reshape, View.set_slice_whole]

theorem chunk_set_rem (off : Fin 3 → Nat) (h : ∀ a, off a + S1x64x512.size a ≤ S2x512x512.size a) :
    (chunk remM off h).view.set = (Rect.unit (s := S2x512x512) off S1x64x512.size h).set := by
  show (((View.whole cc0_scratch1 : View sig .tc _ _ _).slice (Rect.unit (s := S2x512x512) off S1x64x512.size h)).reshape S64x512 _).set = _
  rw [View.set_reshape, View.set_slice_whole]

/-- An entry is in a chunk of the own planes exactly when each coordinate is within the chunk's extent from its offset. -/
theorem mem_chunk_loc (off : Fin 3 → Nat) (h : ∀ a, off a + S1x64x512.size a ≤ S2x512x512.size a) (idx : S2x512x512.Idx) :
    idx ∈ (chunk locM off h).view.set ↔ ∀ a, off a ≤ (idx a).val ∧ (idx a).val < off a + S1x64x512.size a := by
  rw [chunk_set_loc]; exact Rect.mem_set_unit

/-- The same in the received planes. -/
theorem mem_chunk_rem (off : Fin 3 → Nat) (h : ∀ a, off a + S1x64x512.size a ≤ S2x512x512.size a) (idx : S2x512x512.Idx) :
    idx ∈ (chunk remM off h).view.set ↔ ∀ a, off a ≤ (idx a).val ∧ (idx a).val < off a + S1x64x512.size a := by
  rw [chunk_set_rem]; exact Rect.mem_set_unit

/-- A chunk of either buffer lives in that buffer, on whatever device. -/
theorem chunk_loc_loc (c : Dev nD) (off : Fin 3 → Nat) (h : ∀ a, off a + S1x64x512.size a ≤ S2x512x512.size a) :
    (chunk locM off h).view.loc (c : Thread nD τ) = (c : Thread nD τ).loc cc0_scratch0 := rfl
theorem chunk_loc_rem (c : Dev nD) (off : Fin 3 → Nat) (h : ∀ a, off a + S1x64x512.size a ≤ S2x512x512.size a) :
    (chunk remM off h).view.loc (c : Thread nD τ) = (c : Thread nD τ).loc cc0_scratch1 := rfl

/-- A chunk at one offset is the same set of entries in both buffers. -/
theorem chunk_set_loc_eq_rem (off : Fin 3 → Nat) (h : ∀ a, off a + S1x64x512.size a ≤ S2x512x512.size a) :
    ((chunk locM off h).view.set : Finset S2x512x512.Idx) = (chunk remM off h).view.set :=
  (chunk_set_loc off h).trans (chunk_set_rem off h).symm

theorem lchunk_set_eq_rchunk_set (c : Dev nD) (i : Fin 10) :
    ((lchunk c i).view.set : Finset S2x512x512.Idx) = (rchunk c i).view.set := chunk_set_loc_eq_rem _ _

theorem xplane_of_lt (c : Dev nD) {i : Fin 10} (h : i.val < 8) : xplane c i = yc c := if_pos h
theorem xplane_of_ge (c : Dev nD) {i : Fin 10} (h : 8 ≤ i.val) : xplane c i = 1 - yc c := if_neg (by omega)
theorem xchunk_of_lt {i : Fin 10} (h : i.val < 8) : xchunk i = i.val := if_pos h
theorem xchunk_of_ge {i : Fin 10} (h : 8 ≤ i.val) : xchunk i = i.val - 2 := if_neg (by omega)

/-- Chunk `i` of device `c`'s first-axis plan: its plane, and its 64 rows. -/
theorem mem_rchunk (c : Dev nD) (i : Fin 10) (idx : S2x512x512.Idx) :
    idx ∈ (rchunk c i).view.set ↔
      (idx 0).val = xplane c i ∧ 64 * xchunk i ≤ (idx 1).val ∧ (idx 1).val < 64 * xchunk i + 64 := by
  rw [mem_chunk_rem, xoff_eq]
  have h2 : (idx 2).val < 512 := (idx 2).isLt
  constructor
  · intro h
    have h0 := h 0
    have h1 := h 1
    replace h0 : xplane c i ≤ (idx 0).val ∧ (idx 0).val < xplane c i + 1 := h0
    replace h1 : 64 * xchunk i ≤ (idx 1).val ∧ (idx 1).val < 64 * xchunk i + 64 := h1
    omega
  · rintro ⟨e0, lo, hi⟩ a
    match a with
    | ⟨0, _⟩ => show xplane c i ≤ (idx 0).val ∧ (idx 0).val < xplane c i + 1; omega
    | ⟨1, _⟩ => show 64 * xchunk i ≤ (idx 1).val ∧ (idx 1).val < 64 * xchunk i + 64; omega
    | ⟨2, _⟩ => show 0 ≤ (idx 2).val ∧ (idx 2).val < 0 + 512; omega

theorem mem_lchunk (c : Dev nD) (i : Fin 10) (idx : S2x512x512.Idx) :
    idx ∈ (lchunk c i).view.set ↔
      (idx 0).val = xplane c i ∧ 64 * xchunk i ≤ (idx 1).val ∧ (idx 1).val < 64 * xchunk i + 64 := by
  rw [lchunk_set_eq_rchunk_set]; exact mem_rchunk c i idx

end Sets

/-! ## What a copy of a chunk leaves -/

section Landing
omit [FloatOps F]

/-- A chunk of the own planes copied into the same chunk of some device's received planes: at an entry of the chunk
    the destination now holds the source's value at that entry. -/
theorem landed_own (off : Fin 3 → Nat) (h : ∀ a, off a + S1x64x512.size a ≤ S2x512x512.size a)
    (fs : (cc0_scratch0 : Ref sig .tc).ty.Contents (Elt F)) (fd : (cc0_scratch1 : Ref sig .tc).ty.Contents (Elt F))
    (idx : S2x512x512.Idx) (hidx : idx ∈ (chunk remM off h).view.set) :
    ((chunk remM off h).view.write (Elt F) fd ((chunk locM off h).view.read (Elt F) fs) Finset.univ) idx = fs idx := by
  obtain ⟨y, rfl⟩ := View.exists_emb_of_mem_set _ hidx
  rw [View.write_emb_of_mem _ _ (Finset.mem_univ y)]
  rfl

/-- A chunk of the received planes forwarded into the same chunk of another device's received planes. -/
theorem landed_fwd (off : Fin 3 → Nat) (h : ∀ a, off a + S1x64x512.size a ≤ S2x512x512.size a)
    (fs fd : (cc0_scratch1 : Ref sig .tc).ty.Contents (Elt F))
    (idx : S2x512x512.Idx) (hidx : idx ∈ (chunk remM off h).view.set) :
    ((chunk remM off h).view.write (Elt F) fd ((chunk remM off h).view.read (Elt F) fs) Finset.univ) idx = fs idx := by
  obtain ⟨y, rfl⟩ := View.exists_emb_of_mem_set _ hidx
  rw [View.write_emb_of_mem _ _ (Finset.mem_univ y)]
  rfl

/-- The same at the plan's chunks, the buffers typed by the devices that hold them. -/
theorem landed_lchunk (c c' : Dev nD) (i : Fin 10) (fs : Buf (Elt F) ((c : Thread nD τ).loc cc0_scratch0))
    (fd : Buf (Elt F) ((c' : Thread nD τ).loc cc0_scratch1)) (idx : S2x512x512.Idx) (hidx : idx ∈ (rchunk c i).view.set) :
    ((rchunk c i).view.write (Elt F) fd ((lchunk c i).view.read (Elt F) fs) Finset.univ) idx = fs idx :=
  landed_own _ _ fs fd idx hidx

theorem landed_rchunk (c c' c'' : Dev nD) (i : Fin 10) (fs : Buf (Elt F) ((c' : Thread nD τ).loc cc0_scratch1))
    (fd : Buf (Elt F) ((c'' : Thread nD τ).loc cc0_scratch1)) (idx : S2x512x512.Idx) (hidx : idx ∈ (rchunk c i).view.set) :
    ((rchunk c i).view.write (Elt F) fd ((rchunk c i).view.read (Elt F) fs) Finset.univ) idx = fs idx :=
  landed_fwd _ _ fs fd idx hidx

/-- On a chunk of `c`'s first-axis plan, the neighbour's received planes come from `c` itself. -/
theorem srcDev_xn_of_mem (c : Dev nD) (i : Fin 10) (idx : S2x512x512.Idx) (hidx : idx ∈ (rchunk c i).view.set) :
    srcDev (xn c) idx = c := by
  obtain ⟨e0, lo, hi⟩ := (mem_rchunk c i idx).mp hidx
  have hy := yc_lt c
  unfold srcDev
  rw [if_neg ?_, xn_xn]
  rintro ⟨h0, h1⟩
  rw [yc_xn] at h0
  by_cases h8 : i.val < 8
  · rw [xplane_of_lt c h8] at e0; exact h0 e0
  · rw [xchunk_of_ge (by omega)] at lo
    omega

/-- On one of the six forwarded chunks of `c`'s plan, `c`'s received planes come from its first-axis neighbour … -/
theorem srcDev_of_mem_fwd (c : Dev nD) (j : Fin 6) (idx : S2x512x512.Idx) (hidx : idx ∈ (rchunk c (j10 j)).view.set) :
    srcDev c idx = xn c := by
  obtain ⟨e0, lo, hi⟩ := (mem_rchunk c (j10 j) idx).mp hidx
  have hj : (j10 j).val < 8 := by have := j.isLt; show j.val < 8; omega
  rw [xplane_of_lt c hj] at e0
  unfold srcDev
  rw [if_neg fun h => h.1 e0]

/-- … and so do its second-axis neighbour's, there. -/
theorem srcDev_yn_of_mem_fwd (c : Dev nD) (j : Fin 6) (idx : S2x512x512.Idx) (hidx : idx ∈ (rchunk c (j10 j)).view.set) :
    srcDev (yn c) idx = xn c := by
  obtain ⟨e0, lo, hi⟩ := (mem_rchunk c (j10 j) idx).mp hidx
  have hj6 := j.isLt
  have hj : (j10 j).val < 8 := by show j.val < 8; omega
  have hjv : (j10 j).val = j.val := rfl
  rw [xplane_of_lt c hj] at e0
  rw [xchunk_of_lt hj, hjv] at hi
  have hy := yc_lt c
  unfold srcDev
  rw [if_pos ⟨by rw [yc_yn]; omega, by omega⟩, yn_yn]

end Landing

/-! ## The payloads the two kinds of copy establish -/

/-- A copy across the first axis lands the sender's own chunk where the receiver's final contents say it should be. -/
theorem xr_landed (c : Dev nD) (i : Fin 10) (fd : Buf (Elt F) ((rchunk c i).view.loc (xn c : Thread nD τ))) :
    pts (F := F) (xn c) (rchunk c i) fullShare
        ((rchunk c i).view.write (Elt F) fd ((lchunk c i).view.read (Elt F) (locC m c)) Finset.univ)
      ⊢ xrPay m (xn c) i := by
  unfold xrPay
  rw [xn_xn]
  refine Entails.of_eq (pointsTo_congr fun idx hidx => ?_)
  rw [landed_lchunk c (xn c) i (locC m c) fd idx hidx]
  show locC m c idx = locC m (srcDev (xn c) idx) idx
  rw [srcDev_xn_of_mem c i idx hidx]

/-- A forward across the second axis lands what the forwarder received where the receiver's final contents say. -/
theorem yr_landed (c : Dev nD) (j : Fin 6) (fd : Buf (Elt F) ((rchunk c (j10 j)).view.loc (yn c : Thread nD τ))) :
    pts (F := F) (yn c) (rchunk c (j10 j)) fullShare
        ((rchunk c (j10 j)).view.write (Elt F) fd ((rchunk c (j10 j)).view.read (Elt F) (remC m c)) Finset.univ)
      ⊢ yrPay m (yn c) j := by
  unfold yrPay
  rw [yn_yn]
  refine Entails.of_eq (pointsTo_congr fun idx hidx => ?_)
  rw [landed_rchunk c c (yn c) (j10 j) (remC m c) fd idx hidx]
  show locC m (srcDev c idx) idx = locC m (srcDev (yn c) idx) idx
  rw [srcDev_of_mem_fwd c j idx hidx, srcDev_yn_of_mem_fwd c j idx hidx]

end Cert.Kernel.Mesh

end
-- ==== Proof.WRegionsPart.lean ====
/-
  The received planes of a device cut into the sixteen chunks that land there, and the own planes into the ten
  chunks sent and the rest.

  Of the received planes of device `c`, plane `yc c` arrives whole across the first axis as chunks 0–7; of the other
  plane, chunks 6 and 7 arrive across the first axis and chunks 0–5 are forwarded by the second-axis neighbour, whose own
  plan names them as its chunks 0–5. These sixteen sets are pairwise disjoint and cover the two planes, so one
  points-to over the buffer is the separating conjunction of the sixteen.
-/
import proofs.«900411_g7700000000000412_dist_agattn_v7x_xy2x2_x_b2_s256_h8_d64_bf16_1_alg».proof.Proof.WMesh
import proofs.«900411_g7700000000000412_dist_agattn_v7x_xy2x2_x_b2_s256_h8_d64_bf16_1_alg».proof.Proof.WSched
import proofs.«900411_g7700000000000412_dist_agattn_v7x_xy2x2_x_b2_s256_h8_d64_bf16_1_alg».proof.Proof.WRegions

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- The two scratch buffers of device `c`. -/
abbrev locLoc (c : Dev nD) : Loc nD τ sig := (c : Thread nD τ).loc cc0_scratch0
abbrev remLoc (c : Dev nD) : Loc nD τ sig := (c : Thread nD τ).loc cc0_scratch1

/-- The ten chunks that land across the first axis, the six forwarded across the second, and the ten sent. -/
def landX (c : Dev nD) (i : Fin 10) : Finset (Idx (remLoc c)) := (rchunk c i).view.set
def landY (c : Dev nD) (j : Fin 6) : Finset (Idx (remLoc c)) := (rchunk (yn c) (j10 j)).view.set
def sentX (c : Dev nD) (i : Fin 10) : Finset (Idx (locLoc c)) := (lchunk c i).view.set

section Sets
omit [FloatOps F]

theorem mem_landX (c : Dev nD) (i : Fin 10) (idx : S2x512x512.Idx) :
    idx ∈ landX c i ↔ (idx 0).val = xplane c i ∧ 64 * xchunk i ≤ (idx 1).val ∧ (idx 1).val < 64 * xchunk i + 64 :=
  mem_rchunk c i idx

/-- A forwarded chunk: the plane the device does not receive whole, rows `[64 j, 64 j + 64)`. -/
theorem mem_landY (c : Dev nD) (j : Fin 6) (idx : S2x512x512.Idx) :
    idx ∈ landY c j ↔ (idx 0).val = 1 - yc c ∧ 64 * j.val ≤ (idx 1).val ∧ (idx 1).val < 64 * j.val + 64 := by
  have hj : (j10 j).val < 8 := by have := j.isLt; show j.val < 8; omega
  unfold landY
  rw [mem_rchunk, xplane_of_lt _ hj, xchunk_of_lt hj, yc_yn]
  rfl

theorem landX_disjoint (c : Dev nD) (i i' : Fin 10) (hne : i ≠ i') : Disjoint (landX c i) (landX c i') := by
  refine Finset.disjoint_left.mpr fun idx h h' => ?_
  obtain ⟨e0, lo, hi⟩ := (mem_landX c i idx).mp h
  obtain ⟨e0', lo', hi'⟩ := (mem_landX c i' idx).mp h'
  have hv : i.val ≠ i'.val := fun e => hne (Fin.ext e)
  have hy := yc_lt c
  by_cases h8 : i.val < 8 <;> by_cases h8' : i'.val < 8
  · rw [xchunk_of_lt h8] at lo hi; rw [xchunk_of_lt h8'] at lo' hi'; omega
  · rw [xplane_of_lt c h8] at e0; rw [xplane_of_ge c (by omega)] at e0'; omega
  · rw [xplane_of_ge c (by omega)] at e0; rw [xplane_of_lt c h8'] at e0'; omega
  · rw [xchunk_of_ge (by omega)] at lo hi; rw [xchunk_of_ge (by omega)] at lo' hi'; omega

theorem landY_disjoint (c : Dev nD) (j j' : Fin 6) (hne : j ≠ j') : Disjoint (landY c j) (landY c j') := by
  refine Finset.disjoint_left.mpr fun idx h h' => ?_
  obtain ⟨e0, lo, hi⟩ := (mem_landY c j idx).mp h
  obtain ⟨e0', lo', hi'⟩ := (mem_landY c j' idx).mp h'
  have hv : j.val ≠ j'.val := fun e => hne (Fin.ext e)
  omega

theorem landX_landY_disjoint (c : Dev nD) (i : Fin 10) (j : Fin 6) : Disjoint (landX c i) (landY c j) := by
  refine Finset.disjoint_left.mpr fun idx h h' => ?_
  obtain ⟨e0, lo, hi⟩ := (mem_landX c i idx).mp h
  obtain ⟨e0', lo', hi'⟩ := (mem_landY c j idx).mp h'
  have hy := yc_lt c
  have hj := j.isLt
  by_cases h8 : i.val < 8
  · rw [xplane_of_lt c h8] at e0; omega
  · rw [xchunk_of_ge (by omega)] at lo hi; omega

/-- Every entry of the received planes is in one of the sixteen. -/
theorem land_cover (c : Dev nD) :
    (Finset.univ.biUnion (landX c)) ∪ (Finset.univ.biUnion (landY c)) = (Finset.univ : Finset (Idx (remLoc c))) := by
  refine Finset.eq_univ_iff_forall.mpr fun (idx : S2x512x512.Idx) => ?_
  have h0 : (idx 0).val < 2 := (idx 0).isLt
  have h1 : (idx 1).val < 512 := (idx 1).isLt
  have hy := yc_lt c
  rw [Finset.mem_union, Finset.mem_biUnion, Finset.mem_biUnion]
  by_cases hp : (idx 0).val = yc c
  · refine Or.inl ⟨⟨(idx 1).val / 64, by omega⟩, Finset.mem_univ _, (mem_landX c _ idx).mpr ?_⟩
    have h8 : (⟨(idx 1).val / 64, by omega⟩ : Fin 10).val < 8 := by show (idx 1).val / 64 < 8; omega
    rw [xplane_of_lt c h8, xchunk_of_lt h8]
    show (idx 0).val = yc c ∧ 64 * ((idx 1).val / 64) ≤ (idx 1).val ∧ (idx 1).val < 64 * ((idx 1).val / 64) + 64
    omega
  · by_cases hr : (idx 1).val < 384
    · refine Or.inr ⟨⟨(idx 1).val / 64, by omega⟩, Finset.mem_univ _, (mem_landY c _ idx).mpr ?_⟩
      show (idx 0).val = 1 - yc c ∧ 64 * ((idx 1).val / 64) ≤ (idx 1).val ∧ (idx 1).val < 64 * ((idx 1).val / 64) + 64
      omega
    · refine Or.inl ⟨⟨(idx 1).val / 64 + 2, by omega⟩, Finset.mem_univ _, (mem_landX c _ idx).mpr ?_⟩
      have h8 : 8 ≤ (⟨(idx 1).val / 64 + 2, by omega⟩ : Fin 10).val := by show 8 ≤ (idx 1).val / 64 + 2; omega
      rw [xplane_of_ge c h8, xchunk_of_ge h8]
      show (idx 0).val = 1 - yc c ∧ 64 * ((idx 1).val / 64 + 2 - 2) ≤ (idx 1).val ∧ (idx 1).val < 64 * ((idx 1).val / 64 + 2 - 2) + 64
      omega

theorem land_disjoint (c : Dev nD) : Disjoint (Finset.univ.biUnion (landX c)) (Finset.univ.biUnion (landY c)) :=
  (Finset.disjoint_biUnion_left _ _ _).mpr fun i _ => (Finset.disjoint_biUnion_right _ _ _).mpr fun j _ =>
    landX_landY_disjoint c i j

theorem sentX_eq_landX (c : Dev nD) (i : Fin 10) : (sentX c i : Finset S2x512x512.Idx) = landX c i :=
  lchunk_set_eq_rchunk_set c i

theorem sentX_disjoint (c : Dev nD) (i i' : Fin 10) (hne : i ≠ i') : Disjoint (sentX c i) (sentX c i') := by
  have h := landX_disjoint c i i' hne
  rw [← sentX_eq_landX, ← sentX_eq_landX] at h
  exact h

end Sets

/-! ## One points-to, cut along the chunks -/

/-- The received planes at any share: the ten first-axis landing chunks and the six second-axis ones. -/
theorem rem_split (c : Dev nD) (q : PosShare TreeShare) (f : Buf (Elt F) (remLoc c)) :
    (remLoc c ↦{q} f : sProp 𝕄) ⊣⊢
      iprop((bigSep Finset.univ fun i : Fin 10 => pts (F := F) c (rchunk c i) q f)
        ∗ (bigSep Finset.univ fun j : Fin 6 => pts (F := F) c (rchunk (yn c) (j10 j)) q f)) := by
  have e1 : (remLoc c ↦[Finset.univ.biUnion (landX c)]{q} f : sProp 𝕄) = bigSep Finset.univ fun i => remLoc c ↦[landX c i]{q} f :=
    pointsTo_biUnion Finset.univ (landX c) fun i _ i' _ hne => landX_disjoint c i i' hne
  have e2 : (remLoc c ↦[Finset.univ.biUnion (landY c)]{q} f : sProp 𝕄) = bigSep Finset.univ fun j => remLoc c ↦[landY c j]{q} f :=
    pointsTo_biUnion Finset.univ (landY c) fun j _ j' _ hne => landY_disjoint c j j' hne
  have h : (remLoc c ↦[Finset.univ.biUnion (landX c) ∪ Finset.univ.biUnion (landY c)]{q} f : sProp 𝕄) ⊣⊢
      iprop((remLoc c ↦[Finset.univ.biUnion (landX c)]{q} f) ∗ remLoc c ↦[Finset.univ.biUnion (landY c)]{q} f) :=
    pointsTo_union (land_disjoint c)
  rw [land_cover, e1, e2] at h
  exact h

/-- The own planes at any share: the ten chunks sent across the first axis, and the rest. -/
theorem loc_split (c : Dev nD) (q : PosShare TreeShare) (f : Buf (Elt F) (locLoc c)) :
    (locLoc c ↦{q} f : sProp 𝕄) ⊣⊢
      iprop((bigSep Finset.univ fun i : Fin 10 => pts (F := F) c (lchunk c i) q f)
        ∗ (locLoc c ↦[Finset.univ \ Finset.univ.biUnion (sentX c)]{q} f)) := by
  have e1 : (locLoc c ↦[Finset.univ.biUnion (sentX c)]{q} f : sProp 𝕄) = bigSep Finset.univ fun i => locLoc c ↦[sentX c i]{q} f :=
    pointsTo_biUnion Finset.univ (sentX c) fun i _ i' _ hne => sentX_disjoint c i i' hne
  have h : (locLoc c ↦[Finset.univ]{q} f : sProp 𝕄) ⊣⊢
      iprop((locLoc c ↦[Finset.univ.biUnion (sentX c)]{q} f) ∗ locLoc c ↦[Finset.univ \ Finset.univ.biUnion (sentX c)]{q} f) :=
    pointsTo_split_subset (Finset.subset_univ _)
  rw [e1] at h
  exact h

end Cert.Kernel.Mesh

end
-- ==== Proof.WRegionsIO.lean ====
/-
  What the body's loads read from the scratch planes, and what its stores leave.

  A load through a unit-stride rectangle of a whole buffer reads the buffer at the rectangle's offset plus the local
  coordinate. A plane of the own planes read whole is the staged key or value plane; rows `[256 b, 256 b + 256)` of a
  plane of the received planes are half `b` of that plane. The two stores of one plane each, the second over the
  first, leave a buffer that is one plane's payload on plane 0 and the other's on plane 1.
-/
import proofs.«900411_g7700000000000412_dist_agattn_v7x_xy2x2_x_b2_s256_h8_d64_bf16_1_alg».proof.Proof.WMesh
import proofs.«900411_g7700000000000412_dist_agattn_v7x_xy2x2_x_b2_s256_h8_d64_bf16_1_alg».proof.Proof.WSched

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- The result's staging buffer. -/
abbrev outM : Memref sig .tc .vmem S2x256x8x64 .bf16 := Memref.whole cc0_stg3_0

/-! ## Loads -/

section Loads

/-- Rows `[256 b, 256 b + 256)` of plane `p` of the received planes, as a load reads them. -/
theorem rem_load (c : Dev nD) (p b : Fin 2) (off : Fin 3 → Nat) (inb : ∀ a, off a + S1x256x512.size a ≤ S2x512x512.size a)
    (h0 : off 0 = p.val) (h1 : off 1 = 256 * b.val) (h2 : off 2 = 0) :
    (remM : Memref sig .tc .vmem S2x512x512 .bf16).view.readAt (Elt F) (Rect.unit (s := S2x512x512) off S1x256x512.size inb).toLoadRect (remC m c)
      = Flow.half b (remPlane m c p) := by
  funext x
  have hx0 : (x 0).val < 1 := (x 0).isLt
  show remC m c ((Rect.unit (s := S2x512x512) off S1x256x512.size inb).toLoadRect.idx x) = remC m c _
  refine congrArg (remC m c) (funext fun a => Fin.ext ?_)
  match a with
  | ⟨0, _⟩ => show off 0 + 1 * (x 0).val = p.val; omega
  | ⟨1, _⟩ => show off 1 + 1 * (x 1).val = 256 * b.val + (x 1).val; omega
  | ⟨2, _⟩ => show off 2 + 1 * (x 2).val = (x 2).val; omega

theorem rem_load_0_0 (c : Dev nD) :
    (remM : Memref sig .tc .vmem S2x512x512 .bf16).view.readAt (Elt F) (Rect.unit (s := S2x512x512) ![0, 0, 0] S1x256x512.size inb_S2x512x512_S1x256x512_0_0_0).toLoadRect (remC m c)
      = Flow.half 0 (remPlane m c 0) := rem_load m c 0 0 _ _ rfl rfl rfl
theorem rem_load_1_0 (c : Dev nD) :
    (remM : Memref sig .tc .vmem S2x512x512 .bf16).view.readAt (Elt F) (Rect.unit (s := S2x512x512) ![1, 0, 0] S1x256x512.size inb_S2x512x512_S1x256x512_1_0_0).toLoadRect (remC m c)
      = Flow.half 0 (remPlane m c 1) := rem_load m c 1 0 _ _ rfl rfl rfl
theorem rem_load_0_256 (c : Dev nD) :
    (remM : Memref sig .tc .vmem S2x512x512 .bf16).view.readAt (Elt F) (Rect.unit (s := S2x512x512) ![0, 256, 0] S1x256x512.size inb_S2x512x512_S1x256x512_0_256_0).toLoadRect (remC m c)
      = Flow.half 1 (remPlane m c 0) := rem_load m c 0 1 _ _ rfl rfl rfl
theorem rem_load_1_256 (c : Dev nD) :
    (remM : Memref sig .tc .vmem S2x512x512 .bf16).view.readAt (Elt F) (Rect.unit (s := S2x512x512) ![1, 256, 0] S1x256x512.size inb_S2x512x512_S1x256x512_1_256_0).toLoadRect (remC m c)
      = Flow.half 1 (remPlane m c 1) := rem_load m c 1 1 _ _ rfl rfl rfl

/-- Plane `p` of the own planes, as a load reads it whole. -/
theorem loc_load (c : Dev nD) (p : Fin 2) (off : Fin 3 → Nat) (inb : ∀ a, off a + S1x512x512.size a ≤ S2x512x512.size a)
    (h0 : off 0 = p.val) (h1 : off 1 = 0) (h2 : off 2 = 0) :
    (locM : Memref sig .tc .vmem S2x512x512 .bf16).view.readAt (Elt F) (Rect.unit (s := S2x512x512) off S1x512x512.size inb).toLoadRect (locC m c)
      = locPlane m c p := by
  funext x
  have hx0 : (x 0).val < 1 := (x 0).isLt
  show locC m c ((Rect.unit (s := S2x512x512) off S1x512x512.size inb).toLoadRect.idx x) = locC m c _
  refine congrArg (locC m c) (funext fun a => Fin.ext ?_)
  match a with
  | ⟨0, _⟩ => show off 0 + 1 * (x 0).val = p.val; omega
  | ⟨1, _⟩ => show off 1 + 1 * (x 1).val = (x 1).val; omega
  | ⟨2, _⟩ => show off 2 + 1 * (x 2).val = (x 2).val; omega

theorem loc_load_0 (c : Dev nD) :
    (locM : Memref sig .tc .vmem S2x512x512 .bf16).view.readAt (Elt F) (Rect.unit (s := S2x512x512) ![0, 0, 0] S1x512x512.size inb_S2x512x512_S1x512x512_0_0_0).toLoadRect (locC m c)
      = locPlane m c 0 := loc_load m c 0 _ _ rfl rfl rfl
theorem loc_load_1 (c : Dev nD) :
    (locM : Memref sig .tc .vmem S2x512x512 .bf16).view.readAt (Elt F) (Rect.unit (s := S2x512x512) ![1, 0, 0] S1x512x512.size inb_S2x512x512_S1x512x512_1_0_0).toLoadRect (locC m c)
      = locPlane m c 1 := loc_load m c 1 _ _ rfl rfl rfl

/-- An index of a one-plane array is its row and column under the plane coordinate 0. -/
theorem plane_idx (j : S1x512x512.Idx) :
    ix3 (0 : Fin 1) (⟨(j 1).val, (j 1).isLt⟩ : Fin 512) (⟨(j 2).val, (j 2).isLt⟩ : Fin 512) = j := by
  funext a
  match a with
  | ⟨0, _⟩ => exact Fin.ext (by have h : (j 0).val < 1 := (j 0).isLt; show 0 = (j 0).val; omega)
  | ⟨1, _⟩ => rfl
  | ⟨2, _⟩ => rfl

/-- Plane 0 of the own planes is the staged key plane, plane 1 the staged value plane. -/
theorem locPlane_zero (c : Dev nD) : locPlane m c 0 = Flow.planeK (kst m c) := by
  funext j
  unfold locPlane locC
  exact (if_pos rfl).trans (congrArg (Flow.planeK (kst m c)) (plane_idx j))

theorem locPlane_one (c : Dev nD) : locPlane m c 1 = Flow.planeV (vst m c) := by
  funext j
  unfold locPlane locC
  exact (if_neg (show ¬ ((1 : Fin 2).val = 0) from by decide)).trans (congrArg (Flow.planeV (vst m c)) (plane_idx j))

end Loads

/-! ## Stores -/

section Stores
omit [FloatOps F]

/-- A store of one plane through the own planes' buffer: on that plane the payload at the row and column … -/
theorem loc_write_plane (p : Fin 2) (off : Fin 3 → Nat) (inb : ∀ a, off a + S1x512x512.size a ≤ S2x512x512.size a)
    (h0 : off 0 = p.val) (h1 : off 1 = 0) (h2 : off 2 = 0)
    (f : (cc0_scratch0 : Ref sig .tc).ty.Contents (Elt F)) (w : S1x512x512.Idx → Elt F .bf16) (idx : S2x512x512.Idx)
    (hidx : (idx 0).val = p.val) :
    (((locM : Memref sig .tc .vmem S2x512x512 .bf16).access (Rect.unit (s := S2x512x512) off S1x512x512.size inb) : View sig .tc _ _ _).write
        (Elt F) f w Finset.univ) idx
      = w (ix3 (0 : Fin 1) (⟨(idx 1).val, (idx 1).isLt⟩ : Fin 512) (⟨(idx 2).val, (idx 2).isLt⟩ : Fin 512)) := by
  have he : ((locM : Memref sig .tc .vmem S2x512x512 .bf16).access (Rect.unit (s := S2x512x512) off S1x512x512.size inb) : View sig .tc _ _ _).emb
      (ix3 (0 : Fin 1) (⟨(idx 1).val, (idx 1).isLt⟩ : Fin 512) (⟨(idx 2).val, (idx 2).isLt⟩ : Fin 512)) = idx :=
    funext fun a => Fin.ext (by
      match a with
      | ⟨0, _⟩ => show off 0 + 1 * 0 = (idx 0).val; omega
      | ⟨1, _⟩ => show off 1 + 1 * (idx 1).val = (idx 1).val; omega
      | ⟨2, _⟩ => show off 2 + 1 * (idx 2).val = (idx 2).val; omega)
  have h := View.write_emb_of_mem (v := ((locM : Memref sig .tc .vmem S2x512x512 .bf16).access (Rect.unit (s := S2x512x512) off S1x512x512.size inb) : View sig .tc _ _ _))
    (Val := Elt F) f w (M := Finset.univ)
    (x := ix3 (0 : Fin 1) (⟨(idx 1).val, (idx 1).isLt⟩ : Fin 512) (⟨(idx 2).val, (idx 2).isLt⟩ : Fin 512)) (Finset.mem_univ _)
  rw [he] at h
  exact h

/-- … and off that plane what was there. -/
theorem loc_write_off_plane (p : Fin 2) (off : Fin 3 → Nat) (inb : ∀ a, off a + S1x512x512.size a ≤ S2x512x512.size a)
    (h0 : off 0 = p.val)
    (f : (cc0_scratch0 : Ref sig .tc).ty.Contents (Elt F)) (w : S1x512x512.Idx → Elt F .bf16) (idx : S2x512x512.Idx)
    (hidx : (idx 0).val ≠ p.val) :
    (((locM : Memref sig .tc .vmem S2x512x512 .bf16).access (Rect.unit (s := S2x512x512) off S1x512x512.size inb) : View sig .tc _ _ _).write
        (Elt F) f w Finset.univ) idx = f idx := by
  refine View.write_of_not_mem _ _ _ fun hm => hidx ?_
  have e : ((locM : Memref sig .tc .vmem S2x512x512 .bf16).access (Rect.unit (s := S2x512x512) off S1x512x512.size inb) : View sig .tc _ _ _).setOn Finset.univ
      = (Rect.unit (s := S2x512x512) off S1x512x512.size inb).set := View.set_slice_whole cc0_scratch0 _
  rw [e] at hm
  have h := (Rect.mem_set_unit.mp hm) 0
  replace h : off 0 ≤ (idx 0).val ∧ (idx 0).val < off 0 + 1 := h
  omega

/-- The same two facts for the result's staging buffer, whose halves are the two batches. -/
theorem out_write_half (p : Fin 2) (off : Fin 4 → Nat) (inb : ∀ a, off a + S1x256x8x64.size a ≤ S2x256x8x64.size a)
    (h0 : off 0 = p.val) (h1 : off 1 = 0) (h2 : off 2 = 0) (h3 : off 3 = 0)
    (f : (cc0_stg3_0 : Ref sig .tc).ty.Contents (Elt F)) (w : S1x256x8x64.Idx → Elt F .bf16) (idx : S2x256x8x64.Idx)
    (hidx : (idx 0).val = p.val) :
    (((outM : Memref sig .tc .vmem S2x256x8x64 .bf16).access (Rect.unit (s := S2x256x8x64) off S1x256x8x64.size inb) : View sig .tc _ _ _).write
        (Elt F) f w Finset.univ) idx
      = w (ix4 (0 : Fin 1) (⟨(idx 1).val, (idx 1).isLt⟩ : Fin 256) (⟨(idx 2).val, (idx 2).isLt⟩ : Fin 8) (⟨(idx 3).val, (idx 3).isLt⟩ : Fin 64)) := by
  have he : ((outM : Memref sig .tc .vmem S2x256x8x64 .bf16).access (Rect.unit (s := S2x256x8x64) off S1x256x8x64.size inb) : View sig .tc _ _ _).emb
      (ix4 (0 : Fin 1) (⟨(idx 1).val, (idx 1).isLt⟩ : Fin 256) (⟨(idx 2).val, (idx 2).isLt⟩ : Fin 8) (⟨(idx 3).val, (idx 3).isLt⟩ : Fin 64)) = idx :=
    funext fun a => Fin.ext (by
      match a with
      | ⟨0, _⟩ => show off 0 + 1 * 0 = (idx 0).val; omega
      | ⟨1, _⟩ => show off 1 + 1 * (idx 1).val = (idx 1).val; omega
      | ⟨2, _⟩ => show off 2 + 1 * (idx 2).val = (idx 2).val; omega
      | ⟨3, _⟩ => show off 3 + 1 * (idx 3).val = (idx 3).val; omega)
  have h := View.write_emb_of_mem (v := ((outM : Memref sig .tc .vmem S2x256x8x64 .bf16).access (Rect.unit (s := S2x256x8x64) off S1x256x8x64.size inb) : View sig .tc _ _ _))
    (Val := Elt F) f w (M := Finset.univ)
    (x := ix4 (0 : Fin 1) (⟨(idx 1).val, (idx 1).isLt⟩ : Fin 256) (⟨(idx 2).val, (idx 2).isLt⟩ : Fin 8) (⟨(idx 3).val, (idx 3).isLt⟩ : Fin 64)) (Finset.mem_univ _)
  rw [he] at h
  exact h

theorem out_write_off_half (p : Fin 2) (off : Fin 4 → Nat) (inb : ∀ a, off a + S1x256x8x64.size a ≤ S2x256x8x64.size a)
    (h0 : off 0 = p.val)
    (f : (cc0_stg3_0 : Ref sig .tc).ty.Contents (Elt F)) (w : S1x256x8x64.Idx → Elt F .bf16) (idx : S2x256x8x64.Idx)
    (hidx : (idx 0).val ≠ p.val) :
    (((outM : Memref sig .tc .vmem S2x256x8x64 .bf16).access (Rect.unit (s := S2x256x8x64) off S1x256x8x64.size inb) : View sig .tc _ _ _).write
        (Elt F) f w Finset.univ) idx = f idx := by
  refine View.write_of_not_mem _ _ _ fun hm => hidx ?_
  have e : ((outM : Memref sig .tc .vmem S2x256x8x64 .bf16).access (Rect.unit (s := S2x256x8x64) off S1x256x8x64.size inb) : View sig .tc _ _ _).setOn Finset.univ
      = (Rect.unit (s := S2x256x8x64) off S1x256x8x64.size inb).set := View.set_slice_whole cc0_stg3_0 _
  rw [e] at hm
  have h := (Rect.mem_set_unit.mp hm) 0
  replace h : off 0 ≤ (idx 0).val ∧ (idx 0).val < off 0 + 1 := h
  omega

end Stores

/-- The store of the key plane then the store of the value plane leave the own planes' final contents, whatever was there. -/
theorem loc_stores (c : Dev nD) (f0 : (cc0_scratch0 : Ref sig .tc).ty.Contents (Elt F)) :
    (((locM : Memref sig .tc .vmem S2x512x512 .bf16).access (Rect.unit (s := S2x512x512) ![1, 0, 0] S1x512x512.size inb_S2x512x512_S1x512x512_1_0_0) : View sig .tc _ _ _).write (Elt F)
      (((locM : Memref sig .tc .vmem S2x512x512 .bf16).access (Rect.unit (s := S2x512x512) ![0, 0, 0] S1x512x512.size inb_S2x512x512_S1x512x512_0_0_0) : View sig .tc _ _ _).write (Elt F)
        f0 (k0_pay1 (kst m c)) Finset.univ)
      (k0_pay3 (k0_pay2 (vst m c))) Finset.univ) = locC m c := by
  funext idx
  have hlt : ((idx : S2x512x512.Idx) 0).val < 2 := (idx 0).isLt
  by_cases hp : ((idx : S2x512x512.Idx) 0).val = 0
  · refine (loc_write_off_plane 1 _ _ rfl _ _ idx (by rw [hp]; decide)).trans ?_
    refine (loc_write_plane 0 _ _ rfl rfl rfl _ _ idx hp).trans ?_
    unfold locC
    exact (if_pos hp).symm
  · refine (loc_write_plane 1 _ _ rfl rfl rfl _ _ idx (show (idx 0).val = (1 : Fin 2).val by show (idx 0).val = 1; omega)).trans ?_
    unfold locC
    exact (if_neg hp).symm

/-- The store of batch 0 then the store of batch 1 leave the result's final contents, whatever was there. -/
theorem out_stores (c : Dev nD) (f0 : (cc0_stg3_0 : Ref sig .tc).ty.Contents (Elt F)) :
    (((outM : Memref sig .tc .vmem S2x256x8x64 .bf16).access (Rect.unit (s := S2x256x8x64) ![1, 0, 0, 0] S1x256x8x64.size inb_S2x256x8x64_S1x256x8x64_1_0_0_0) : View sig .tc _ _ _).write (Elt F)
      (((outM : Memref sig .tc .vmem S2x256x8x64 .bf16).access (Rect.unit (s := S2x256x8x64) ![0, 0, 0, 0] S1x256x8x64.size inb_S2x256x8x64_S1x256x8x64_0_0_0_0) : View sig .tc _ _ _).write (Elt F)
        f0 (Flow.out0 (qst m c) (locPlane m c 0) (locPlane m c 1) (Flow.half 0 (remPlane m c 0)) (Flow.half 0 (remPlane m c 1))) Finset.univ)
      (Flow.out1 (qst m c) (locPlane m c 0) (locPlane m c 1) (Flow.half 1 (remPlane m c 0)) (Flow.half 1 (remPlane m c 1))) Finset.univ)
      = outAt m c := by
  funext idx
  have hlt : ((idx : S2x256x8x64.Idx) 0).val < 2 := (idx 0).isLt
  by_cases hp : ((idx : S2x256x8x64.Idx) 0).val = 0
  · refine (out_write_off_half 1 _ _ rfl _ _ idx (by rw [hp]; decide)).trans ?_
    refine (out_write_half 0 _ _ rfl rfl rfl rfl _ _ idx hp).trans ?_
    unfold outAt
    exact (if_pos hp).symm
  · refine (out_write_half 1 _ _ rfl rfl rfl rfl _ _ idx (show (idx 0).val = (1 : Fin 2).val by show (idx 0).val = 1; omega)).trans ?_
    unfold outAt
    exact (if_neg hp).symm

end Cert.Kernel.Mesh

end
-- ==== Proof.WRegionsCover.lean ====
/-
  Which landing chunks a load of half a received plane reads, and a points-to over any selection of landing chunks.

  Rows `[256 b, 256 b + 256)` of plane `p` are four chunks. On the plane a device receives whole they are chunks
  `4 b … 4 b + 3` of the first-axis plan; on the other plane they are the forwarded chunks `4 b … 4 b + 3` below row 384
  and the first-axis chunks 8, 9 from row 384 on. The selection is stated by a filter on the chunk indices, so that no
  case split on the device is needed.
-/
import proofs.«900411_g7700000000000412_dist_agattn_v7x_xy2x2_x_b2_s256_h8_d64_bf16_1_alg».proof.Proof.WMesh
import proofs.«900411_g7700000000000412_dist_agattn_v7x_xy2x2_x_b2_s256_h8_d64_bf16_1_alg».proof.Proof.WSched
import proofs.«900411_g7700000000000412_dist_agattn_v7x_xy2x2_x_b2_s256_h8_d64_bf16_1_alg».proof.Proof.WRegions
import proofs.«900411_g7700000000000412_dist_agattn_v7x_xy2x2_x_b2_s256_h8_d64_bf16_1_alg».proof.Proof.WRegionsPart

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- The first-axis landing chunks, and the forwarded ones, inside rows `[256 b, 256 b + 256)` of plane `p`. -/
def halfX (c : Dev nD) (p b : Fin 2) : Finset (Fin 10) :=
  Finset.univ.filter fun i => xplane c i = p.val ∧ 4 * b.val ≤ xchunk i ∧ xchunk i < 4 * b.val + 4
def halfY (c : Dev nD) (p b : Fin 2) : Finset (Fin 6) :=
  Finset.univ.filter fun j => 1 - yc c = p.val ∧ 4 * b.val ≤ j.val ∧ j.val < 4 * b.val + 4

section Sets
omit [FloatOps F]

/-- The entries a load through a unit-stride rectangle of the received planes reads. -/
theorem mem_rem_load_set (off size : Fin 3 → Nat) (inb : ∀ a, off a + size a ≤ S2x512x512.size a) (idx : S2x512x512.Idx) :
    idx ∈ (remM : Memref sig .tc .vmem S2x512x512 .bf16).view.setOn (Rect.unit (s := S2x512x512) off size inb).toLoadRect.set
      ↔ ∀ a, off a ≤ (idx a).val ∧ (idx a).val < off a + size a := by
  show idx ∈ Finset.map (Function.Embedding.refl _) (Rect.unit (s := S2x512x512) off size inb).set ↔ _
  rw [Finset.map_refl]; exact Rect.mem_set_unit

/-- The same for the own planes. -/
theorem mem_loc_load_set (off size : Fin 3 → Nat) (inb : ∀ a, off a + size a ≤ S2x512x512.size a) (idx : S2x512x512.Idx) :
    idx ∈ (locM : Memref sig .tc .vmem S2x512x512 .bf16).view.setOn (Rect.unit (s := S2x512x512) off size inb).toLoadRect.set
      ↔ ∀ a, off a ≤ (idx a).val ∧ (idx a).val < off a + size a := by
  show idx ∈ Finset.map (Function.Embedding.refl _) (Rect.unit (s := S2x512x512) off size inb).set ↔ _
  rw [Finset.map_refl]; exact Rect.mem_set_unit

/-- A load of rows `[256 b, 256 b + 256)` of plane `p` of the received planes reads only the landing chunks inside them. -/
theorem rem_load_subset (c : Dev nD) (p b : Fin 2) (off : Fin 3 → Nat) (inb : ∀ a, off a + S1x256x512.size a ≤ S2x512x512.size a)
    (h0 : off 0 = p.val) (h1 : off 1 = 256 * b.val) (h2 : off 2 = 0) :
    (remM : Memref sig .tc .vmem S2x512x512 .bf16).view.setOn (Rect.unit (s := S2x512x512) off S1x256x512.size inb).toLoadRect.set
      ⊆ ((halfX c p b).biUnion (landX c) ∪ (halfY c p b).biUnion (landY c) : Finset (Idx (remLoc c))) := by
  intro (idx : S2x512x512.Idx) hidx
  have hm := (mem_rem_load_set off S1x256x512.size inb idx).mp hidx
  have m0 : off 0 ≤ (idx 0).val ∧ (idx 0).val < off 0 + 1 := hm 0
  have m1 : off 1 ≤ (idx 1).val ∧ (idx 1).val < off 1 + 256 := hm 1
  have hc : idx ∈ (Finset.univ.biUnion (landX c)) ∪ (Finset.univ.biUnion (landY c)) := by
    rw [land_cover]; exact Finset.mem_univ _
  rw [Finset.mem_union, Finset.mem_biUnion, Finset.mem_biUnion] at hc
  rw [Finset.mem_union, Finset.mem_biUnion, Finset.mem_biUnion]
  rcases hc with ⟨i, -, hi⟩ | ⟨j, -, hj⟩
  · obtain ⟨e0, lo, hi'⟩ := (mem_landX c i idx).mp hi
    refine Or.inl ⟨i, ?_, hi⟩
    unfold halfX
    rw [Finset.mem_filter]
    exact ⟨Finset.mem_univ _, by omega, by omega, by omega⟩
  · obtain ⟨e0, lo, hi'⟩ := (mem_landY c j idx).mp hj
    refine Or.inr ⟨j, ?_, hj⟩
    unfold halfY
    rw [Finset.mem_filter]
    exact ⟨Finset.mem_univ _, by omega, by omega, by omega⟩

end Sets

/-- A points-to over any selection of the landing chunks is the separating conjunction of the selected chunks. -/
theorem rem_split_on (c : Dev nD) (q : PosShare TreeShare) (f : Buf (Elt F) (remLoc c)) (SX : Finset (Fin 10)) (SY : Finset (Fin 6)) :
    (remLoc c ↦[SX.biUnion (landX c) ∪ SY.biUnion (landY c)]{q} f : sProp 𝕄) ⊣⊢
      iprop((bigSep SX fun i : Fin 10 => pts (F := F) c (rchunk c i) q f)
        ∗ (bigSep SY fun j : Fin 6 => pts (F := F) c (rchunk (yn c) (j10 j)) q f)) := by
  have e1 : (remLoc c ↦[SX.biUnion (landX c)]{q} f : sProp 𝕄) = bigSep SX fun i => remLoc c ↦[landX c i]{q} f :=
    pointsTo_biUnion SX (landX c) fun i _ i' _ hne => landX_disjoint c i i' hne
  have e2 : (remLoc c ↦[SY.biUnion (landY c)]{q} f : sProp 𝕄) = bigSep SY fun j => remLoc c ↦[landY c j]{q} f :=
    pointsTo_biUnion SY (landY c) fun j _ j' _ hne => landY_disjoint c j j' hne
  have hd : Disjoint (SX.biUnion (landX c)) (SY.biUnion (landY c)) :=
    (Finset.disjoint_biUnion_left _ _ _).mpr fun i _ => (Finset.disjoint_biUnion_right _ _ _).mpr fun j _ =>
      landX_landY_disjoint c i j
  have h : (remLoc c ↦[SX.biUnion (landX c) ∪ SY.biUnion (landY c)]{q} f : sProp 𝕄) ⊣⊢
      iprop((remLoc c ↦[SX.biUnion (landX c)]{q} f) ∗ remLoc c ↦[SY.biUnion (landY c)]{q} f) :=
    pointsTo_union hd
  rw [e1, e2] at h
  exact h

end Cert.Kernel.Mesh

end
-- ==== Proof.WRegionsRows.lean ====
/-
  The landing chunks joined by rows, as explicit chains.

  A batch's loads read rows `[256 b, 256 b + 256)` of both received planes. On device `c` these rows are, for `b = 0`,
  chunks 0–3 of the first-axis plan and the forwarded chunks 0–3; for `b = 1`, chunks 4–9 of the first-axis plan (4–7 on
  the plane received whole, 8 and 9 being chunks 6 and 7 of the other plane) and the forwarded chunks 4 and 5.
-/
import proofs.«900411_g7700000000000412_dist_agattn_v7x_xy2x2_x_b2_s256_h8_d64_bf16_1_alg».proof.Proof.WMesh
import proofs.«900411_g7700000000000412_dist_agattn_v7x_xy2x2_x_b2_s256_h8_d64_bf16_1_alg».proof.Proof.WSched
import proofs.«900411_g7700000000000412_dist_agattn_v7x_xy2x2_x_b2_s256_h8_d64_bf16_1_alg».proof.Proof.WRegions
import proofs.«900411_g7700000000000412_dist_agattn_v7x_xy2x2_x_b2_s256_h8_d64_bf16_1_alg».proof.Proof.WRegionsPart
import proofs.«900411_g7700000000000412_dist_agattn_v7x_xy2x2_x_b2_s256_h8_d64_bf16_1_alg».proof.Proof.WRegionsCover

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Idealize.SL.BI (bigSepL bigSep_eq_bigSepL_of_eq bigSep_univ_eq_bigSepL)
variable {F : FTy → Type} [FloatOps F]

local notation "𝕄" => MT nD τ sig Unit (Elt F) ℕ UU ℕ

variable (m : (ℓ : Loc nD τ sig) → Buf (Elt F) ℓ)

/-! ## The plan seen from the first-axis neighbour -/

section Plan
omit [FloatOps F]

/-- The first-axis neighbour has the same second coordinate, so the same plan of offsets. -/
theorem xoff_xn (c : Dev nD) (i : Fin 10) : xoff (xn c) i = xoff c i := by
  rw [xoff_eq, xoff_eq]; unfold xplane; rw [yc_xn]

theorem chunk_congr (M : Memref sig .tc .vmem S2x512x512 .bf16) {off off' : Fin 3 → Nat} (e : off = off')
    (h : ∀ a, off a + S1x64x512.size a ≤ S2x512x512.size a) (h' : ∀ a, off' a + S1x64x512.size a ≤ S2x512x512.size a) :
    chunk M off h = chunk M off' h' := by subst e; rfl

theorem rchunk_xn (c : Dev nD) (i : Fin 10) : rchunk (xn c) i = rchunk c i := chunk_congr remM (xoff_xn c i) _ _
theorem lchunk_xn (c : Dev nD) (i : Fin 10) : lchunk (xn c) i = lchunk c i := chunk_congr locM (xoff_xn c i) _ _

theorem j10_0 : j10 0 = (0 : Fin 10) := rfl
theorem j10_1 : j10 1 = (1 : Fin 10) := rfl
theorem j10_2 : j10 2 = (2 : Fin 10) := rfl
theorem j10_3 : j10 3 = (3 : Fin 10) := rfl
theorem j10_4 : j10 4 = (4 : Fin 10) := rfl
theorem j10_5 : j10 5 = (5 : Fin 10) := rfl

end Plan

/-! ## Rows of both planes -/

/-- The entries of rows `[256 b, 256 b + 256)` of both received planes. -/
def rowsSet (c : Dev nD) (b : Fin 2) : Finset (Idx (remLoc c)) :=
  Finset.univ.filter fun idx : S2x512x512.Idx => 256 * b.val ≤ (idx 1).val ∧ (idx 1).val < 256 * b.val + 256

/-- The first-axis chunks and the forwarded chunks inside those rows. -/
def selX (b : Fin 2) : Finset (Fin 10) := Finset.univ.filter fun i => 4 * b.val ≤ xchunk i ∧ xchunk i < 4 * b.val + 4
def selY (b : Fin 2) : Finset (Fin 6) := Finset.univ.filter fun j => 4 * b.val ≤ j.val ∧ j.val < 4 * b.val + 4

section Sets
omit [FloatOps F]

theorem mem_rowsSet (c : Dev nD) (b : Fin 2) (idx : S2x512x512.Idx) :
    idx ∈ rowsSet c b ↔ 256 * b.val ≤ (idx 1).val ∧ (idx 1).val < 256 * b.val + 256 := by
  unfold rowsSet; rw [Finset.mem_filter]; exact and_iff_right (Finset.mem_univ _)

theorem selX_zero : selX 0 = [(0 : Fin 10), 1, 2, 3].toFinset := by decide
theorem selX_one : selX 1 = [(4 : Fin 10), 5, 6, 7, 8, 9].toFinset := by decide
theorem selY_zero : selY 0 = [(0 : Fin 6), 1, 2, 3].toFinset := by decide
theorem selY_one : selY 1 = [(4 : Fin 6), 5].toFinset := by decide

/-- The rows are exactly the selected chunks. -/
theorem rowsSet_eq (c : Dev nD) (b : Fin 2) :
    rowsSet c b = (selX b).biUnion (landX c) ∪ (selY b).biUnion (landY c) := by
  ext (idx : S2x512x512.Idx)
  rw [mem_rowsSet, Finset.mem_union, Finset.mem_biUnion, Finset.mem_biUnion]
  constructor
  · intro hr
    have hc : idx ∈ (Finset.univ.biUnion (landX c)) ∪ (Finset.univ.biUnion (landY c)) := by
      rw [land_cover]; exact Finset.mem_univ _
    rw [Finset.mem_union, Finset.mem_biUnion, Finset.mem_biUnion] at hc
    rcases hc with ⟨i, -, hi⟩ | ⟨j, -, hj⟩
    · obtain ⟨e0, lo, hi'⟩ := (mem_landX c i idx).mp hi
      refine Or.inl ⟨i, ?_, hi⟩
      unfold selX; rw [Finset.mem_filter]
      exact ⟨Finset.mem_univ _, by omega, by omega⟩
    · obtain ⟨e0, lo, hi'⟩ := (mem_landY c j idx).mp hj
      refine Or.inr ⟨j, ?_, hj⟩
      unfold selY; rw [Finset.mem_filter]
      exact ⟨Finset.mem_univ _, by omega, by omega⟩
  · rintro (⟨i, hi, hm⟩ | ⟨j, hj, hm⟩)
    · obtain ⟨e0, lo, hi'⟩ := (mem_landX c i idx).mp hm
      unfold selX at hi; rw [Finset.mem_filter] at hi
      omega
    · obtain ⟨e0, lo, hi'⟩ := (mem_landY c j idx).mp hm
      unfold selY at hj; rw [Finset.mem_filter] at hj
      omega

/-- A load of rows `[256 b, 256 b + 256)` of either received plane reads inside those rows. -/
theorem rem_load_rows (c : Dev nD) (b : Fin 2) (off : Fin 3 → Nat) (inb : ∀ a, off a + S1x256x512.size a ≤ S2x512x512.size a)
    (h1 : off 1 = 256 * b.val) :
    (remM : Memref sig .tc .vmem S2x512x512 .bf16).view.setOn (Rect.unit (s := S2x512x512) off S1x256x512.size inb).toLoadRect.set
      ⊆ rowsSet c b := by
  intro (idx : S2x512x512.Idx) hidx
  have hm := (mem_rem_load_set off S1x256x512.size inb idx).mp hidx
  have m1 : off 1 ≤ (idx 1).val ∧ (idx 1).val < off 1 + 256 := hm 1
  rw [mem_rowsSet]; omega

theorem rem_load_rows_0_0 (c : Dev nD) :
    (remM : Memref sig .tc .vmem S2x512x512 .bf16).view.setOn (Rect.unit (s := S2x512x512) ![0, 0, 0] S1x256x512.size inb_S2x512x512_S1x256x512_0_0_0).toLoadRect.set
      ⊆ rowsSet c 0 := rem_load_rows c 0 _ _ rfl
theorem rem_load_rows_1_0 (c : Dev nD) :
    (remM : Memref sig .tc .vmem S2x512x512 .bf16).view.setOn (Rect.unit (s := S2x512x512) ![1, 0, 0] S1x256x512.size inb_S2x512x512_S1x256x512_1_0_0).toLoadRect.set
      ⊆ rowsSet c 0 := rem_load_rows c 0 _ _ rfl
theorem rem_load_rows_0_256 (c : Dev nD) :
    (remM : Memref sig .tc .vmem S2x512x512 .bf16).view.setOn (Rect.unit (s := S2x512x512) ![0, 256, 0] S1x256x512.size inb_S2x512x512_S1x256x512_0_256_0).toLoadRect.set
      ⊆ rowsSet c 1 := rem_load_rows c 1 _ _ rfl
theorem rem_load_rows_1_256 (c : Dev nD) :
    (remM : Memref sig .tc .vmem S2x512x512 .bf16).view.setOn (Rect.unit (s := S2x512x512) ![1, 256, 0] S1x256x512.size inb_S2x512x512_S1x256x512_1_256_0).toLoadRect.set
      ⊆ rowsSet c 1 := rem_load_rows c 1 _ _ rfl

end Sets

/-! ## The joins -/

/-- Separating conjunction associates, as an equation. -/
theorem sep_assoc_eq {M : Type _} [URA M] (P Q R : sProp M) : iprop((BI.sep P Q) ∗ R) = iprop(P ∗ Q ∗ R) :=
  Std.Associative.assoc (op := (BI.sep : sProp M → sProp M → sProp M)) P Q R

/-- The rows of batch `b` at any share: the selected chunks. -/
theorem rows_split (c : Dev nD) (b : Fin 2) (q : PosShare TreeShare) (f : Buf (Elt F) (remLoc c)) :
    (remLoc c ↦[rowsSet c b]{q} f : sProp 𝕄) ⊣⊢
      iprop((bigSep (selX b) fun i : Fin 10 => pts (F := F) c (rchunk c i) q f)
        ∗ (bigSep (selY b) fun j : Fin 6 => pts (F := F) c (rchunk (yn c) (j10 j)) q f)) := by
  rw [rowsSet_eq]; exact rem_split_on c q f (selX b) (selY b)

/-- Rows `[0, 256)`: first-axis chunks 0–3 and forwarded chunks 0–3. -/
theorem rows_join0 (c : Dev nD) (q : PosShare TreeShare) (f : Buf (Elt F) (remLoc c)) :
    iprop(pts (F := F) c (rchunk c 0) q f ∗ pts (F := F) c (rchunk c 1) q f ∗ pts (F := F) c (rchunk c 2) q f ∗ pts (F := F) c (rchunk c 3) q f
        ∗ pts (F := F) c (rchunk (yn c) (j10 0)) q f ∗ pts (F := F) c (rchunk (yn c) (j10 1)) q f
        ∗ pts (F := F) c (rchunk (yn c) (j10 2)) q f ∗ pts (F := F) c (rchunk (yn c) (j10 3)) q f)
      ⊣⊢ (remLoc c ↦[rowsSet c 0]{q} f : sProp 𝕄) := by
  have h := rows_split (F := F) c 0 q f
  rw [bigSep_eq_bigSepL_of_eq _ selX_zero (by decide), bigSep_eq_bigSepL_of_eq _ selY_zero (by decide)] at h
  simp only [bigSepL_cons_cons, bigSepL_singleton] at h
  rw [sep_assoc_eq, sep_assoc_eq, sep_assoc_eq] at h
  exact h.symm

/-- Rows `[256, 512)`: first-axis chunks 4–9 and forwarded chunks 4, 5. -/
theorem rows_join1 (c : Dev nD) (q : PosShare TreeShare) (f : Buf (Elt F) (remLoc c)) :
    iprop(pts (F := F) c (rchunk c 4) q f ∗ pts (F := F) c (rchunk c 5) q f ∗ pts (F := F) c (rchunk c 6) q f ∗ pts (F := F) c (rchunk c 7) q f
        ∗ pts (F := F) c (rchunk c 8) q f ∗ pts (F := F) c (rchunk c 9) q f
        ∗ pts (F := F) c (rchunk (yn c) (j10 4)) q f ∗ pts (F := F) c (rchunk (yn c) (j10 5)) q f)
      ⊣⊢ (remLoc c ↦[rowsSet c 1]{q} f : sProp 𝕄) := by
  have h := rows_split (F := F) c 1 q f
  rw [bigSep_eq_bigSepL_of_eq _ selX_one (by decide), bigSep_eq_bigSepL_of_eq _ selY_one (by decide)] at h
  simp only [bigSepL_cons_cons, bigSepL_singleton] at h
  rw [sep_assoc_eq, sep_assoc_eq, sep_assoc_eq, sep_assoc_eq, sep_assoc_eq] at h
  exact h.symm

/-! ## Thirty-two conjuncts, one by one -/

theorem bigSep_fin32 {M : Type _} [URA M] (Φ : Fin 32 → sProp M) :
    bigSep Finset.univ Φ = iprop(Φ (0 : Fin 32) ∗ Φ (1 : Fin 32) ∗ Φ (2 : Fin 32) ∗ Φ (3 : Fin 32) ∗ Φ (4 : Fin 32) ∗ Φ (5 : Fin 32) ∗ Φ (6 : Fin 32) ∗ Φ (7 : Fin 32) ∗ Φ (8 : Fin 32) ∗ Φ (9 : Fin 32) ∗ Φ (10 : Fin 32) ∗ Φ (11 : Fin 32) ∗ Φ (12 : Fin 32) ∗ Φ (13 : Fin 32) ∗ Φ (14 : Fin 32) ∗ Φ (15 : Fin 32) ∗ Φ (16 : Fin 32) ∗ Φ (17 : Fin 32) ∗ Φ (18 : Fin 32) ∗ Φ (19 : Fin 32) ∗ Φ (20 : Fin 32) ∗ Φ (21 : Fin 32) ∗ Φ (22 : Fin 32) ∗ Φ (23 : Fin 32) ∗ Φ (24 : Fin 32) ∗ Φ (25 : Fin 32) ∗ Φ (26 : Fin 32) ∗ Φ (27 : Fin 32) ∗ Φ (28 : Fin 32) ∗ Φ (29 : Fin 32) ∗ Φ (30 : Fin 32) ∗ Φ (31 : Fin 32)) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

end Cert.Kernel.Mesh

end
-- ==== Proof.WSteps.lean ====
/-
  The exchange's three kinds of step, each stated once for every chunk: a copy of an own chunk across the first axis, a
  forward of a received chunk across the second, and a wait for a copy cell's round. A copy lends the left half share of
  its source (it comes back with the send cell's round) and hands the destination's owner the landing chunk at its final
  contents; a wait yields the cell's one payload.
-/
import proofs.«900411_g7700000000000412_dist_agattn_v7x_xy2x2_x_b2_s256_h8_d64_bf16_1_alg».proof.Proof.Gen.Kernel
import proofs.«900411_g7700000000000412_dist_agattn_v7x_xy2x2_x_b2_s256_h8_d64_bf16_1_alg».proof.Proof.Gen.Kernel.Skeleton
import proofs.«900411_g7700000000000412_dist_agattn_v7x_xy2x2_x_b2_s256_h8_d64_bf16_1_alg».proof.Proof.Gen.Kernel.Launch
import proofs.«900411_g7700000000000412_dist_agattn_v7x_xy2x2_x_b2_s256_h8_d64_bf16_1_alg».proof.Proof.Gen.Kernel.Points
import proofs.«900411_g7700000000000412_dist_agattn_v7x_xy2x2_x_b2_s256_h8_d64_bf16_1_alg».proof.Proof.Gen.Kernel.Frame
import proofs.«900411_g7700000000000412_dist_agattn_v7x_xy2x2_x_b2_s256_h8_d64_bf16_1_alg».proof.Proof.WFlow
import proofs.«900411_g7700000000000412_dist_agattn_v7x_xy2x2_x_b2_s256_h8_d64_bf16_1_alg».proof.Proof.WMesh
import proofs.«900411_g7700000000000412_dist_agattn_v7x_xy2x2_x_b2_s256_h8_d64_bf16_1_alg».proof.Proof.WSched
import proofs.«900411_g7700000000000412_dist_agattn_v7x_xy2x2_x_b2_s256_h8_d64_bf16_1_alg».proof.Proof.WCells
import proofs.«900411_g7700000000000412_dist_agattn_v7x_xy2x2_x_b2_s256_h8_d64_bf16_1_alg».proof.Proof.WData
import proofs.«900411_g7700000000000412_dist_agattn_v7x_xy2x2_x_b2_s256_h8_d64_bf16_1_alg».proof.Proof.WRegions
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Mesh
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (K : Dev nD × Fin 33 → ℕ)

/-- Every chunk of the received planes credits a copy cell the same amount. -/
theorem rchunk_credit (c : Dev nD) (i : Fin 10) (sm : DmaSem sig) : (rchunk c i).view.amount (.dma sm) = N := rfl

/-- Copy `i` across the first axis, addressed to `n = xn c`. -/
theorem wp_xsend (c n : Dev nD) (hn : n = xn c) (i : Fin 10)
    {hsc : (rchunk c i : Memref sig (Dev.tc n : Thread nD τ).2.kind .vmem S64x512 .bf16).view.ref.isScScratch = false}
    {hsrc : (lchunk c i).view.WordExact} {hdst : (rchunk c i).view.WordExact}
    {hsem : DmaTarget.Typed .vmem (.dma (dsem (nXr i))) (.remote (Dev.tc n : Thread nD τ) (rchunk c i) (.dma (dsem (nXs i))) hsc)}
    {α : Type} {Q : α → sProp 𝕄} {k : PUnit → Prog (TpuEff nD τ sig (Elt F) Λ₀ .tc) α}
    (fn : Buf (Elt F) ((rchunk c i).view.loc (xn c : Thread nD τ))) (W : Waits sig Unit) (O : CellTallies nD τ sig Unit) :
    iprop(cellInv ER (sched m) (K (c, kXs i)) (xsCell c i) ∗ cellInv ER (sched m) (K (xn c, kXr i)) (xrCell (xn c) i)
        ∗ pts c (lchunk c i) fullShare.left (locC m c) ∗ pts (xn c) (rchunk c i) fullShare fn
        ∗ owes (c : Thread nD τ) (O + tallyAt (xrCell (xn c) i) () N) W
        ∗ dutyTok ER (xsCell c i) 0 false ∗ reached ER (xsCell c i) 0
        ∗ dutyTok ER (xrCell (xn c) i) 0 false ∗ reached ER (xrCell (xn c) i) 0)
      ⊢ iprop(((cred (tallyAt (xsCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (lchunk c i) (.remote (Dev.tc n : Thread nD τ) (rchunk c i) (.dma (dsem (nXs i))) hsc) (.dma (dsem (nXr i))) hsrc hdst hsem) k) Q) := by
  subst hn
  exact Rounds.wp_send_pointsTo 𝒱₀ ER (sched m) (c : Thread nD τ) none (κ₁ := K (c, kXs i)) (κ₂ := K (xn c, kXr i))
    (c' := (xn c : Thread nD τ)) (src := lchunk c i) (dst := rchunk c i) (sS := .dma (dsem (nXs i))) (sem := .dma (dsem (nXr i)))
    (r₁ := 0) (r₂ := 0) (d₁ := false) (d₂ := false) (fd := fn) (q := fullShare.left) (fs := locC m c)
    (by rw [duties_dma]; exact Finset.mem_singleton_self _) (by rw [duties_dma]; exact Finset.mem_singleton_self _)
    () () N (rchunk_credit c i _) (amount_dma m c (nXs i) false) (amount_dma m (xn c) (nXr i) false) O rfl (W := W)
    (by rw [payload_xs]; exact BI.Entails.refl _)
    (by rw [payload_xr]; exact xr_landed m c i fn)

/-- Forward `j` across the second axis, addressed to `n = yn c`. -/
theorem wp_ysend (c n : Dev nD) (hn : n = yn c) (j : Fin 6)
    {hsc : (rchunk c (j10 j) : Memref sig (Dev.tc n : Thread nD τ).2.kind .vmem S64x512 .bf16).view.ref.isScScratch = false}
    {hsrc : (rchunk c (j10 j)).view.WordExact} {hdst : (rchunk c (j10 j)).view.WordExact}
    {hsem : DmaTarget.Typed .vmem (.dma (dsem (nYr j))) (.remote (Dev.tc n : Thread nD τ) (rchunk c (j10 j)) (.dma (dsem (nYs j))) hsc)}
    {α : Type} {Q : α → sProp 𝕄} {k : PUnit → Prog (TpuEff nD τ sig (Elt F) Λ₀ .tc) α}
    (fn : Buf (Elt F) ((rchunk c (j10 j)).view.loc (yn c : Thread nD τ))) (W : Waits sig Unit) (O : CellTallies nD τ sig Unit) :
    iprop(cellInv ER (sched m) (K (c, kYs j)) (ysCell c j) ∗ cellInv ER (sched m) (K (yn c, kYr j)) (yrCell (yn c) j)
        ∗ pts c (rchunk c (j10 j)) fullShare.left (remC m c) ∗ pts (yn c) (rchunk c (j10 j)) fullShare fn
        ∗ owes (c : Thread nD τ) (O + tallyAt (yrCell (yn c) j) () N) W
        ∗ dutyTok ER (ysCell c j) 0 false ∗ reached ER (ysCell c j) 0
        ∗ dutyTok ER (yrCell (yn c) j) 0 false ∗ reached ER (yrCell (yn c) j) 0)
      ⊢ iprop(((cred (tallyAt (ysCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rchunk c (j10 j)) (.remote (Dev.tc n : Thread nD τ) (rchunk c (j10 j)) (.dma (dsem (nYs j))) hsc) (.dma (dsem (nYr j))) hsrc hdst hsem) k) Q) := by
  subst hn
  exact Rounds.wp_send_pointsTo 𝒱₀ ER (sched m) (c : Thread nD τ) none (κ₁ := K (c, kYs j)) (κ₂ := K (yn c, kYr j))
    (c' := (yn c : Thread nD τ)) (src := rchunk c (j10 j)) (dst := rchunk c (j10 j)) (sS := .dma (dsem (nYs j))) (sem := .dma (dsem (nYr j)))
    (r₁ := 0) (r₂ := 0) (d₁ := false) (d₂ := false) (fd := fn) (q := fullShare.left) (fs := remC m c)
    (by rw [duties_dma]; exact Finset.mem_singleton_self _) (by rw [duties_dma]; exact Finset.mem_singleton_self _)
    () () N (rchunk_credit c (j10 j) _) (amount_dma m c (nYs j) false) (amount_dma m (yn c) (nYr j) false) O rfl (W := W)
    (by rw [payload_ys]; exact BI.Entails.refl _)
    (by rw [payload_yr]; exact yr_landed m c j fn)

/-- The wait for the whole round of copy cell `n`, its credit in hand: the cell's payload. -/
theorem wp_dwait (c : Dev nD) (n : Fin 32) {sp' : Space} {s' : Shape} {e' : EltTy}
    {src : Memref sig .tc sp' s' e'} {dst : Memref sig .tc .vmem S64x512 .bf16} (hN : dst.view.dmaCredit = N)
    {hsrc : src.view.WordExact} {hdst : dst.view.WordExact}
    {α : Type} {Q : α → sProp 𝕄} {k : PUnit → Prog (TpuEff nD τ sig (Elt F) Λ₀ .tc) α}
    (W : Waits sig Unit) (O : CellTallies nD τ sig Unit) :
    iprop(cellInv ER (sched m) (K (c, n.succ)) (dmaCell c n) ∗ cred (tallyAt (dmaCell c n) () N) ∗ owes (c : Thread nD τ) O W
        ∗ MayWait (c : Thread nD τ) (.dma (dsem n)) () O ∗ atPos ER (dmaCell c n) 0 ∅ 0)
      ⊢ iprop(((owes (c : Thread nD τ) O (insert (SemLoc.dma (dsem n), ()) W) ∗ atPos ER (dmaCell c n) 1 ∅ 0
              ∗ (sched (F := F) m).payload (dmaCell c n) 0 false)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dsem n) src dst hsrc hdst) k) Q) := by
  iintro ⟨#HI, Hc, HO, Hmw, Hat⟩ Hk
  iapply (Rounds.wp_wait_rest_token 𝒱₀ ER (sched m) (c : Thread nD τ) none (κ := K (c, n.succ))
      (wpE_waitDma2_eq 𝒱₀ (c : Thread nD τ) none Set.univ) (Set.mem_univ _) () (O := O) (W := W) (R := 0) (m := 0) (T := ∅)
      (by rw [Nat.zero_add, expect_dma, hN])) $$ [Hc HO Hmw Hat]
  · isplitr; · iexact HI
    rw [hN]
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  iapply (Entails.of_eq (rest_dma m c n)) $$ Hpay

/-! ## The same steps from the shared records, one premise per resource -/

theorem wp_xsendR (c n : Dev nD) (hn : n = xn c) (i : Fin 10)
    {hsc : (rchunk c i : Memref sig (Dev.tc n : Thread nD τ).2.kind .vmem S64x512 .bf16).view.ref.isScScratch = false}
    {hsrc : (lchunk c i).view.WordExact} {hdst : (rchunk c i).view.WordExact}
    {hsem : DmaTarget.Typed .vmem (.dma (dsem (nXr i))) (.remote (Dev.tc n : Thread nD τ) (rchunk c i) (.dma (dsem (nXs i))) hsc)}
    {α : Type} {Q : α → sProp 𝕄} {k : PUnit → Prog (TpuEff nD τ sig (Elt F) Λ₀ .tc) α}
    (fn : Buf (Elt F) ((rchunk c i).view.loc (xn c : Thread nD τ))) (W : Waits sig Unit) (O O' : CellTallies nD τ sig Unit)
    (hO : O' = O + tallyAt (xrCell (xn c) i) () N) :
    (records (sched (F := F) m) K : sProp 𝕄) ⊢ iprop(pts c (lchunk c i) fullShare.left (locC m c) -∗ pts (xn c) (rchunk c i) fullShare fn
        -∗ owes (c : Thread nD τ) O' W -∗ dutyTok ER (xsCell c i) 0 false -∗ dutyTok ER (xrCell (xn c) i) 0 false
        -∗ ((cred (tallyAt (xsCell c i) () N) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
              (.op (.enqueueDma (lchunk c i) (.remote (Dev.tc n : Thread nD τ) (rchunk c i) (.dma (dsem (nXs i))) hsc) (.dma (dsem (nXr i))) hsrc hdst hsem) k) Q) := by
  subst hO
  iintro #Hrec Hs Hd HO Ht1 Ht2 Hk
  ihave #HI1 := (records_inv (sched (F := F) m) K (c, kXs i)) $$ Hrec
  ihave #HI2 := (records_inv (sched (F := F) m) K (xn c, kXr i)) $$ Hrec
  ihave #Hr1 := (records_reached (sched (F := F) m) K (c, kXs i)) $$ Hrec
  ihave #Hr2 := (records_reached (sched (F := F) m) K (xn c, kXr i)) $$ Hrec
  rw [kcell_kXs, kcell_kXr]
  iapply (wp_xsend m K c n hn i fn W O) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

theorem wp_ysendR (c n : Dev nD) (hn : n = yn c) (j : Fin 6)
    {hsc : (rchunk c (j10 j) : Memref sig (Dev.tc n : Thread nD τ).2.kind .vmem S64x512 .bf16).view.ref.isScScratch = false}
    {hsrc : (rchunk c (j10 j)).view.WordExact} {hdst : (rchunk c (j10 j)).view.WordExact}
    {hsem : DmaTarget.Typed .vmem (.dma (dsem (nYr j))) (.remote (Dev.tc n : Thread nD τ) (rchunk c (j10 j)) (.dma (dsem (nYs j))) hsc)}
    {α : Type} {Q : α → sProp 𝕄} {k : PUnit → Prog (TpuEff nD τ sig (Elt F) Λ₀ .tc) α}
    (fn : Buf (Elt F) ((rchunk c (j10 j)).view.loc (yn c : Thread nD τ))) (W : Waits sig Unit) (O O' : CellTallies nD τ sig Unit)
    (hO : O' = O + tallyAt (yrCell (yn c) j) () N) :
    (records (sched (F := F) m) K : sProp 𝕄) ⊢ iprop(pts c (rchunk c (j10 j)) fullShare.left (remC m c) -∗ pts (yn c) (rchunk c (j10 j)) fullShare fn
        -∗ owes (c : Thread nD τ) O' W -∗ dutyTok ER (ysCell c j) 0 false -∗ dutyTok ER (yrCell (yn c) j) 0 false
        -∗ ((cred (tallyAt (ysCell c j) () N) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
              (.op (.enqueueDma (rchunk c (j10 j)) (.remote (Dev.tc n : Thread nD τ) (rchunk c (j10 j)) (.dma (dsem (nYs j))) hsc) (.dma (dsem (nYr j))) hsrc hdst hsem) k) Q) := by
  subst hO
  iintro #Hrec Hs Hd HO Ht1 Ht2 Hk
  ihave #HI1 := (records_inv (sched (F := F) m) K (c, kYs j)) $$ Hrec
  ihave #HI2 := (records_inv (sched (F := F) m) K (yn c, kYr j)) $$ Hrec
  ihave #Hr1 := (records_reached (sched (F := F) m) K (c, kYs j)) $$ Hrec
  ihave #Hr2 := (records_reached (sched (F := F) m) K (yn c, kYr j)) $$ Hrec
  rw [kcell_kYs, kcell_kYr]
  iapply (wp_ysend m K c n hn j fn W O) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

theorem wp_dwaitR (c : Dev nD) (n : Fin 32) {sp' : Space} {s' : Shape} {e' : EltTy}
    {src : Memref sig .tc sp' s' e'} {dst : Memref sig .tc .vmem S64x512 .bf16} (hN : dst.view.dmaCredit = N)
    {hsrc : src.view.WordExact} {hdst : dst.view.WordExact}
    {α : Type} {Q : α → sProp 𝕄} {k : PUnit → Prog (TpuEff nD τ sig (Elt F) Λ₀ .tc) α}
    (W : Waits sig Unit) (O : CellTallies nD τ sig Unit) :
    (records (sched (F := F) m) K : sProp 𝕄) ⊢ iprop(cred (tallyAt (dmaCell c n) () N) -∗ owes (c : Thread nD τ) O W
        -∗ MayWait (c : Thread nD τ) (.dma (dsem n)) () O -∗ atPos ER (dmaCell c n) 0 ∅ 0
        -∗ ((owes (c : Thread nD τ) O (insert (SemLoc.dma (dsem n), ()) W) ∗ atPos ER (dmaCell c n) 1 ∅ 0
              ∗ (sched (F := F) m).payload (dmaCell c n) 0 false)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dsem n) src dst hsrc hdst) k) Q) := by
  iintro #Hrec Hc HO Hmw Hat Hk
  ihave #HI := (records_inv (sched (F := F) m) K (c, n.succ)) $$ Hrec
  rw [kcell_succ]
  iapply (wp_dwait m K c n hN W O) $$ [Hc HO Hmw Hat]
  · isplitr; · iexact HI
    isplitl [Hc]; · iexact Hc
    isplitl [HO]; · iexact HO
    isplitl [Hmw]; · iexact Hmw
    iexact Hat
  iexact Hk

end Cert.Kernel.Mesh
end
-- ==== Proof.WOwes.lean ====
/-
  What a device still owes as its body proceeds.

  A device pays in order: one unit to each neighbour's barrier cell, then a copy's units to each of the ten receive
  cells of its first-axis neighbour, then a copy's units to each of the six receive cells of its second-axis neighbour.
  `OX c i` is what it owes the first-axis receive cells from the `i`-th on, `OY c j` the second-axis ones from the
  `j`-th on; each payment peels the last summand off. A wait on the barrier cell (level 1) is below everything in
  `OX` (level 2) and `OY` (level 3); a wait on a first-axis receive cell (level 2) is below everything in `OY`.
-/
import proofs.«900411_g7700000000000412_dist_agattn_v7x_xy2x2_x_b2_s256_h8_d64_bf16_1_alg».proof.Proof.WMesh
import proofs.«900411_g7700000000000412_dist_agattn_v7x_xy2x2_x_b2_s256_h8_d64_bf16_1_alg».proof.Proof.WSched
import proofs.«900411_g7700000000000412_dist_agattn_v7x_xy2x2_x_b2_s256_h8_d64_bf16_1_alg».proof.Proof.WCells
import proofs.«900411_g7700000000000412_dist_agattn_v7x_xy2x2_x_b2_s256_h8_d64_bf16_1_alg».proof.Proof.WData
import Idealize.ShloMosaic.Lib.Pipeline.Launch
import Idealize.ShloMosaic.Lib.Pipeline.Kit

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Sums over the entries from a position on -/

/-- The sum of `f` over the indices from `i` on. -/
def tailSum {A : Type} [AddCommMonoid A] {n : ℕ} (f : Fin n → A) (i : ℕ) : A :=
  ∑ k ∈ Finset.univ.filter (fun k : Fin n => i ≤ k.val), f k

theorem tailSum_zero {A : Type} [AddCommMonoid A] {n : ℕ} (f : Fin n → A) : tailSum f 0 = ∑ k, f k := by
  unfold tailSum
  rw [Finset.filter_true_of_mem fun k _ => Nat.zero_le _]

theorem tailSum_end {A : Type} [AddCommMonoid A] {n : ℕ} (f : Fin n → A) : tailSum f n = 0 := by
  unfold tailSum
  rw [Finset.filter_false_of_mem fun k _ => Nat.not_le.2 k.isLt, Finset.sum_empty]

/-- From `i` on is from `i + 1` on, and `i`. -/
theorem tailSum_peel {A : Type} [AddCommMonoid A] {n : ℕ} (f : Fin n → A) (i : Fin n) :
    tailSum f i.val = tailSum f (i.val + 1) + f i := by
  unfold tailSum
  have hs : Finset.univ.filter (fun k : Fin n => i.val ≤ k.val)
      = insert i (Finset.univ.filter (fun k : Fin n => i.val + 1 ≤ k.val)) := by
    ext k
    simp only [Finset.mem_filter, Finset.mem_univ, true_and, Finset.mem_insert]
    constructor
    · intro h
      by_cases hk : k = i
      · exact Or.inl hk
      · exact Or.inr (by have : k.val ≠ i.val := fun e => hk (Fin.ext e); omega)
    · rintro (rfl | h)
      · exact Nat.le_refl _
      · omega
  have hi : i ∉ Finset.univ.filter (fun k : Fin n => i.val + 1 ≤ k.val) := by
    simp only [Finset.mem_filter, Finset.mem_univ, true_and]; omega
  rw [hs, Finset.sum_insert hi, add_comm]

/-! ## What is owed the receive cells, from a position on -/

/-- Owed the first-axis neighbour's receive cells from the `i`-th on. -/
def OX (c : Dev nD) (i : ℕ) : CellTallies nD τ sig Unit := tailSum (fun i' : Fin 10 => tallyAt (xrCell (xn c) i') () N) i
/-- Owed the second-axis neighbour's receive cells from the `j`-th on. -/
def OY (c : Dev nD) (j : ℕ) : CellTallies nD τ sig Unit := tailSum (fun j' : Fin 6 => tallyAt (yrCell (yn c) j') () N) j

theorem OX_zero (c : Dev nD) : OX c 0 = ∑ i : Fin 10, tallyAt (xrCell (xn c) i) () N := tailSum_zero _
theorem OY_zero (c : Dev nD) : OY c 0 = ∑ j : Fin 6, tallyAt (yrCell (yn c) j) () N := tailSum_zero _
theorem OX_end (c : Dev nD) : OX c 10 = 0 := tailSum_end _
theorem OY_end (c : Dev nD) : OY c 6 = 0 := tailSum_end _
theorem OX_peel (c : Dev nD) (i : Fin 10) : OX c i.val = OX c (i.val + 1) + tallyAt (xrCell (xn c) i) () N := tailSum_peel _ i
theorem OY_peel (c : Dev nD) (j : Fin 6) : OY c j.val = OY c (j.val + 1) + tallyAt (yrCell (yn c) j) () N := tailSum_peel _ j

/-! ## The payments, one at a time -/

/-- First the unit to the first-axis neighbour's barrier cell. -/
theorem owe_barX (c : Dev nD) :
    O₀ N c = (OX c 0 + OY c 0 + tallyAt (barCell (yn c)) () 1) + tallyAt (barCell (xn c)) () 1 := by
  unfold O₀
  rw [OX_zero, OY_zero]
  exact add_right_comm _ _ _

/-- Then the unit to the second-axis neighbour's. -/
theorem owe_barY (c : Dev nD) :
    OX c 0 + OY c 0 + tallyAt (barCell (yn c)) () 1 = (OX c 0 + OY c 0) + tallyAt (barCell (yn c)) () 1 := rfl

/-- The `i`-th copy across the first axis. -/
theorem owe_X (c : Dev nD) (i : Fin 10) :
    OX c i.val + OY c 0 = (OX c (i.val + 1) + OY c 0) + tallyAt (xrCell (xn c) i) () N := by
  rw [OX_peel c i]
  exact add_right_comm _ _ _

/-- All ten paid. -/
theorem owe_X_done (c : Dev nD) : OX c 10 + OY c 0 = OY c 0 := by rw [OX_end, zero_add]

/-- The `j`-th forward across the second axis. -/
theorem owe_Y (c : Dev nD) (j : Fin 6) :
    OY c j.val = OY c (j.val + 1) + tallyAt (yrCell (yn c) j) () N := OY_peel c j

/-! ## Where what is owed sits -/

theorem OX_pos {c : Dev nD} {i : ℕ} {g : GSem nD τ sig} {u : Unit} (h : 0 < OX c i g u) : ∃ i', g = xrCell (xn c) i' := by
  unfold OX tailSum at h
  obtain ⟨i', _, hi⟩ := Pipeline.sum_pos_exists h
  rw [tallyAt_apply] at hi
  by_cases hg : g = xrCell (xn c) i' ∧ u = ()
  · exact ⟨i', hg.1⟩
  · rw [if_neg hg] at hi; exact absurd hi (Nat.lt_irrefl 0)

theorem OY_pos {c : Dev nD} {j : ℕ} {g : GSem nD τ sig} {u : Unit} (h : 0 < OY c j g u) : ∃ j', g = yrCell (yn c) j' := by
  unfold OY tailSum at h
  obtain ⟨j', _, hj⟩ := Pipeline.sum_pos_exists h
  rw [tallyAt_apply] at hj
  by_cases hg : g = yrCell (yn c) j' ∧ u = ()
  · exact ⟨j', hg.1⟩
  · rw [if_neg hg] at hj; exact absurd hj (Nat.lt_irrefl 0)

/-! ## The waits -/

/-- The wait on the barrier cell, both barrier units paid and every copy still owed. -/
theorem mayWait_bar (c : Dev nD) (i j : ℕ) :
    (levAts L lv : sProp 𝕄) ⊢ MayWait (c : Thread nD τ) (.reg barS) () (OX c i + OY c j) := by
  refine mayWait_below c _ _ fun g u hg => ?_
  have hb : lv ((c : Thread nD τ), SemLoc.reg barS) () = 1 := lv_bar c
  rw [hb]
  rcases Pipeline.add_pos_cases hg with h | h
  · obtain ⟨i', rfl⟩ := OX_pos h
    exact ⟨rfl, by rw [lv_xr]; decide⟩
  · obtain ⟨j', rfl⟩ := OY_pos h
    exact ⟨rfl, by rw [lv_yr]; decide⟩

/-- The wait on a first-axis receive cell, only forwards still owed. -/
theorem mayWait_xr (c : Dev nD) (i : Fin 10) (j : ℕ) :
    (levAts L lv : sProp 𝕄) ⊢ MayWait (c : Thread nD τ) (.dma (dsem (nXr i))) () (OY c j) := by
  refine mayWait_below c _ _ fun g u hg => ?_
  have hx : lv ((c : Thread nD τ), SemLoc.dma (dsem (nXr i))) () = 2 := lv_xr c i
  rw [hx]
  obtain ⟨j', rfl⟩ := OY_pos hg
  exact ⟨rfl, by rw [lv_yr]; decide⟩

/-! ## Conjunctions over ten and over six, one by one -/

theorem bigSep_fin10 {M : Type} [URA M] (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ

theorem bigSep_fin6 {M : Type} [URA M] (Φ : Fin 6 → sProp M) :
    bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

end Cert.Kernel.Mesh

end
-- ==== Proof.WShares.lean ====
/-
  Bookkeeping for a device's body: a chunk held whole is its two half shares; the own planes held whole open into the
  ten chunks sent (at the left half share), the rest of the planes at that share, and the right half share of all of it,
  and close again; the received planes close from their sixteen chunks at both half shares; and a device's positions,
  tokens and credit written out one by one.
-/
import proofs.«900411_g7700000000000412_dist_agattn_v7x_xy2x2_x_b2_s256_h8_d64_bf16_1_alg».proof.Proof.WSched
import proofs.«900411_g7700000000000412_dist_agattn_v7x_xy2x2_x_b2_s256_h8_d64_bf16_1_alg».proof.Proof.WRegions
import proofs.«900411_g7700000000000412_dist_agattn_v7x_xy2x2_x_b2_s256_h8_d64_bf16_1_alg».proof.Proof.WRegionsPart
import proofs.«900411_g7700000000000412_dist_agattn_v7x_xy2x2_x_b2_s256_h8_d64_bf16_1_alg».proof.Proof.WOwes

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Shares -/

/-- A chunk at the full share is the chunk at its two halves. -/
theorem pts_halve (c : Dev nD) (M : Memref sig .tc .vmem S64x512 .bf16) (f : Buf (Elt F) (M.view.loc (c : Thread nD τ))) :
    (pts (F := F) c M fullShare f : sProp 𝕄) ⊣⊢ iprop(pts c M fullShare.left f ∗ pts c M fullShare.right f) :=
  pointsTo_share (PosShare.mem_left_op_right fullShare)

/-- The own planes, held whole: the ten chunks sent at the left half, the rest at the left half, everything at the right half. -/
theorem loc_open (c : Dev nD) (f : Buf (Elt F) (locLoc c)) :
    (locPts c f : sProp 𝕄) ⊢ iprop((bigSep Finset.univ fun i : Fin 10 => pts (F := F) c (lchunk c i) fullShare.left f)
      ∗ (locLoc c ↦[Finset.univ \ Finset.univ.biUnion (sentX c)]{fullShare.left} f) ∗ (locLoc c ↦{fullShare.right} f)) := by
  have h1 : (locLoc c ↦{fullShare} f : sProp 𝕄) ⊢ iprop((locLoc c ↦{fullShare.left} f) ∗ (locLoc c ↦{fullShare.right} f)) :=
    (pointsTo_share (PosShare.mem_left_op_right fullShare)).1
  have h2 := (loc_split (F := F) c fullShare.left f).1
  iintro H
  ihave H2 := h1 $$ H
  icases H2 with ⟨HL, HR⟩
  ihave H3 := h2 $$ HL
  icases H3 with ⟨HA, HB⟩
  isplitl [HA]; · iexact HA
  isplitl [HB]; · iexact HB
  iexact HR

theorem loc_rejoin (c : Dev nD) (f : Buf (Elt F) (locLoc c)) :
    iprop((bigSep Finset.univ fun i : Fin 10 => pts (F := F) c (lchunk c i) fullShare.left f)
      ∗ (locLoc c ↦[Finset.univ \ Finset.univ.biUnion (sentX c)]{fullShare.left} f) ∗ (locLoc c ↦{fullShare.right} f)) ⊢ (locPts c f : sProp 𝕄) := by
  have h1 : iprop((locLoc c ↦{fullShare.left} f) ∗ (locLoc c ↦{fullShare.right} f)) ⊢ (locLoc c ↦{fullShare} f : sProp 𝕄) :=
    (pointsTo_share (PosShare.mem_left_op_right fullShare)).2
  have h2 := (loc_split (F := F) c fullShare.left f).2
  iintro ⟨HA, HB, HR⟩
  iapply h1
  isplitl [HA HB]
  · iapply h2
    isplitl [HA]; · iexact HA
    iexact HB
  · iexact HR

/-- The received planes close from their sixteen chunks held at both halves. -/
theorem rem_rejoin (c : Dev nD) (f : Buf (Elt F) (remLoc c)) :
    iprop((bigSep Finset.univ fun i : Fin 10 => pts (F := F) c (rchunk c i) fullShare.left f)
      ∗ (bigSep Finset.univ fun j : Fin 6 => pts (F := F) c (rchunk (yn c) (j10 j)) fullShare.left f)
      ∗ (bigSep Finset.univ fun i : Fin 10 => pts (F := F) c (rchunk c i) fullShare.right f)
      ∗ (bigSep Finset.univ fun j : Fin 6 => pts (F := F) c (rchunk (yn c) (j10 j)) fullShare.right f)) ⊢ (remPts c f : sProp 𝕄) := by
  have h1 : iprop((remLoc c ↦{fullShare.left} f) ∗ (remLoc c ↦{fullShare.right} f)) ⊢ (remLoc c ↦{fullShare} f : sProp 𝕄) :=
    (pointsTo_share (PosShare.mem_left_op_right fullShare)).2
  have hl := (rem_split (F := F) c fullShare.left f).2
  have hr := (rem_split (F := F) c fullShare.right f).2
  iintro ⟨HXL, HYL, HXR, HYR⟩
  iapply h1
  isplitl [HXL HYL]
  · iapply hl
    isplitl [HXL]; · iexact HXL
    iexact HYL
  · iapply hr
    isplitl [HXR]; · iexact HXR
    iexact HYR

/-! ## A device's positions, tokens and credit, one by one -/

theorem linear_chain (c : Dev nD) :
    (linear (F := F) c : sProp 𝕄) = iprop((atPos ER (barCell c) 0 ∅ 0
        ∗ (atPos ER (xsCell c (0 : Fin 10)) 0 ∅ 0 ∗ atPos ER (xsCell c (1 : Fin 10)) 0 ∅ 0 ∗ atPos ER (xsCell c (2 : Fin 10)) 0 ∅ 0 ∗ atPos ER (xsCell c (3 : Fin 10)) 0 ∅ 0 ∗ atPos ER (xsCell c (4 : Fin 10)) 0 ∅ 0 ∗ atPos ER (xsCell c (5 : Fin 10)) 0 ∅ 0 ∗ atPos ER (xsCell c (6 : Fin 10)) 0 ∅ 0 ∗ atPos ER (xsCell c (7 : Fin 10)) 0 ∅ 0 ∗ atPos ER (xsCell c (8 : Fin 10)) 0 ∅ 0 ∗ atPos ER (xsCell c (9 : Fin 10)) 0 ∅ 0)
        ∗ (atPos ER (xrCell c (0 : Fin 10)) 0 ∅ 0 ∗ atPos ER (xrCell c (1 : Fin 10)) 0 ∅ 0 ∗ atPos ER (xrCell c (2 : Fin 10)) 0 ∅ 0 ∗ atPos ER (xrCell c (3 : Fin 10)) 0 ∅ 0 ∗ atPos ER (xrCell c (4 : Fin 10)) 0 ∅ 0 ∗ atPos ER (xrCell c (5 : Fin 10)) 0 ∅ 0 ∗ atPos ER (xrCell c (6 : Fin 10)) 0 ∅ 0 ∗ atPos ER (xrCell c (7 : Fin 10)) 0 ∅ 0 ∗ atPos ER (xrCell c (8 : Fin 10)) 0 ∅ 0 ∗ atPos ER (xrCell c (9 : Fin 10)) 0 ∅ 0)
        ∗ (atPos ER (ysCell c (0 : Fin 6)) 0 ∅ 0 ∗ atPos ER (ysCell c (1 : Fin 6)) 0 ∅ 0 ∗ atPos ER (ysCell c (2 : Fin 6)) 0 ∅ 0 ∗ atPos ER (ysCell c (3 : Fin 6)) 0 ∅ 0 ∗ atPos ER (ysCell c (4 : Fin 6)) 0 ∅ 0 ∗ atPos ER (ysCell c (5 : Fin 6)) 0 ∅ 0)
        ∗ (atPos ER (yrCell c (0 : Fin 6)) 0 ∅ 0 ∗ atPos ER (yrCell c (1 : Fin 6)) 0 ∅ 0 ∗ atPos ER (yrCell c (2 : Fin 6)) 0 ∅ 0 ∗ atPos ER (yrCell c (3 : Fin 6)) 0 ∅ 0 ∗ atPos ER (yrCell c (4 : Fin 6)) 0 ∅ 0 ∗ atPos ER (yrCell c (5 : Fin 6)) 0 ∅ 0))
      ∗ ((dutyTok ER (barCell (xn c)) 0 false
        ∗ (dutyTok ER (xsCell c (0 : Fin 10)) 0 false ∗ dutyTok ER (xsCell c (1 : Fin 10)) 0 false ∗ dutyTok ER (xsCell c (2 : Fin 10)) 0 false ∗ dutyTok ER (xsCell c (3 : Fin 10)) 0 false ∗ dutyTok ER (xsCell c (4 : Fin 10)) 0 false ∗ dutyTok ER (xsCell c (5 : Fin 10)) 0 false ∗ dutyTok ER (xsCell c (6 : Fin 10)) 0 false ∗ dutyTok ER (xsCell c (7 : Fin 10)) 0 false ∗ dutyTok ER (xsCell c (8 : Fin 10)) 0 false ∗ dutyTok ER (xsCell c (9 : Fin 10)) 0 false)
        ∗ (dutyTok ER (xrCell (xn c) (0 : Fin 10)) 0 false ∗ dutyTok ER (xrCell (xn c) (1 : Fin 10)) 0 false ∗ dutyTok ER (xrCell (xn c) (2 : Fin 10)) 0 false ∗ dutyTok ER (xrCell (xn c) (3 : Fin 10)) 0 false ∗ dutyTok ER (xrCell (xn c) (4 : Fin 10)) 0 false ∗ dutyTok ER (xrCell (xn c) (5 : Fin 10)) 0 false ∗ dutyTok ER (xrCell (xn c) (6 : Fin 10)) 0 false ∗ dutyTok ER (xrCell (xn c) (7 : Fin 10)) 0 false ∗ dutyTok ER (xrCell (xn c) (8 : Fin 10)) 0 false ∗ dutyTok ER (xrCell (xn c) (9 : Fin 10)) 0 false)
        ∗ (dutyTok ER (ysCell c (0 : Fin 6)) 0 false ∗ dutyTok ER (ysCell c (1 : Fin 6)) 0 false ∗ dutyTok ER (ysCell c (2 : Fin 6)) 0 false ∗ dutyTok ER (ysCell c (3 : Fin 6)) 0 false ∗ dutyTok ER (ysCell c (4 : Fin 6)) 0 false ∗ dutyTok ER (ysCell c (5 : Fin 6)) 0 false)
        ∗ (dutyTok ER (yrCell (yn c) (0 : Fin 6)) 0 false ∗ dutyTok ER (yrCell (yn c) (1 : Fin 6)) 0 false ∗ dutyTok ER (yrCell (yn c) (2 : Fin 6)) 0 false ∗ dutyTok ER (yrCell (yn c) (3 : Fin 6)) 0 false ∗ dutyTok ER (yrCell (yn c) (4 : Fin 6)) 0 false ∗ dutyTok ER (yrCell (yn c) (5 : Fin 6)) 0 false))
        ∗ dutyTok ER (barCell (yn c)) 0 true)) := by
  unfold linear
  rw [atPos_eq, payToks_eq]
  simp only [bigSep_fin10, bigSep_fin6]

theorem credsOf_chain (c : Dev nD) :
    (credsOf (F := F) N c : sProp 𝕄) = iprop(cred (tallyAt (barCell c) () 2)
      ∗ (cred (tallyAt (xrCell c (0 : Fin 10)) () N) ∗ cred (tallyAt (xrCell c (1 : Fin 10)) () N) ∗ cred (tallyAt (xrCell c (2 : Fin 10)) () N) ∗ cred (tallyAt (xrCell c (3 : Fin 10)) () N) ∗ cred (tallyAt (xrCell c (4 : Fin 10)) () N) ∗ cred (tallyAt (xrCell c (5 : Fin 10)) () N) ∗ cred (tallyAt (xrCell c (6 : Fin 10)) () N) ∗ cred (tallyAt (xrCell c (7 : Fin 10)) () N) ∗ cred (tallyAt (xrCell c (8 : Fin 10)) () N) ∗ cred (tallyAt (xrCell c (9 : Fin 10)) () N))
      ∗ (cred (tallyAt (yrCell c (0 : Fin 6)) () N) ∗ cred (tallyAt (yrCell c (1 : Fin 6)) () N) ∗ cred (tallyAt (yrCell c (2 : Fin 6)) () N) ∗ cred (tallyAt (yrCell c (3 : Fin 6)) () N) ∗ cred (tallyAt (yrCell c (4 : Fin 6)) () N) ∗ cred (tallyAt (yrCell c (5 : Fin 6)) () N))) := by
  unfold credsOf
  simp only [bigSep_fin10, bigSep_fin6]

end Cert.Kernel.Mesh

end
-- ==== Proof.WBodyDefs.lean ====
/-
  What one device's body starts from and ends with, as assertions: before, the exchange's ghost state and launch credit,
  the order on cells, the two scratch plane pairs at any contents, what it owes, and the four staging buffers (the three
  argument blocks; the result's at whatever it held); after, the scratch planes back, its copy semaphores at zero, nothing
  owed, the argument blocks unchanged and the result's staging buffer at the closed term.
-/
import proofs.«900411_g7700000000000412_dist_agattn_v7x_xy2x2_x_b2_s256_h8_d64_bf16_1_alg».proof.Proof.Gen.Kernel
import proofs.«900411_g7700000000000412_dist_agattn_v7x_xy2x2_x_b2_s256_h8_d64_bf16_1_alg».proof.Proof.Gen.Kernel.Skeleton
import proofs.«900411_g7700000000000412_dist_agattn_v7x_xy2x2_x_b2_s256_h8_d64_bf16_1_alg».proof.Proof.Gen.Kernel.Launch
import proofs.«900411_g7700000000000412_dist_agattn_v7x_xy2x2_x_b2_s256_h8_d64_bf16_1_alg».proof.Proof.Gen.Kernel.Points
import proofs.«900411_g7700000000000412_dist_agattn_v7x_xy2x2_x_b2_s256_h8_d64_bf16_1_alg».proof.Proof.Gen.Kernel.Frame
import proofs.«900411_g7700000000000412_dist_agattn_v7x_xy2x2_x_b2_s256_h8_d64_bf16_1_alg».proof.Proof.WFlow
import proofs.«900411_g7700000000000412_dist_agattn_v7x_xy2x2_x_b2_s256_h8_d64_bf16_1_alg».proof.Proof.WMesh
import proofs.«900411_g7700000000000412_dist_agattn_v7x_xy2x2_x_b2_s256_h8_d64_bf16_1_alg».proof.Proof.WSched
import proofs.«900411_g7700000000000412_dist_agattn_v7x_xy2x2_x_b2_s256_h8_d64_bf16_1_alg».proof.Proof.WCells
import proofs.«900411_g7700000000000412_dist_agattn_v7x_xy2x2_x_b2_s256_h8_d64_bf16_1_alg».proof.Proof.WData
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Mesh
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- A whole staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The kernel's body on the buffers the launch calls it with. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    cc0_scratch2 cc0_scratch3 cc0_scratch4 cc0_scratch5

def bodyPre (K : Dev nD × Fin 33 → ℕ) (c : Dev nD) : sProp 𝕄 :=
  iprop((ghost (sched (F := F) m) K c ∗ credsOf N c ∗ levAts L lv ∗ (∃ f, locPts c f) ∗ (∃ f, remPts c f))
    ∗ (dats m 0 c).owesAt () t0_0.castSucc
    ∗ stg c cc0_stg0_0 (qst m c) ∗ stg c cc0_stg1_0 (kst m c) ∗ stg c cc0_stg2_0 (vst m c)
    ∗ (∃ d, stg c cc0_stg3_0 ((dats m 0 c).before (3 : Fin 4) t0_0 d)))

def bodyPost (c : Dev nD) : sProp 𝕄 :=
  iprop(Φ₁ c ∗ (dats m 0 c).owesAt () t0_0.succ ∗ stg c cc0_stg0_0 (qst m c) ∗ stg c cc0_stg1_0 (kst m c) ∗ stg c cc0_stg2_0 (vst m c)
    ∗ stg c cc0_stg3_0 (outAt m c))

/-- The statement of the body's run: from `bodyPre` to `bodyPost`, in continuation form. -/
def SoundBody : Prop := ∀ (K : Dev nD × Fin 33 → ℕ) (c : Dev nD) (Kt : PUnit → sProp 𝕄),
    iprop(bodyPre m K c ∗ (bodyPost m c -∗ Kt ⟨⟩))
      ⊢ wp frame (wpE (defs₀ (F := F)) 𝒱₀ c none) Set.univ (theBody (F := F)) Kt

end Cert.Kernel.Mesh
end
-- ==== Proof.WBodyWrap.lean ====
/-
  Two pieces around a device's body.

  The body's statement in the form the pipeline asks of the one grid point: the staging buffers are whole buffers,
  the three argument windows are fetched at the point, so what their staging buffers hold when the body starts is
  the staged argument blocks; the invariant before the point opens into the exchange's ghost state at some names.
  And the end of the exchange on a device: each of its 32 copy cells, at the start of round 1 with nothing taken,
  has no duty left in any round, so it closes with its counter at zero.
-/
import proofs.«900411_g7700000000000412_dist_agattn_v7x_xy2x2_x_b2_s256_h8_d64_bf16_1_alg».proof.Proof.Gen.Kernel
import proofs.«900411_g7700000000000412_dist_agattn_v7x_xy2x2_x_b2_s256_h8_d64_bf16_1_alg».proof.Proof.Gen.Kernel.Skeleton
import proofs.«900411_g7700000000000412_dist_agattn_v7x_xy2x2_x_b2_s256_h8_d64_bf16_1_alg».proof.Proof.Gen.Kernel.Launch
import proofs.«900411_g7700000000000412_dist_agattn_v7x_xy2x2_x_b2_s256_h8_d64_bf16_1_alg».proof.Proof.Gen.Kernel.Points
import proofs.«900411_g7700000000000412_dist_agattn_v7x_xy2x2_x_b2_s256_h8_d64_bf16_1_alg».proof.Proof.Gen.Kernel.Frame
import proofs.«900411_g7700000000000412_dist_agattn_v7x_xy2x2_x_b2_s256_h8_d64_bf16_1_alg».proof.Proof.WMesh
import proofs.«900411_g7700000000000412_dist_agattn_v7x_xy2x2_x_b2_s256_h8_d64_bf16_1_alg».proof.Proof.WSched
import proofs.«900411_g7700000000000412_dist_agattn_v7x_xy2x2_x_b2_s256_h8_d64_bf16_1_alg».proof.Proof.WCells
import proofs.«900411_g7700000000000412_dist_agattn_v7x_xy2x2_x_b2_s256_h8_d64_bf16_1_alg».proof.Proof.WData
import proofs.«900411_g7700000000000412_dist_agattn_v7x_xy2x2_x_b2_s256_h8_d64_bf16_1_alg».proof.Proof.WBodyDefs
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body in the pipeline's form -/

/-- A whole buffer held in full at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The argument windows are fetched at the point: their staging buffers hold the staged blocks. -/
theorem before_0 (c : Dev nD) (d) : (dats (F := F) m 0 c).before (0 : Fin 4) t0_0 d = qst m c := by
  unfold Dat.before; rw [if_pos (by rfl)]; rfl
theorem before_1 (c : Dev nD) (d) : (dats (F := F) m 0 c).before (1 : Fin 4) t0_0 d = kst m c := by
  unfold Dat.before; rw [if_pos (by rfl)]; rfl
theorem before_2 (c : Dev nD) (d) : (dats (F := F) m 0 c).before (2 : Fin 4) t0_0 d = vst m c := by
  unfold Dat.before; rw [if_pos (by rfl)]; rfl

set_option maxRecDepth 100000 in
/-- What the pipeline hands the body at the one point. -/
def bodyPre' (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

set_option maxRecDepth 100000 in
/-- The pipeline's body obligation on device `c`, from the body's run. -/
theorem body_obligation_of (h : SoundBody (F := F) m) (c : Dev nD) :
    BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ (theBody (F := F)) (fun _ => bodyPost m c)
  unfold bodyPre' Φ₀ start
  simp only [before_0, before_1, before_2]
  iintro ⟨⟨⟨⟨%K, Hg⟩, Hcred, Hlev⟩, Hloc, Hrem⟩, Ho, ⟨%d0, H0⟩, ⟨%d1, H1⟩, ⟨%d2, H2⟩, H3⟩
  iapply (h K c fun _ => bodyPost m c)
  unfold bodyPre
  isplitr []
  · isplitl [Hg Hcred Hlev Hloc Hrem]
    · isplitl [Hg]; · iexact Hg
      isplitl [Hcred]; · iexact Hcred
      isplitl [Hlev]; · iexact Hlev
      isplitl [Hloc]; · iexact Hloc
      iexact Hrem
    isplitl [Ho]; · iexact Ho
    isplitl [H0]; · iexact H0
    isplitl [H1]; · iexact H1
    isplitl [H2]; · iexact H2
    iexact H3
  · iintro H; iexact H

/-! ## The copy cells close -/

/-- The 32 copy cells by the part they play. -/
def nIx : Fin 10 ⊕ Fin 10 ⊕ Fin 6 ⊕ Fin 6 → Fin 32
  | .inl i => nXs i
  | .inr (.inl i) => nXr i
  | .inr (.inr (.inl j)) => nYs j
  | .inr (.inr (.inr j)) => nYr j

theorem nIx_bijective : Function.Bijective nIx := by decide

def nIxE : Fin 10 ⊕ Fin 10 ⊕ Fin 6 ⊕ Fin 6 ≃ Fin 32 := Equiv.ofBijective nIx nIx_bijective

/-- A conjunction over a device's 32 copy cells, part by part. -/
theorem bigSep_fin32_fam {M : Type} [URA M] (Φ : Fin 32 → sProp M) :
    bigSep Finset.univ Φ = iprop((bigSep Finset.univ fun i : Fin 10 => Φ (nXs i)) ∗ (bigSep Finset.univ fun i : Fin 10 => Φ (nXr i))
      ∗ (bigSep Finset.univ fun j : Fin 6 => Φ (nYs j)) ∗ (bigSep Finset.univ fun j : Fin 6 => Φ (nYr j))) := by
  rw [bigSep_univ_equiv nIxE Φ, bigSep_univ_sum, bigSep_univ_sum, bigSep_univ_sum]
  rfl

/-- One copy cell, at the start of round 1 with nothing taken, closes: its counter is zero. -/
theorem close_one (K : Dev nD × Fin 33 → ℕ) (c : Dev nD) (n : Fin 32) :
    iprop(records (sched (F := F) m) K ∗ atPos ER (dmaCell c n) 1 ∅ 0) ⊢ iprop(|={Set.univ}=> semVal (dmaCell c n) 0) := by
  iintro ⟨#Hrec, Hat⟩
  ihave HI := (records_inv (sched (F := F) m) K (c, n.succ)) $$ Hrec
  rw [kcell_succ]
  iapply (Rounds.cell_close ER (sched (F := F) m) (Set.mem_univ (K (c, n.succ))) (fun h => h) (R := 1) (duties_later m (dmaCell c n)))
  isplitl [HI]
  · iexact HI
  · iexact Hat

/-- All 32 close. -/
theorem close_32 (K : Dev nD × Fin 33 → ℕ) (c : Dev nD) :
    iprop(records (sched (F := F) m) K ∗ bigSep Finset.univ fun n : Fin 32 => atPos ER (dmaCell c n) 1 ∅ 0)
      ⊢ iprop(|={Set.univ}=> bigSep Finset.univ fun n : Fin 32 => semVal (dmaCell c n) 0) :=
  (bigSep_with_persistent (Ψ := fun n : Fin 32 => iprop(|={Set.univ}=> semVal (dmaCell c n) 0)) fun n _ => close_one m K c n).trans
    (bigSep_fupd _ _)

/-- The same from the four families of positions. -/
theorem close_all (K : Dev nD × Fin 33 → ℕ) (c : Dev nD) :
    (records (sched (F := F) m) K : sProp 𝕄) ⊢ iprop((bigSep Finset.univ fun i : Fin 10 => atPos ER (xsCell c i) 1 ∅ 0)
      -∗ (bigSep Finset.univ fun i : Fin 10 => atPos ER (xrCell c i) 1 ∅ 0)
      -∗ (bigSep Finset.univ fun j : Fin 6 => atPos ER (ysCell c j) 1 ∅ 0)
      -∗ (bigSep Finset.univ fun j : Fin 6 => atPos ER (yrCell c j) 1 ∅ 0)
      -∗ |={Set.univ}=> bigSep Finset.univ fun n : Fin 32 => semVal (dmaCell c n) 0) := by
  iintro #Hrec Hxs Hxr Hys Hyr
  iapply (close_32 m K c)
  isplitr
  · iexact Hrec
  rw [bigSep_fin32_fam]
  isplitl [Hxs]; · iexact Hxs
  isplitl [Hxr]; · iexact Hxr
  isplitl [Hys]; · iexact Hys
  iexact Hyr

end Cert.Kernel.Mesh

end
-- ==== Proof.WBodyPost.lean ====
/-
  The end of a device's body: what it holds then — the two scratch plane pairs, its copy semaphores at zero, nothing
  owed, the argument blocks' staging buffers unchanged and the result's at the stored blocks — is the state the
  pipeline asks after the one grid point.
-/
import proofs.«900411_g7700000000000412_dist_agattn_v7x_xy2x2_x_b2_s256_h8_d64_bf16_1_alg».proof.Proof.Gen.Kernel
import proofs.«900411_g7700000000000412_dist_agattn_v7x_xy2x2_x_b2_s256_h8_d64_bf16_1_alg».proof.Proof.Gen.Kernel.Skeleton
import proofs.«900411_g7700000000000412_dist_agattn_v7x_xy2x2_x_b2_s256_h8_d64_bf16_1_alg».proof.Proof.Gen.Kernel.Launch
import proofs.«900411_g7700000000000412_dist_agattn_v7x_xy2x2_x_b2_s256_h8_d64_bf16_1_alg».proof.Proof.Gen.Kernel.Points
import proofs.«900411_g7700000000000412_dist_agattn_v7x_xy2x2_x_b2_s256_h8_d64_bf16_1_alg».proof.Proof.Gen.Kernel.Frame
import proofs.«900411_g7700000000000412_dist_agattn_v7x_xy2x2_x_b2_s256_h8_d64_bf16_1_alg».proof.Proof.WMesh
import proofs.«900411_g7700000000000412_dist_agattn_v7x_xy2x2_x_b2_s256_h8_d64_bf16_1_alg».proof.Proof.WSched
import proofs.«900411_g7700000000000412_dist_agattn_v7x_xy2x2_x_b2_s256_h8_d64_bf16_1_alg».proof.Proof.WCells
import proofs.«900411_g7700000000000412_dist_agattn_v7x_xy2x2_x_b2_s256_h8_d64_bf16_1_alg».proof.Proof.WData
import proofs.«900411_g7700000000000412_dist_agattn_v7x_xy2x2_x_b2_s256_h8_d64_bf16_1_alg».proof.Proof.WBodyDefs
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Mesh

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body's last step -/

/-- What the body holds at its end makes up the state after the point: the scratch planes, the copy semaphores at
    zero, nothing owed, and the four staging buffers at the staged blocks and the stored result. -/
theorem post_intro (c : Dev nD) (W' : Waits sig Unit) :
    iprop((∃ f, locPts (F := F) c f) ∗ (∃ f, remPts (F := F) c f)
      ∗ (bigSep Finset.univ fun n : Fin 32 => semVal (dmaCell c n) 0)
      ∗ owes (c : Thread nD τ) 0 W'
      ∗ (((c : Thread nD τ).loc cc0_stg0_0) ↦{fullShare} qst m c)
      ∗ (((c : Thread nD τ).loc cc0_stg1_0) ↦{fullShare} kst m c)
      ∗ (((c : Thread nD τ).loc cc0_stg2_0) ↦{fullShare} vst m c)
      ∗ (((c : Thread nD τ).loc cc0_stg3_0) ↦{fullShare} outAt m c))
      ⊢ (bodyPost m c : sProp 𝕄) := by
  unfold bodyPost Φ₁ Dat.owesAt Pipeline.owesWithin
  rw [show (dats m 0 c).owed t0_0.succ = 0 from rfl]
  iintro ⟨Hloc, Hrem, Hsem, HO, H0, H1, H2, H3⟩
  isplitl [Hloc Hrem Hsem]
  · isplitl [Hloc]; · iexact Hloc
    isplitl [Hrem]; · iexact Hrem
    iexact Hsem
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

end Cert.Kernel.Mesh

end
-- ==== Proof.WBody.lean ====
/-
  One device's body, stepped once at a symbolic device `c = 2x + y`.

  The order of events. The device hands its first-axis neighbour the ten chunks of its received planes that neighbour
  will fill (plane `y` whole, the last two chunks of plane `1 - y`) and its second-axis neighbour the other six, each with
  a barrier signal; stages its key and value blocks as the two own planes; waits for both neighbours' signals, which bring
  their landing chunks. It then copies ten own chunks across the first axis, lending the left half share of each source;
  loads the queries and, through the right half share, both own planes. Each of the first six received chunks, once its
  receive cell's round is complete, is forwarded across the second axis (again the left half travels). With the four
  forwarded chunks of the other plane in, rows `[0, 256)` of both received planes are read through the right half shares
  joined over those eight chunks, and batch 0 of the result is stored; the remaining eight chunks give rows `[256, 512)`
  and batch 1. Every send cell's round then returns the lent half; the 32 copy cells, with no round left, are closed at
  zero; the halves are rejoined into the two scratch plane pairs. What is owed shrinks by one tally per signal and copy,
  and each wait sits below everything still owed: the barrier below all receive cells, a first-axis receive cell below the
  second-axis ones, everything else waited owing nothing.

  What the result's staging buffer holds at the end is the closed term `outAt`: the two stores' payloads over the query
  block, the own planes and the two halves of the received planes.
-/
import proofs.«900411_g7700000000000412_dist_agattn_v7x_xy2x2_x_b2_s256_h8_d64_bf16_1_alg».proof.Proof.Gen.Kernel
import proofs.«900411_g7700000000000412_dist_agattn_v7x_xy2x2_x_b2_s256_h8_d64_bf16_1_alg».proof.Proof.Gen.Kernel.Skeleton
import proofs.«900411_g7700000000000412_dist_agattn_v7x_xy2x2_x_b2_s256_h8_d64_bf16_1_alg».proof.Proof.Gen.Kernel.Launch
import proofs.«900411_g7700000000000412_dist_agattn_v7x_xy2x2_x_b2_s256_h8_d64_bf16_1_alg».proof.Proof.Gen.Kernel.Points
import proofs.«900411_g7700000000000412_dist_agattn_v7x_xy2x2_x_b2_s256_h8_d64_bf16_1_alg».proof.Proof.Gen.Kernel.Frame
import proofs.«900411_g7700000000000412_dist_agattn_v7x_xy2x2_x_b2_s256_h8_d64_bf16_1_alg».proof.Proof.WFlow
import proofs.«900411_g7700000000000412_dist_agattn_v7x_xy2x2_x_b2_s256_h8_d64_bf16_1_alg».proof.Proof.WMesh
import proofs.«900411_g7700000000000412_dist_agattn_v7x_xy2x2_x_b2_s256_h8_d64_bf16_1_alg».proof.Proof.WSched
import proofs.«900411_g7700000000000412_dist_agattn_v7x_xy2x2_x_b2_s256_h8_d64_bf16_1_alg».proof.Proof.WCells
import proofs.«900411_g7700000000000412_dist_agattn_v7x_xy2x2_x_b2_s256_h8_d64_bf16_1_alg».proof.Proof.WData
import proofs.«900411_g7700000000000412_dist_agattn_v7x_xy2x2_x_b2_s256_h8_d64_bf16_1_alg».proof.Proof.WRegions
import proofs.«900411_g7700000000000412_dist_agattn_v7x_xy2x2_x_b2_s256_h8_d64_bf16_1_alg».proof.Proof.WRegionsPart
import proofs.«900411_g7700000000000412_dist_agattn_v7x_xy2x2_x_b2_s256_h8_d64_bf16_1_alg».proof.Proof.WRegionsIO
import proofs.«900411_g7700000000000412_dist_agattn_v7x_xy2x2_x_b2_s256_h8_d64_bf16_1_alg».proof.Proof.WRegionsCover
import proofs.«900411_g7700000000000412_dist_agattn_v7x_xy2x2_x_b2_s256_h8_d64_bf16_1_alg».proof.Proof.WRegionsRows
import proofs.«900411_g7700000000000412_dist_agattn_v7x_xy2x2_x_b2_s256_h8_d64_bf16_1_alg».proof.Proof.WSteps
import proofs.«900411_g7700000000000412_dist_agattn_v7x_xy2x2_x_b2_s256_h8_d64_bf16_1_alg».proof.Proof.WOwes
import proofs.«900411_g7700000000000412_dist_agattn_v7x_xy2x2_x_b2_s256_h8_d64_bf16_1_alg».proof.Proof.WShares
import proofs.«900411_g7700000000000412_dist_agattn_v7x_xy2x2_x_b2_s256_h8_d64_bf16_1_alg».proof.Proof.WBodyDefs
import proofs.«900411_g7700000000000412_dist_agattn_v7x_xy2x2_x_b2_s256_h8_d64_bf16_1_alg».proof.Proof.WBodyWrap
import proofs.«900411_g7700000000000412_dist_agattn_v7x_xy2x2_x_b2_s256_h8_d64_bf16_1_alg».proof.Proof.WBodyPost
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Mesh
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic
variable {F : FTy → Type} [FloatOps F]
local notation "𝕄" => MT nD τ sig Unit (Elt F) ℕ UU ℕ
variable (m : (ℓ : Loc nD τ sig) → Buf (Elt F) ℓ)

theorem hz4 : (![0, 0, 0, 0] : Fin 4 → Nat) = fun _ => 0 := funext fun a => by fin_cases a <;> rfl

/-- The marks that a device's own receive cells are at round 0, as families. -/
theorem reached_xr (K : Dev nD × Fin 33 → ℕ) (c : Dev nD) :
    (records (sched (F := F) m) K : sProp 𝕄) ⊢ bigSep Finset.univ fun i : Fin 10 => reached ER (xrCell c i) 0 :=
  bigSep_intro_persistent fun i _ => (records_reached (sched (F := F) m) K (c, kXr i)).trans (Entails.of_eq (by rw [kcell_kXr]))
theorem reached_yr (K : Dev nD × Fin 33 → ℕ) (c : Dev nD) :
    (records (sched (F := F) m) K : sProp 𝕄) ⊢ bigSep Finset.univ fun j : Fin 6 => reached ER (yrCell c j) 0 :=
  bigSep_intro_persistent fun j _ => (records_reached (sched (F := F) m) K (c, kYr j)).trans (Entails.of_eq (by rw [kcell_kYr]))

/-- A landing chunk at any contents, as the neighbour's barrier payload spells it. -/
theorem slot_x (c : Dev nD) (i : Fin 10) (f : Buf (Elt F) ((rchunk c i).view.loc (c : Thread nD τ))) :
    pts (F := F) c (rchunk c i) fullShare f ⊢ iprop(∃ f', pts (F := F) c (rchunk (xn c) i) fullShare f') := by
  rw [rchunk_xn]; iintro H; iexists f; iexact H
theorem slot_y (c : Dev nD) (j : Fin 6) (f : Buf (Elt F) ((rchunk (yn c) (j10 j)).view.loc (c : Thread nD τ))) :
    pts (F := F) c (rchunk (yn c) (j10 j)) fullShare f ⊢ iprop(∃ f', pts (F := F) c (rchunk (yn c) (j10 j)) fullShare f') := by
  iintro H; iexists f; iexact H

theorem slots_x (c : Dev nD) (f : Buf (Elt F) (remLoc c)) :
    (bigSep Finset.univ fun i : Fin 10 => pts (F := F) c (rchunk c i) fullShare f : sProp 𝕄)
      ⊢ bigSep Finset.univ fun i : Fin 10 => iprop(∃ f', pts (F := F) c (rchunk (xn c) i) fullShare f') :=
  bigSep_mono fun i _ => slot_x c i f
theorem slots_y (c : Dev nD) (f : Buf (Elt F) (remLoc c)) :
    (bigSep Finset.univ fun j : Fin 6 => pts (F := F) c (rchunk (yn c) (j10 j)) fullShare f : sProp 𝕄)
      ⊢ bigSep Finset.univ fun j : Fin 6 => iprop(∃ f', pts (F := F) c (rchunk (yn c) (j10 j)) fullShare f') :=
  bigSep_mono fun j _ => slot_y c j f

/-- A load of a whole staging buffer reads its contents. -/
theorem read_q (f : (cc0_stg0_0 : Ref sig .tc).ty.Contents (Elt F)) :
    (Memref.whole cc0_stg0_0 : Memref sig .tc .vmem S2x256x8x64 .f32).view.readAt (Elt F)
      (Rect.unit (s := S2x256x8x64) ![0, 0, 0, 0] S2x256x8x64.size inb_S2x256x8x64_S2x256x8x64_0_0_0_0).toLoadRect f = f :=
  Memref.readAt_unit_zero (Elt F) cc0_stg0_0 hz4 _ f
theorem read_k (f : (cc0_stg1_0 : Ref sig .tc).ty.Contents (Elt F)) :
    (Memref.whole cc0_stg1_0 : Memref sig .tc .vmem S2x256x8x64 .f32).view.readAt (Elt F)
      (Rect.unit (s := S2x256x8x64) ![0, 0, 0, 0] S2x256x8x64.size inb_S2x256x8x64_S2x256x8x64_0_0_0_0).toLoadRect f = f :=
  Memref.readAt_unit_zero (Elt F) cc0_stg1_0 hz4 _ f
theorem read_v (f : (cc0_stg2_0 : Ref sig .tc).ty.Contents (Elt F)) :
    (Memref.whole cc0_stg2_0 : Memref sig .tc .vmem S2x256x8x64 .f32).view.readAt (Elt F)
      (Rect.unit (s := S2x256x8x64) ![0, 0, 0, 0] S2x256x8x64.size inb_S2x256x8x64_S2x256x8x64_0_0_0_0).toLoadRect f = f :=
  Memref.readAt_unit_zero (Elt F) cc0_stg2_0 hz4 _ f

/-- What a first-axis receive cell hands over, spelt at the device's own chunk view. -/
theorem xrPay_eq (c : Dev nD) (i : Fin 10) : xrPay m c i = pts (F := F) c (rchunk c i) fullShare (remC m c) := by
  have h : ((rchunk (xn c) i).view.set : Finset S2x512x512.Idx) = (rchunk c i).view.set :=
    Finset.ext fun idx => by rw [mem_rchunk, mem_rchunk]; unfold xplane; rw [yc_xn]
  show ((remLoc c) ↦[(rchunk (xn c) i).view.set]{fullShare} (remC m c) : sProp 𝕄) = ((remLoc c) ↦[(rchunk c i).view.set]{fullShare} (remC m c))
  rw [h]

/-- The first six chunks of the plan, named as forwards. -/
theorem rc_j10 (c : Dev nD) (j : Fin 6) (i : Fin 10) (h : i = j10 j) (q : PosShare TreeShare) (f : Buf (Elt F) (remLoc c)) :
    pts (F := F) c (rchunk c i) q f = pts (F := F) c (rchunk c (j10 j)) q f := by subst h; rfl

/-- The own planes' chunks credit a copy cell the same amount as the received planes'. -/
theorem lchunk_credit (c : Dev nD) (i : Fin 10) (sm : DmaSem sig) : (lchunk c i).view.amount (.dma sm) = N := rfl

/-- The two stored blocks, as the body's payload terms spell them. -/
theorem out0_def (q : Vec F S2x256x8x64 .f32) (lk lv : Vec F S1x512x512 .bf16) (rk rv : Vec F S1x256x512 .bf16) :
    Flow.out0 q lk lv rk rv
      = k0_pay12 (k0_pay5 (k0_pay4 q)) (k0_pay10 (k0_pay8 (k0_pay5 (k0_pay4 q)) (k0_pay6 lk)))
          (k0_pay11 (k0_pay7 lv) (k0_pay9 (k0_pay8 (k0_pay5 (k0_pay4 q)) (k0_pay6 lk)))) rk rv := rfl
theorem out1_def (q : Vec F S2x256x8x64 .f32) (lk lv : Vec F S1x512x512 .bf16) (rk rv : Vec F S1x256x512 .bf16) :
    Flow.out1 q lk lv rk rv
      = k0_pay17 (k0_pay10 (k0_pay8 (k0_pay5 (k0_pay4 q)) (k0_pay6 lk)))
          (k0_pay11 (k0_pay7 lv) (k0_pay9 (k0_pay8 (k0_pay5 (k0_pay4 q)) (k0_pay6 lk)))) (k0_pay13 rv)
          (k0_pay15 (k0_pay5 (k0_pay4 q)) rk) (k0_pay16 (k0_pay5 (k0_pay4 q)) rk) := rfl

set_option maxHeartbeats 1000000 in
set_option maxRecDepth 65536 in
theorem sound_body : SoundBody (F := F) m := by
  intro K c Kt
  unfold theBody
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c]
  unfold bodyPre ghost
  iintro ⟨⟨⟨⟨#Hrec, Hlin⟩, Hcred, #Hlev, ⟨%fl, Hloc⟩, ⟨%fr, Hrem⟩⟩, Ho, ⟨%gq, %hgq, Hq⟩, ⟨%gk, %hgk, Hk⟩, ⟨%gv, %hgv, Hv⟩, ⟨%d3, %go, %hgo, Hout⟩⟩, Hk'⟩
  subst hgq hgk hgv
  unfold Dat.owesAt Pipeline.owesWithin
  icases Ho with ⟨%W, %hW, HO⟩
  rw [show (dats m 0 c).owed t0_0.castSucc = O₀ N c from rfl]
  ihave Hlin' := (Entails.of_eq (linear_chain c)) $$ Hlin
  icases Hlin' with ⟨⟨HaB, ⟨Haxs0, Haxs1, Haxs2, Haxs3, Haxs4, Haxs5, Haxs6, Haxs7, Haxs8, Haxs9⟩, ⟨Haxr0, Haxr1, Haxr2, Haxr3, Haxr4, Haxr5, Haxr6, Haxr7, Haxr8, Haxr9⟩, ⟨Hays0, Hays1, Hays2, Hays3, Hays4, Hays5⟩, ⟨Hayr0, Hayr1, Hayr2, Hayr3, Hayr4, Hayr5⟩⟩, ⟨HtBX, ⟨Htxs0, Htxs1, Htxs2, Htxs3, Htxs4, Htxs5, Htxs6, Htxs7, Htxs8, Htxs9⟩, ⟨Htxr0, Htxr1, Htxr2, Htxr3, Htxr4, Htxr5, Htxr6, Htxr7, Htxr8, Htxr9⟩, ⟨Htys0, Htys1, Htys2, Htys3, Htys4, Htys5⟩, ⟨Htyr0, Htyr1, Htyr2, Htyr3, Htyr4, Htyr5⟩⟩, HtBY⟩
  ihave Hcred' := (Entails.of_eq (credsOf_chain c)) $$ Hcred
  icases Hcred' with ⟨HcB, ⟨Hcxr0, Hcxr1, Hcxr2, Hcxr3, Hcxr4, Hcxr5, Hcxr6, Hcxr7, Hcxr8, Hcxr9⟩, ⟨Hcyr0, Hcyr1, Hcyr2, Hcyr3, Hcyr4, Hcyr5⟩⟩
  -- the received planes chunk by chunk: ten for the first-axis neighbour to fill, six for the second-axis neighbour
  ihave Hrem := (rem_split c fullShare fr).1 $$ Hrem
  icases Hrem with ⟨HX, HY⟩
  -- the signal to the first-axis neighbour's barrier: the ten landing chunks and the marks of their receive cells
  ihave #HIbx := (records_inv (sched (F := F) m) K (xn c, 0)) $$ Hrec
  ihave #Hrbx := (records_reached (sched (F := F) m) K (xn c, 0)) $$ Hrec
  iapply (Rounds.wp_signal 𝒱₀ ER (sched m) (c : Thread nD τ) none (dst := (xn c : Thread nD τ)) (κ := K (xn c, 0))
      (d := false) (by rw [duties_bar]; exact Finset.mem_univ _) ((amount_bar m (xn c) false).trans (by decide)) ()
      (OX c 0 + OY c 0 + tallyAt (barCell (yn c)) () 1) (owe_barX c)) $$ [HO HtBX HX]
  · isplitr; · iexact HIbx
    isplitl [HO]; · iexact HO
    isplitl [HtBX]; · iexact HtBX
    isplitl [HX]
    · rw [payload_bar_false]; unfold barPayX; rw [xn_xn]
      isplitl [HX]
      · iapply (slots_x c fr) $$ HX
      · iapply (reached_xr m K c) $$ Hrec
    · iexact Hrbx
  iintro HO
  -- the signal to the second-axis neighbour's barrier: the six landing chunks and their marks
  ihave #HIby := (records_inv (sched (F := F) m) K (yn c, 0)) $$ Hrec
  ihave #Hrby := (records_reached (sched (F := F) m) K (yn c, 0)) $$ Hrec
  iapply (Rounds.wp_signal 𝒱₀ ER (sched m) (c : Thread nD τ) none (dst := (yn c : Thread nD τ)) (κ := K (yn c, 0))
      (d := true) (by rw [duties_bar]; exact Finset.mem_univ _) ((amount_bar m (yn c) true).trans (by decide)) ()
      (OX c 0 + OY c 0) (owe_barY c)) $$ [HO HtBY HY]
  · isplitr; · iexact HIby
    isplitl [HO]; · iexact HO
    isplitl [HtBY]; · iexact HtBY
    isplitl [HY]
    · rw [payload_bar_true]; unfold barPayY; rw [yn_yn]
      isplitl [HY]
      · iapply (slots_y c fr) $$ HY
      · iapply (reached_yr m K c) $$ Hrec
    · iexact Hrby
  iintro HO
  -- the own planes are staged: keys into plane 0, values into plane 1
  iapply (wp_load 𝒱₀ (c : Thread nD τ) none Set.univ (m := (Memref.whole cc0_stg1_0 : Memref sig .tc .vmem S2x256x8x64 .f32)) (Finset.subset_univ _)) $$ Hk; iintro Hk
  rw [read_k]
  iapply (wp_load 𝒱₀ (c : Thread nD τ) none Set.univ (m := locM) (Finset.subset_univ _)) $$ Hloc; iintro Hloc
  iapply (wp_store 𝒱₀ (c : Thread nD τ) none Set.univ (m := locM) (r := Rect.unit (s := S2x512x512) ![0, 0, 0] S1x512x512.size inb_S2x512x512_S1x512x512_0_0_0) (Mk := Finset.univ) (Finset.subset_univ _)) $$ Hloc; iintro Hloc
  iapply (wp_load 𝒱₀ (c : Thread nD τ) none Set.univ (m := (Memref.whole cc0_stg2_0 : Memref sig .tc .vmem S2x256x8x64 .f32)) (Finset.subset_univ _)) $$ Hv; iintro Hv
  rw [read_v]
  iapply (wp_load 𝒱₀ (c : Thread nD τ) none Set.univ (m := locM) (Finset.subset_univ _)) $$ Hloc; iintro Hloc
  iapply (wp_store 𝒱₀ (c : Thread nD τ) none Set.univ (m := locM) (r := Rect.unit (s := S2x512x512) ![1, 0, 0] S1x512x512.size inb_S2x512x512_S1x512x512_1_0_0) (Mk := Finset.univ) (Finset.subset_univ _)) $$ Hloc; iintro Hloc
  ihave Hloc' := (Entails.of_eq (congrArg (fun f => (locPts (F := F) c f : sProp 𝕄)) (loc_stores m c fl))) $$ Hloc
  -- the wait for both neighbours: their landing chunks arrive with it
  ihave #HIb := (records_inv (sched (F := F) m) K (c, 0)) $$ Hrec
  iapply (Rounds.wp_wait_rest_token 𝒱₀ ER (sched m) (c : Thread nD τ) none (κ := K (c, 0))
      (wpE_semWait_eq 𝒱₀ (c : Thread nD τ) none Set.univ) (Set.mem_univ _) () (O := OX c 0 + OY c 0) (W := W) (R := 0) (m := 0) (T := ∅)
      (by rw [expect_bar]; decide)) $$ [HcB HO HaB]
  · isplitr; · iexact HIb
    isplitl [HcB]; · iexact HcB
    isplitl [HO]; · iexact HO
    isplitr; · iapply (mayWait_bar c 0 0); iexact Hlev
    iexact HaB
  iintro ⟨HO, HaB, -, Hpay⟩
  ihave Hp := (Entails.of_eq (rest_bar m c)) $$ Hpay
  unfold barPayX barPayY
  icases Hp with ⟨⟨HDX, #HrX⟩, ⟨HDY, #HrY⟩⟩
  ihave HDX' := (Entails.of_eq (bigSep_fin10 _)) $$ HDX
  icases HDX' with ⟨⟨%fx0, Hdx0⟩, ⟨%fx1, Hdx1⟩, ⟨%fx2, Hdx2⟩, ⟨%fx3, Hdx3⟩, ⟨%fx4, Hdx4⟩, ⟨%fx5, Hdx5⟩, ⟨%fx6, Hdx6⟩, ⟨%fx7, Hdx7⟩, ⟨%fx8, Hdx8⟩, ⟨%fx9, Hdx9⟩⟩
  ihave HDY' := (Entails.of_eq (bigSep_fin6 _)) $$ HDY
  icases HDY' with ⟨⟨%fy0, Hdy0⟩, ⟨%fy1, Hdy1⟩, ⟨%fy2, Hdy2⟩, ⟨%fy3, Hdy3⟩, ⟨%fy4, Hdy4⟩, ⟨%fy5, Hdy5⟩⟩
  -- the own planes: the left half share chunk by chunk for the copies, the right half whole for the loads
  ihave Hlo := (loc_open c (locC m c)) $$ Hloc'
  icases Hlo with ⟨HLs, HLrest, HLR⟩
  ihave HLs' := (Entails.of_eq (bigSep_fin10 _)) $$ HLs
  icases HLs' with ⟨Hls0, Hls1, Hls2, Hls3, Hls4, Hls5, Hls6, Hls7, Hls8, Hls9⟩
  -- the ten copies across the first axis
  iapply (wp_xsendR m K c _ (dev3_eq c) 0 fx0 _ (OX c 1 + OY c 0) (OX c 0 + OY c 0) (owe_X c 0)) $$ Hrec Hls0 Hdx0 HO Htxs0 Htxr0
  iintro ⟨Hcxs0, HO⟩
  iapply (wp_xsendR m K c _ (dev4_eq c) 1 fx1 _ (OX c 2 + OY c 0) (OX c 1 + OY c 0) (owe_X c 1)) $$ Hrec Hls1 Hdx1 HO Htxs1 Htxr1
  iintro ⟨Hcxs1, HO⟩
  iapply (wp_xsendR m K c _ (dev5_eq c) 2 fx2 _ (OX c 3 + OY c 0) (OX c 2 + OY c 0) (owe_X c 2)) $$ Hrec Hls2 Hdx2 HO Htxs2 Htxr2
  iintro ⟨Hcxs2, HO⟩
  iapply (wp_xsendR m K c _ (dev6_eq c) 3 fx3 _ (OX c 4 + OY c 0) (OX c 3 + OY c 0) (owe_X c 3)) $$ Hrec Hls3 Hdx3 HO Htxs3 Htxr3
  iintro ⟨Hcxs3, HO⟩
  iapply (wp_xsendR m K c _ (dev7_eq c) 4 fx4 _ (OX c 5 + OY c 0) (OX c 4 + OY c 0) (owe_X c 4)) $$ Hrec Hls4 Hdx4 HO Htxs4 Htxr4
  iintro ⟨Hcxs4, HO⟩
  iapply (wp_xsendR m K c _ (dev8_eq c) 5 fx5 _ (OX c 6 + OY c 0) (OX c 5 + OY c 0) (owe_X c 5)) $$ Hrec Hls5 Hdx5 HO Htxs5 Htxr5
  iintro ⟨Hcxs5, HO⟩
  iapply (wp_xsendR m K c _ (dev9_eq c) 6 fx6 _ (OX c 7 + OY c 0) (OX c 6 + OY c 0) (owe_X c 6)) $$ Hrec Hls6 Hdx6 HO Htxs6 Htxr6
  iintro ⟨Hcxs6, HO⟩
  iapply (wp_xsendR m K c _ (dev10_eq c) 7 fx7 _ (OX c 8 + OY c 0) (OX c 7 + OY c 0) (owe_X c 7)) $$ Hrec Hls7 Hdx7 HO Htxs7 Htxr7
  iintro ⟨Hcxs7, HO⟩
  iapply (wp_xsendR m K c _ (dev11_eq c) 8 fx8 _ (OX c 9 + OY c 0) (OX c 8 + OY c 0) (owe_X c 8)) $$ Hrec Hls8 Hdx8 HO Htxs8 Htxr8
  iintro ⟨Hcxs8, HO⟩
  iapply (wp_xsendR m K c _ (dev12_eq c) 9 fx9 _ (OX c 10 + OY c 0) (OX c 9 + OY c 0) (owe_X c 9)) $$ Hrec Hls9 Hdx9 HO Htxs9 Htxr9
  iintro ⟨Hcxs9, HO⟩
  ihave HO' := (Entails.of_eq (congrArg (fun O => (owes (c : Thread nD τ) O _ : sProp 𝕄)) (owe_X_done c))) $$ HO
  -- the queries, and the own planes through the right half share
  iapply (wp_load 𝒱₀ (c : Thread nD τ) none Set.univ (m := (Memref.whole cc0_stg0_0 : Memref sig .tc .vmem S2x256x8x64 .f32)) (Finset.subset_univ _)) $$ Hq; iintro Hq
  rw [read_q]
  iapply (wp_load 𝒱₀ (c : Thread nD τ) none Set.univ (m := locM) (Finset.subset_univ _)) $$ HLR; iintro HLR
  rw [loc_load_0 m c]
  iapply (wp_load 𝒱₀ (c : Thread nD τ) none Set.univ (m := locM) (Finset.subset_univ _)) $$ HLR; iintro HLR
  rw [loc_load_1 m c]
  -- each of the first six chunks, once landed, is forwarded across the second axis (its left half share travels)
  iapply (wp_dwaitR m K c (nXr 0) (dst := rchunk c 0) (rchunk_credit c 0 (dsem (nXr 0))) _ (OY c 0)) $$ Hrec Hcxr0 HO' [] Haxr0
  · iapply (mayWait_xr c 0 0); iexact Hlev
  iintro ⟨HO, Haxr0, Hpay⟩
  ihave Hr0 := (Entails.of_eq ((payload_xr m c 0 false).trans (xrPay_eq m c 0))) $$ Hpay
  ihave Hh := (pts_halve c (rchunk c 0) (remC m c)).1 $$ Hr0
  icases Hh with ⟨Hrl0, Hrr0⟩
  ihave Hrj0 := (Entails.of_eq (rc_j10 c 0 0 rfl fullShare.left (remC m c))) $$ Hrl0
  iapply (wp_ysendR m K c _ (dev13_eq c) 0 fy0 _ (OY c 1) (OY c 0) (owe_Y c 0)) $$ Hrec Hrj0 Hdy0 HO Htys0 Htyr0
  iintro ⟨Hcys0, HO⟩
  iapply (wp_dwaitR m K c (nXr 1) (dst := rchunk c 1) (rchunk_credit c 1 (dsem (nXr 1))) _ (OY c 1)) $$ Hrec Hcxr1 HO [] Haxr1
  · iapply (mayWait_xr c 1 1); iexact Hlev
  iintro ⟨HO, Haxr1, Hpay⟩
  ihave Hr1 := (Entails.of_eq ((payload_xr m c 1 false).trans (xrPay_eq m c 1))) $$ Hpay
  ihave Hh := (pts_halve c (rchunk c 1) (remC m c)).1 $$ Hr1
  icases Hh with ⟨Hrl1, Hrr1⟩
  ihave Hrj1 := (Entails.of_eq (rc_j10 c 1 1 rfl fullShare.left (remC m c))) $$ Hrl1
  iapply (wp_ysendR m K c _ (dev14_eq c) 1 fy1 _ (OY c 2) (OY c 1) (owe_Y c 1)) $$ Hrec Hrj1 Hdy1 HO Htys1 Htyr1
  iintro ⟨Hcys1, HO⟩
  iapply (wp_dwaitR m K c (nXr 2) (dst := rchunk c 2) (rchunk_credit c 2 (dsem (nXr 2))) _ (OY c 2)) $$ Hrec Hcxr2 HO [] Haxr2
  · iapply (mayWait_xr c 2 2); iexact Hlev
  iintro ⟨HO, Haxr2, Hpay⟩
  ihave Hr2 := (Entails.of_eq ((payload_xr m c 2 false).trans (xrPay_eq m c 2))) $$ Hpay
  ihave Hh := (pts_halve c (rchunk c 2) (remC m c)).1 $$ Hr2
  icases Hh with ⟨Hrl2, Hrr2⟩
  ihave Hrj2 := (Entails.of_eq (rc_j10 c 2 2 rfl fullShare.left (remC m c))) $$ Hrl2
  iapply (wp_ysendR m K c _ (dev15_eq c) 2 fy2 _ (OY c 3) (OY c 2) (owe_Y c 2)) $$ Hrec Hrj2 Hdy2 HO Htys2 Htyr2
  iintro ⟨Hcys2, HO⟩
  iapply (wp_dwaitR m K c (nXr 3) (dst := rchunk c 3) (rchunk_credit c 3 (dsem (nXr 3))) _ (OY c 3)) $$ Hrec Hcxr3 HO [] Haxr3
  · iapply (mayWait_xr c 3 3); iexact Hlev
  iintro ⟨HO, Haxr3, Hpay⟩
  ihave Hr3 := (Entails.of_eq ((payload_xr m c 3 false).trans (xrPay_eq m c 3))) $$ Hpay
  ihave Hh := (pts_halve c (rchunk c 3) (remC m c)).1 $$ Hr3
  icases Hh with ⟨Hrl3, Hrr3⟩
  ihave Hrj3 := (Entails.of_eq (rc_j10 c 3 3 rfl fullShare.left (remC m c))) $$ Hrl3
  iapply (wp_ysendR m K c _ (dev16_eq c) 3 fy3 _ (OY c 4) (OY c 3) (owe_Y c 3)) $$ Hrec Hrj3 Hdy3 HO Htys3 Htyr3
  iintro ⟨Hcys3, HO⟩
  iapply (wp_dwaitR m K c (nXr 4) (dst := rchunk c 4) (rchunk_credit c 4 (dsem (nXr 4))) _ (OY c 4)) $$ Hrec Hcxr4 HO [] Haxr4
  · iapply (mayWait_xr c 4 4); iexact Hlev
  iintro ⟨HO, Haxr4, Hpay⟩
  ihave Hr4 := (Entails.of_eq ((payload_xr m c 4 false).trans (xrPay_eq m c 4))) $$ Hpay
  ihave Hh := (pts_halve c (rchunk c 4) (remC m c)).1 $$ Hr4
  icases Hh with ⟨Hrl4, Hrr4⟩
  ihave Hrj4 := (Entails.of_eq (rc_j10 c 4 4 rfl fullShare.left (remC m c))) $$ Hrl4
  iapply (wp_ysendR m K c _ (dev17_eq c) 4 fy4 _ (OY c 5) (OY c 4) (owe_Y c 4)) $$ Hrec Hrj4 Hdy4 HO Htys4 Htyr4
  iintro ⟨Hcys4, HO⟩
  iapply (wp_dwaitR m K c (nXr 5) (dst := rchunk c 5) (rchunk_credit c 5 (dsem (nXr 5))) _ (OY c 5)) $$ Hrec Hcxr5 HO [] Haxr5
  · iapply (mayWait_xr c 5 5); iexact Hlev
  iintro ⟨HO, Haxr5, Hpay⟩
  ihave Hr5 := (Entails.of_eq ((payload_xr m c 5 false).trans (xrPay_eq m c 5))) $$ Hpay
  ihave Hh := (pts_halve c (rchunk c 5) (remC m c)).1 $$ Hr5
  icases Hh with ⟨Hrl5, Hrr5⟩
  ihave Hrj5 := (Entails.of_eq (rc_j10 c 5 5 rfl fullShare.left (remC m c))) $$ Hrl5
  iapply (wp_ysendR m K c _ (dev18_eq c) 5 fy5 _ (OY c 6) (OY c 5) (owe_Y c 5)) $$ Hrec Hrj5 Hdy5 HO Htys5 Htyr5
  iintro ⟨Hcys5, HO⟩
  ihave HOz := (Entails.of_eq (congrArg (fun O => (owes (c : Thread nD τ) O _ : sProp 𝕄)) (OY_end c))) $$ HO
  -- batch 0: the four forwarded chunks of the other plane, then rows [0, 256) of both received planes
  iapply (wp_dwaitR m K c (nYr 0) (dst := rchunk c (j10 0)) (rchunk_credit c (j10 0) (dsem (nYr 0))) _ 0) $$ Hrec Hcyr0 HOz [] Hayr0
  · rw [MayWait_zero]; iempintro
  iintro ⟨HO, Hayr0, Hpay⟩
  ihave Hy0 := (Entails.of_eq ((payload_yr m c 0 false).trans (by unfold yrPay; rfl))) $$ Hpay
  ihave Hh := (pts_halve c (rchunk (yn c) (j10 0)) (remC m c)).1 $$ Hy0
  icases Hh with ⟨Hyp0, Hyq0⟩
  iapply (wp_dwaitR m K c (nYr 1) (dst := rchunk c (j10 1)) (rchunk_credit c (j10 1) (dsem (nYr 1))) _ 0) $$ Hrec Hcyr1 HO [] Hayr1
  · rw [MayWait_zero]; iempintro
  iintro ⟨HO, Hayr1, Hpay⟩
  ihave Hy1 := (Entails.of_eq ((payload_yr m c 1 false).trans (by unfold yrPay; rfl))) $$ Hpay
  ihave Hh := (pts_halve c (rchunk (yn c) (j10 1)) (remC m c)).1 $$ Hy1
  icases Hh with ⟨Hyp1, Hyq1⟩
  iapply (wp_dwaitR m K c (nYr 2) (dst := rchunk c (j10 2)) (rchunk_credit c (j10 2) (dsem (nYr 2))) _ 0) $$ Hrec Hcyr2 HO [] Hayr2
  · rw [MayWait_zero]; iempintro
  iintro ⟨HO, Hayr2, Hpay⟩
  ihave Hy2 := (Entails.of_eq ((payload_yr m c 2 false).trans (by unfold yrPay; rfl))) $$ Hpay
  ihave Hh := (pts_halve c (rchunk (yn c) (j10 2)) (remC m c)).1 $$ Hy2
  icases Hh with ⟨Hyp2, Hyq2⟩
  iapply (wp_dwaitR m K c (nYr 3) (dst := rchunk c (j10 3)) (rchunk_credit c (j10 3) (dsem (nYr 3))) _ 0) $$ Hrec Hcyr3 HO [] Hayr3
  · rw [MayWait_zero]; iempintro
  iintro ⟨HO, Hayr3, Hpay⟩
  ihave Hy3 := (Entails.of_eq ((payload_yr m c 3 false).trans (by unfold yrPay; rfl))) $$ Hpay
  ihave Hh := (pts_halve c (rchunk (yn c) (j10 3)) (remC m c)).1 $$ Hy3
  icases Hh with ⟨Hyp3, Hyq3⟩
  ihave HR0 := (rows_join0 c fullShare.right (remC m c)).1 $$ [Hrr0 Hrr1 Hrr2 Hrr3 Hyq0 Hyq1 Hyq2 Hyq3]
  ·
    isplitl [Hrr0]; · iexact Hrr0
    isplitl [Hrr1]; · iexact Hrr1
    isplitl [Hrr2]; · iexact Hrr2
    isplitl [Hrr3]; · iexact Hrr3
    isplitl [Hyq0]; · iexact Hyq0
    isplitl [Hyq1]; · iexact Hyq1
    isplitl [Hyq2]; · iexact Hyq2
    iexact Hyq3
  iapply (wp_load 𝒱₀ (c : Thread nD τ) none Set.univ (m := remM) (rem_load_rows_0_0 c)) $$ HR0; iintro HR0
  rw [rem_load_0_0 m c]
  iapply (wp_load 𝒱₀ (c : Thread nD τ) none Set.univ (m := remM) (rem_load_rows_1_0 c)) $$ HR0; iintro HR0
  rw [rem_load_1_0 m c]
  rw [← out0_def]
  iapply (wp_load 𝒱₀ (c : Thread nD τ) none Set.univ (m := outM) (Finset.subset_univ _)) $$ Hout; iintro Hout
  iapply (wp_store 𝒱₀ (c : Thread nD τ) none Set.univ (m := outM) (r := Rect.unit (s := S2x256x8x64) ![0, 0, 0, 0] S1x256x8x64.size inb_S2x256x8x64_S1x256x8x64_0_0_0_0) (Mk := Finset.univ) (Finset.subset_univ _)) $$ Hout; iintro Hout
  ihave Hb0 := (rows_join0 c fullShare.right (remC m c)).2 $$ HR0
  icases Hb0 with ⟨Hrr0, Hrr1, Hrr2, Hrr3, Hyq0, Hyq1, Hyq2, Hyq3⟩
  -- batch 1: the last two forwards, the other plane's last two chunks, this plane's last two; rows [256, 512)
  iapply (wp_dwaitR m K c (nYr 4) (dst := rchunk c (j10 4)) (rchunk_credit c (j10 4) (dsem (nYr 4))) _ 0) $$ Hrec Hcyr4 HO [] Hayr4
  · rw [MayWait_zero]; iempintro
  iintro ⟨HO, Hayr4, Hpay⟩
  ihave Hy4 := (Entails.of_eq ((payload_yr m c 4 false).trans (by unfold yrPay; rfl))) $$ Hpay
  ihave Hh := (pts_halve c (rchunk (yn c) (j10 4)) (remC m c)).1 $$ Hy4
  icases Hh with ⟨Hyp4, Hyq4⟩
  iapply (wp_dwaitR m K c (nYr 5) (dst := rchunk c (j10 5)) (rchunk_credit c (j10 5) (dsem (nYr 5))) _ 0) $$ Hrec Hcyr5 HO [] Hayr5
  · rw [MayWait_zero]; iempintro
  iintro ⟨HO, Hayr5, Hpay⟩
  ihave Hy5 := (Entails.of_eq ((payload_yr m c 5 false).trans (by unfold yrPay; rfl))) $$ Hpay
  ihave Hh := (pts_halve c (rchunk (yn c) (j10 5)) (remC m c)).1 $$ Hy5
  icases Hh with ⟨Hyp5, Hyq5⟩
  iapply (wp_dwaitR m K c (nXr 8) (dst := rchunk c 8) (rchunk_credit c 8 (dsem (nXr 8))) _ 0) $$ Hrec Hcxr8 HO [] Haxr8
  · rw [MayWait_zero]; iempintro
  iintro ⟨HO, Haxr8, Hpay⟩
  ihave Hr8 := (Entails.of_eq ((payload_xr m c 8 false).trans (xrPay_eq m c 8))) $$ Hpay
  ihave Hh := (pts_halve c (rchunk c 8) (remC m c)).1 $$ Hr8
  icases Hh with ⟨Hrl8, Hrr8⟩
  iapply (wp_dwaitR m K c (nXr 9) (dst := rchunk c 9) (rchunk_credit c 9 (dsem (nXr 9))) _ 0) $$ Hrec Hcxr9 HO [] Haxr9
  · rw [MayWait_zero]; iempintro
  iintro ⟨HO, Haxr9, Hpay⟩
  ihave Hr9 := (Entails.of_eq ((payload_xr m c 9 false).trans (xrPay_eq m c 9))) $$ Hpay
  ihave Hh := (pts_halve c (rchunk c 9) (remC m c)).1 $$ Hr9
  icases Hh with ⟨Hrl9, Hrr9⟩
  iapply (wp_dwaitR m K c (nXr 6) (dst := rchunk c 6) (rchunk_credit c 6 (dsem (nXr 6))) _ 0) $$ Hrec Hcxr6 HO [] Haxr6
  · rw [MayWait_zero]; iempintro
  iintro ⟨HO, Haxr6, Hpay⟩
  ihave Hr6 := (Entails.of_eq ((payload_xr m c 6 false).trans (xrPay_eq m c 6))) $$ Hpay
  ihave Hh := (pts_halve c (rchunk c 6) (remC m c)).1 $$ Hr6
  icases Hh with ⟨Hrl6, Hrr6⟩
  iapply (wp_dwaitR m K c (nXr 7) (dst := rchunk c 7) (rchunk_credit c 7 (dsem (nXr 7))) _ 0) $$ Hrec Hcxr7 HO [] Haxr7
  · rw [MayWait_zero]; iempintro
  iintro ⟨HO, Haxr7, Hpay⟩
  ihave Hr7 := (Entails.of_eq ((payload_xr m c 7 false).trans (xrPay_eq m c 7))) $$ Hpay
  ihave Hh := (pts_halve c (rchunk c 7) (remC m c)).1 $$ Hr7
  icases Hh with ⟨Hrl7, Hrr7⟩
  ihave HR1 := (rows_join1 c fullShare.right (remC m c)).1 $$ [Hrr4 Hrr5 Hrr6 Hrr7 Hrr8 Hrr9 Hyq4 Hyq5]
  ·
    isplitl [Hrr4]; · iexact Hrr4
    isplitl [Hrr5]; · iexact Hrr5
    isplitl [Hrr6]; · iexact Hrr6
    isplitl [Hrr7]; · iexact Hrr7
    isplitl [Hrr8]; · iexact Hrr8
    isplitl [Hrr9]; · iexact Hrr9
    isplitl [Hyq4]; · iexact Hyq4
    iexact Hyq5
  iapply (wp_load 𝒱₀ (c : Thread nD τ) none Set.univ (m := remM) (rem_load_rows_0_256 c)) $$ HR1; iintro HR1
  rw [rem_load_0_256 m c]
  iapply (wp_load 𝒱₀ (c : Thread nD τ) none Set.univ (m := remM) (rem_load_rows_1_256 c)) $$ HR1; iintro HR1
  rw [rem_load_1_256 m c]
  rw [← out1_def]
  iapply (wp_load 𝒱₀ (c : Thread nD τ) none Set.univ (m := outM) (Finset.subset_univ _)) $$ Hout; iintro Hout
  iapply (wp_store 𝒱₀ (c : Thread nD τ) none Set.univ (m := outM) (r := Rect.unit (s := S2x256x8x64) ![1, 0, 0, 0] S1x256x8x64.size inb_S2x256x8x64_S1x256x8x64_1_0_0_0) (Mk := Finset.univ) (Finset.subset_univ _)) $$ Hout; iintro Hout
  ihave Hb1 := (rows_join1 c fullShare.right (remC m c)).2 $$ HR1
  icases Hb1 with ⟨Hrr4, Hrr5, Hrr6, Hrr7, Hrr8, Hrr9, Hyq4, Hyq5⟩
  -- every copy has left: the lent half shares come back
  iapply (wp_dwaitR m K c (nXs 0) (dst := lchunk c 0) (lchunk_credit c 0 (dsem (nXs 0))) _ 0) $$ Hrec Hcxs0 HO [] Haxs0
  · rw [MayWait_zero]; iempintro
  iintro ⟨HO, Haxs0, Hpay⟩
  ihave Hls0 := (Entails.of_eq ((payload_xs m c 0 false).trans (by unfold xsPay; rfl))) $$ Hpay
  iapply (wp_dwaitR m K c (nXs 1) (dst := lchunk c 1) (lchunk_credit c 1 (dsem (nXs 1))) _ 0) $$ Hrec Hcxs1 HO [] Haxs1
  · rw [MayWait_zero]; iempintro
  iintro ⟨HO, Haxs1, Hpay⟩
  ihave Hls1 := (Entails.of_eq ((payload_xs m c 1 false).trans (by unfold xsPay; rfl))) $$ Hpay
  iapply (wp_dwaitR m K c (nXs 2) (dst := lchunk c 2) (lchunk_credit c 2 (dsem (nXs 2))) _ 0) $$ Hrec Hcxs2 HO [] Haxs2
  · rw [MayWait_zero]; iempintro
  iintro ⟨HO, Haxs2, Hpay⟩
  ihave Hls2 := (Entails.of_eq ((payload_xs m c 2 false).trans (by unfold xsPay; rfl))) $$ Hpay
  iapply (wp_dwaitR m K c (nXs 3) (dst := lchunk c 3) (lchunk_credit c 3 (dsem (nXs 3))) _ 0) $$ Hrec Hcxs3 HO [] Haxs3
  · rw [MayWait_zero]; iempintro
  iintro ⟨HO, Haxs3, Hpay⟩
  ihave Hls3 := (Entails.of_eq ((payload_xs m c 3 false).trans (by unfold xsPay; rfl))) $$ Hpay
  iapply (wp_dwaitR m K c (nXs 4) (dst := lchunk c 4) (lchunk_credit c 4 (dsem (nXs 4))) _ 0) $$ Hrec Hcxs4 HO [] Haxs4
  · rw [MayWait_zero]; iempintro
  iintro ⟨HO, Haxs4, Hpay⟩
  ihave Hls4 := (Entails.of_eq ((payload_xs m c 4 false).trans (by unfold xsPay; rfl))) $$ Hpay
  iapply (wp_dwaitR m K c (nXs 5) (dst := lchunk c 5) (lchunk_credit c 5 (dsem (nXs 5))) _ 0) $$ Hrec Hcxs5 HO [] Haxs5
  · rw [MayWait_zero]; iempintro
  iintro ⟨HO, Haxs5, Hpay⟩
  ihave Hls5 := (Entails.of_eq ((payload_xs m c 5 false).trans (by unfold xsPay; rfl))) $$ Hpay
  iapply (wp_dwaitR m K c (nXs 6) (dst := lchunk c 6) (lchunk_credit c 6 (dsem (nXs 6))) _ 0) $$ Hrec Hcxs6 HO [] Haxs6
  · rw [MayWait_zero]; iempintro
  iintro ⟨HO, Haxs6, Hpay⟩
  ihave Hls6 := (Entails.of_eq ((payload_xs m c 6 false).trans (by unfold xsPay; rfl))) $$ Hpay
  iapply (wp_dwaitR m K c (nXs 7) (dst := lchunk c 7) (lchunk_credit c 7 (dsem (nXs 7))) _ 0) $$ Hrec Hcxs7 HO [] Haxs7
  · rw [MayWait_zero]; iempintro
  iintro ⟨HO, Haxs7, Hpay⟩
  ihave Hls7 := (Entails.of_eq ((payload_xs m c 7 false).trans (by unfold xsPay; rfl))) $$ Hpay
  iapply (wp_dwaitR m K c (nXs 8) (dst := lchunk c 8) (lchunk_credit c 8 (dsem (nXs 8))) _ 0) $$ Hrec Hcxs8 HO [] Haxs8
  · rw [MayWait_zero]; iempintro
  iintro ⟨HO, Haxs8, Hpay⟩
  ihave Hls8 := (Entails.of_eq ((payload_xs m c 8 false).trans (by unfold xsPay; rfl))) $$ Hpay
  iapply (wp_dwaitR m K c (nXs 9) (dst := lchunk c 9) (lchunk_credit c 9 (dsem (nXs 9))) _ 0) $$ Hrec Hcxs9 HO [] Haxs9
  · rw [MayWait_zero]; iempintro
  iintro ⟨HO, Haxs9, Hpay⟩
  ihave Hls9 := (Entails.of_eq ((payload_xs m c 9 false).trans (by unfold xsPay; rfl))) $$ Hpay
  iapply (wp_dwaitR m K c (nYs 0) (dst := rchunk c (j10 0)) (rchunk_credit c (j10 0) (dsem (nYs 0))) _ 0) $$ Hrec Hcys0 HO [] Hays0
  · rw [MayWait_zero]; iempintro
  iintro ⟨HO, Hays0, Hpay⟩
  ihave Hrk0 := (Entails.of_eq ((payload_ys m c 0 false).trans (by unfold ysPay; rfl))) $$ Hpay
  ihave Hrl0 := (Entails.of_eq (rc_j10 c 0 0 rfl fullShare.left (remC m c)).symm) $$ Hrk0
  iapply (wp_dwaitR m K c (nYs 1) (dst := rchunk c (j10 1)) (rchunk_credit c (j10 1) (dsem (nYs 1))) _ 0) $$ Hrec Hcys1 HO [] Hays1
  · rw [MayWait_zero]; iempintro
  iintro ⟨HO, Hays1, Hpay⟩
  ihave Hrk1 := (Entails.of_eq ((payload_ys m c 1 false).trans (by unfold ysPay; rfl))) $$ Hpay
  ihave Hrl1 := (Entails.of_eq (rc_j10 c 1 1 rfl fullShare.left (remC m c)).symm) $$ Hrk1
  iapply (wp_dwaitR m K c (nYs 2) (dst := rchunk c (j10 2)) (rchunk_credit c (j10 2) (dsem (nYs 2))) _ 0) $$ Hrec Hcys2 HO [] Hays2
  · rw [MayWait_zero]; iempintro
  iintro ⟨HO, Hays2, Hpay⟩
  ihave Hrk2 := (Entails.of_eq ((payload_ys m c 2 false).trans (by unfold ysPay; rfl))) $$ Hpay
  ihave Hrl2 := (Entails.of_eq (rc_j10 c 2 2 rfl fullShare.left (remC m c)).symm) $$ Hrk2
  iapply (wp_dwaitR m K c (nYs 3) (dst := rchunk c (j10 3)) (rchunk_credit c (j10 3) (dsem (nYs 3))) _ 0) $$ Hrec Hcys3 HO [] Hays3
  · rw [MayWait_zero]; iempintro
  iintro ⟨HO, Hays3, Hpay⟩
  ihave Hrk3 := (Entails.of_eq ((payload_ys m c 3 false).trans (by unfold ysPay; rfl))) $$ Hpay
  ihave Hrl3 := (Entails.of_eq (rc_j10 c 3 3 rfl fullShare.left (remC m c)).symm) $$ Hrk3
  iapply (wp_dwaitR m K c (nYs 4) (dst := rchunk c (j10 4)) (rchunk_credit c (j10 4) (dsem (nYs 4))) _ 0) $$ Hrec Hcys4 HO [] Hays4
  · rw [MayWait_zero]; iempintro
  iintro ⟨HO, Hays4, Hpay⟩
  ihave Hrk4 := (Entails.of_eq ((payload_ys m c 4 false).trans (by unfold ysPay; rfl))) $$ Hpay
  ihave Hrl4 := (Entails.of_eq (rc_j10 c 4 4 rfl fullShare.left (remC m c)).symm) $$ Hrk4
  iapply (wp_dwaitR m K c (nYs 5) (dst := rchunk c (j10 5)) (rchunk_credit c (j10 5) (dsem (nYs 5))) _ 0) $$ Hrec Hcys5 HO [] Hays5
  · rw [MayWait_zero]; iempintro
  iintro ⟨HO, Hays5, Hpay⟩
  ihave Hrk5 := (Entails.of_eq ((payload_ys m c 5 false).trans (by unfold ysPay; rfl))) $$ Hpay
  ihave Hrl5 := (Entails.of_eq (rc_j10 c 5 5 rfl fullShare.left (remC m c)).symm) $$ Hrk5
  -- the 32 copy cells have no round left: their counters, at zero, are the device's again
  imod (close_all m K c) $$ Hrec [Haxs0 Haxs1 Haxs2 Haxs3 Haxs4 Haxs5 Haxs6 Haxs7 Haxs8 Haxs9] [Haxr0 Haxr1 Haxr2 Haxr3 Haxr4 Haxr5 Haxr6 Haxr7 Haxr8 Haxr9] [Hays0 Hays1 Hays2 Hays3 Hays4 Hays5] [Hayr0 Hayr1 Hayr2 Hayr3 Hayr4 Hayr5] with Hz
  · iapply (Entails.of_eq (bigSep_fin10 _).symm)
    isplitl [Haxs0]; · iexact Haxs0
    isplitl [Haxs1]; · iexact Haxs1
    isplitl [Haxs2]; · iexact Haxs2
    isplitl [Haxs3]; · iexact Haxs3
    isplitl [Haxs4]; · iexact Haxs4
    isplitl [Haxs5]; · iexact Haxs5
    isplitl [Haxs6]; · iexact Haxs6
    isplitl [Haxs7]; · iexact Haxs7
    isplitl [Haxs8]; · iexact Haxs8
    iexact Haxs9
  · iapply (Entails.of_eq (bigSep_fin10 _).symm)
    isplitl [Haxr0]; · iexact Haxr0
    isplitl [Haxr1]; · iexact Haxr1
    isplitl [Haxr2]; · iexact Haxr2
    isplitl [Haxr3]; · iexact Haxr3
    isplitl [Haxr4]; · iexact Haxr4
    isplitl [Haxr5]; · iexact Haxr5
    isplitl [Haxr6]; · iexact Haxr6
    isplitl [Haxr7]; · iexact Haxr7
    isplitl [Haxr8]; · iexact Haxr8
    iexact Haxr9
  · iapply (Entails.of_eq (bigSep_fin6 _).symm)
    isplitl [Hays0]; · iexact Hays0
    isplitl [Hays1]; · iexact Hays1
    isplitl [Hays2]; · iexact Hays2
    isplitl [Hays3]; · iexact Hays3
    isplitl [Hays4]; · iexact Hays4
    iexact Hays5
  · iapply (Entails.of_eq (bigSep_fin6 _).symm)
    isplitl [Hayr0]; · iexact Hayr0
    isplitl [Hayr1]; · iexact Hayr1
    isplitl [Hayr2]; · iexact Hayr2
    isplitl [Hayr3]; · iexact Hayr3
    isplitl [Hayr4]; · iexact Hayr4
    iexact Hayr5
  rw [out_stores m c go, wp_ret]; imodintro
  iapply Hk'
  iapply (post_intro m c _)
  isplitl [Hls0 Hls1 Hls2 Hls3 Hls4 Hls5 Hls6 Hls7 Hls8 Hls9 HLrest HLR]
  · iexists (locC m c)
    iapply (loc_rejoin c (locC m c))
    isplitl [Hls0 Hls1 Hls2 Hls3 Hls4 Hls5 Hls6 Hls7 Hls8 Hls9]
    · iapply (Entails.of_eq (bigSep_fin10 _).symm)
      isplitl [Hls0]; · iexact Hls0
      isplitl [Hls1]; · iexact Hls1
      isplitl [Hls2]; · iexact Hls2
      isplitl [Hls3]; · iexact Hls3
      isplitl [Hls4]; · iexact Hls4
      isplitl [Hls5]; · iexact Hls5
      isplitl [Hls6]; · iexact Hls6
      isplitl [Hls7]; · iexact Hls7
      isplitl [Hls8]; · iexact Hls8
      iexact Hls9
    isplitl [HLrest]; · iexact HLrest
    iexact HLR
  isplitl [Hrl0 Hrl1 Hrl2 Hrl3 Hrl4 Hrl5 Hrl6 Hrl7 Hrl8 Hrl9 Hyp0 Hyp1 Hyp2 Hyp3 Hyp4 Hyp5 Hrr0 Hrr1 Hrr2 Hrr3 Hrr4 Hrr5 Hrr6 Hrr7 Hrr8 Hrr9 Hyq0 Hyq1 Hyq2 Hyq3 Hyq4 Hyq5]
  · iexists (remC m c)
    iapply (rem_rejoin c (remC m c))
    isplitl [Hrl0 Hrl1 Hrl2 Hrl3 Hrl4 Hrl5 Hrl6 Hrl7 Hrl8 Hrl9]
    · iapply (Entails.of_eq (bigSep_fin10 _).symm)
      isplitl [Hrl0]; · iexact Hrl0
      isplitl [Hrl1]; · iexact Hrl1
      isplitl [Hrl2]; · iexact Hrl2
      isplitl [Hrl3]; · iexact Hrl3
      isplitl [Hrl4]; · iexact Hrl4
      isplitl [Hrl5]; · iexact Hrl5
      isplitl [Hrl6]; · iexact Hrl6
      isplitl [Hrl7]; · iexact Hrl7
      isplitl [Hrl8]; · iexact Hrl8
      iexact Hrl9
    isplitl [Hyp0 Hyp1 Hyp2 Hyp3 Hyp4 Hyp5]
    · iapply (Entails.of_eq (bigSep_fin6 _).symm)
      isplitl [Hyp0]; · iexact Hyp0
      isplitl [Hyp1]; · iexact Hyp1
      isplitl [Hyp2]; · iexact Hyp2
      isplitl [Hyp3]; · iexact Hyp3
      isplitl [Hyp4]; · iexact Hyp4
      iexact Hyp5
    isplitl [Hrr0 Hrr1 Hrr2 Hrr3 Hrr4 Hrr5 Hrr6 Hrr7 Hrr8 Hrr9]
    · iapply (Entails.of_eq (bigSep_fin10 _).symm)
      isplitl [Hrr0]; · iexact Hrr0
      isplitl [Hrr1]; · iexact Hrr1
      isplitl [Hrr2]; · iexact Hrr2
      isplitl [Hrr3]; · iexact Hrr3
      isplitl [Hrr4]; · iexact Hrr4
      isplitl [Hrr5]; · iexact Hrr5
      isplitl [Hrr6]; · iexact Hrr6
      isplitl [Hrr7]; · iexact Hrr7
      isplitl [Hrr8]; · iexact Hrr8
      iexact Hrr9
    iapply (Entails.of_eq (bigSep_fin6 _).symm)
    isplitl [Hyq0]; · iexact Hyq0
    isplitl [Hyq1]; · iexact Hyq1
    isplitl [Hyq2]; · iexact Hyq2
    isplitl [Hyq3]; · iexact Hyq3
    isplitl [Hyq4]; · iexact Hyq4
    iexact Hyq5
  isplitl [Hz]; · iexact Hz
  isplitl [HO]; · iexact HO
  isplitl [Hq]; · iexact Hq
  isplitl [Hk]; · iexact Hk
  isplitl [Hv]; · iexact Hv
  iexact Hout

/-- The library's body obligation on every device. -/
theorem body_obligation (c : Dev nD) : BodyObligation (dats (F := F) m 0 c) (defs₀ (F := F)) 𝒱₀ () Set.univ :=
  body_obligation_of m (sound_body m) c

end Cert.Kernel.Mesh
end
-- ==== Proof.lean ====
/-
  The claim: a key/value exchange over a 2 × 2 mesh fused with attention, against one-device softmax attention.

  Device `2x + y` holds rows `[256x, 256x + 256)` of the queries, keys and values. It stages its keys and values as two
  planes, sends one plane whole and the tail of the other across the first mesh axis, and forwards what it receives of the
  first across the second axis, so that every device ends holding the other half's keys and values. Its result is, per
  query row and head, the exponential-weighted sum of all 512 value rows divided by the sum of the weights, the sums split
  into own rows and received rows, with no shift by the row maximum and the scale one eighth applied to the queries.

  The run (both float readings): every fair interleaving of the four devices terminates without a fault, the arguments
  unchanged, each device's result buffer at a closed term of its own blocks and its neighbours' — from one body lemma at a
  symbolic device, a schedule of one round per semaphore cell ordered so that no wait can block, and the launch over the
  mesh. The three frames are that run with the values dropped (the reference's from its composed host operations).
  The idealization rewrote nothing, so that conjunct is trivial. For the last conjunct the closed term is read at an
  index, the received planes being the neighbour's blocks of the whole arrays; the reference's softmax over 512 keys with
  its shift by the row maximum equals the unshifted split form on real entries (exponentials of a common shift cancel in
  the quotient; the scale moves through the finite inner products), and every entry is real by the precondition.
-/
import proofs.«900411_g7700000000000412_dist_agattn_v7x_xy2x2_x_b2_s256_h8_d64_bf16_1_alg».proof.Defs
import proofs.«900411_g7700000000000412_dist_agattn_v7x_xy2x2_x_b2_s256_h8_d64_bf16_1_alg».proof.Proof.Gen.Kernel
import proofs.«900411_g7700000000000412_dist_agattn_v7x_xy2x2_x_b2_s256_h8_d64_bf16_1_alg».proof.Proof.Gen.Kernel.Skeleton
import proofs.«900411_g7700000000000412_dist_agattn_v7x_xy2x2_x_b2_s256_h8_d64_bf16_1_alg».proof.Proof.Gen.Kernel.Launch
import proofs.«900411_g7700000000000412_dist_agattn_v7x_xy2x2_x_b2_s256_h8_d64_bf16_1_alg».proof.Proof.Gen.Kernel.Points
import proofs.«900411_g7700000000000412_dist_agattn_v7x_xy2x2_x_b2_s256_h8_d64_bf16_1_alg».proof.Proof.Gen.Kernel.Frame
import proofs.«900411_g7700000000000412_dist_agattn_v7x_xy2x2_x_b2_s256_h8_d64_bf16_1_alg».proof.Proof.Gen.KernelIdeal
import proofs.«900411_g7700000000000412_dist_agattn_v7x_xy2x2_x_b2_s256_h8_d64_bf16_1_alg».proof.Proof.Gen.KernelIdeal.Skeleton
import proofs.«900411_g7700000000000412_dist_agattn_v7x_xy2x2_x_b2_s256_h8_d64_bf16_1_alg».proof.Proof.Gen.KernelIdeal.Launch
import proofs.«900411_g7700000000000412_dist_agattn_v7x_xy2x2_x_b2_s256_h8_d64_bf16_1_alg».proof.Proof.Gen.KernelIdeal.Points
import proofs.«900411_g7700000000000412_dist_agattn_v7x_xy2x2_x_b2_s256_h8_d64_bf16_1_alg».proof.Proof.Gen.KernelIdeal.Frame
import proofs.«900411_g7700000000000412_dist_agattn_v7x_xy2x2_x_b2_s256_h8_d64_bf16_1_alg».proof.Proof.Gen.ReferenceIdeal
import proofs.«900411_g7700000000000412_dist_agattn_v7x_xy2x2_x_b2_s256_h8_d64_bf16_1_alg».proof.Proof.Gen.Pre_finite_inputs_Kernel
import proofs.«900411_g7700000000000412_dist_agattn_v7x_xy2x2_x_b2_s256_h8_d64_bf16_1_alg».proof.Proof.Gen.Pre_finite_inputs_ReferenceIdeal
import proofs.«900411_g7700000000000412_dist_agattn_v7x_xy2x2_x_b2_s256_h8_d64_bf16_1_alg».proof.Proof.Claims
import proofs.«900411_g7700000000000412_dist_agattn_v7x_xy2x2_x_b2_s256_h8_d64_bf16_1_alg».proof.Proof.WFrame
import proofs.«900411_g7700000000000412_dist_agattn_v7x_xy2x2_x_b2_s256_h8_d64_bf16_1_alg».proof.Proof.Launch
import proofs.«900411_g7700000000000412_dist_agattn_v7x_xy2x2_x_b2_s256_h8_d64_bf16_1_alg».proof.Proof.Body
import proofs.«900411_g7700000000000412_dist_agattn_v7x_xy2x2_x_b2_s256_h8_d64_bf16_1_alg».proof.Proof.WBody
import Idealize.ShloMosaic.Adequacy
import Idealize.ShloMosaic.Init

noncomputable section

namespace Cert.Proof

open Idealize.ShloMosaic Idealize.SL.Sem Cert.Kernel

theorem claim : Cert.Claim :=
  claim_of
    (frame_Kernel_of fun m c => Cert.Kernel.Mesh.body_obligation m c)
    (fun m ρ => Cert.KernelIdeal.Mesh.run_of_body m ρ (Cert.KernelIdeal.Mesh.body_obligation m))

end Cert.Proof

end
